-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : IVec S4096 32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 2047#32
  let main_v11 : IVec S4096 32 := broadcastInDim S4096 ![] bcast_S_S4096 main_c_3
  let main_v12 : IVec S4096 1 := cmpi .sle main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x4096 : Shape := ⟨2, ![4096, 4096]⟩
abbrev S4096 : Shape := ⟨1, ![4096]⟩
abbrev S1024x2048 : Shape := ⟨2, ![1024, 2048]⟩
abbrev S8x4096 : Shape := ⟨2, ![8, 4096]⟩
abbrev S8x2048 : Shape := ⟨2, ![8, 2048]⟩
abbrev S_ : Shape := ⟨0, ![]⟩
abbrev S16 : Shape := ⟨1, ![16]⟩
abbrev S1x16 : Shape := ⟨2, ![1, 16]⟩
abbrev S4096x1 : Shape := ⟨2, ![4096, 1]⟩
abbrev S4096x2048 : Shape := ⟨2, ![4096, 2048]⟩
abbrev S256x4096 : Shape := ⟨2, ![256, 4096]⟩
abbrev S256x2048 : Shape := ⟨2, ![256, 2048]⟩

abbrev nBuf : Table → Nat
  | .hbm => 10
  | .local .tc .vmem => 7
  | .local .scVector .vmem => 5
  | _ => 0

abbrev bufTy : (tb : Table) → Fin (nBuf tb) → BufTy
  | .hbm, ⟨0, _⟩ => ⟨S4096x4096, .f32⟩
  | .hbm, ⟨1, _⟩ => ⟨S4096, .i32⟩
  | .hbm, ⟨2, _⟩ => ⟨S4096, .f32⟩
  | .hbm, ⟨3, _⟩ => ⟨S1024x2048, .f32⟩
  | .hbm, ⟨4, _⟩ => ⟨S4096x1, .i32⟩
  | .hbm, ⟨5, _⟩ => ⟨S4096x1, .f32⟩
  | .hbm, ⟨6, _⟩ => ⟨S4096x2048, .f32⟩
  | .hbm, ⟨7, _⟩ => ⟨S_, .i32⟩
  | .hbm, ⟨8, _⟩ => ⟨S_, .i32⟩
  | .hbm, ⟨9, _⟩ => ⟨S4096x2048, .f32⟩
  | .local .tc .vmem, ⟨0, _⟩ => ⟨S4096x1, .i32⟩
  | .local .tc .vmem, ⟨1, _⟩ => ⟨S4096x1, .f32⟩
  | .local .tc .vmem, ⟨2, _⟩ => ⟨S256x4096, .f32⟩
  | .local .tc .vmem, ⟨3, _⟩ => ⟨S256x4096, .f32⟩
  | .local .tc .vmem, ⟨4, _⟩ => ⟨S256x2048, .f32⟩
  | .local .tc .vmem, ⟨5, _⟩ => ⟨S256x2048, .f32⟩
  | .local .tc .vmem, ⟨6, _⟩ => ⟨S4096x2048, .bf16⟩
  | .local .scVector .vmem, ⟨0, _⟩ => ⟨S4096, .i32⟩
  | .local .scVector .vmem, ⟨1, _⟩ => ⟨S4096, .f32⟩
  | .local .scVector .vmem, ⟨2, _⟩ => ⟨S8x4096, .f32⟩
  | .local .scVector .vmem, ⟨3, _⟩ => ⟨S8x4096, .f32⟩
  | .local .scVector .vmem, ⟨4, _⟩ => ⟨S8x2048, .f32⟩
  | _, _ => ⟨S4096x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_c_0 : Ref sig .tc := ⟨.hbm, 8, rfl⟩
abbrev main_v4 : Ref sig .tc := ⟨.hbm, 9, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_scratch0 : Ref sig .tc := ⟨.vmem, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c3072_i32 : BitVec 32 := 3072#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let v3 : BitVec 32 := Scalar.addi c3072_i32 v2
  let v5 : BitVec 32 := Scalar.addi v3 c0_i32
  let c0_i32_1 : BitVec 32 := 0#32
  ![v5.toNat, 0]
@[reducible] def k0_t1_loop : Scf.Loop 32 :=
  let c0_i32_7 : BitVec 32 := 0#32
  let c128_i32 : BitVec 32 := 128#32
  let v13 : BitVec 32 := Scalar.addi c0_i32_7 c128_i32
  let c1_i32 : BitVec 32 := 1#32
  ⟨c0_i32_7, v13, c1_i32⟩
def k0_off2 (k0_t1 : Fin k0_t1_loop.trips) : Fin 2 → Nat :=
  let c0_i32_52 : BitVec 32 := 0#32
  let v40 : Index := Scalar.indexCast c0_i32_52
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v41 : Index := Scalar.indexCast v38
  ![0, v41.toNat]
def k0_off3 (k0_t1 : Fin k0_t1_loop.trips) : Fin 2 → Nat :=
  let c1_i32_53 : BitVec 32 := 1#32
  let v43 : Index := Scalar.indexCast c1_i32_53
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v44 : Index := Scalar.indexCast v38
  ![1, v44.toNat]
def k0_off4 (k0_t1 : Fin k0_t1_loop.trips) : Fin 2 → Nat :=
  let c2_i32_54 : BitVec 32 := 2#32
  let v46 : Index := Scalar.indexCast c2_i32_54
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v47 : Index := Scalar.indexCast v38
  ![2, v47.toNat]
def k0_off5 (k0_t1 : Fin k0_t1_loop.trips) : Fin 2 → Nat :=
  let c3_i32 : BitVec 32 := 3#32
  let v49 : Index := Scalar.indexCast c3_i32
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v50 : Index := Scalar.indexCast v38
  ![3, v50.toNat]
def k0_off6 (k0_t1 : Fin k0_t1_loop.trips) : Fin 2 → Nat :=
  let c4_i32 : BitVec 32 := 4#32
  let v52 : Index := Scalar.indexCast c4_i32
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v53 : Index := Scalar.indexCast v38
  ![4, v53.toNat]
def k0_off7 (k0_t1 : Fin k0_t1_loop.trips) : Fin 2 → Nat :=
  let c5_i32 : BitVec 32 := 5#32
  let v55 : Index := Scalar.indexCast c5_i32
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v56 : Index := Scalar.indexCast v38
  ![5, v56.toNat]
def k0_off8 (k0_t1 : Fin k0_t1_loop.trips) : Fin 2 → Nat :=
  let c6_i32 : BitVec 32 := 6#32
  let v58 : Index := Scalar.indexCast c6_i32
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v59 : Index := Scalar.indexCast v38
  ![6, v59.toNat]
def k0_off9 (k0_t1 : Fin k0_t1_loop.trips) : Fin 2 → Nat :=
  let c7_i32 : BitVec 32 := 7#32
  let v61 : Index := Scalar.indexCast c7_i32
  let c0_i32_51 : BitVec 32 := 0#32
  let c0_i32_7 : BitVec 32 := 0#32
  let c1_i32 : BitVec 32 := 1#32
  let arg13 : BitVec 32 := Scf.iv c0_i32_7 c1_i32 k0_t1
  let c16_i32_50 : BitVec 32 := 16#32
  let v37 : BitVec 32 := Scalar.muli arg13 c16_i32_50
  let v38 : BitVec 32 := Scalar.addi c0_i32_51 v37
  let v62 : Index := Scalar.indexCast v38
  ![7, v62.toNat]
@[reducible] def k0_t2_loop : Scf.Loop 32 :=
  let c0_i32_9 : BitVec 32 := 0#32
  let c256_i32 : BitVec 32 := 256#32
  let v14 : BitVec 32 := Scalar.addi c0_i32_9 c256_i32
  let c1_i32_10 : BitVec 32 := 1#32
  ⟨c0_i32_9, v14, c1_i32_10⟩
def k0_off10 (k0_t2 : Fin k0_t2_loop.trips) : Fin 1 → Nat :=
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v39 : Index := Scalar.indexCast v38
  ![v39.toNat]
def k0_off11 (k0_t2 : Fin k0_t2_loop.trips) : Fin 2 → Nat :=
  let c0_i32_52 : BitVec 32 := 0#32
  let v43 : Index := Scalar.indexCast c0_i32_52
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v44 : Index := Scalar.indexCast v38
  ![0, v44.toNat]

def k0_chk1 (v40 : IVec S16 32) (v47 : IVec S16 32) : Prop :=
  (∀ a x, ((![v47, v40] : Fin 2 → IVec S16 32) a x).toNat < S8x2048.size a)
instance k0_chk1.dec : ∀ (v40 : IVec S16 32) (v47 : IVec S16 32), Decidable (k0_chk1 v40 v47) := fun v40 v47 => decidable_of_iff' _ (Iff.of_eq (k0_chk1.eq_1 v40 v47))
theorem k0_idx1_inb : ∀ (v40 : IVec S16 32) (v47 : IVec S16 32) (k0_hw1 : k0_chk1 v40 v47), ∀ a x, ((![v47, v40] : Fin 2 → IVec S16 32) a x).toNat < S8x2048.size a := fun v40 v47 k0_hw1 => k0_hw1
def k0_off12 (k0_t2 : Fin k0_t2_loop.trips) : Fin 2 → Nat :=
  let c1_i32_54 : BitVec 32 := 1#32
  let v48 : Index := Scalar.indexCast c1_i32_54
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v49 : Index := Scalar.indexCast v38
  ![1, v49.toNat]

def k0_chk2 (v40 : IVec S16 32) (v52 : IVec S16 32) : Prop :=
  (∀ a x, ((![v52, v40] : Fin 2 → IVec S16 32) a x).toNat < S8x2048.size a)
instance k0_chk2.dec : ∀ (v40 : IVec S16 32) (v52 : IVec S16 32), Decidable (k0_chk2 v40 v52) := fun v40 v52 => decidable_of_iff' _ (Iff.of_eq (k0_chk2.eq_1 v40 v52))
theorem k0_idx2_inb : ∀ (v40 : IVec S16 32) (v52 : IVec S16 32) (k0_hw2 : k0_chk2 v40 v52), ∀ a x, ((![v52, v40] : Fin 2 → IVec S16 32) a x).toNat < S8x2048.size a := fun v40 v52 k0_hw2 => k0_hw2
def k0_off13 (k0_t2 : Fin k0_t2_loop.trips) : Fin 2 → Nat :=
  let c2_i32_56 : BitVec 32 := 2#32
  let v53 : Index := Scalar.indexCast c2_i32_56
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v54 : Index := Scalar.indexCast v38
  ![2, v54.toNat]

def k0_chk3 (v40 : IVec S16 32) (v57 : IVec S16 32) : Prop :=
  (∀ a x, ((![v57, v40] : Fin 2 → IVec S16 32) a x).toNat < S8x2048.size a)
instance k0_chk3.dec : ∀ (v40 : IVec S16 32) (v57 : IVec S16 32), Decidable (k0_chk3 v40 v57) := fun v40 v57 => decidable_of_iff' _ (Iff.of_eq (k0_chk3.eq_1 v40 v57))
theorem k0_idx3_inb : ∀ (v40 : IVec S16 32) (v57 : IVec S16 32) (k0_hw3 : k0_chk3 v40 v57), ∀ a x, ((![v57, v40] : Fin 2 → IVec S16 32) a x).toNat < S8x2048.size a := fun v40 v57 k0_hw3 => k0_hw3
def k0_off14 (k0_t2 : Fin k0_t2_loop.trips) : Fin 2 → Nat :=
  let c3_i32 : BitVec 32 := 3#32
  let v58 : Index := Scalar.indexCast c3_i32
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v59 : Index := Scalar.indexCast v38
  ![3, v59.toNat]

def k0_chk4 (v40 : IVec S16 32) (v62 : IVec S16 32) : Prop :=
  (∀ a x, ((![v62, v40] : Fin 2 → IVec S16 32) a x).toNat < S8x2048.size a)
instance k0_chk4.dec : ∀ (v40 : IVec S16 32) (v62 : IVec S16 32), Decidable (k0_chk4 v40 v62) := fun v40 v62 => decidable_of_iff' _ (Iff.of_eq (k0_chk4.eq_1 v40 v62))
theorem k0_idx4_inb : ∀ (v40 : IVec S16 32) (v62 : IVec S16 32) (k0_hw4 : k0_chk4 v40 v62), ∀ a x, ((![v62, v40] : Fin 2 → IVec S16 32) a x).toNat < S8x2048.size a := fun v40 v62 k0_hw4 => k0_hw4
def k0_off15 (k0_t2 : Fin k0_t2_loop.trips) : Fin 2 → Nat :=
  let c4_i32 : BitVec 32 := 4#32
  let v63 : Index := Scalar.indexCast c4_i32
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v64 : Index := Scalar.indexCast v38
  ![4, v64.toNat]

def k0_chk5 (v40 : IVec S16 32) (v67 : IVec S16 32) : Prop :=
  (∀ a x, ((![v67, v40] : Fin 2 → IVec S16 32) a x).toNat < S8x2048.size a)
instance k0_chk5.dec : ∀ (v40 : IVec S16 32) (v67 : IVec S16 32), Decidable (k0_chk5 v40 v67) := fun v40 v67 => decidable_of_iff' _ (Iff.of_eq (k0_chk5.eq_1 v40 v67))
theorem k0_idx5_inb : ∀ (v40 : IVec S16 32) (v67 : IVec S16 32) (k0_hw5 : k0_chk5 v40 v67), ∀ a x, ((![v67, v40] : Fin 2 → IVec S16 32) a x).toNat < S8x2048.size a := fun v40 v67 k0_hw5 => k0_hw5
def k0_off16 (k0_t2 : Fin k0_t2_loop.trips) : Fin 2 → Nat :=
  let c5_i32 : BitVec 32 := 5#32
  let v68 : Index := Scalar.indexCast c5_i32
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v69 : Index := Scalar.indexCast v38
  ![5, v69.toNat]

def k0_chk6 (v40 : IVec S16 32) (v72 : IVec S16 32) : Prop :=
  (∀ a x, ((![v72, v40] : Fin 2 → IVec S16 32) a x).toNat < S8x2048.size a)
instance k0_chk6.dec : ∀ (v40 : IVec S16 32) (v72 : IVec S16 32), Decidable (k0_chk6 v40 v72) := fun v40 v72 => decidable_of_iff' _ (Iff.of_eq (k0_chk6.eq_1 v40 v72))
theorem k0_idx6_inb : ∀ (v40 : IVec S16 32) (v72 : IVec S16 32) (k0_hw6 : k0_chk6 v40 v72), ∀ a x, ((![v72, v40] : Fin 2 → IVec S16 32) a x).toNat < S8x2048.size a := fun v40 v72 k0_hw6 => k0_hw6
def k0_off17 (k0_t2 : Fin k0_t2_loop.trips) : Fin 2 → Nat :=
  let c6_i32 : BitVec 32 := 6#32
  let v73 : Index := Scalar.indexCast c6_i32
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v74 : Index := Scalar.indexCast v38
  ![6, v74.toNat]

def k0_chk7 (v40 : IVec S16 32) (v77 : IVec S16 32) : Prop :=
  (∀ a x, ((![v77, v40] : Fin 2 → IVec S16 32) a x).toNat < S8x2048.size a)
instance k0_chk7.dec : ∀ (v40 : IVec S16 32) (v77 : IVec S16 32), Decidable (k0_chk7 v40 v77) := fun v40 v77 => decidable_of_iff' _ (Iff.of_eq (k0_chk7.eq_1 v40 v77))
theorem k0_idx7_inb : ∀ (v40 : IVec S16 32) (v77 : IVec S16 32) (k0_hw7 : k0_chk7 v40 v77), ∀ a x, ((![v77, v40] : Fin 2 → IVec S16 32) a x).toNat < S8x2048.size a := fun v40 v77 k0_hw7 => k0_hw7
def k0_off18 (k0_t2 : Fin k0_t2_loop.trips) : Fin 2 → Nat :=
  let c7_i32 : BitVec 32 := 7#32
  let v78 : Index := Scalar.indexCast c7_i32
  let c0_i32_51 : BitVec 32 := 0#32
  let c0_i32_9 : BitVec 32 := 0#32
  let c1_i32_10 : BitVec 32 := 1#32
  let arg13 : BitVec 32 := Scf.iv c0_i32_9 c1_i32_10 k0_t2
  let c16_i32_50 : BitVec 32 := 16#32
  let v37 : BitVec 32 := Scalar.muli arg13 c16_i32_50
  let v38 : BitVec 32 := Scalar.addi c0_i32_51 v37
  let v79 : Index := Scalar.indexCast v38
  ![7, v79.toNat]

def k0_chk8 (v40 : IVec S16 32) (v82 : IVec S16 32) : Prop :=
  (∀ a x, ((![v82, v40] : Fin 2 → IVec S16 32) a x).toNat < S8x2048.size a)
instance k0_chk8.dec : ∀ (v40 : IVec S16 32) (v82 : IVec S16 32), Decidable (k0_chk8 v40 v82) := fun v40 v82 => decidable_of_iff' _ (Iff.of_eq (k0_chk8.eq_1 v40 v82))
theorem k0_idx8_inb : ∀ (v40 : IVec S16 32) (v82 : IVec S16 32) (k0_hw8 : k0_chk8 v40 v82), ∀ a x, ((![v82, v40] : Fin 2 → IVec S16 32) a x).toNat < S8x2048.size a := fun v40 v82 k0_hw8 => k0_hw8
def k0_off19 (i : grid0.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_0 : BitVec 32 := 32#32
  let v4 : BitVec 32 := Scalar.muli v1 c32_i32_0
  let v15 : BitVec 32 := Scalar.addi v4 c0_i32_12
  let c0_i32_50_r2 : BitVec 32 := 0#32
  ![v15.toNat, 0]
@[reducible] def k0_t3_loop : Scf.Loop 32 :=
  let c0_i32_17 : BitVec 32 := 0#32
  let c128_i32_18 : BitVec 32 := 128#32
  let v21 : BitVec 32 := Scalar.addi c0_i32_17 c128_i32_18
  let c1_i32_19 : BitVec 32 := 1#32
  ⟨c0_i32_17, v21, c1_i32_19⟩
def k0_off20 (k0_t3 : Fin k0_t3_loop.trips) : Fin 2 → Nat :=
  let c0_i32_52 : BitVec 32 := 0#32
  let v40 : Index := Scalar.indexCast c0_i32_52
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v41 : Index := Scalar.indexCast v38
  ![0, v41.toNat]
def k0_off21 (k0_t3 : Fin k0_t3_loop.trips) : Fin 2 → Nat :=
  let c1_i32_53 : BitVec 32 := 1#32
  let v43 : Index := Scalar.indexCast c1_i32_53
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v44 : Index := Scalar.indexCast v38
  ![1, v44.toNat]
def k0_off22 (k0_t3 : Fin k0_t3_loop.trips) : Fin 2 → Nat :=
  let c2_i32_54 : BitVec 32 := 2#32
  let v46 : Index := Scalar.indexCast c2_i32_54
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v47 : Index := Scalar.indexCast v38
  ![2, v47.toNat]
def k0_off23 (k0_t3 : Fin k0_t3_loop.trips) : Fin 2 → Nat :=
  let c3_i32 : BitVec 32 := 3#32
  let v49 : Index := Scalar.indexCast c3_i32
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v50 : Index := Scalar.indexCast v38
  ![3, v50.toNat]
def k0_off24 (k0_t3 : Fin k0_t3_loop.trips) : Fin 2 → Nat :=
  let c4_i32 : BitVec 32 := 4#32
  let v52 : Index := Scalar.indexCast c4_i32
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v53 : Index := Scalar.indexCast v38
  ![4, v53.toNat]
def k0_off25 (k0_t3 : Fin k0_t3_loop.trips) : Fin 2 → Nat :=
  let c5_i32 : BitVec 32 := 5#32
  let v55 : Index := Scalar.indexCast c5_i32
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v56 : Index := Scalar.indexCast v38
  ![5, v56.toNat]
def k0_off26 (k0_t3 : Fin k0_t3_loop.trips) : Fin 2 → Nat :=
  let c6_i32 : BitVec 32 := 6#32
  let v58 : Index := Scalar.indexCast c6_i32
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v59 : Index := Scalar.indexCast v38
  ![6, v59.toNat]
def k0_off27 (k0_t3 : Fin k0_t3_loop.trips) : Fin 2 → Nat :=
  let c7_i32 : BitVec 32 := 7#32
  let v61 : Index := Scalar.indexCast c7_i32
  let c0_i32_51 : BitVec 32 := 0#32
  let c0_i32_17 : BitVec 32 := 0#32
  let c1_i32_19 : BitVec 32 := 1#32
  let arg13 : BitVec 32 := Scf.iv c0_i32_17 c1_i32_19 k0_t3
  let c16_i32_50 : BitVec 32 := 16#32
  let v37 : BitVec 32 := Scalar.muli arg13 c16_i32_50
  let v38 : BitVec 32 := Scalar.addi c0_i32_51 v37
  let v62 : Index := Scalar.indexCast v38
  ![7, v62.toNat]
@[reducible] def k0_t4_loop : Scf.Loop 32 :=
  let c0_i32_21 : BitVec 32 := 0#32
  let c256_i32_22 : BitVec 32 := 256#32
  let v22 : BitVec 32 := Scalar.addi c0_i32_21 c256_i32_22
  let c1_i32_23 : BitVec 32 := 1#32
  ⟨c0_i32_21, v22, c1_i32_23⟩
def k0_off28 (k0_t4 : Fin k0_t4_loop.trips) : Fin 1 → Nat :=
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v39 : Index := Scalar.indexCast v38
  ![v39.toNat]
def k0_off29 (k0_t4 : Fin k0_t4_loop.trips) : Fin 2 → Nat :=
  let c0_i32_52 : BitVec 32 := 0#32
  let v43 : Index := Scalar.indexCast c0_i32_52
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v44 : Index := Scalar.indexCast v38
  ![0, v44.toNat]

def k0_chk9 (v40 : IVec S16 32) (v47 : IVec S16 32) : Prop :=
  (∀ a x, ((![v47, v40] : Fin 2 → IVec S16 32) a x).toNat < S8x2048.size a)
instance k0_chk9.dec : ∀ (v40 : IVec S16 32) (v47 : IVec S16 32), Decidable (k0_chk9 v40 v47) := fun v40 v47 => decidable_of_iff' _ (Iff.of_eq (k0_chk9.eq_1 v40 v47))
theorem k0_idx9_inb : ∀ (v40 : IVec S16 32) (v47 : IVec S16 32) (k0_hw9 : k0_chk9 v40 v47), ∀ a x, ((![v47, v40] : Fin 2 → IVec S16 32) a x).toNat < S8x2048.size a := fun v40 v47 k0_hw9 => k0_hw9
def k0_off30 (k0_t4 : Fin k0_t4_loop.trips) : Fin 2 → Nat :=
  let c1_i32_54 : BitVec 32 := 1#32
  let v48 : Index := Scalar.indexCast c1_i32_54
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v49 : Index := Scalar.indexCast v38
  ![1, v49.toNat]

def k0_chk10 (v40 : IVec S16 32) (v52 : IVec S16 32) : Prop :=
  (∀ a x, ((![v52, v40] : Fin 2 → IVec S16 32) a x).toNat < S8x2048.size a)
instance k0_chk10.dec : ∀ (v40 : IVec S16 32) (v52 : IVec S16 32), Decidable (k0_chk10 v40 v52) := fun v40 v52 => decidable_of_iff' _ (Iff.of_eq (k0_chk10.eq_1 v40 v52))
theorem k0_idx10_inb : ∀ (v40 : IVec S16 32) (v52 : IVec S16 32) (k0_hw10 : k0_chk10 v40 v52), ∀ a x, ((![v52, v40] : Fin 2 → IVec S16 32) a x).toNat < S8x2048.size a := fun v40 v52 k0_hw10 => k0_hw10
def k0_off31 (k0_t4 : Fin k0_t4_loop.trips) : Fin 2 → Nat :=
  let c2_i32_56 : BitVec 32 := 2#32
  let v53 : Index := Scalar.indexCast c2_i32_56
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v54 : Index := Scalar.indexCast v38
  ![2, v54.toNat]

def k0_chk11 (v40 : IVec S16 32) (v57 : IVec S16 32) : Prop :=
  (∀ a x, ((![v57, v40] : Fin 2 → IVec S16 32) a x).toNat < S8x2048.size a)
instance k0_chk11.dec : ∀ (v40 : IVec S16 32) (v57 : IVec S16 32), Decidable (k0_chk11 v40 v57) := fun v40 v57 => decidable_of_iff' _ (Iff.of_eq (k0_chk11.eq_1 v40 v57))
theorem k0_idx11_inb : ∀ (v40 : IVec S16 32) (v57 : IVec S16 32) (k0_hw11 : k0_chk11 v40 v57), ∀ a x, ((![v57, v40] : Fin 2 → IVec S16 32) a x).toNat < S8x2048.size a := fun v40 v57 k0_hw11 => k0_hw11
def k0_off32 (k0_t4 : Fin k0_t4_loop.trips) : Fin 2 → Nat :=
  let c3_i32 : BitVec 32 := 3#32
  let v58 : Index := Scalar.indexCast c3_i32
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v59 : Index := Scalar.indexCast v38
  ![3, v59.toNat]

def k0_chk12 (v40 : IVec S16 32) (v62 : IVec S16 32) : Prop :=
  (∀ a x, ((![v62, v40] : Fin 2 → IVec S16 32) a x).toNat < S8x2048.size a)
instance k0_chk12.dec : ∀ (v40 : IVec S16 32) (v62 : IVec S16 32), Decidable (k0_chk12 v40 v62) := fun v40 v62 => decidable_of_iff' _ (Iff.of_eq (k0_chk12.eq_1 v40 v62))
theorem k0_idx12_inb : ∀ (v40 : IVec S16 32) (v62 : IVec S16 32) (k0_hw12 : k0_chk12 v40 v62), ∀ a x, ((![v62, v40] : Fin 2 → IVec S16 32) a x).toNat < S8x2048.size a := fun v40 v62 k0_hw12 => k0_hw12
def k0_off33 (k0_t4 : Fin k0_t4_loop.trips) : Fin 2 → Nat :=
  let c4_i32 : BitVec 32 := 4#32
  let v63 : Index := Scalar.indexCast c4_i32
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v64 : Index := Scalar.indexCast v38
  ![4, v64.toNat]

def k0_chk13 (v40 : IVec S16 32) (v67 : IVec S16 32) : Prop :=
  (∀ a x, ((![v67, v40] : Fin 2 → IVec S16 32) a x).toNat < S8x2048.size a)
instance k0_chk13.dec : ∀ (v40 : IVec S16 32) (v67 : IVec S16 32), Decidable (k0_chk13 v40 v67) := fun v40 v67 => decidable_of_iff' _ (Iff.of_eq (k0_chk13.eq_1 v40 v67))
theorem k0_idx13_inb : ∀ (v40 : IVec S16 32) (v67 : IVec S16 32) (k0_hw13 : k0_chk13 v40 v67), ∀ a x, ((![v67, v40] : Fin 2 → IVec S16 32) a x).toNat < S8x2048.size a := fun v40 v67 k0_hw13 => k0_hw13
def k0_off34 (k0_t4 : Fin k0_t4_loop.trips) : Fin 2 → Nat :=
  let c5_i32 : BitVec 32 := 5#32
  let v68 : Index := Scalar.indexCast c5_i32
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v69 : Index := Scalar.indexCast v38
  ![5, v69.toNat]

def k0_chk14 (v40 : IVec S16 32) (v72 : IVec S16 32) : Prop :=
  (∀ a x, ((![v72, v40] : Fin 2 → IVec S16 32) a x).toNat < S8x2048.size a)
instance k0_chk14.dec : ∀ (v40 : IVec S16 32) (v72 : IVec S16 32), Decidable (k0_chk14 v40 v72) := fun v40 v72 => decidable_of_iff' _ (Iff.of_eq (k0_chk14.eq_1 v40 v72))
theorem k0_idx14_inb : ∀ (v40 : IVec S16 32) (v72 : IVec S16 32) (k0_hw14 : k0_chk14 v40 v72), ∀ a x, ((![v72, v40] : Fin 2 → IVec S16 32) a x).toNat < S8x2048.size a := fun v40 v72 k0_hw14 => k0_hw14
def k0_off35 (k0_t4 : Fin k0_t4_loop.trips) : Fin 2 → Nat :=
  let c6_i32 : BitVec 32 := 6#32
  let v73 : Index := Scalar.indexCast c6_i32
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v74 : Index := Scalar.indexCast v38
  ![6, v74.toNat]

def k0_chk15 (v40 : IVec S16 32) (v77 : IVec S16 32) : Prop :=
  (∀ a x, ((![v77, v40] : Fin 2 → IVec S16 32) a x).toNat < S8x2048.size a)
instance k0_chk15.dec : ∀ (v40 : IVec S16 32) (v77 : IVec S16 32), Decidable (k0_chk15 v40 v77) := fun v40 v77 => decidable_of_iff' _ (Iff.of_eq (k0_chk15.eq_1 v40 v77))
theorem k0_idx15_inb : ∀ (v40 : IVec S16 32) (v77 : IVec S16 32) (k0_hw15 : k0_chk15 v40 v77), ∀ a x, ((![v77, v40] : Fin 2 → IVec S16 32) a x).toNat < S8x2048.size a := fun v40 v77 k0_hw15 => k0_hw15
def k0_off36 (k0_t4 : Fin k0_t4_loop.trips) : Fin 2 → Nat :=
  let c7_i32 : BitVec 32 := 7#32
  let v78 : Index := Scalar.indexCast c7_i32
  let c0_i32_51 : BitVec 32 := 0#32
  let c0_i32_21 : BitVec 32 := 0#32
  let c1_i32_23 : BitVec 32 := 1#32
  let arg13 : BitVec 32 := Scf.iv c0_i32_21 c1_i32_23 k0_t4
  let c16_i32_50 : BitVec 32 := 16#32
  let v37 : BitVec 32 := Scalar.muli arg13 c16_i32_50
  let v38 : BitVec 32 := Scalar.addi c0_i32_51 v37
  let v79 : Index := Scalar.indexCast v38
  ![7, v79.toNat]

def k0_chk16 (v40 : IVec S16 32) (v82 : IVec S16 32) : Prop :=
  (∀ a x, ((![v82, v40] : Fin 2 → IVec S16 32) a x).toNat < S8x2048.size a)
instance k0_chk16.dec : ∀ (v40 : IVec S16 32) (v82 : IVec S16 32), Decidable (k0_chk16 v40 v82) := fun v40 v82 => decidable_of_iff' _ (Iff.of_eq (k0_chk16.eq_1 v40 v82))
theorem k0_idx16_inb : ∀ (v40 : IVec S16 32) (v82 : IVec S16 32) (k0_hw16 : k0_chk16 v40 v82), ∀ a x, ((![v82, v40] : Fin 2 → IVec S16 32) a x).toNat < S8x2048.size a := fun v40 v82 k0_hw16 => k0_hw16
@[reducible] def k0_t5_loop : Scf.Loop 32 :=
  let c0_i32_30 : BitVec 32 := 0#32
  let c128_i32_31 : BitVec 32 := 128#32
  let v29 : BitVec 32 := Scalar.addi c0_i32_30 c128_i32_31
  let c1_i32_32 : BitVec 32 := 1#32
  ⟨c0_i32_30, v29, c1_i32_32⟩
def k0_off37 (k0_t5 : Fin k0_t5_loop.trips) : Fin 2 → Nat :=
  let c0_i32_52 : BitVec 32 := 0#32
  let v40 : Index := Scalar.indexCast c0_i32_52
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v41 : Index := Scalar.indexCast v38
  ![0, v41.toNat]
def k0_off38 (k0_t5 : Fin k0_t5_loop.trips) : Fin 2 → Nat :=
  let c1_i32_53 : BitVec 32 := 1#32
  let v43 : Index := Scalar.indexCast c1_i32_53
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v44 : Index := Scalar.indexCast v38
  ![1, v44.toNat]
def k0_off39 (k0_t5 : Fin k0_t5_loop.trips) : Fin 2 → Nat :=
  let c2_i32_54 : BitVec 32 := 2#32
  let v46 : Index := Scalar.indexCast c2_i32_54
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v47 : Index := Scalar.indexCast v38
  ![2, v47.toNat]
def k0_off40 (k0_t5 : Fin k0_t5_loop.trips) : Fin 2 → Nat :=
  let c3_i32 : BitVec 32 := 3#32
  let v49 : Index := Scalar.indexCast c3_i32
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v50 : Index := Scalar.indexCast v38
  ![3, v50.toNat]
def k0_off41 (k0_t5 : Fin k0_t5_loop.trips) : Fin 2 → Nat :=
  let c4_i32 : BitVec 32 := 4#32
  let v52 : Index := Scalar.indexCast c4_i32
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v53 : Index := Scalar.indexCast v38
  ![4, v53.toNat]
def k0_off42 (k0_t5 : Fin k0_t5_loop.trips) : Fin 2 → Nat :=
  let c5_i32 : BitVec 32 := 5#32
  let v55 : Index := Scalar.indexCast c5_i32
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v56 : Index := Scalar.indexCast v38
  ![5, v56.toNat]
def k0_off43 (k0_t5 : Fin k0_t5_loop.trips) : Fin 2 → Nat :=
  let c6_i32 : BitVec 32 := 6#32
  let v58 : Index := Scalar.indexCast c6_i32
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v59 : Index := Scalar.indexCast v38
  ![6, v59.toNat]
def k0_off44 (k0_t5 : Fin k0_t5_loop.trips) : Fin 2 → Nat :=
  let c7_i32 : BitVec 32 := 7#32
  let v61 : Index := Scalar.indexCast c7_i32
  let c0_i32_51 : BitVec 32 := 0#32
  let c0_i32_30 : BitVec 32 := 0#32
  let c1_i32_32 : BitVec 32 := 1#32
  let arg13 : BitVec 32 := Scf.iv c0_i32_30 c1_i32_32 k0_t5
  let c16_i32_50 : BitVec 32 := 16#32
  let v37 : BitVec 32 := Scalar.muli arg13 c16_i32_50
  let v38 : BitVec 32 := Scalar.addi c0_i32_51 v37
  let v62 : Index := Scalar.indexCast v38
  ![7, v62.toNat]
@[reducible] def k0_t6_loop : Scf.Loop 32 :=
  let c0_i32_34 : BitVec 32 := 0#32
  let c256_i32_35 : BitVec 32 := 256#32
  let v30 : BitVec 32 := Scalar.addi c0_i32_34 c256_i32_35
  let c1_i32_36 : BitVec 32 := 1#32
  ⟨c0_i32_34, v30, c1_i32_36⟩
def k0_off45 (k0_t6 : Fin k0_t6_loop.trips) : Fin 1 → Nat :=
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v39 : Index := Scalar.indexCast v38
  ![v39.toNat]
def k0_off46 (k0_t6 : Fin k0_t6_loop.trips) : Fin 2 → Nat :=
  let c0_i32_52 : BitVec 32 := 0#32
  let v43 : Index := Scalar.indexCast c0_i32_52
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v44 : Index := Scalar.indexCast v38
  ![0, v44.toNat]

def k0_chk17 (v40 : IVec S16 32) (v47 : IVec S16 32) : Prop :=
  (∀ a x, ((![v47, v40] : Fin 2 → IVec S16 32) a x).toNat < S8x2048.size a)
instance k0_chk17.dec : ∀ (v40 : IVec S16 32) (v47 : IVec S16 32), Decidable (k0_chk17 v40 v47) := fun v40 v47 => decidable_of_iff' _ (Iff.of_eq (k0_chk17.eq_1 v40 v47))
theorem k0_idx17_inb : ∀ (v40 : IVec S16 32) (v47 : IVec S16 32) (k0_hw17 : k0_chk17 v40 v47), ∀ a x, ((![v47, v40] : Fin 2 → IVec S16 32) a x).toNat < S8x2048.size a := fun v40 v47 k0_hw17 => k0_hw17
def k0_off47 (k0_t6 : Fin k0_t6_loop.trips) : Fin 2 → Nat :=
  let c1_i32_54 : BitVec 32 := 1#32
  let v48 : Index := Scalar.indexCast c1_i32_54
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v49 : Index := Scalar.indexCast v38
  ![1, v49.toNat]

def k0_chk18 (v40 : IVec S16 32) (v52 : IVec S16 32) : Prop :=
  (∀ a x, ((![v52, v40] : Fin 2 → IVec S16 32) a x).toNat < S8x2048.size a)
instance k0_chk18.dec : ∀ (v40 : IVec S16 32) (v52 : IVec S16 32), Decidable (k0_chk18 v40 v52) := fun v40 v52 => decidable_of_iff' _ (Iff.of_eq (k0_chk18.eq_1 v40 v52))
theorem k0_idx18_inb : ∀ (v40 : IVec S16 32) (v52 : IVec S16 32) (k0_hw18 : k0_chk18 v40 v52), ∀ a x, ((![v52, v40] : Fin 2 → IVec S16 32) a x).toNat < S8x2048.size a := fun v40 v52 k0_hw18 => k0_hw18
def k0_off48 (k0_t6 : Fin k0_t6_loop.trips) : Fin 2 → Nat :=
  let c2_i32_56 : BitVec 32 := 2#32
  let v53 : Index := Scalar.indexCast c2_i32_56
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v54 : Index := Scalar.indexCast v38
  ![2, v54.toNat]

def k0_chk19 (v40 : IVec S16 32) (v57 : IVec S16 32) : Prop :=
  (∀ a x, ((![v57, v40] : Fin 2 → IVec S16 32) a x).toNat < S8x2048.size a)
instance k0_chk19.dec : ∀ (v40 : IVec S16 32) (v57 : IVec S16 32), Decidable (k0_chk19 v40 v57) := fun v40 v57 => decidable_of_iff' _ (Iff.of_eq (k0_chk19.eq_1 v40 v57))
theorem k0_idx19_inb : ∀ (v40 : IVec S16 32) (v57 : IVec S16 32) (k0_hw19 : k0_chk19 v40 v57), ∀ a x, ((![v57, v40] : Fin 2 → IVec S16 32) a x).toNat < S8x2048.size a := fun v40 v57 k0_hw19 => k0_hw19
def k0_off49 (k0_t6 : Fin k0_t6_loop.trips) : Fin 2 → Nat :=
  let c3_i32 : BitVec 32 := 3#32
  let v58 : Index := Scalar.indexCast c3_i32
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v59 : Index := Scalar.indexCast v38
  ![3, v59.toNat]

def k0_chk20 (v40 : IVec S16 32) (v62 : IVec S16 32) : Prop :=
  (∀ a x, ((![v62, v40] : Fin 2 → IVec S16 32) a x).toNat < S8x2048.size a)
instance k0_chk20.dec : ∀ (v40 : IVec S16 32) (v62 : IVec S16 32), Decidable (k0_chk20 v40 v62) := fun v40 v62 => decidable_of_iff' _ (Iff.of_eq (k0_chk20.eq_1 v40 v62))
theorem k0_idx20_inb : ∀ (v40 : IVec S16 32) (v62 : IVec S16 32) (k0_hw20 : k0_chk20 v40 v62), ∀ a x, ((![v62, v40] : Fin 2 → IVec S16 32) a x).toNat < S8x2048.size a := fun v40 v62 k0_hw20 => k0_hw20
def k0_off50 (k0_t6 : Fin k0_t6_loop.trips) : Fin 2 → Nat :=
  let c4_i32 : BitVec 32 := 4#32
  let v63 : Index := Scalar.indexCast c4_i32
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v64 : Index := Scalar.indexCast v38
  ![4, v64.toNat]

def k0_chk21 (v40 : IVec S16 32) (v67 : IVec S16 32) : Prop :=
  (∀ a x, ((![v67, v40] : Fin 2 → IVec S16 32) a x).toNat < S8x2048.size a)
instance k0_chk21.dec : ∀ (v40 : IVec S16 32) (v67 : IVec S16 32), Decidable (k0_chk21 v40 v67) := fun v40 v67 => decidable_of_iff' _ (Iff.of_eq (k0_chk21.eq_1 v40 v67))
theorem k0_idx21_inb : ∀ (v40 : IVec S16 32) (v67 : IVec S16 32) (k0_hw21 : k0_chk21 v40 v67), ∀ a x, ((![v67, v40] : Fin 2 → IVec S16 32) a x).toNat < S8x2048.size a := fun v40 v67 k0_hw21 => k0_hw21
def k0_off51 (k0_t6 : Fin k0_t6_loop.trips) : Fin 2 → Nat :=
  let c5_i32 : BitVec 32 := 5#32
  let v68 : Index := Scalar.indexCast c5_i32
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v69 : Index := Scalar.indexCast v38
  ![5, v69.toNat]

def k0_chk22 (v40 : IVec S16 32) (v72 : IVec S16 32) : Prop :=
  (∀ a x, ((![v72, v40] : Fin 2 → IVec S16 32) a x).toNat < S8x2048.size a)
instance k0_chk22.dec : ∀ (v40 : IVec S16 32) (v72 : IVec S16 32), Decidable (k0_chk22 v40 v72) := fun v40 v72 => decidable_of_iff' _ (Iff.of_eq (k0_chk22.eq_1 v40 v72))
theorem k0_idx22_inb : ∀ (v40 : IVec S16 32) (v72 : IVec S16 32) (k0_hw22 : k0_chk22 v40 v72), ∀ a x, ((![v72, v40] : Fin 2 → IVec S16 32) a x).toNat < S8x2048.size a := fun v40 v72 k0_hw22 => k0_hw22
def k0_off52 (k0_t6 : Fin k0_t6_loop.trips) : Fin 2 → Nat :=
  let c6_i32 : BitVec 32 := 6#32
  let v73 : Index := Scalar.indexCast c6_i32
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v74 : Index := Scalar.indexCast v38
  ![6, v74.toNat]

def k0_chk23 (v40 : IVec S16 32) (v77 : IVec S16 32) : Prop :=
  (∀ a x, ((![v77, v40] : Fin 2 → IVec S16 32) a x).toNat < S8x2048.size a)
instance k0_chk23.dec : ∀ (v40 : IVec S16 32) (v77 : IVec S16 32), Decidable (k0_chk23 v40 v77) := fun v40 v77 => decidable_of_iff' _ (Iff.of_eq (k0_chk23.eq_1 v40 v77))
theorem k0_idx23_inb : ∀ (v40 : IVec S16 32) (v77 : IVec S16 32) (k0_hw23 : k0_chk23 v40 v77), ∀ a x, ((![v77, v40] : Fin 2 → IVec S16 32) a x).toNat < S8x2048.size a := fun v40 v77 k0_hw23 => k0_hw23
def k0_off53 (k0_t6 : Fin k0_t6_loop.trips) : Fin 2 → Nat :=
  let c7_i32 : BitVec 32 := 7#32
  let v78 : Index := Scalar.indexCast c7_i32
  let c0_i32_51 : BitVec 32 := 0#32
  let c0_i32_34 : BitVec 32 := 0#32
  let c1_i32_36 : BitVec 32 := 1#32
  let arg13 : BitVec 32 := Scf.iv c0_i32_34 c1_i32_36 k0_t6
  let c16_i32_50 : BitVec 32 := 16#32
  let v37 : BitVec 32 := Scalar.muli arg13 c16_i32_50
  let v38 : BitVec 32 := Scalar.addi c0_i32_51 v37
  let v79 : Index := Scalar.indexCast v38
  ![7, v79.toNat]

def k0_chk24 (v40 : IVec S16 32) (v82 : IVec S16 32) : Prop :=
  (∀ a x, ((![v82, v40] : Fin 2 → IVec S16 32) a x).toNat < S8x2048.size a)
instance k0_chk24.dec : ∀ (v40 : IVec S16 32) (v82 : IVec S16 32), Decidable (k0_chk24 v40 v82) := fun v40 v82 => decidable_of_iff' _ (Iff.of_eq (k0_chk24.eq_1 v40 v82))
theorem k0_idx24_inb : ∀ (v40 : IVec S16 32) (v82 : IVec S16 32) (k0_hw24 : k0_chk24 v40 v82), ∀ a x, ((![v82, v40] : Fin 2 → IVec S16 32) a x).toNat < S8x2048.size a := fun v40 v82 k0_hw24 => k0_hw24
@[reducible] def k0_t7_loop : Scf.Loop 32 :=
  let c0_i32_41 : BitVec 32 := 0#32
  let c128_i32_42 : BitVec 32 := 128#32
  let v34 : BitVec 32 := Scalar.addi c0_i32_41 c128_i32_42
  let c1_i32_43 : BitVec 32 := 1#32
  ⟨c0_i32_41, v34, c1_i32_43⟩
def k0_off54 (k0_t7 : Fin k0_t7_loop.trips) : Fin 2 → Nat :=
  let c0_i32_52 : BitVec 32 := 0#32
  let v40 : Index := Scalar.indexCast c0_i32_52
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v41 : Index := Scalar.indexCast v38
  ![0, v41.toNat]
def k0_off55 (k0_t7 : Fin k0_t7_loop.trips) : Fin 2 → Nat :=
  let c1_i32_53 : BitVec 32 := 1#32
  let v43 : Index := Scalar.indexCast c1_i32_53
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v44 : Index := Scalar.indexCast v38
  ![1, v44.toNat]
def k0_off56 (k0_t7 : Fin k0_t7_loop.trips) : Fin 2 → Nat :=
  let c2_i32_54 : BitVec 32 := 2#32
  let v46 : Index := Scalar.indexCast c2_i32_54
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v47 : Index := Scalar.indexCast v38
  ![2, v47.toNat]
def k0_off57 (k0_t7 : Fin k0_t7_loop.trips) : Fin 2 → Nat :=
  let c3_i32 : BitVec 32 := 3#32
  let v49 : Index := Scalar.indexCast c3_i32
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v50 : Index := Scalar.indexCast v38
  ![3, v50.toNat]
def k0_off58 (k0_t7 : Fin k0_t7_loop.trips) : Fin 2 → Nat :=
  let c4_i32 : BitVec 32 := 4#32
  let v52 : Index := Scalar.indexCast c4_i32
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v53 : Index := Scalar.indexCast v38
  ![4, v53.toNat]
def k0_off59 (k0_t7 : Fin k0_t7_loop.trips) : Fin 2 → Nat :=
  let c5_i32 : BitVec 32 := 5#32
  let v55 : Index := Scalar.indexCast c5_i32
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v56 : Index := Scalar.indexCast v38
  ![5, v56.toNat]
def k0_off60 (k0_t7 : Fin k0_t7_loop.trips) : Fin 2 → Nat :=
  let c6_i32 : BitVec 32 := 6#32
  let v58 : Index := Scalar.indexCast c6_i32
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v59 : Index := Scalar.indexCast v38
  ![6, v59.toNat]
def k0_off61 (k0_t7 : Fin k0_t7_loop.trips) : Fin 2 → Nat :=
  let c7_i32 : BitVec 32 := 7#32
  let v61 : Index := Scalar.indexCast c7_i32
  let c0_i32_51 : BitVec 32 := 0#32
  let c0_i32_41 : BitVec 32 := 0#32
  let c1_i32_43 : BitVec 32 := 1#32
  let arg13 : BitVec 32 := Scf.iv c0_i32_41 c1_i32_43 k0_t7
  let c16_i32_50 : BitVec 32 := 16#32
  let v37 : BitVec 32 := Scalar.muli arg13 c16_i32_50
  let v38 : BitVec 32 := Scalar.addi c0_i32_51 v37
  let v62 : Index := Scalar.indexCast v38
  ![7, v62.toNat]
@[reducible] def k0_t8_loop : Scf.Loop 32 :=
  let c0_i32_45 : BitVec 32 := 0#32
  let c256_i32_46 : BitVec 32 := 256#32
  let v35 : BitVec 32 := Scalar.addi c0_i32_45 c256_i32_46
  let c1_i32_47 : BitVec 32 := 1#32
  ⟨c0_i32_45, v35, c1_i32_47⟩
def k0_off62 (k0_t8 : Fin k0_t8_loop.trips) : Fin 1 → Nat :=
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v39 : Index := Scalar.indexCast v38
  ![v39.toNat]
def k0_off63 (k0_t8 : Fin k0_t8_loop.trips) : Fin 2 → Nat :=
  let c0_i32_52 : BitVec 32 := 0#32
  let v43 : Index := Scalar.indexCast c0_i32_52
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v44 : Index := Scalar.indexCast v38
  ![0, v44.toNat]

def k0_chk25 (v40 : IVec S16 32) (v47 : IVec S16 32) : Prop :=
  (∀ a x, ((![v47, v40] : Fin 2 → IVec S16 32) a x).toNat < S8x2048.size a)
instance k0_chk25.dec : ∀ (v40 : IVec S16 32) (v47 : IVec S16 32), Decidable (k0_chk25 v40 v47) := fun v40 v47 => decidable_of_iff' _ (Iff.of_eq (k0_chk25.eq_1 v40 v47))
theorem k0_idx25_inb : ∀ (v40 : IVec S16 32) (v47 : IVec S16 32) (k0_hw25 : k0_chk25 v40 v47), ∀ a x, ((![v47, v40] : Fin 2 → IVec S16 32) a x).toNat < S8x2048.size a := fun v40 v47 k0_hw25 => k0_hw25
def k0_off64 (k0_t8 : Fin k0_t8_loop.trips) : Fin 2 → Nat :=
  let c1_i32_54 : BitVec 32 := 1#32
  let v48 : Index := Scalar.indexCast c1_i32_54
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v49 : Index := Scalar.indexCast v38
  ![1, v49.toNat]

def k0_chk26 (v40 : IVec S16 32) (v52 : IVec S16 32) : Prop :=
  (∀ a x, ((![v52, v40] : Fin 2 → IVec S16 32) a x).toNat < S8x2048.size a)
instance k0_chk26.dec : ∀ (v40 : IVec S16 32) (v52 : IVec S16 32), Decidable (k0_chk26 v40 v52) := fun v40 v52 => decidable_of_iff' _ (Iff.of_eq (k0_chk26.eq_1 v40 v52))
theorem k0_idx26_inb : ∀ (v40 : IVec S16 32) (v52 : IVec S16 32) (k0_hw26 : k0_chk26 v40 v52), ∀ a x, ((![v52, v40] : Fin 2 → IVec S16 32) a x).toNat < S8x2048.size a := fun v40 v52 k0_hw26 => k0_hw26
def k0_off65 (k0_t8 : Fin k0_t8_loop.trips) : Fin 2 → Nat :=
  let c2_i32_56 : BitVec 32 := 2#32
  let v53 : Index := Scalar.indexCast c2_i32_56
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v54 : Index := Scalar.indexCast v38
  ![2, v54.toNat]

def k0_chk27 (v40 : IVec S16 32) (v57 : IVec S16 32) : Prop :=
  (∀ a x, ((![v57, v40] : Fin 2 → IVec S16 32) a x).toNat < S8x2048.size a)
instance k0_chk27.dec : ∀ (v40 : IVec S16 32) (v57 : IVec S16 32), Decidable (k0_chk27 v40 v57) := fun v40 v57 => decidable_of_iff' _ (Iff.of_eq (k0_chk27.eq_1 v40 v57))
theorem k0_idx27_inb : ∀ (v40 : IVec S16 32) (v57 : IVec S16 32) (k0_hw27 : k0_chk27 v40 v57), ∀ a x, ((![v57, v40] : Fin 2 → IVec S16 32) a x).toNat < S8x2048.size a := fun v40 v57 k0_hw27 => k0_hw27
def k0_off66 (k0_t8 : Fin k0_t8_loop.trips) : Fin 2 → Nat :=
  let c3_i32 : BitVec 32 := 3#32
  let v58 : Index := Scalar.indexCast c3_i32
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v59 : Index := Scalar.indexCast v38
  ![3, v59.toNat]

def k0_chk28 (v40 : IVec S16 32) (v62 : IVec S16 32) : Prop :=
  (∀ a x, ((![v62, v40] : Fin 2 → IVec S16 32) a x).toNat < S8x2048.size a)
instance k0_chk28.dec : ∀ (v40 : IVec S16 32) (v62 : IVec S16 32), Decidable (k0_chk28 v40 v62) := fun v40 v62 => decidable_of_iff' _ (Iff.of_eq (k0_chk28.eq_1 v40 v62))
theorem k0_idx28_inb : ∀ (v40 : IVec S16 32) (v62 : IVec S16 32) (k0_hw28 : k0_chk28 v40 v62), ∀ a x, ((![v62, v40] : Fin 2 → IVec S16 32) a x).toNat < S8x2048.size a := fun v40 v62 k0_hw28 => k0_hw28
def k0_off67 (k0_t8 : Fin k0_t8_loop.trips) : Fin 2 → Nat :=
  let c4_i32 : BitVec 32 := 4#32
  let v63 : Index := Scalar.indexCast c4_i32
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v64 : Index := Scalar.indexCast v38
  ![4, v64.toNat]

def k0_chk29 (v40 : IVec S16 32) (v67 : IVec S16 32) : Prop :=
  (∀ a x, ((![v67, v40] : Fin 2 → IVec S16 32) a x).toNat < S8x2048.size a)
instance k0_chk29.dec : ∀ (v40 : IVec S16 32) (v67 : IVec S16 32), Decidable (k0_chk29 v40 v67) := fun v40 v67 => decidable_of_iff' _ (Iff.of_eq (k0_chk29.eq_1 v40 v67))
theorem k0_idx29_inb : ∀ (v40 : IVec S16 32) (v67 : IVec S16 32) (k0_hw29 : k0_chk29 v40 v67), ∀ a x, ((![v67, v40] : Fin 2 → IVec S16 32) a x).toNat < S8x2048.size a := fun v40 v67 k0_hw29 => k0_hw29
def k0_off68 (k0_t8 : Fin k0_t8_loop.trips) : Fin 2 → Nat :=
  let c5_i32 : BitVec 32 := 5#32
  let v68 : Index := Scalar.indexCast c5_i32
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v69 : Index := Scalar.indexCast v38
  ![5, v69.toNat]

def k0_chk30 (v40 : IVec S16 32) (v72 : IVec S16 32) : Prop :=
  (∀ a x, ((![v72, v40] : Fin 2 → IVec S16 32) a x).toNat < S8x2048.size a)
instance k0_chk30.dec : ∀ (v40 : IVec S16 32) (v72 : IVec S16 32), Decidable (k0_chk30 v40 v72) := fun v40 v72 => decidable_of_iff' _ (Iff.of_eq (k0_chk30.eq_1 v40 v72))
theorem k0_idx30_inb : ∀ (v40 : IVec S16 32) (v72 : IVec S16 32) (k0_hw30 : k0_chk30 v40 v72), ∀ a x, ((![v72, v40] : Fin 2 → IVec S16 32) a x).toNat < S8x2048.size a := fun v40 v72 k0_hw30 => k0_hw30
def k0_off69 (k0_t8 : Fin k0_t8_loop.trips) : Fin 2 → Nat :=
  let c6_i32 : BitVec 32 := 6#32
  let v73 : Index := Scalar.indexCast c6_i32
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v74 : Index := Scalar.indexCast v38
  ![6, v74.toNat]

def k0_chk31 (v40 : IVec S16 32) (v77 : IVec S16 32) : Prop :=
  (∀ a x, ((![v77, v40] : Fin 2 → IVec S16 32) a x).toNat < S8x2048.size a)
instance k0_chk31.dec : ∀ (v40 : IVec S16 32) (v77 : IVec S16 32), Decidable (k0_chk31 v40 v77) := fun v40 v77 => decidable_of_iff' _ (Iff.of_eq (k0_chk31.eq_1 v40 v77))
theorem k0_idx31_inb : ∀ (v40 : IVec S16 32) (v77 : IVec S16 32) (k0_hw31 : k0_chk31 v40 v77), ∀ a x, ((![v77, v40] : Fin 2 → IVec S16 32) a x).toNat < S8x2048.size a := fun v40 v77 k0_hw31 => k0_hw31
def k0_off70 (k0_t8 : Fin k0_t8_loop.trips) : Fin 2 → Nat :=
  let c7_i32 : BitVec 32 := 7#32
  let v78 : Index := Scalar.indexCast c7_i32
  let c0_i32_51 : BitVec 32 := 0#32
  let c0_i32_45 : BitVec 32 := 0#32
  let c1_i32_47 : BitVec 32 := 1#32
  let arg13 : BitVec 32 := Scf.iv c0_i32_45 c1_i32_47 k0_t8
  let c16_i32_50 : BitVec 32 := 16#32
  let v37 : BitVec 32 := Scalar.muli arg13 c16_i32_50
  let v38 : BitVec 32 := Scalar.addi c0_i32_51 v37
  let v79 : Index := Scalar.indexCast v38
  ![7, v79.toNat]

def k0_chk32 (v40 : IVec S16 32) (v82 : IVec S16 32) : Prop :=
  (∀ a x, ((![v82, v40] : Fin 2 → IVec S16 32) a x).toNat < S8x2048.size a)
instance k0_chk32.dec : ∀ (v40 : IVec S16 32) (v82 : IVec S16 32), Decidable (k0_chk32 v40 v82) := fun v40 v82 => decidable_of_iff' _ (Iff.of_eq (k0_chk32.eq_1 v40 v82))
theorem k0_idx32_inb : ∀ (v40 : IVec S16 32) (v82 : IVec S16 32) (k0_hw32 : k0_chk32 v40 v82), ∀ a x, ((![v82, v40] : Fin 2 → IVec S16 32) a x).toNat < S8x2048.size a := fun v40 v82 k0_hw32 => k0_hw32
abbrev grid1 : Pipeline.Grid := ⟨1, ![13], ![false]⟩

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 1 → Memref sig .tc .vmem S4096x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4096x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S1x16 : 0 < S1x16.numel
  shapeCasts_S1x16_S16 : S1x16.ShapeCasts S16
  shapeCasts_S16_S1x16 : S16.ShapeCasts S1x16
  h_S16 : 0 < S16.numel
  h_S8x2048 : 0 < S8x2048.numel
  shapeCasts_S4096_S4096x1 : S4096.ShapeCasts S4096x1
  iota_S4096x2048_d1_w32 : S4096x2048.Iotas .tc 32 [1]
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x2048 : S4096x1.Broadcasts S4096x2048
  bitsLt_bf16_f32 : FTy.bits .bf16 < FTy.bits .f32
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  packedbf16_S4096x2048_S4096x2048_0_0 : (Rect.unit (s := S4096x2048) ![0, 0] S4096x2048.size inb_S4096x2048_S4096x2048_0_0).PackedRows (EltTy.packing .bf16)
  inb_S256x4096_S256x4096_0_0 : ∀ a, (![0, 0] : Fin 2 → Nat) a + S256x4096.size a ≤ S256x4096.size a
  h_S256x4096 : 0 < S256x4096.numel
  inb_S256x2048_S256x2048_0_0 : ∀ a, (![0, 0] : Fin 2 → Nat) a + S256x2048.size a ≤ S256x2048.size a
  h_S256x2048 : 0 < S256x2048.numel
  updateFits_S4096x2048_S1024x2048 : S4096x2048.Slices (fun _ => 0) S1024x2048
  h_S_ : 0 < S_.numel
  dot_S256x4096_S4096x2048_S256x2048_1_0_0_1_n_n_wf : DotDims.WF S256x4096 S4096x2048 S256x2048 [1] [0] [0] [1] [] []
  hcc0_scratch5 : 0 + S_.numel ≤ 14
  hcc0_scratch6 : 1 + S_.numel ≤ 14
  hcc0_scoped0 : 2 + S_.numel ≤ 14
  hcc0_scoped1 : 3 + S_.numel ≤ 14
  hcc0_scoped2 : 4 + S_.numel ≤ 14
  hcc0_scoped3 : 5 + S_.numel ≤ 14
  hcc0_scoped4 : 6 + S_.numel ≤ 14
  hcc0_scoped5 : 7 + S_.numel ≤ 14
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (8 * r.val))) a + S8x4096.size a ≤ S4096x4096.size a
  k0_t1_ok : k0_t1_loop.OK
  k0_off2_inb : ∀ k0_t1 : Fin k0_t1_loop.trips, ∀ a, (k0_off2 k0_t1) a + S1x16.size a ≤ S8x2048.size a
  k0_off3_inb : ∀ k0_t1 : Fin k0_t1_loop.trips, ∀ a, (k0_off3 k0_t1) a + S1x16.size a ≤ S8x2048.size a
  k0_off4_inb : ∀ k0_t1 : Fin k0_t1_loop.trips, ∀ a, (k0_off4 k0_t1) a + S1x16.size a ≤ S8x2048.size a
  k0_off5_inb : ∀ k0_t1 : Fin k0_t1_loop.trips, ∀ a, (k0_off5 k0_t1) a + S1x16.size a ≤ S8x2048.size a
  k0_off6_inb : ∀ k0_t1 : Fin k0_t1_loop.trips, ∀ a, (k0_off6 k0_t1) a + S1x16.size a ≤ S8x2048.size a
  k0_off7_inb : ∀ k0_t1 : Fin k0_t1_loop.trips, ∀ a, (k0_off7 k0_t1) a + S1x16.size a ≤ S8x2048.size a
  k0_off8_inb : ∀ k0_t1 : Fin k0_t1_loop.trips, ∀ a, (k0_off8 k0_t1) a + S1x16.size a ≤ S8x2048.size a
  k0_off9_inb : ∀ k0_t1 : Fin k0_t1_loop.trips, ∀ a, (k0_off9 k0_t1) a + S1x16.size a ≤ S8x2048.size a
  k0_t2_ok : k0_t2_loop.OK
  k0_off10_inb : ∀ k0_t2 : Fin k0_t2_loop.trips, ∀ a, (k0_off10 k0_t2) a + S16.size a ≤ S4096.size a
  k0_off11_inb : ∀ k0_t2 : Fin k0_t2_loop.trips, ∀ a, (k0_off11 k0_t2) a + S1x16.size a ≤ S8x4096.size a
  k0_off12_inb : ∀ k0_t2 : Fin k0_t2_loop.trips, ∀ a, (k0_off12 k0_t2) a + S1x16.size a ≤ S8x4096.size a
  k0_off13_inb : ∀ k0_t2 : Fin k0_t2_loop.trips, ∀ a, (k0_off13 k0_t2) a + S1x16.size a ≤ S8x4096.size a
  k0_off14_inb : ∀ k0_t2 : Fin k0_t2_loop.trips, ∀ a, (k0_off14 k0_t2) a + S1x16.size a ≤ S8x4096.size a
  k0_off15_inb : ∀ k0_t2 : Fin k0_t2_loop.trips, ∀ a, (k0_off15 k0_t2) a + S1x16.size a ≤ S8x4096.size a
  k0_off16_inb : ∀ k0_t2 : Fin k0_t2_loop.trips, ∀ a, (k0_off16 k0_t2) a + S1x16.size a ≤ S8x4096.size a
  k0_off17_inb : ∀ k0_t2 : Fin k0_t2_loop.trips, ∀ a, (k0_off17 k0_t2) a + S1x16.size a ≤ S8x4096.size a
  k0_off18_inb : ∀ k0_t2 : Fin k0_t2_loop.trips, ∀ a, (k0_off18 k0_t2) a + S1x16.size a ≤ S8x4096.size a
  k0_off19_inb : ∀ i : grid0.Coords, ∀ (r : Fin 4), ∀ a, (k0_off19 i (BitVec.ofNat 32 (8 * r.val))) a + S8x2048.size a ≤ S1024x2048.size a
  k0_t3_ok : k0_t3_loop.OK
  k0_off20_inb : ∀ k0_t3 : Fin k0_t3_loop.trips, ∀ a, (k0_off20 k0_t3) a + S1x16.size a ≤ S8x2048.size a
  k0_off21_inb : ∀ k0_t3 : Fin k0_t3_loop.trips, ∀ a, (k0_off21 k0_t3) a + S1x16.size a ≤ S8x2048.size a
  k0_off22_inb : ∀ k0_t3 : Fin k0_t3_loop.trips, ∀ a, (k0_off22 k0_t3) a + S1x16.size a ≤ S8x2048.size a
  k0_off23_inb : ∀ k0_t3 : Fin k0_t3_loop.trips, ∀ a, (k0_off23 k0_t3) a + S1x16.size a ≤ S8x2048.size a
  k0_off24_inb : ∀ k0_t3 : Fin k0_t3_loop.trips, ∀ a, (k0_off24 k0_t3) a + S1x16.size a ≤ S8x2048.size a
  k0_off25_inb : ∀ k0_t3 : Fin k0_t3_loop.trips, ∀ a, (k0_off25 k0_t3) a + S1x16.size a ≤ S8x2048.size a
  k0_off26_inb : ∀ k0_t3 : Fin k0_t3_loop.trips, ∀ a, (k0_off26 k0_t3) a + S1x16.size a ≤ S8x2048.size a
  k0_off27_inb : ∀ k0_t3 : Fin k0_t3_loop.trips, ∀ a, (k0_off27 k0_t3) a + S1x16.size a ≤ S8x2048.size a
  k0_t4_ok : k0_t4_loop.OK
  k0_off28_inb : ∀ k0_t4 : Fin k0_t4_loop.trips, ∀ a, (k0_off28 k0_t4) a + S16.size a ≤ S4096.size a
  k0_off29_inb : ∀ k0_t4 : Fin k0_t4_loop.trips, ∀ a, (k0_off29 k0_t4) a + S1x16.size a ≤ S8x4096.size a
  k0_off30_inb : ∀ k0_t4 : Fin k0_t4_loop.trips, ∀ a, (k0_off30 k0_t4) a + S1x16.size a ≤ S8x4096.size a
  k0_off31_inb : ∀ k0_t4 : Fin k0_t4_loop.trips, ∀ a, (k0_off31 k0_t4) a + S1x16.size a ≤ S8x4096.size a
  k0_off32_inb : ∀ k0_t4 : Fin k0_t4_loop.trips, ∀ a, (k0_off32 k0_t4) a + S1x16.size a ≤ S8x4096.size a
  k0_off33_inb : ∀ k0_t4 : Fin k0_t4_loop.trips, ∀ a, (k0_off33 k0_t4) a + S1x16.size a ≤ S8x4096.size a
  k0_off34_inb : ∀ k0_t4 : Fin k0_t4_loop.trips, ∀ a, (k0_off34 k0_t4) a + S1x16.size a ≤ S8x4096.size a
  k0_off35_inb : ∀ k0_t4 : Fin k0_t4_loop.trips, ∀ a, (k0_off35 k0_t4) a + S1x16.size a ≤ S8x4096.size a
  k0_off36_inb : ∀ k0_t4 : Fin k0_t4_loop.trips, ∀ a, (k0_off36 k0_t4) a + S1x16.size a ≤ S8x4096.size a
  k0_t5_ok : k0_t5_loop.OK
  k0_off37_inb : ∀ k0_t5 : Fin k0_t5_loop.trips, ∀ a, (k0_off37 k0_t5) a + S1x16.size a ≤ S8x2048.size a
  k0_off38_inb : ∀ k0_t5 : Fin k0_t5_loop.trips, ∀ a, (k0_off38 k0_t5) a + S1x16.size a ≤ S8x2048.size a
  k0_off39_inb : ∀ k0_t5 : Fin k0_t5_loop.trips, ∀ a, (k0_off39 k0_t5) a + S1x16.size a ≤ S8x2048.size a
  k0_off40_inb : ∀ k0_t5 : Fin k0_t5_loop.trips, ∀ a, (k0_off40 k0_t5) a + S1x16.size a ≤ S8x2048.size a
  k0_off41_inb : ∀ k0_t5 : Fin k0_t5_loop.trips, ∀ a, (k0_off41 k0_t5) a + S1x16.size a ≤ S8x2048.size a
  k0_off42_inb : ∀ k0_t5 : Fin k0_t5_loop.trips, ∀ a, (k0_off42 k0_t5) a + S1x16.size a ≤ S8x2048.size a
  k0_off43_inb : ∀ k0_t5 : Fin k0_t5_loop.trips, ∀ a, (k0_off43 k0_t5) a + S1x16.size a ≤ S8x2048.size a
  k0_off44_inb : ∀ k0_t5 : Fin k0_t5_loop.trips, ∀ a, (k0_off44 k0_t5) a + S1x16.size a ≤ S8x2048.size a
  k0_t6_ok : k0_t6_loop.OK
  k0_off45_inb : ∀ k0_t6 : Fin k0_t6_loop.trips, ∀ a, (k0_off45 k0_t6) a + S16.size a ≤ S4096.size a
  k0_off46_inb : ∀ k0_t6 : Fin k0_t6_loop.trips, ∀ a, (k0_off46 k0_t6) a + S1x16.size a ≤ S8x4096.size a
  k0_off47_inb : ∀ k0_t6 : Fin k0_t6_loop.trips, ∀ a, (k0_off47 k0_t6) a + S1x16.size a ≤ S8x4096.size a
  k0_off48_inb : ∀ k0_t6 : Fin k0_t6_loop.trips, ∀ a, (k0_off48 k0_t6) a + S1x16.size a ≤ S8x4096.size a
  k0_off49_inb : ∀ k0_t6 : Fin k0_t6_loop.trips, ∀ a, (k0_off49 k0_t6) a + S1x16.size a ≤ S8x4096.size a
  k0_off50_inb : ∀ k0_t6 : Fin k0_t6_loop.trips, ∀ a, (k0_off50 k0_t6) a + S1x16.size a ≤ S8x4096.size a
  k0_off51_inb : ∀ k0_t6 : Fin k0_t6_loop.trips, ∀ a, (k0_off51 k0_t6) a + S1x16.size a ≤ S8x4096.size a
  k0_off52_inb : ∀ k0_t6 : Fin k0_t6_loop.trips, ∀ a, (k0_off52 k0_t6) a + S1x16.size a ≤ S8x4096.size a
  k0_off53_inb : ∀ k0_t6 : Fin k0_t6_loop.trips, ∀ a, (k0_off53 k0_t6) a + S1x16.size a ≤ S8x4096.size a
  k0_t7_ok : k0_t7_loop.OK
  k0_off54_inb : ∀ k0_t7 : Fin k0_t7_loop.trips, ∀ a, (k0_off54 k0_t7) a + S1x16.size a ≤ S8x2048.size a
  k0_off55_inb : ∀ k0_t7 : Fin k0_t7_loop.trips, ∀ a, (k0_off55 k0_t7) a + S1x16.size a ≤ S8x2048.size a
  k0_off56_inb : ∀ k0_t7 : Fin k0_t7_loop.trips, ∀ a, (k0_off56 k0_t7) a + S1x16.size a ≤ S8x2048.size a
  k0_off57_inb : ∀ k0_t7 : Fin k0_t7_loop.trips, ∀ a, (k0_off57 k0_t7) a + S1x16.size a ≤ S8x2048.size a
  k0_off58_inb : ∀ k0_t7 : Fin k0_t7_loop.trips, ∀ a, (k0_off58 k0_t7) a + S1x16.size a ≤ S8x2048.size a
  k0_off59_inb : ∀ k0_t7 : Fin k0_t7_loop.trips, ∀ a, (k0_off59 k0_t7) a + S1x16.size a ≤ S8x2048.size a
  k0_off60_inb : ∀ k0_t7 : Fin k0_t7_loop.trips, ∀ a, (k0_off60 k0_t7) a + S1x16.size a ≤ S8x2048.size a
  k0_off61_inb : ∀ k0_t7 : Fin k0_t7_loop.trips, ∀ a, (k0_off61 k0_t7) a + S1x16.size a ≤ S8x2048.size a
  k0_t8_ok : k0_t8_loop.OK
  k0_off62_inb : ∀ k0_t8 : Fin k0_t8_loop.trips, ∀ a, (k0_off62 k0_t8) a + S16.size a ≤ S4096.size a
  k0_off63_inb : ∀ k0_t8 : Fin k0_t8_loop.trips, ∀ a, (k0_off63 k0_t8) a + S1x16.size a ≤ S8x4096.size a
  k0_off64_inb : ∀ k0_t8 : Fin k0_t8_loop.trips, ∀ a, (k0_off64 k0_t8) a + S1x16.size a ≤ S8x4096.size a
  k0_off65_inb : ∀ k0_t8 : Fin k0_t8_loop.trips, ∀ a, (k0_off65 k0_t8) a + S1x16.size a ≤ S8x4096.size a
  k0_off66_inb : ∀ k0_t8 : Fin k0_t8_loop.trips, ∀ a, (k0_off66 k0_t8) a + S1x16.size a ≤ S8x4096.size a
  k0_off67_inb : ∀ k0_t8 : Fin k0_t8_loop.trips, ∀ a, (k0_off67 k0_t8) a + S1x16.size a ≤ S8x4096.size a
  k0_off68_inb : ∀ k0_t8 : Fin k0_t8_loop.trips, ∀ a, (k0_off68 k0_t8) a + S1x16.size a ≤ S8x4096.size a
  k0_off69_inb : ∀ k0_t8 : Fin k0_t8_loop.trips, ∀ a, (k0_off69 k0_t8) a + S1x16.size a ≤ S8x4096.size a
  k0_off70_inb : ∀ k0_t8 : Fin k0_t8_loop.trips, ∀ a, (k0_off70 k0_t8) a + S1x16.size a ≤ S8x4096.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x1.size a ≤ S4096x1.size a
  hwx1_0 : ∀ i : grid1.Coords, EltTy.bits .i32 = 32 ∨ (Rect.block (s := S4096x1) S4096x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S4096x1.size a
  hwx1_1 : ∀ i : grid1.Coords, EltTy.bits .f32 = 32 ∨ (Rect.block (s := S4096x1) S4096x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S4096x2048.size a
  hwx1_3 : ∀ i : grid1.Coords, EltTy.bits .f32 = 32 ∨ (Rect.block (s := S4096x2048) S256x2048.size (cc1_transform_3 i) (hinb1_3 i)).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
abbrev cc0_scoped3 : DmaSems sig S_ := SemArray.consecutive 5 S_ hcc0_scoped3
abbrev cc0_scoped4 : DmaSems sig S_ := SemArray.consecutive 6 S_ hcc0_scoped4
abbrev cc0_scoped5 : DmaSems sig S_ := SemArray.consecutive 7 S_ hcc0_scoped5
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win1_0 : Pipeline.Window sig grid1 :=
  Pipeline.Window.ofSpec (Memref.whole main_v1) S4096x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v2) S4096x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S4096x2048 : Shape := ⟨2, ![4096, 2048]⟩
abbrev S4096x1 : Shape := ⟨2, ![4096, 1]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .i32⟩
  | .hbm, ⟨2, _⟩ => ⟨S4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x2048, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x2048 : S_.BroadcastsInDim S4096x2048 (![] : Fin 0 → Fin S4096x2048.rank)
  bcast_S_S4096 : S_.BroadcastsInDim S4096 (![] : Fin 0 → Fin S4096.rank)
  bcast_S4096_S4096x1_0 : S4096.BroadcastsInDim S4096x1 (![0] : Fin 1 → Fin S4096x1.rank)
  scatter_S4096x2048_S4096x1_S4096x4096_0_1_1_1_wf : ScatterDims.WF S4096x2048 S4096x1 S4096x4096 [0] [1] [1] 1

variable [Facts₀]

def scatter_S4096x2048_S4096x1_S4096x4096_0_1_1_1 : ScatterDims S4096x2048 S4096x1 S4096x4096 where
  updateWindowDims := [0]
  insertedWindowDims := [1]
  scatterDimsToOperandDims := [1]
  indexVectorDim := 1
  wf := scatter_S4096x2048_S4096x1_S4096x4096_0_1_1_1_wf

class Facts : Prop extends Facts₀ where

variable [Facts]
-- ==== Proof.PreDecode.lean ====
/-
  The precondition, decoded: every bucket word is below 2048.

  The precondition is a conjunction of three `all`s: every entry of the matrix is
  finite, every sign is finite, and every bucket word `w` satisfies `0 ≤ w` and `w ≤ 2047`,
  both read signed. Only the third conjunct is used here. A word that is nonnegative read signed
  reads the same unsigned, so `0 ≤ w ≤ 2047` signed gives `w.toNat < 2048`.
-/
import proofs.«204905_g71433896067310_cont_9to1c4b_220_29_alg».proof.Pre_input_domain
import proofs.«204905_g71433896067310_cont_9to1c4b_220_29_alg».proof.Proof.Gen.Pre_input_domain
import Idealize.ShloMosaic.Lib.ReduceAll
import Idealize.ShloMosaic.Lib.ValueIdx

noncomputable section

namespace Cert.PreDecode

open Cert.Pre_input_domain Cert.Pre_input_domain.Gen Idealize.ShloMosaic Idealize.ShloMosaic.ValueIdx

/-- The scalar shape has one index. -/
instance : Subsingleton S_.Idx := ⟨fun a b => funext fun d => d.elim0⟩

/-- A word between 0 and 2047, both bounds read signed, is below 2048 read unsigned. -/
theorem toNat_lt_of_signed (w : BitVec 32) (h0 : IntOp.cmpi .sge w 0#32 = 1#1)
    (h1 : IntOp.cmpi .sle w 2047#32 = 1#1) : w.toNat < 2048 := by
  have hn : 2 * w.toNat < 2 ^ 32 := (Scalar.nonneg_iff w).1 h0
  rw [IntOp.cmpi_sle, BitVec.toInt_eq_toNat_of_lt hn,
    show (2047#32 : BitVec 32).toInt = 2047 from by decide] at h1
  omega

/-- Under the precondition every bucket word, read unsigned, is below 2048. -/
theorem bucket_lt {F : FTy → Type} [FloatOps F] (x : FVec F S4096x4096 .f32) (h : IVec S4096 32)
    (s : FVec F S4096 .f32) (hpre : Cert.Pre_input_domain.fn (F := F) x h s = fun _ => 1#1)
    (j : S4096.Idx) : (h j).toNat < 2048 := by
  have e := congrFun hpre ix0
  dsimp only [Cert.Pre_input_domain.fn] at e
  have e3 := (IntOp.andi_eq_one.1 e).2
  have ej := Host.reduce_andi_all _ _ _ _ _ e3 j
  obtain ⟨h0, h1⟩ := IntOp.andi_eq_one.1 ej
  exact toNat_lt_of_signed (h j) h0 h1

end Cert.PreDecode

end
-- ==== Proof.Spec.lean ====
/-
  The specification of the count sketch.

  The inputs are a matrix `x` of 4096 rows and 4096 columns, a bucket word `h j` for each
  column `j` and a sign `sgn j` for each column. The result has 4096 rows and 2048 columns:
  entry `(b, m)` is the sum, over the columns `j` whose bucket word read as a natural number
  is `m`, of `x (b, j) * sgn j`. It is written as a sum over ALL columns of a term that is zero
  off the bucket, so that it is one function of the three arrays, index by index, over the
  extended reals (an additive commutative monoid: the order of the sum does not matter).
-/
import Idealize.ShloMosaic.PureOps.Ideal
import Idealize.ShloMosaic.Lib.ValueIdx

noncomputable section

open scoped BigOperators

namespace Cert.Sketch

open Idealize.ShloMosaic

/-- The shape of `x`: 4096 rows, 4096 columns. -/
abbrev SX : Shape := ⟨2, ![4096, 4096]⟩
/-- The shape of the bucket words and of the signs: one entry per column of `x`. -/
abbrev SH : Shape := ⟨1, ![4096]⟩
/-- The shape of the result: 4096 rows, 2048 buckets. -/
abbrev SO : Shape := ⟨2, ![4096, 2048]⟩

/-- The count sketch, entry by entry: at row `i 0` and bucket `i 1`, the sum over the columns
    `j` with `(h j).toNat = i 1` of `x (i 0, j) * sgn j`. -/
def G (x : SX.Idx → EReal) (h : SH.Idx → BitVec 32) (sgn : SH.Idx → EReal) : SO.Idx → EReal :=
  fun i => ∑ j : Fin 4096,
    if (h (ValueIdx.ix1 j)).toNat = (i 1).val then x (ValueIdx.ix2 (i 0) j) * sgn (ValueIdx.ix1 j) else 0

end Cert.Sketch

end
-- ==== Proof.RefValue.lean ====
/-
  The reference computes the count sketch.

  The reference first replaces a negative bucket word `w` by `w + 2048` (a bucket word below
  2048 is not negative, so this leaves it as it is), multiplies column `j` of the matrix by
  the sign of column `j`, and adds update `(b, j)` into entry `(b, h j)` of a result that
  starts at zero. The scatter's result index of update `(b, j)` is the start index (zero on the
  row axis, the bucket word read signed on the bucket axis) plus the window coordinate (`b` on
  the row axis, zero on the bucket axis): it is `(b, h j)`, and it is inside the result because
  `h j < 2048`. At the extended reals the scatter is the exact sum of the updates that land at an
  entry; the sum over the pairs `(b, j)` that land at `(p, q)` is the sum over the columns `j`
  with `h j = q` of the update `(p, j)`. The reference multiplies `sign * x`, the specification
  `x * sign`: multiplication of extended reals commutes.
-/
import proofs.«204905_g71433896067310_cont_9to1c4b_220_29_alg».proof.Defs
import proofs.«204905_g71433896067310_cont_9to1c4b_220_29_alg».proof.Proof.Gen.ReferenceIdeal
import proofs.«204905_g71433896067310_cont_9to1c4b_220_29_alg».proof.Proof.Gen.ReferenceIdeal.Read
import proofs.«204905_g71433896067310_cont_9to1c4b_220_29_alg».proof.Proof.Gen.Pre_input_domain
import proofs.«204905_g71433896067310_cont_9to1c4b_220_29_alg».proof.Proof.Spec
import proofs.«204905_g71433896067310_cont_9to1c4b_220_29_alg».proof.Proof.PreDecode
import Idealize.ShloMosaic.PureOps.Ideal.Laws
import Idealize.ShloMosaic.Lib.Affine

noncomputable section

open scoped BigOperators

namespace Cert.ReferenceIdeal.RefValue

open Cert.ReferenceIdeal Cert.ReferenceIdeal.Gen Idealize.ShloMosaic Idealize.ShloMosaic.TcCoe Idealize.SL.Sem
open Idealize.ShloMosaic.ValueIdx

/-- The scatter's dimension numbers: the updates' axis 0 is the window axis and goes to the result's
    axis 0; the result's axis 1 is inserted and is the axis the one-component start index names. -/
abbrev D : ScatterDims S4096x2048 S4096x1 S4096x4096 := scatter_S4096x2048_S4096x1_S4096x4096_0_1_1_1

/-- On the row axis the start index is zero: the scatter's index map does not name it. -/
theorem start0 {w : Nat} (j : S4096x4096.Idx) (idx : IVec S4096x1 w) : D.start j idx 0 = 0 := rfl

/-- On the bucket axis the window coordinate is zero: the axis is inserted. -/
theorem window1 (j : S4096x4096.Idx) : D.window j 1 = 0 := rfl

/-- On the row axis the window coordinate of update `(b, c)` is its row `b`. -/
theorem window0 (b c : Fin 4096) : D.window (ix2 b c) 0 = b.val := rfl

/-- On the bucket axis the start index of update `(b, c)` is the scatter index `(c, 0)`, read signed. -/
theorem start1 {w : Nat} (b c : Fin 4096) (idx : IVec S4096x1 w) :
    D.start (ix2 b c) idx 1 = (idx (ix2 c (0 : Fin 1))).toInt := by
  unfold ScatterDims.start
  rw [dif_pos (show (1 : Fin S4096x2048.rank) ∈ D.scatterDimsToOperandDims from List.mem_singleton.mpr rfl)]
  refine congrArg (fun k => (idx k).toInt) ?_
  funext a
  refine Fin.ext ?_
  match a with
  | ⟨0, _⟩ => rfl
  | ⟨1, _⟩ => rfl

/-- Update `(b, c)` lands at `(p, q)` exactly when `b = p` and the scatter index `(c, 0)`, read
    signed, is `q`. -/
theorem resultIdx_iff {w : Nat} (b c : Fin 4096) (idx : IVec S4096x1 w) (p : Fin 4096) (q : Fin 2048) :
    D.resultIdx? (ix2 b c) idx = some (ix2 p q) ↔ (b = p ∧ (idx (ix2 c (0 : Fin 1))).toInt = (q.val : Int)) := by
  have hb := b.isLt
  have hp := p.isLt
  have hq := q.isLt
  unfold ScatterDims.resultIdx?
  split
  · rename_i h
    rw [Option.some.injEq]
    constructor
    · intro e
      have e0 : (D.start (ix2 b c) idx 0 + ((D.window (ix2 b c) 0 : Nat) : Int)).toNat = p.val :=
        congrArg (fun f : S4096x2048.Idx => (f 0).val) e
      have e1 : (D.start (ix2 b c) idx 1 + ((D.window (ix2 b c) 1 : Nat) : Int)).toNat = q.val :=
        congrArg (fun f : S4096x2048.Idx => (f 1).val) e
      have h1 : 0 ≤ D.start (ix2 b c) idx 1 + ((D.window (ix2 b c) 1 : Nat) : Int) := (h 1).1
      rw [start0, window0] at e0
      rw [start1, window1] at e1 h1
      exact ⟨Fin.ext (by omega), by omega⟩
    · rintro ⟨rfl, e1⟩
      funext a
      refine Fin.ext ?_
      match a with
      | ⟨0, _⟩ =>
        show (D.start (ix2 b c) idx 0 + ((D.window (ix2 b c) 0 : Nat) : Int)).toNat = b.val
        rw [start0, window0]; omega
      | ⟨1, _⟩ =>
        show (D.start (ix2 b c) idx 1 + ((D.window (ix2 b c) 1 : Nat) : Int)).toNat = q.val
        rw [start1, window1]; omega
  · rename_i h
    constructor
    · intro e; exact absurd e (by simp)
    · rintro ⟨rfl, e1⟩
      exfalso
      apply h
      intro a
      match a with
      | ⟨0, _⟩ =>
        show 0 ≤ D.start (ix2 b c) idx 0 + ((D.window (ix2 b c) 0 : Nat) : Int)
          ∧ D.start (ix2 b c) idx 0 + ((D.window (ix2 b c) 0 : Nat) : Int) < ((4096 : Nat) : Int)
        rw [start0, window0]; omega
      | ⟨1, _⟩ =>
        show 0 ≤ D.start (ix2 b c) idx 1 + ((D.window (ix2 b c) 1 : Nat) : Int)
          ∧ D.start (ix2 b c) idx 1 + ((D.window (ix2 b c) 1 : Nat) : Int) < ((2048 : Nat) : Int)
        rw [start1, window1]; omega

/-- A bucket word below 2048 reads the same signed and unsigned. -/
theorem toInt_of_lt (v : BitVec 32) (hv : v.toNat < 2048) : v.toInt = (v.toNat : Int) :=
  BitVec.toInt_eq_toNat_of_lt (by omega)

/-- The scatter index `(c, 0)` is the bucket word of column `c`: a word below 2048 is not negative,
    so the reference's replacement of a negative word `w` by `w + 2048` leaves it as it is. -/
theorem idx_apply (h : S4096.Idx → BitVec 32) (hr : ∀ j, (h j).toNat < 2048) (c : Fin 4096) :
    Read.val_main_v9 (F := Ideal) h (ix2 c (0 : Fin 1)) = h (ix1 c) := by
  have e9 : Read.idx_main_v9 (ix2 c (0 : Fin 1)) = ix1 c := by
    funext a; refine Fin.ext ?_
    match a with
    | ⟨0, _⟩ => rfl
  rw [Read.val_main_v9_apply, e9, Read.val_main_v8_apply, Read.val_main_v5_apply, Read.val_main_v4_apply,
    Read.val_main_c_apply]
  have hn : IntOp.cmpi .slt (h (ix1 c)) 0#32 = 0#1 := by
    refine eq_zero_of_ne_one fun e => ?_
    rw [IntOp.cmpi_slt, toInt_of_lt _ (hr _), show (0#32 : BitVec 32).toInt = 0 from by decide] at e
    omega
  rw [hn, select_zero]

/-- Update `(b, c)` is the sign of column `c` times the matrix entry `(b, c)`. -/
theorem upd_apply (x : S4096x4096.Idx → EReal) (s : S4096.Idx → EReal) (b c : Fin 4096) :
    Read.val_main_v2 (F := Ideal) x s (ix2 b c) = s (ix1 c) * x (ix2 b c) := by
  have e : Read.idx_main_v0 (Read.idx_main_v1 (ix2 b c)) = ix1 c := by
    funext a; refine Fin.ext ?_
    match a with
    | ⟨0, _⟩ => rfl
  rw [Read.val_main_v2_apply, Read.val_main_v1_apply, Read.val_main_v0_apply, e]
  rfl

/-- The scatter starts from zero. -/
theorem init_apply (i : S4096x2048.Idx) : Read.val_main_v3 (F := Ideal) i = 0 := by
  rw [Read.val_main_v3_apply, Read.val_main_cst_apply]
  exact Ideal.ofBits_zero_f32

/-- The reference's last stage is the count sketch: every update `(b, c)` lands at `(b, h c)`. -/
theorem val_eq_G (x : S4096x4096.Idx → EReal) (h : S4096.Idx → BitVec 32) (s : S4096.Idx → EReal)
    (hr : ∀ j, (h j).toNat < 2048) :
    Read.val_main_v10 (F := Ideal) x h s = Cert.Sketch.G x h s := by
  funext i
  obtain ⟨p, q, rfl⟩ : ∃ (p : Fin 4096) (q : Fin 2048), i = ix2 p q := ⟨i 0, i 1, eq_ix2 i⟩
  have hiff : ∀ (b c : Fin 4096), D.resultIdx? (ix2 b c) (Read.val_main_v9 (F := Ideal) h) = some (ix2 p q)
      ↔ (b = p ∧ (h (ix1 c)).toNat = q.val) := fun b c => by
    rw [resultIdx_iff, idx_apply h hr, toInt_of_lt _ (hr _)]
    exact and_congr_right fun _ => Int.natCast_inj
  unfold Read.val_main_v10 Host.scatterAdd
  rw [Ideal.hostScatterAdd_def]
  unfold Ideal.hostScatterAdd
  rw [init_apply, zero_add, Finset.sum_filter, sum_idx2, Finset.sum_comm]
  unfold Cert.Sketch.G
  refine Finset.sum_congr rfl fun c _ => ?_
  simp only [hiff, upd_apply]
  by_cases hQ : (h (ix1 c)).toNat = q.val
  · simp only [hQ, and_true, Finset.sum_ite_eq', Finset.mem_univ, if_true]
    exact mul_comm _ _
  · simp only [hQ, and_false, if_false, Finset.sum_const_zero]

/-- The term the reference's run leaves in its result is the count sketch. -/
theorem ref_eq_G (x : S4096x4096.Idx → EReal) (h : S4096.Idx → BitVec 32) (s : S4096.Idx → EReal)
    (hr : ∀ j, (h j).toNat < 2048) :
    Host.scatterAdd (F := Ideal) scatter_S4096x2048_S4096x1_S4096x4096_0_1_1_1 (broadcastInDim S4096x2048 ![] bcast_S_S4096x2048 (constant (F := Ideal) S_ .f32 0x00000000#32)) (broadcastInDim S4096x1 ![0] bcast_S4096_S4096x1_0 (select (cmpi .slt h (broadcastInDim S4096 ![] bcast_S_S4096 (constantI S_ 32 0#32))) (addi h (broadcastInDim S4096 ![] bcast_S_S4096 (constantI S_ 32 2048#32))) h)) (mulf (F := Ideal) (broadcastInDim S4096x4096 ![0, 1] bcast_S1x4096_S4096x4096_0_1 (broadcastInDim S1x4096 ![1] bcast_S4096_S1x4096_1 s)) x)
      = Cert.Sketch.G x h s :=
  (Read.val_main_v10_eq (F := Ideal) x h s).trans (val_eq_G x h s hr)

/-- The reference runs to the end from any memory satisfying the precondition, leaves the count sketch of
    its three arguments in its result, and leaves the arguments as they were. -/
theorem run_G (m : (ℓ : Loc nD τ sig) → Buf (Elt Ideal) ℓ) (ρ : Dev nD → PrngReg)
    (hpre : Cert.Pre_ReferenceIdeal (hPre_input_domain := Cert.Pre_input_domain.Gen.facts) m) :
    θ_run (defs (F := Ideal)) (onTc (τ := τ) (main (F := Ideal))) ⟨m, fun _ => 0, ρ⟩ fun r => ∀ c : Dev nD,
      r.2.mem ((c.tc : Thread nD τ).loc main_v10)
          = Cert.Sketch.G (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans (ref_eq_G _ _ _ fun j => Cert.PreDecode.bucket_lt _ _ _ (hpre c) j), (h c).2⟩)
    (Cert.ReferenceIdeal.Value.run (F := Ideal) m ρ)

/-- The reference runs to the end and leaves its arguments as they were: its run with the result dropped. -/
theorem frame_ri : Cert.frame_ReferenceIdeal (hReferenceIdeal := Cert.ReferenceIdeal.Gen.facts)
    (hPre_input_domain := Cert.Pre_input_domain.Gen.facts) :=
  fun m ρ _ => (θ_run Cert.ReferenceIdeal.defs _ _).mono (fun _ h c => (h c).2)
    (Cert.ReferenceIdeal.Value.run (F := Ideal) m ρ)

/-- The count sketch of the kernel's three arguments on device `c`, as the contents of the kernel's result. -/
abbrev GK (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v4) :=
  Cert.Sketch.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))

/-- From a memory agreeing on the three arguments with one that satisfies the precondition, the reference
    ends with the count sketch of those arguments in its result and its own arguments as they were. -/
theorem ref_side
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hpre : Cert.Pre_KernelIdeal (hPre_input_domain := Cert.Pre_input_domain.Gen.facts) m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = GK m c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  have hpre' : Cert.Pre_ReferenceIdeal (hPre_input_domain := Cert.Pre_input_domain.Gen.facts) m' := fun c => by
    rw [(hagree c).1, (hagree c).2.1, (hagree c).2.2]; exact hpre c
  refine (θ_run Cert.ReferenceIdeal.defs _ _).mono (fun _ h c => ⟨?_, (h c).2⟩) (run_G m' g' hpre')
  rw [(h c).1, (hagree c).1, (hagree c).2.1, (hagree c).2.2]

end Cert.ReferenceIdeal.RefValue

end
-- ==== Proof.KernelMath.lean ====
/-
  The mathematics of the SparseCore half of the count sketch, over plain functions and the extended reals.

  A vector subcore keeps an accumulator of 8 rows and 2048 buckets. One trip of its loop takes sixteen
  columns of `x`: for each of the 8 rows it multiplies the sixteen entries of that row by the sixteen signs
  and adds each product onto the accumulator entry (row, bucket word of that column). The extended reals
  are an additive commutative monoid, so the order in which the sixteen lanes are added never shows: after
  the store, an entry is what it was plus the sum of the products whose bucket word names it.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import proofs.«204905_g71433896067310_cont_9to1c4b_220_29_alg».proof.KernelIdeal
import proofs.«204905_g71433896067310_cont_9to1c4b_220_29_alg».proof.Proof.Spec

noncomputable section

open scoped BigOperators

namespace Cert.Sketch.Math

open Idealize.ShloMosaic Idealize.ShloMosaic.ValueIdx
open Cert.KernelIdeal (S16 S1x16 S8x2048 S8x4096 S4096 S4096x1 S4096x2048 S256x4096 S256x2048)

/-! ## The indexed add-store, entry by entry

A store with add walks the lanes in order; lane `k` adds its value onto the entry its indices name and leaves
every other entry alone. Over an additive commutative monoid such a walk is, at each entry, the value before
plus the sum of the lanes that named that entry: the order of the walk no longer shows. -/

/-- A left fold that, at each step `k`, adds `val k` onto the entry at `tgt k` and leaves every other entry
    alone, is entry by entry the starting value plus the sum of the `val k` that landed on that entry. -/
theorem foldl_add_at {ι κ M : Type} [AddCommMonoid M] (tgt : κ → ι) (val : κ → M)
    (P : ι → κ → Prop) (dec : ∀ j k, Decidable (P j k)) (hP : ∀ j k, P j k → tgt k = j)
    (l : List κ) (f : ι → M) (j : ι) :
    l.foldl (fun g k => fun j' => @ite M (P j' k) (dec j' k) (g (tgt k) + val k) (g j')) f j
      = f j + (l.map fun k => @ite M (P j k) (dec j k) (val k) 0).sum := by
  induction l generalizing f with
  | nil => simp
  | cons k l ih =>
    rw [List.foldl_cons, ih, List.map_cons, List.sum_cons, ← add_assoc]
    congr 1
    by_cases hk : P j k
    · rw [if_pos hk, if_pos hk, hP j k hk]
    · rw [if_neg hk, if_neg hk, add_zero]

/-- The unmasked indexed store with add, over the extended reals, at any base shape and any number of lanes:
    entry `i` afterwards is entry `i` before plus the sum of the lanes whose indices name `i`. -/
theorem storeIdx_add_apply {s : Shape} {d : Fin 1 → Nat} (f : Vec Ideal s .f32) (idxs : Fin s.rank → IVec ⟨1, d⟩ 32)
    (v : Vec Ideal ⟨1, d⟩ .f32) (h : ∀ a x, (idxs a x).toNat < s.size a) (i : s.Idx) :
    storeIdx (F := Ideal) f idxs v (fun _ => 1#1) true h i
      = (f i + ∑ k : Fin (d 0), if (∀ a, (i a).val = (idxs a (Shape.ofLane k)).toNat) then v (Shape.ofLane k) else 0 : EReal) := by
  rw [Fin.sum_univ_def]
  unfold storeIdx
  simp only [BitVec.ofNat_eq_ofNat, if_true, reduceIte, Elt.idxAdd_f32, Ideal.idxAddf_def]
  exact foldl_add_at (M := EReal) (fun k => idxAt idxs h (Shape.ofLane k)) (fun k => v (Shape.ofLane k))
    (fun j k => ∀ a, (j a).val = (idxs a (Shape.ofLane k)).toNat) _
    (fun j k hjk => funext fun a => Fin.ext (hjk a).symm) _ f i

/-- Lane `l` of a sixteen-lane vector is the index `ix1 l`. -/
theorem ofLane_eq_ix1 (l : Fin 16) : (Shape.ofLane (d := ![16]) l : S16.Idx) = ix1 l := by
  funext a; match a with | ⟨0, _⟩ => rfl

/-- The store of one row of the trip: the first index vector is the splat of a word `c` that reads as the row
    number `r`, the second is the vector of bucket words. Entry `(i 0, i 1)` afterwards is the entry before, plus —
    on row `r` only — the sum of the lanes whose bucket word reads as `i 1`. -/
theorem storeIdx_row_apply (f : Vec Ideal S8x2048 .f32) (c : BitVec 32) (r : Fin 8) (hc : c.toNat = r.val)
    (idx : IVec S16 32) (v : Vec Ideal S16 .f32)
    (h : ∀ a x, ((![broadcast S16 c, idx] : Fin S8x2048.rank → IVec S16 32) a x).toNat < S8x2048.size a)
    (i : S8x2048.Idx) :
    storeIdx (F := Ideal) f ![broadcast S16 c, idx] v (fun _ => 1#1) true h i
      = (f i + (if (i 0).val = r.val then ∑ l : Fin 16, (if (idx (ix1 l)).toNat = (i 1).val then v (ix1 l) else 0) else 0) : EReal) := by
  refine (storeIdx_add_apply f _ v h i).trans (congrArg (f i + ·) ?_)
  by_cases hr : (i 0).val = r.val
  · rw [if_pos hr]
    refine (Finset.sum_congr rfl fun (l : Fin 16) _ => ?_ :
      (∑ l : Fin 16, _) = ∑ l : Fin 16, (if (idx (ix1 l)).toNat = (i 1).val then v (ix1 l) else 0))
    rw [ofLane_eq_ix1 l]
    refine if_congr ⟨fun hall => (hall 1).symm, fun hl a => ?_⟩ rfl rfl
    match a with
    | ⟨0, _⟩ => exact hr.trans hc.symm
    | ⟨1, _⟩ => exact hl.symm
  · rw [if_neg hr]
    exact Finset.sum_eq_zero fun l _ => if_neg fun hall => hr ((hall 0).trans hc)

/-! ## One trip of the group loop: eight row stores

The trip stores row 0, then row 1, …, then row 7, each with the same vector of bucket words. The store of row `k`
touches row `k` only, so at an entry of row `r` only the store of row `r` shows. -/

/-- After the eight stores of one trip, entry `(r, m)` is what it was plus the sum of the lanes of row `r`'s
    vector whose bucket word reads as `m`. -/
theorem trip_apply (f : Vec Ideal S8x2048 .f32) (idx : IVec S16 32)
    (v0 v1 v2 v3 v4 v5 v6 v7 : Vec Ideal S16 .f32)
    (h0 : ∀ a x, ((![broadcast S16 0#32, idx] : Fin S8x2048.rank → IVec S16 32) a x).toNat < S8x2048.size a)
    (h1 : ∀ a x, ((![broadcast S16 1#32, idx] : Fin S8x2048.rank → IVec S16 32) a x).toNat < S8x2048.size a)
    (h2 : ∀ a x, ((![broadcast S16 2#32, idx] : Fin S8x2048.rank → IVec S16 32) a x).toNat < S8x2048.size a)
    (h3 : ∀ a x, ((![broadcast S16 3#32, idx] : Fin S8x2048.rank → IVec S16 32) a x).toNat < S8x2048.size a)
    (h4 : ∀ a x, ((![broadcast S16 4#32, idx] : Fin S8x2048.rank → IVec S16 32) a x).toNat < S8x2048.size a)
    (h5 : ∀ a x, ((![broadcast S16 5#32, idx] : Fin S8x2048.rank → IVec S16 32) a x).toNat < S8x2048.size a)
    (h6 : ∀ a x, ((![broadcast S16 6#32, idx] : Fin S8x2048.rank → IVec S16 32) a x).toNat < S8x2048.size a)
    (h7 : ∀ a x, ((![broadcast S16 7#32, idx] : Fin S8x2048.rank → IVec S16 32) a x).toNat < S8x2048.size a)
    (r : Fin 8) (m : Fin 2048) :
    (storeIdx (F := Ideal) (storeIdx (F := Ideal) (storeIdx (F := Ideal) (storeIdx (F := Ideal) (storeIdx (F := Ideal) (storeIdx (F := Ideal) (storeIdx (F := Ideal) (storeIdx (F := Ideal) f
        ![broadcast S16 0#32, idx] v0 (fun _ => 1#1) true h0)
        ![broadcast S16 1#32, idx] v1 (fun _ => 1#1) true h1)
        ![broadcast S16 2#32, idx] v2 (fun _ => 1#1) true h2)
        ![broadcast S16 3#32, idx] v3 (fun _ => 1#1) true h3)
        ![broadcast S16 4#32, idx] v4 (fun _ => 1#1) true h4)
        ![broadcast S16 5#32, idx] v5 (fun _ => 1#1) true h5)
        ![broadcast S16 6#32, idx] v6 (fun _ => 1#1) true h6)
        ![broadcast S16 7#32, idx] v7 (fun _ => 1#1) true h7) (ix2 r m)
      = (f (ix2 r m) + ∑ l : Fin 16,
          (if (idx (ix1 l)).toNat = m.val then (![v0, v1, v2, v3, v4, v5, v6, v7] r) (ix1 l) else 0) : EReal) := by
  rw [storeIdx_row_apply _ 7#32 7 rfl, storeIdx_row_apply _ 6#32 6 rfl, storeIdx_row_apply _ 5#32 5 rfl,
    storeIdx_row_apply _ 4#32 4 rfl, storeIdx_row_apply _ 3#32 3 rfl, storeIdx_row_apply _ 2#32 2 rfl,
    storeIdx_row_apply _ 1#32 1 rfl, storeIdx_row_apply _ 0#32 0 rfl]
  show f (ix2 r m) + (if r.val = 0 then ∑ l : Fin 16, (if (idx (ix1 l)).toNat = m.val then v0 (ix1 l) else 0) else 0)
      + (if r.val = 1 then ∑ l : Fin 16, (if (idx (ix1 l)).toNat = m.val then v1 (ix1 l) else 0) else 0)
      + (if r.val = 2 then ∑ l : Fin 16, (if (idx (ix1 l)).toNat = m.val then v2 (ix1 l) else 0) else 0)
      + (if r.val = 3 then ∑ l : Fin 16, (if (idx (ix1 l)).toNat = m.val then v3 (ix1 l) else 0) else 0)
      + (if r.val = 4 then ∑ l : Fin 16, (if (idx (ix1 l)).toNat = m.val then v4 (ix1 l) else 0) else 0)
      + (if r.val = 5 then ∑ l : Fin 16, (if (idx (ix1 l)).toNat = m.val then v5 (ix1 l) else 0) else 0)
      + (if r.val = 6 then ∑ l : Fin 16, (if (idx (ix1 l)).toNat = m.val then v6 (ix1 l) else 0) else 0)
      + (if r.val = 7 then ∑ l : Fin 16, (if (idx (ix1 l)).toNat = m.val then v7 (ix1 l) else 0) else 0) = _
  fin_cases r <;> simp

/-! ## 256 trips from the zero accumulator

Trip `g` takes the sixteen columns `g * 16 + l`, `l < 16`. After 256 trips every one of the 4096 columns has been
taken exactly once, so the accumulator holds, at `(r, m)`, the sum over all columns of the column's term. -/

/-- Column `g * 16 + l`: lane `l` of block `g`. (Taken modulo 4096 so that it names a column for every `g`; for
    the 256 blocks of the loop nothing is reduced: `col_val`.) -/
def col (g : Nat) (l : Fin 16) : Fin 4096 := ⟨(g * 16 + l.val) % 4096, Nat.mod_lt _ (by norm_num)⟩

theorem col_val {g : Nat} (hg : g < 256) (l : Fin 16) : (col g l).val = g * 16 + l.val := by
  show (g * 16 + l.val) % 4096 = _
  exact Nat.mod_eq_of_lt (by have := l.isLt; omega)

/-- What column `j` contributes to entry `(r, m)`: the product of the buffer's entry `(r, j)` and the sign of `j` when
    the bucket word of `j` reads as `m`, nothing otherwise. -/
def term (xbuf : S8x4096.Idx → EReal) (hv : S4096.Idx → BitVec 32) (sv : S4096.Idx → EReal)
    (r : Fin 8) (m : Fin 2048) (j : Fin 4096) : EReal :=
  if (hv (ix1 j)).toNat = m.val then xbuf (ix2 r j) * sv (ix1 j) else 0

/-- The accumulator's entry `(r, m)` after `n` trips, from zero: trip `n` adds the terms of its sixteen columns. -/
def accAfter (xbuf : S8x4096.Idx → EReal) (hv : S4096.Idx → BitVec 32) (sv : S4096.Idx → EReal) :
    Nat → Fin 8 → Fin 2048 → EReal
  | 0, _, _ => 0
  | n + 1, r, m => accAfter xbuf hv sv n r m + ∑ l : Fin 16, term xbuf hv sv r m (col n l)

/-- The same as one function of the accumulator's index. -/
def accFn (xbuf : S8x4096.Idx → EReal) (hv : S4096.Idx → BitVec 32) (sv : S4096.Idx → EReal) (n : Nat) :
    S8x2048.Idx → EReal := fun i => accAfter xbuf hv sv n (i 0) (i 1)

theorem accFn_ix2 (xbuf : S8x4096.Idx → EReal) (hv : S4096.Idx → BitVec 32) (sv : S4096.Idx → EReal) (n : Nat)
    (r : Fin 8) (m : Fin 2048) : accFn xbuf hv sv n (ix2 r m) = accAfter xbuf hv sv n r m := rfl

theorem accFn_zero (xbuf : S8x4096.Idx → EReal) (hv : S4096.Idx → BitVec 32) (sv : S4096.Idx → EReal)
    (i : S8x2048.Idx) : accFn xbuf hv sv 0 i = 0 := rfl

/-- One trip carries the accumulator from `n` trips to `n + 1`: if the trip's vector of bucket words, its vector of
    signs and its eight loaded rows are the buffers' entries at the columns of block `n`, then what the trip adds at
    `(r, m)` is block `n`'s sum of terms. -/
theorem accAfter_step (xbuf : S8x4096.Idx → EReal) (hv : S4096.Idx → BitVec 32) (sv : S4096.Idx → EReal) (n : Nat)
    (idx : IVec S16 32) (sg : Vec Ideal S16 .f32) (ld : Fin 8 → Vec Ideal S1x16 .f32)
    (hidx : ∀ l : Fin 16, idx (ix1 l) = hv (ix1 (col n l)))
    (hsg : ∀ l : Fin 16, sg (ix1 l) = sv (ix1 (col n l)))
    (hld : ∀ (r : Fin 8) (l : Fin 16), ld r (ix2 (0 : Fin 1) l) = xbuf (ix2 r (col n l)))
    (r : Fin 8) (m : Fin 2048) :
    (accAfter xbuf hv sv n r m
        + ∑ l : Fin 16, (if (idx (ix1 l)).toNat = m.val then ld r (ix2 (0 : Fin 1) l) * sg (ix1 l) else 0) : EReal)
      = accAfter xbuf hv sv (n + 1) r m := by
  show _ = accAfter xbuf hv sv n r m + ∑ l : Fin 16, term xbuf hv sv r m (col n l)
  refine congrArg (accAfter xbuf hv sv n r m + ·) (Finset.sum_congr rfl fun l _ => ?_)
  rw [hidx, hsg, hld]
  rfl

/-- After `n` trips: the sum over the first `n` blocks of each block's sixteen terms. -/
theorem accAfter_eq_range (xbuf : S8x4096.Idx → EReal) (hv : S4096.Idx → BitVec 32) (sv : S4096.Idx → EReal)
    (n : Nat) (r : Fin 8) (m : Fin 2048) :
    accAfter xbuf hv sv n r m = ∑ g ∈ Finset.range n, ∑ l : Fin 16, term xbuf hv sv r m (col g l) := by
  induction n with
  | zero => rfl
  | succ n ih =>
    show accAfter xbuf hv sv n r m + _ = _
    rw [ih, Finset.sum_range_succ]

/-- The 4096 columns are the 256 blocks of sixteen: `(g, l)` is column `g * 16 + l`. -/
def blockEquiv : Fin 256 × Fin 16 ≃ Fin 4096 := (finProdFinEquiv : Fin 256 × Fin 16 ≃ Fin (256 * 16))

theorem blockEquiv_apply (g : Fin 256) (l : Fin 16) : blockEquiv (g, l) = col g.val l := by
  apply Fin.ext
  show l.val + 16 * g.val = (g.val * 16 + l.val) % 4096
  have := g.isLt; have := l.isLt; omega

/-- A sum over the 256 blocks of the sixteen columns of each is the sum over all 4096 columns. -/
theorem sum_blocks (T : Fin 4096 → EReal) :
    ∑ g ∈ Finset.range 256, ∑ l : Fin 16, T (col g l) = ∑ j : Fin 4096, T j := by
  rw [Finset.sum_range (fun g => ∑ l : Fin 16, T (col g l)), ← Equiv.sum_comp blockEquiv T, Fintype.sum_prod_type]
  exact Finset.sum_congr rfl fun g _ => Finset.sum_congr rfl fun l _ => by rw [blockEquiv_apply]

/-- After all 256 trips: the sum over all 4096 columns. -/
theorem accAfter_256 (xbuf : S8x4096.Idx → EReal) (hv : S4096.Idx → BitVec 32) (sv : S4096.Idx → EReal)
    (r : Fin 8) (m : Fin 2048) :
    accAfter xbuf hv sv 256 r m
      = ∑ j : Fin 4096, if (hv (ix1 j)).toNat = m.val then xbuf (ix2 r j) * sv (ix1 j) else 0 := by
  rw [accAfter_eq_range]
  exact sum_blocks (term xbuf hv sv r m)

/-- The SparseCore half is the count sketch on its rows: when the buffer holds eight rows of `x` (row `r` of the
    buffer is row `ρ r` of `x`), the accumulator after 256 trips is the count sketch at `(ρ r, m)`. -/
theorem sc_eq_G (x : Cert.Sketch.SX.Idx → EReal) (hw : Cert.Sketch.SH.Idx → BitVec 32) (sgn : Cert.Sketch.SH.Idx → EReal)
    (ρ : Fin 8 → Fin 4096) (xbuf : S8x4096.Idx → EReal)
    (hx : ∀ (r : Fin 8) (j : Fin 4096), xbuf (ix2 r j) = x (ix2 (ρ r) j)) (r : Fin 8) (m : Fin 2048) :
    accAfter xbuf hw sgn 256 r m = Cert.Sketch.G x hw sgn (ix2 (ρ r) m) := by
  rw [accAfter_256]
  unfold Cert.Sketch.G
  refine Finset.sum_congr rfl fun j _ => ?_
  rw [hx]

end Cert.Sketch.Math

end
-- ==== Proof.KernelMathPay.lean ====
/-
  The kernel's pure payloads read at an index, over the extended reals.

  SparseCore half: one payload is the sixteen entries of a row of `x` times the sixteen signs, lane by lane;
  another is the zero vector the accumulator is cleared with.
  TensorCore half: the one-hot matrix has, at (column j, bucket m), the sign of column j where the bucket word of
  column j reads as m and zero elsewhere; the product of 256 rows of `x` with it is, at (r, m), the sum over the
  columns of bucket m of x (r, j) times the sign of j, because a factor times zero is zero.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.WritesUnit
import proofs.«204905_g71433896067310_cont_9to1c4b_220_29_alg».proof.Proof.Gen.KernelIdeal.Skeleton
import proofs.«204905_g71433896067310_cont_9to1c4b_220_29_alg».proof.Proof.Spec
import proofs.«204905_g71433896067310_cont_9to1c4b_220_29_alg».proof.Proof.KernelMath

noncomputable section

open scoped BigOperators

namespace Cert.Sketch.Math

open Idealize.ShloMosaic Idealize.ShloMosaic.ValueIdx
open Cert.KernelIdeal (S16 S1x16 S8x2048 S8x4096 S4096 S4096x1 S4096x2048 S256x4096 S256x2048)
open Cert.KernelIdeal (dot_S256x4096_S4096x2048_S256x2048_1_0_0_1_n_n)
open Cert.KernelIdeal.Gen

/-! ## The SparseCore payloads -/

/-- A row of sixteen loaded entries, viewed as a vector of sixteen lanes and multiplied lane by lane by the signs:
    lane `l` is the row's entry `l` times the sign of lane `l`. Every row payload of the trips is this term
    applied to its own loaded row, so this one statement reads each of them. -/
theorem rowProd_apply (sg : Vec Ideal S16 .f32) (ld : Vec Ideal S1x16 .f32) (hc : S1x16.ShapeCasts S16) (l : Fin 16) :
    mulf (F := Ideal) (φ := .f32) (shapeCast S16 ld hc) sg (ix1 l) = (ld (ix2 (0 : Fin 1) l) * sg (ix1 l) : EReal) := by
  show shapeCast S16 ld hc (ix1 l) * sg (ix1 l) = _
  rw [shapeCast_1a_a_apply]

/-- The first row payload of the first copy of the trip, as an instance of the statement above. -/
theorem k0_pay5_apply (sg : Vec Ideal S16 .f32) (ld : Vec Ideal S1x16 .f32) (l : Fin 16) :
    k0_pay5 (F := Ideal) sg ld (ix1 l) = (ld (ix2 (0 : Fin 1) l) * sg (ix1 l) : EReal) :=
  rowProd_apply sg ld _ l

/-- The splat of the zero word, viewed as one row of sixteen entries, is zero at every entry: what the
    accumulator is cleared with. -/
theorem zeroSplat_row_apply (hc : S16.ShapeCasts S1x16) (y : S1x16.Idx) :
    shapeCast S1x16 (broadcast S16 (Ideal.ofBits .f32 0x00000000#32)) hc y = (0 : EReal) := by
  show Ideal.ofBits .f32 0x00000000#32 = 0
  exact Ideal.ofBits_zero_f32

/-- The clearing payload of the first copy, as an instance of the statement above. -/
theorem zeroRow_apply (hc : S16.ShapeCasts S1x16) (y : S1x16.Idx) :
    shapeCast S1x16 (k0_pay1 (F := Ideal)) hc y = (0 : EReal) :=
  zeroSplat_row_apply hc y

/-! ## The one-hot matrix and the product with it -/

/-- A column `[4096, 1]` broadcast to `[4096, 2048]` reads, at `(j, m)`, the column's entry of row `j`. -/
theorem broadcastTo_col_apply {α : Type} (v : S4096x1.Idx → α) (h : S4096x1.Broadcasts S4096x2048)
    (j : Fin 4096) (m : Fin 2048) : broadcastTo S4096x2048 v h (ix2 j m) = v (ix2 j (0 : Fin 1)) := by
  refine broadcastTo_apply v h (ix2 j m) (ix2 j (0 : Fin 1)) fun ax => ?_
  match ax with
  | ⟨0, _⟩ => rfl
  | ⟨1, _⟩ => rfl

/-- A 32-bit word is the word of a bucket number `m < 2048` exactly when it reads as `m`. -/
theorem word_eq_ofNat_iff (w : BitVec 32) (m : Fin 2048) : w = BitVec.ofNat 32 m.val ↔ w.toNat = m.val := by
  have hm : m.val % 2 ^ 32 = m.val := Nat.mod_eq_of_lt (by have := m.isLt; omega)
  constructor
  · intro h; rw [h, BitVec.toNat_ofNat]; exact hm
  · intro h; apply BitVec.eq_of_toNat_eq; rw [h, BitVec.toNat_ofNat]; exact hm.symm

/-- A select on the bit of a word equality is the `if` on that equality. -/
theorem select_cmpi_eq {α : Type} (x y : BitVec 32) (a b : α) :
    Scalar.select (IntOp.cmpi .eq x y) a b = if x = y then a else b := by
  by_cases h : x = y
  · subst h; simp [Scalar.select, IntOp.cmpi]
  · have hb : (x == y) = false := beq_eq_false_iff_ne.2 h
    simp [Scalar.select, IntOp.cmpi, hb, h]

/-- The one-hot matrix at `(j, m)`: the sign of column `j` where the bucket word of column `j` reads as `m`,
    zero elsewhere. (The narrowing to bf16 is the identity on the extended reals.) -/
theorem k1_pay1_apply (v7 : Vec Ideal S4096x1 .i32) (v11 : Vec Ideal S4096x1 .f32) (j : Fin 4096) (m : Fin 2048) :
    k1_pay1 (F := Ideal) v7 v11 (ix2 j m)
      = (if (v7 (ix2 j (0 : Fin 1))).toNat = m.val then v11 (ix2 j (0 : Fin 1)) else 0 : EReal) := by
  unfold k1_pay1
  simp only [shapeCast_self]
  show Scalar.select (IntOp.cmpi .eq (broadcastTo S4096x2048 v7 _ (ix2 j m)) (iota .tc S4096x2048 32 [1] _ (ix2 j m)))
      (broadcastTo S4096x2048 v11 _ (ix2 j m)) (Ideal.ofBits .f32 0x00000000#32) = _
  rw [broadcastTo_col_apply, broadcastTo_col_apply, iota_single_apply, Ideal.ofBits_zero_f32, select_cmpi_eq]
  exact if_congr (word_eq_ofNat_iff _ m) rfl rfl

/-- The product with the zero accumulator at `(r, m)`: the sum over the 4096 columns `j` of the left entry
    `(r, j)` times the right entry `(j, m)`. (The narrowing of the left operand to bf16 is the identity on the
    extended reals.) -/
theorem k1_pay2_apply (v6 : Vec Ideal S256x4096 .f32) (v8 : Vec Ideal S4096x2048 .bf16) (r : Fin 256) (m : Fin 2048) :
    k1_pay2 (F := Ideal) v6 v8 (ix2 r m) = (∑ j : Fin 4096, v6 (ix2 r j) * v8 (ix2 j m) : EReal) := by
  unfold k1_pay2
  simp only [matmul]
  refine (Ideal.matmul_constant_zero_apply (φ₁ := .bf16) (φ₂ := .bf16) dot_S256x4096_S4096x2048_S256x2048_1_0_0_1_n_n none
    (truncf .bf16 v6 Cert.KernelIdeal.Gen.bitsLt_bf16_f32) v8 (ix2 r m)).trans ?_
  refine (Equiv.sum_comp (contrEquiv1 dot_S256x4096_S4096x2048_S256x2048_1_0_0_1_n_n 4096 rfl rfl).symm _).symm.trans ?_
  refine Finset.sum_congr rfl fun j _ => ?_
  have hl : dot_S256x4096_S4096x2048_S256x2048_1_0_0_1_n_n.lhsIdx (ix2 r m) ((contrEquiv1 dot_S256x4096_S4096x2048_S256x2048_1_0_0_1_n_n 4096 rfl rfl).symm j) = ix2 r j := by
    funext a; apply Fin.ext
    match a with
    | ⟨0, _⟩ => simp [DotDims.lhsIdx, dot_S256x4096_S4096x2048_S256x2048_1_0_0_1_n_n]; rfl
    | ⟨1, _⟩ =>
      exact (DotDims.lhsIdx_val_of_single dot_S256x4096_S4096x2048_S256x2048_1_0_0_1_n_n (cl := 1) rfl (ix2 r m) _).trans
        (contrEquiv1_symm_val dot_S256x4096_S4096x2048_S256x2048_1_0_0_1_n_n 4096 rfl rfl j)
  have hr : dot_S256x4096_S4096x2048_S256x2048_1_0_0_1_n_n.rhsIdx (ix2 r m) ((contrEquiv1 dot_S256x4096_S4096x2048_S256x2048_1_0_0_1_n_n 4096 rfl rfl).symm j) = ix2 j m := by
    funext a; apply Fin.ext
    match a with
    | ⟨0, _⟩ =>
      exact (DotDims.rhsIdx_val_of_single dot_S256x4096_S4096x2048_S256x2048_1_0_0_1_n_n (cr := 0) rfl (ix2 r m) _).trans
        (contrEquiv1_symm_val dot_S256x4096_S4096x2048_S256x2048_1_0_0_1_n_n 4096 rfl rfl j)
    | ⟨1, _⟩ => simp [DotDims.rhsIdx, dot_S256x4096_S4096x2048_S256x2048_1_0_0_1_n_n]; rfl
  show v6 (dot_S256x4096_S4096x2048_S256x2048_1_0_0_1_n_n.lhsIdx (ix2 r m) _) * v8 (dot_S256x4096_S4096x2048_S256x2048_1_0_0_1_n_n.rhsIdx (ix2 r m) _) = _
  rw [hl, hr]

/-- The TensorCore half is the count sketch on its rows. The left operand holds 256 rows of `x` (row `r` of the
    block is row `ρ r` of `x`), the column of bucket words is `h`, the column of signs is `sgn`. At `(r, m)` the
    product with the one-hot matrix is `∑ j, x (ρ r, j) * (if h j reads as m then sgn j else 0)`; a factor times zero
    is zero, so this is the sum over the columns of bucket `m` of `x (ρ r, j) * sgn j`. -/
theorem tc_eq_G (x : Cert.Sketch.SX.Idx → EReal) (hw : Cert.Sketch.SH.Idx → BitVec 32) (sgn : Cert.Sketch.SH.Idx → EReal)
    (ρ : Fin 256 → Fin 4096)
    (v6 : Vec Ideal S256x4096 .f32) (v7 : Vec Ideal S4096x1 .i32) (v11 : Vec Ideal S4096x1 .f32)
    (h6 : ∀ (r : Fin 256) (j : Fin 4096), v6 (ix2 r j) = x (ix2 (ρ r) j))
    (h7 : ∀ j : Fin 4096, v7 (ix2 j (0 : Fin 1)) = hw (ix1 j))
    (h11 : ∀ j : Fin 4096, v11 (ix2 j (0 : Fin 1)) = sgn (ix1 j))
    (r : Fin 256) (m : Fin 2048) :
    k1_pay2 (F := Ideal) v6 (k1_pay1 (F := Ideal) v7 v11) (ix2 r m) = Cert.Sketch.G x hw sgn (ix2 (ρ r) m) := by
  rw [k1_pay2_apply]
  unfold Cert.Sketch.G
  refine Finset.sum_congr rfl fun j _ => ?_
  rw [k1_pay1_apply, h6, h7, h11]
  show x (ix2 (ρ r) j) * (if (hw (ix1 j)).toNat = m.val then sgn (ix1 j) else 0)
      = if (hw (ix1 j)).toNat = m.val then x (ix2 (ρ r) j) * sgn (ix1 j) else 0
  by_cases hb : (hw (ix1 j)).toNat = m.val
  · rw [if_pos hb, if_pos hb]
  · rw [if_neg hb, if_neg hb, mul_zero]

/-! ## One trip, from the sums after `n` trips to the sums after `n + 1` -/

/-- If the accumulator holds the sums after `n` trips, and the trip's bucket words, signs and eight loaded rows are
    the buffers' entries at the sixteen columns of block `n`, then after the trip's eight stores the accumulator
    holds the sums after `n + 1` trips. -/
theorem trip_accAfter (xbuf : S8x4096.Idx → EReal) (hv : S4096.Idx → BitVec 32) (sv : S4096.Idx → EReal) (n : Nat)
    (f : Vec Ideal S8x2048 .f32) (hf : ∀ (r : Fin 8) (m : Fin 2048), f (ix2 r m) = accAfter xbuf hv sv n r m)
    (idx : IVec S16 32) (sg : Vec Ideal S16 .f32)
    (ld0 ld1 ld2 ld3 ld4 ld5 ld6 ld7 : Vec Ideal S1x16 .f32) (hc : S1x16.ShapeCasts S16)
    (h0 : ∀ a x, ((![broadcast S16 0#32, idx] : Fin S8x2048.rank → IVec S16 32) a x).toNat < S8x2048.size a)
    (h1 : ∀ a x, ((![broadcast S16 1#32, idx] : Fin S8x2048.rank → IVec S16 32) a x).toNat < S8x2048.size a)
    (h2 : ∀ a x, ((![broadcast S16 2#32, idx] : Fin S8x2048.rank → IVec S16 32) a x).toNat < S8x2048.size a)
    (h3 : ∀ a x, ((![broadcast S16 3#32, idx] : Fin S8x2048.rank → IVec S16 32) a x).toNat < S8x2048.size a)
    (h4 : ∀ a x, ((![broadcast S16 4#32, idx] : Fin S8x2048.rank → IVec S16 32) a x).toNat < S8x2048.size a)
    (h5 : ∀ a x, ((![broadcast S16 5#32, idx] : Fin S8x2048.rank → IVec S16 32) a x).toNat < S8x2048.size a)
    (h6 : ∀ a x, ((![broadcast S16 6#32, idx] : Fin S8x2048.rank → IVec S16 32) a x).toNat < S8x2048.size a)
    (h7 : ∀ a x, ((![broadcast S16 7#32, idx] : Fin S8x2048.rank → IVec S16 32) a x).toNat < S8x2048.size a)
    (hidx : ∀ l : Fin 16, idx (ix1 l) = hv (ix1 (col n l)))
    (hsg : ∀ l : Fin 16, sg (ix1 l) = sv (ix1 (col n l)))
    (hld : ∀ (r : Fin 8) (l : Fin 16),
      (![ld0, ld1, ld2, ld3, ld4, ld5, ld6, ld7] r) (ix2 (0 : Fin 1) l) = xbuf (ix2 r (col n l)))
    (r : Fin 8) (m : Fin 2048) :
    (storeIdx (F := Ideal) (storeIdx (F := Ideal) (storeIdx (F := Ideal) (storeIdx (F := Ideal) (storeIdx (F := Ideal) (storeIdx (F := Ideal) (storeIdx (F := Ideal) (storeIdx (F := Ideal) f
        ![broadcast S16 0#32, idx] (mulf (F := Ideal) (φ := .f32) (shapeCast S16 ld0 hc) sg) (fun _ => 1#1) true h0)
        ![broadcast S16 1#32, idx] (mulf (F := Ideal) (φ := .f32) (shapeCast S16 ld1 hc) sg) (fun _ => 1#1) true h1)
        ![broadcast S16 2#32, idx] (mulf (F := Ideal) (φ := .f32) (shapeCast S16 ld2 hc) sg) (fun _ => 1#1) true h2)
        ![broadcast S16 3#32, idx] (mulf (F := Ideal) (φ := .f32) (shapeCast S16 ld3 hc) sg) (fun _ => 1#1) true h3)
        ![broadcast S16 4#32, idx] (mulf (F := Ideal) (φ := .f32) (shapeCast S16 ld4 hc) sg) (fun _ => 1#1) true h4)
        ![broadcast S16 5#32, idx] (mulf (F := Ideal) (φ := .f32) (shapeCast S16 ld5 hc) sg) (fun _ => 1#1) true h5)
        ![broadcast S16 6#32, idx] (mulf (F := Ideal) (φ := .f32) (shapeCast S16 ld6 hc) sg) (fun _ => 1#1) true h6)
        ![broadcast S16 7#32, idx] (mulf (F := Ideal) (φ := .f32) (shapeCast S16 ld7 hc) sg) (fun _ => 1#1) true h7) (ix2 r m)
      = accAfter xbuf hv sv (n + 1) r m := by
  rw [trip_apply, hf]
  refine Eq.trans (congrArg (accAfter xbuf hv sv n r m + ·) (Finset.sum_congr rfl fun l _ => ?_))
    (accAfter_step xbuf hv sv n idx sg ![ld0, ld1, ld2, ld3, ld4, ld5, ld6, ld7] hidx hsg hld r m)
  refine if_congr Iff.rfl ?_ rfl
  fin_cases r <;> exact rowProd_apply sg _ hc l

/-! ## The clearing loop

Before its trips a subcore clears the accumulator sixteen columns at a time: trip `k` of the clearing loop stores
the zero row at columns `16 k … 16 k + 15` of each of the eight rows. A later store hides an earlier one only where
their rectangles meet, and these eight rectangles are in eight different rows. -/

section Clear

variable {sig : RefSig} {κ : Kind} {sp : Space} {Val : EltTy → Type}

/-- One stored row of sixteen entries, all equal to `zero`, at row `j` and columns `16 k … 16 k + 15`: entry `(r, c)`
    reads `zero` under it and what the earlier stores left elsewhere. -/
theorem clear_piece_read (v : View sig κ sp S8x2048 .f32) (f : v.ty.Contents Val) (zero : Val .f32) (k j : ℕ)
    {o : Fin 2 → ℕ} (p : ∀ a, o a + S1x16.size a ≤ S8x2048.size a)
    (z : (Rect.unit (s := S8x2048) o S1x16.size p).shape.Idx → Val .f32) (L : List (View.Piece Val S8x2048 .f32))
    (e : o = ![j, 16 * k]) (hz : ∀ x, z x = zero) (r : Fin 8) (c : Fin 2048) :
    v.read Val (v.writes Val f ((⟨Rect.unit (s := S8x2048) o S1x16.size p, z⟩ : View.Piece Val S8x2048 .f32) :: L)) (ix2 r c)
      = if r.val = j ∧ 16 * k ≤ c.val ∧ c.val < 16 * k + 16 then zero else v.read Val (v.writes Val f L) (ix2 r c) := by
  rw [View.read_writes_cons_unit v f p z L (ix2 r c) e]
  by_cases h : r.val = j ∧ 16 * k ≤ c.val ∧ c.val < 16 * k + 16
  · rw [if_pos h, dif_pos]
    · exact hz _
    · intro a
      match a with
      | ⟨0, _⟩ => show j ≤ r.val ∧ r.val < j + 1; omega
      | ⟨1, _⟩ => show 16 * k ≤ c.val ∧ c.val < 16 * k + 16; exact h.2
  · rw [if_neg h, dif_neg]
    intro hall
    have h0 := hall 0
    have h1 := hall 1
    change j ≤ r.val ∧ r.val < j + 1 at h0
    change 16 * k ≤ c.val ∧ c.val < 16 * k + 16 at h1
    exact h ⟨by omega, h1⟩

/-- The eight stores of trip `k` of the clearing loop (the newest first: row 7 down to row 0): entry `(r, c)` reads
    `zero` when `16 k ≤ c < 16 k + 16`, and what the buffer held before elsewhere. -/
theorem clear_trip_read (v : View sig κ sp S8x2048 .f32) (f : v.ty.Contents Val) (zero : Val .f32) (k : ℕ)
    {o0 : Fin 2 → ℕ} (p0 : ∀ a, o0 a + S1x16.size a ≤ S8x2048.size a)
    (z0 : (Rect.unit (s := S8x2048) o0 S1x16.size p0).shape.Idx → Val .f32)
    {o1 : Fin 2 → ℕ} (p1 : ∀ a, o1 a + S1x16.size a ≤ S8x2048.size a)
    (z1 : (Rect.unit (s := S8x2048) o1 S1x16.size p1).shape.Idx → Val .f32)
    {o2 : Fin 2 → ℕ} (p2 : ∀ a, o2 a + S1x16.size a ≤ S8x2048.size a)
    (z2 : (Rect.unit (s := S8x2048) o2 S1x16.size p2).shape.Idx → Val .f32)
    {o3 : Fin 2 → ℕ} (p3 : ∀ a, o3 a + S1x16.size a ≤ S8x2048.size a)
    (z3 : (Rect.unit (s := S8x2048) o3 S1x16.size p3).shape.Idx → Val .f32)
    {o4 : Fin 2 → ℕ} (p4 : ∀ a, o4 a + S1x16.size a ≤ S8x2048.size a)
    (z4 : (Rect.unit (s := S8x2048) o4 S1x16.size p4).shape.Idx → Val .f32)
    {o5 : Fin 2 → ℕ} (p5 : ∀ a, o5 a + S1x16.size a ≤ S8x2048.size a)
    (z5 : (Rect.unit (s := S8x2048) o5 S1x16.size p5).shape.Idx → Val .f32)
    {o6 : Fin 2 → ℕ} (p6 : ∀ a, o6 a + S1x16.size a ≤ S8x2048.size a)
    (z6 : (Rect.unit (s := S8x2048) o6 S1x16.size p6).shape.Idx → Val .f32)
    {o7 : Fin 2 → ℕ} (p7 : ∀ a, o7 a + S1x16.size a ≤ S8x2048.size a)
    (z7 : (Rect.unit (s := S8x2048) o7 S1x16.size p7).shape.Idx → Val .f32)
    (e0 : o0 = ![0, 16 * k]) (hz0 : ∀ x, z0 x = zero)
    (e1 : o1 = ![1, 16 * k]) (hz1 : ∀ x, z1 x = zero)
    (e2 : o2 = ![2, 16 * k]) (hz2 : ∀ x, z2 x = zero)
    (e3 : o3 = ![3, 16 * k]) (hz3 : ∀ x, z3 x = zero)
    (e4 : o4 = ![4, 16 * k]) (hz4 : ∀ x, z4 x = zero)
    (e5 : o5 = ![5, 16 * k]) (hz5 : ∀ x, z5 x = zero)
    (e6 : o6 = ![6, 16 * k]) (hz6 : ∀ x, z6 x = zero)
    (e7 : o7 = ![7, 16 * k]) (hz7 : ∀ x, z7 x = zero)
    (r : Fin 8) (c : Fin 2048) :
    v.read Val (v.writes Val f
      [(⟨Rect.unit (s := S8x2048) o7 S1x16.size p7, z7⟩ : View.Piece Val S8x2048 .f32),
        (⟨Rect.unit (s := S8x2048) o6 S1x16.size p6, z6⟩ : View.Piece Val S8x2048 .f32),
        (⟨Rect.unit (s := S8x2048) o5 S1x16.size p5, z5⟩ : View.Piece Val S8x2048 .f32),
        (⟨Rect.unit (s := S8x2048) o4 S1x16.size p4, z4⟩ : View.Piece Val S8x2048 .f32),
        (⟨Rect.unit (s := S8x2048) o3 S1x16.size p3, z3⟩ : View.Piece Val S8x2048 .f32),
        (⟨Rect.unit (s := S8x2048) o2 S1x16.size p2, z2⟩ : View.Piece Val S8x2048 .f32),
        (⟨Rect.unit (s := S8x2048) o1 S1x16.size p1, z1⟩ : View.Piece Val S8x2048 .f32),
        (⟨Rect.unit (s := S8x2048) o0 S1x16.size p0, z0⟩ : View.Piece Val S8x2048 .f32)]) (ix2 r c)
      = if 16 * k ≤ c.val ∧ c.val < 16 * k + 16 then zero else v.read Val f (ix2 r c) := by
  rw [clear_piece_read v f zero k 7 p7 z7 _ e7 hz7, clear_piece_read v f zero k 6 p6 z6 _ e6 hz6,
    clear_piece_read v f zero k 5 p5 z5 _ e5 hz5, clear_piece_read v f zero k 4 p4 z4 _ e4 hz4,
    clear_piece_read v f zero k 3 p3 z3 _ e3 hz3, clear_piece_read v f zero k 2 p2 z2 _ e2 hz2,
    clear_piece_read v f zero k 1 p1 z1 _ e1 hz1, clear_piece_read v f zero k 0 p0 z0 _ e0 hz0, View.writes_nil]
  by_cases hR : 16 * k ≤ c.val ∧ c.val < 16 * k + 16
  · fin_cases r <;> simp [hR]
  · simp [hR]

/-- The clearing loop's invariant: if every entry of the columns before `16 k` reads `zero`, then after trip `k`
    every entry of the columns before `16 (k + 1)` does. -/
theorem clear_trip_invariant (v : View sig κ sp S8x2048 .f32) (f : v.ty.Contents Val) (zero : Val .f32) (k : ℕ)
    {o0 : Fin 2 → ℕ} (p0 : ∀ a, o0 a + S1x16.size a ≤ S8x2048.size a)
    (z0 : (Rect.unit (s := S8x2048) o0 S1x16.size p0).shape.Idx → Val .f32)
    {o1 : Fin 2 → ℕ} (p1 : ∀ a, o1 a + S1x16.size a ≤ S8x2048.size a)
    (z1 : (Rect.unit (s := S8x2048) o1 S1x16.size p1).shape.Idx → Val .f32)
    {o2 : Fin 2 → ℕ} (p2 : ∀ a, o2 a + S1x16.size a ≤ S8x2048.size a)
    (z2 : (Rect.unit (s := S8x2048) o2 S1x16.size p2).shape.Idx → Val .f32)
    {o3 : Fin 2 → ℕ} (p3 : ∀ a, o3 a + S1x16.size a ≤ S8x2048.size a)
    (z3 : (Rect.unit (s := S8x2048) o3 S1x16.size p3).shape.Idx → Val .f32)
    {o4 : Fin 2 → ℕ} (p4 : ∀ a, o4 a + S1x16.size a ≤ S8x2048.size a)
    (z4 : (Rect.unit (s := S8x2048) o4 S1x16.size p4).shape.Idx → Val .f32)
    {o5 : Fin 2 → ℕ} (p5 : ∀ a, o5 a + S1x16.size a ≤ S8x2048.size a)
    (z5 : (Rect.unit (s := S8x2048) o5 S1x16.size p5).shape.Idx → Val .f32)
    {o6 : Fin 2 → ℕ} (p6 : ∀ a, o6 a + S1x16.size a ≤ S8x2048.size a)
    (z6 : (Rect.unit (s := S8x2048) o6 S1x16.size p6).shape.Idx → Val .f32)
    {o7 : Fin 2 → ℕ} (p7 : ∀ a, o7 a + S1x16.size a ≤ S8x2048.size a)
    (z7 : (Rect.unit (s := S8x2048) o7 S1x16.size p7).shape.Idx → Val .f32)
    (e0 : o0 = ![0, 16 * k]) (hz0 : ∀ x, z0 x = zero)
    (e1 : o1 = ![1, 16 * k]) (hz1 : ∀ x, z1 x = zero)
    (e2 : o2 = ![2, 16 * k]) (hz2 : ∀ x, z2 x = zero)
    (e3 : o3 = ![3, 16 * k]) (hz3 : ∀ x, z3 x = zero)
    (e4 : o4 = ![4, 16 * k]) (hz4 : ∀ x, z4 x = zero)
    (e5 : o5 = ![5, 16 * k]) (hz5 : ∀ x, z5 x = zero)
    (e6 : o6 = ![6, 16 * k]) (hz6 : ∀ x, z6 x = zero)
    (e7 : o7 = ![7, 16 * k]) (hz7 : ∀ x, z7 x = zero)
    (hf : ∀ (r : Fin 8) (c : Fin 2048), c.val < 16 * k → v.read Val f (ix2 r c) = zero)
    (r : Fin 8) (c : Fin 2048) (hc : c.val < 16 * (k + 1)) :
    v.read Val (v.writes Val f
      [(⟨Rect.unit (s := S8x2048) o7 S1x16.size p7, z7⟩ : View.Piece Val S8x2048 .f32),
        (⟨Rect.unit (s := S8x2048) o6 S1x16.size p6, z6⟩ : View.Piece Val S8x2048 .f32),
        (⟨Rect.unit (s := S8x2048) o5 S1x16.size p5, z5⟩ : View.Piece Val S8x2048 .f32),
        (⟨Rect.unit (s := S8x2048) o4 S1x16.size p4, z4⟩ : View.Piece Val S8x2048 .f32),
        (⟨Rect.unit (s := S8x2048) o3 S1x16.size p3, z3⟩ : View.Piece Val S8x2048 .f32),
        (⟨Rect.unit (s := S8x2048) o2 S1x16.size p2, z2⟩ : View.Piece Val S8x2048 .f32),
        (⟨Rect.unit (s := S8x2048) o1 S1x16.size p1, z1⟩ : View.Piece Val S8x2048 .f32),
        (⟨Rect.unit (s := S8x2048) o0 S1x16.size p0, z0⟩ : View.Piece Val S8x2048 .f32)]) (ix2 r c) = zero := by
  rw [clear_trip_read v f zero k p0 z0 p1 z1 p2 z2 p3 z3 p4 z4 p5 z5 p6 z6 p7 z7 e0 hz0 e1 hz1 e2 hz2 e3 hz3 e4 hz4 e5 hz5 e6 hz6 e7 hz7 r c]
  by_cases hR : 16 * k ≤ c.val ∧ c.val < 16 * k + 16
  · rw [if_pos hR]
  · rw [if_neg hR]
    exact hf r c (by omega)

end Clear

/-! The stored zero row, whatever the number type: every entry is the zero word's value. One statement for each of
the four copies of the clearing loop. -/

theorem zeroRow1_word {F : FTy → Type} [FloatOps F] (hc : S16.ShapeCasts S1x16) (y : S1x16.Idx) :
    shapeCast S1x16 (k0_pay1 (F := F)) hc y = Scalar.ofBits .f32 0x00000000#32 := rfl

theorem zeroRow25_word {F : FTy → Type} [FloatOps F] (hc : S16.ShapeCasts S1x16) (y : S1x16.Idx) :
    shapeCast S1x16 (k0_pay25 (F := F)) hc y = Scalar.ofBits .f32 0x00000000#32 := rfl

theorem zeroRow29_word {F : FTy → Type} [FloatOps F] (hc : S16.ShapeCasts S1x16) (y : S1x16.Idx) :
    shapeCast S1x16 (k0_pay29 (F := F)) hc y = Scalar.ofBits .f32 0x00000000#32 := rfl

theorem zeroRow33_word {F : FTy → Type} [FloatOps F] (hc : S16.ShapeCasts S1x16) (y : S1x16.Idx) :
    shapeCast S1x16 (k0_pay33 (F := F)) hc y = Scalar.ofBits .f32 0x00000000#32 := rfl

end Cert.Sketch.Math

end
-- ==== Proof.Common.lean ====
/-
  The program as the launch theorem sees it: the labels, the SparseCore configuration, the body table, the ghost
  state (the handshakes' rounds, the pipeline cells' rounds, the local transfers' counters), and the names of the
  arrays as each processor addresses them.
-/
import proofs.«204905_g71433896067310_cont_9to1c4b_220_29_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204905_g71433896067310_cont_9to1c4b_220_29_alg».proof.Proof.Gen.KernelIdeal
import proofs.«204905_g71433896067310_cont_9to1c4b_220_29_alg».proof.Proof.Gen.KernelIdeal.Skeleton

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline cells' rounds, the local transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

/-- The three arguments and the SparseCore call's result, as locations of device `d`. -/
abbrev xLoc (d : Dev nD) : Loc nD τ sig := (SparseCore.T d).loc main_arg0
abbrev hLoc (d : Dev nD) : Loc nD τ sig := (SparseCore.T d).loc main_arg1
abbrev sLoc (d : Dev nD) : Loc nD τ sig := (SparseCore.T d).loc main_arg2
abbrev oLoc (d : Dev nD) : Loc nD τ sig := (SparseCore.T d).loc main_v0

end Cert.Proof.KernelIdeal

end
-- ==== Proof.TileRes.lean ====
/-
  A vector subcore's own storage, opened: its five scratch buffers and its eight DMA semaphores, each by name,
  and the rest.
-/
import proofs.«204905_g71433896067310_cont_9to1c4b_220_29_alg».proof.Proof.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

/-- The DMA semaphore cells of the tile: the two slots' and the six copies'. -/
abbrev cellA : GSem nD τ sig := (V d c i, .dma cc0_scratch5.sem)
abbrev cellB : GSem nD τ sig := (V d c i, .dma cc0_scratch6.sem)
abbrev cell0 : GSem nD τ sig := (V d c i, .dma cc0_scoped0.sem)
abbrev cell1 : GSem nD τ sig := (V d c i, .dma cc0_scoped1.sem)
abbrev cell2 : GSem nD τ sig := (V d c i, .dma cc0_scoped2.sem)
abbrev cell3 : GSem nD τ sig := (V d c i, .dma cc0_scoped3.sem)
abbrev cell4 : GSem nD τ sig := (V d c i, .dma cc0_scoped4.sem)
abbrev cell5 : GSem nD τ sig := (V d c i, .dma cc0_scoped5.sem)

theorem mem_own (sm : DmaSem sig) (h : (SemLoc.dma sm : SemLoc sig).isScoped .scVector = true) :
    ((V d c i, .dma sm) : GSem nD τ sig) ∈ ownCells (V d c i) := (mem_ownCells (g := (V d c i, .dma sm))).mpr ⟨rfl, h⟩

theorem ne_cell {a b : DmaSem sig} (h : a ≠ b) : ((V d c i, .dma a) : GSem nD τ sig) ≠ (V d c i, .dma b) :=
  fun e => h (SemLoc.dma.inj (Prod.mk.inj e).2)

theorem ownSems0_V :
    (ownSems0 (V d c i) : sProp 𝕄)
      = iprop(semVal (cellA d c i) 0 ∗ semVal (cellB d c i) 0 ∗ semVal (cell0 d c i) 0 ∗ semVal (cell1 d c i) 0 ∗ semVal (cell2 d c i) 0
          ∗ semVal (cell3 d c i) 0 ∗ semVal (cell4 d c i) 0 ∗ semVal (cell5 d c i) 0
          ∗ bigSep (((((((((ownCells (V d c i)).erase (cellA d c i)).erase (cellB d c i)).erase (cell0 d c i)).erase (cell1 d c i)).erase (cell2 d c i)).erase
              (cell3 d c i)).erase (cell4 d c i)).erase (cell5 d c i)) fun g => semVal g 0) := by
  unfold SparseCore.Cfg.ownSems0
  rw [SparseCore.bigSep_erase' (mem_own d c i cc0_scratch5.sem (by decide)),
    SparseCore.bigSep_erase' (Finset.mem_erase.mpr ⟨ne_cell d c i (a := cc0_scratch6.sem) (b := cc0_scratch5.sem) (by decide), mem_own d c i cc0_scratch6.sem (by decide)⟩),
    SparseCore.bigSep_erase' (Finset.mem_erase.mpr ⟨ne_cell d c i (a := cc0_scoped0.sem) (b := cc0_scratch6.sem) (by decide), Finset.mem_erase.mpr ⟨ne_cell d c i (a := cc0_scoped0.sem) (b := cc0_scratch5.sem) (by decide), mem_own d c i cc0_scoped0.sem (by decide)⟩⟩),
    SparseCore.bigSep_erase' (Finset.mem_erase.mpr ⟨ne_cell d c i (a := cc0_scoped1.sem) (b := cc0_scoped0.sem) (by decide), Finset.mem_erase.mpr ⟨ne_cell d c i (a := cc0_scoped1.sem) (b := cc0_scratch6.sem) (by decide), Finset.mem_erase.mpr ⟨ne_cell d c i (a := cc0_scoped1.sem) (b := cc0_scratch5.sem) (by decide), mem_own d c i cc0_scoped1.sem (by decide)⟩⟩⟩),
    SparseCore.bigSep_erase' (Finset.mem_erase.mpr ⟨ne_cell d c i (a := cc0_scoped2.sem) (b := cc0_scoped1.sem) (by decide), Finset.mem_erase.mpr ⟨ne_cell d c i (a := cc0_scoped2.sem) (b := cc0_scoped0.sem) (by decide), Finset.mem_erase.mpr ⟨ne_cell d c i (a := cc0_scoped2.sem) (b := cc0_scratch6.sem) (by decide), Finset.mem_erase.mpr ⟨ne_cell d c i (a := cc0_scoped2.sem) (b := cc0_scratch5.sem) (by decide), mem_own d c i cc0_scoped2.sem (by decide)⟩⟩⟩⟩),
    SparseCore.bigSep_erase' (Finset.mem_erase.mpr ⟨ne_cell d c i (a := cc0_scoped3.sem) (b := cc0_scoped2.sem) (by decide), Finset.mem_erase.mpr ⟨ne_cell d c i (a := cc0_scoped3.sem) (b := cc0_scoped1.sem) (by decide), Finset.mem_erase.mpr ⟨ne_cell d c i (a := cc0_scoped3.sem) (b := cc0_scoped0.sem) (by decide), Finset.mem_erase.mpr ⟨ne_cell d c i (a := cc0_scoped3.sem) (b := cc0_scratch6.sem) (by decide), Finset.mem_erase.mpr ⟨ne_cell d c i (a := cc0_scoped3.sem) (b := cc0_scratch5.sem) (by decide), mem_own d c i cc0_scoped3.sem (by decide)⟩⟩⟩⟩⟩),
    SparseCore.bigSep_erase' (Finset.mem_erase.mpr ⟨ne_cell d c i (a := cc0_scoped4.sem) (b := cc0_scoped3.sem) (by decide), Finset.mem_erase.mpr ⟨ne_cell d c i (a := cc0_scoped4.sem) (b := cc0_scoped2.sem) (by decide), Finset.mem_erase.mpr ⟨ne_cell d c i (a := cc0_scoped4.sem) (b := cc0_scoped1.sem) (by decide), Finset.mem_erase.mpr ⟨ne_cell d c i (a := cc0_scoped4.sem) (b := cc0_scoped0.sem) (by decide), Finset.mem_erase.mpr ⟨ne_cell d c i (a := cc0_scoped4.sem) (b := cc0_scratch6.sem) (by decide), Finset.mem_erase.mpr ⟨ne_cell d c i (a := cc0_scoped4.sem) (b := cc0_scratch5.sem) (by decide), mem_own d c i cc0_scoped4.sem (by decide)⟩⟩⟩⟩⟩⟩),
    SparseCore.bigSep_erase' (Finset.mem_erase.mpr ⟨ne_cell d c i (a := cc0_scoped5.sem) (b := cc0_scoped4.sem) (by decide), Finset.mem_erase.mpr ⟨ne_cell d c i (a := cc0_scoped5.sem) (b := cc0_scoped3.sem) (by decide), Finset.mem_erase.mpr ⟨ne_cell d c i (a := cc0_scoped5.sem) (b := cc0_scoped2.sem) (by decide), Finset.mem_erase.mpr ⟨ne_cell d c i (a := cc0_scoped5.sem) (b := cc0_scoped1.sem) (by decide), Finset.mem_erase.mpr ⟨ne_cell d c i (a := cc0_scoped5.sem) (b := cc0_scoped0.sem) (by decide), Finset.mem_erase.mpr ⟨ne_cell d c i (a := cc0_scoped5.sem) (b := cc0_scratch6.sem) (by decide), Finset.mem_erase.mpr ⟨ne_cell d c i (a := cc0_scoped5.sem) (b := cc0_scratch5.sem) (by decide), mem_own d c i cc0_scoped5.sem (by decide)⟩⟩⟩⟩⟩⟩⟩)]

abbrev bufRef (b : Ref sig .scVector) : DevRef τ sig := (Proc.scVector c i).devRef b

theorem mem_ownRef (b : Ref sig .scVector) (h : (bufRef c i b).owner = Owner.proc (Proc.scVector c i)) : bufRef c i b ∈ ownRefs (τ := τ) (.scVector c i) :=
  SparseCore.Cfg.mem_ownRefs_of_owner (p := Proc.scVector c i) (b := bufRef c i b) h
theorem ne_ref {a b : Ref sig .scVector} (h : a ≠ b) : bufRef c i a ≠ bufRef c i b :=
  fun e => h (Proc.devRef_injective _ e)

/-- The five scratch buffers are among the subcore's own: they are them, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (.scVector c i)).erase (bufRef c i cc0_scratch0)).erase (bufRef c i cc0_scratch1)).erase
              (bufRef c i cc0_scratch2)).erase (bufRef c i cc0_scratch3)).erase (bufRef c i cc0_scratch4))
              fun b => iprop(∃ f, ((d, b) : Loc nD τ sig) ↦{fullShare} f)) := by
  unfold SparseCore.Cfg.ownBufs
  refine (SparseCore.bigSep_erase' (mem_ownRef c i cc0_scratch0 rfl)).trans ?_
  rw [SparseCore.bigSep_erase' (Finset.mem_erase.mpr ⟨ne_ref c i (a := cc0_scratch1) (b := cc0_scratch0) (by decide), mem_ownRef c i cc0_scratch1 rfl⟩),
    SparseCore.bigSep_erase' (Finset.mem_erase.mpr ⟨ne_ref c i (a := cc0_scratch2) (b := cc0_scratch1) (by decide), Finset.mem_erase.mpr ⟨ne_ref c i (a := cc0_scratch2) (b := cc0_scratch0) (by decide), mem_ownRef c i cc0_scratch2 rfl⟩⟩),
    SparseCore.bigSep_erase' (Finset.mem_erase.mpr ⟨ne_ref c i (a := cc0_scratch3) (b := cc0_scratch2) (by decide), Finset.mem_erase.mpr ⟨ne_ref c i (a := cc0_scratch3) (b := cc0_scratch1) (by decide), Finset.mem_erase.mpr ⟨ne_ref c i (a := cc0_scratch3) (b := cc0_scratch0) (by decide), mem_ownRef c i cc0_scratch3 rfl⟩⟩⟩),
    SparseCore.bigSep_erase' (Finset.mem_erase.mpr ⟨ne_ref c i (a := cc0_scratch4) (b := cc0_scratch3) (by decide), Finset.mem_erase.mpr ⟨ne_ref c i (a := cc0_scratch4) (b := cc0_scratch2) (by decide), Finset.mem_erase.mpr ⟨ne_ref c i (a := cc0_scratch4) (b := cc0_scratch1) (by decide), Finset.mem_erase.mpr ⟨ne_ref c i (a := cc0_scratch4) (b := cc0_scratch0) (by decide), mem_ownRef c i cc0_scratch4 rfl⟩⟩⟩⟩)]

end Cert.Proof.KernelIdeal

end
-- ==== Proof.TileDefs.lean ====
/-
  A vector subcore's task: its thread, the rows of the call's result it writes, what it is handed and hands back.
-/
import proofs.«204905_g71433896067310_cont_9to1c4b_220_29_alg».proof.Proof.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The processor coordinates `(c, s)` as the kernel's function takes them. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The eight rows of the call's result that the task writes in its `t`-th round, as the task slices them:
    rows `64 s + 32 c + 8 t … + 8` of the `[1024, 2048]` array. -/
abbrev oSl (L : grid0.Coords) (t : Fin 4) : Memref sig .scVector .hbm S8x2048 .f32 :=
  (Memref.whole main_v0_scv : Memref sig .scVector .hbm S1024x2048 .f32).slice
    (Rect.unit (s := S1024x2048) (k0_off19 L (BitVec.ofNat 32 (8 * t.val))) S8x2048.size (k0_off19_inb L t)) (fun _ => rfl)

variable (d : Dev nD) (L : grid0.Coords)

/-- The elements of the call's result under those rows. -/
def oSet (t : Fin 4) : Finset (Idx (oLoc d)) := (oSl L t).view.set

/-- What the task is handed: the three arguments whole at read shares, its thirty-two rows of the result in four pieces. -/
def tileIn (qx qh qs : PosShare TreeShare) (fo : Buf (Elt F) (oLoc d)) : sProp 𝕄 :=
  iprop((xLoc d ↦{qx} m (xLoc d)) ∗ (hLoc d ↦{qh} m (hLoc d)) ∗ (sLoc d ↦{qs} m (sLoc d))
    ∗ (oLoc d ↦[oSet d L 0]{fullShare} fo) ∗ (oLoc d ↦[oSet d L 1]{fullShare} fo) ∗ (oLoc d ↦[oSet d L 2]{fullShare} fo) ∗ (oLoc d ↦[oSet d L 3]{fullShare} fo))
/-- What it hands back: the arguments, and each piece of the result at contents of which `Ψ` holds. -/
def tileOut (Ψ : Fin 4 → Buf (Elt F) (oLoc d) → Prop) (qx qh qs : PosShare TreeShare) : sProp 𝕄 :=
  iprop((xLoc d ↦{qx} m (xLoc d)) ∗ (hLoc d ↦{qh} m (hLoc d)) ∗ (sLoc d ↦{qs} m (sLoc d))
    ∗ (∃ f, ⌜Ψ 0 f⌝ ∗ oLoc d ↦[oSet d L 0]{fullShare} f) ∗ (∃ f, ⌜Ψ 1 f⌝ ∗ oLoc d ↦[oSet d L 1]{fullShare} f)
    ∗ (∃ f, ⌜Ψ 2 f⌝ ∗ oLoc d ↦[oSet d L 2]{fullShare} f) ∗ (∃ f, ⌜Ψ 3 f⌝ ∗ oLoc d ↦[oSet d L 3]{fullShare} f))

end Cert.Proof.KernelIdeal

end
-- ==== Proof.Vsi.lean ====
/-
  The indexed add-store into the task's accumulator, as one step.
-/
import proofs.«204905_g71433896067310_cont_9to1c4b_220_29_alg».proof.Proof.Common
import proofs.«204905_g71433896067310_cont_9to1c4b_220_29_alg».proof.Proof.TileDefs

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "cS" => (Memref.whole Cert.KernelIdeal.cc0_scratch4 : Memref Cert.KernelIdeal.sig Kind.scVector Space.vmem Cert.KernelIdeal.S8x2048 EltTy.f32)

variable [FloatOps F] (d : Dev nD) (L : grid0.Coords)

omit [FloatOps F] in
theorem pts_acc (f : Buf (Elt F) ((thr d L).loc cc0_scratch4)) :
    ((((cS).access (.whole S8x2048)).loc (thr d L) ↦[((cS).access (.whole S8x2048)).set]{fullShare} f : sProp 𝕄))
      = ((cS).view.loc (thr d L) ↦{fullShare} f) := by
  rw [show ((cS).access (.whole S8x2048)).set = Finset.univ from Memref.set_access_whole cc0_scratch4]

omit [FloatOps F] in
/-- The side condition an indexed store assumes of its index vectors: the row word below 8, the bucket words below 2048. -/
theorem chk_ok (v40 v : IVec S16 32) (c : BitVec 32) (hc : c.toNat < 8) (hv : v = broadcast S16 c) (h40 : ∀ x, (v40 x).toNat < 2048) :
    ∀ a x, ((![v, v40] : Fin 2 → IVec S16 32) a x).toNat < S8x2048.size a := by
  intro a x
  match a with
  | 0 => subst hv; exact hc
  | 1 => exact h40 x

/-- The indexed add-store into the accumulator held whole: it goes on with the accumulator at some contents. -/
theorem wp_vsi {α : Type} {idxs : Fin S8x2048.rank → IVec S16 32} {v : Vec F S16 .f32} {mask : IVec S16 1} {add : Bool}
    {h : ∀ a x, (idxs a x).toNat < S8x2048.size a} {hs : ((cS).access (.whole S8x2048)).Stores Finset.univ}
    {k : PUnit → Prog (TpuEff nD τ sig (Elt F) Λ₀ (thr d L).2) α} {Q : α → sProp 𝕄} (f : Buf (Elt F) ((thr d L).loc cc0_scratch4)) :
    ((cS).view.loc (thr d L) ↦{fullShare} f : sProp 𝕄)
      ⊢ iprop(((∃ f', (cS).view.loc (thr d L) ↦{fullShare} f') -∗ wp frame (wpE (defs₀ (F := F)) 𝒱₀ (thr d L) none) Set.univ (k ⟨⟩) Q)
        -∗ wp frame (wpE (defs₀ (F := F)) 𝒱₀ (thr d L) none) Set.univ (SparseCore.vectorStoreIdx (cS) idxs v mask add h hs >>= k) Q) := by
  iintro H Hk
  ihave H := (Entails.of_eq (pts_acc (F := F) d L f).symm) $$ H
  iapply (SparseCore.wp_vectorStoreIdx (defs := defs₀ (F := F)) 𝒱₀ (thr d L) none Set.univ (base := cS) (idxs := idxs) (v := v) (mask := mask) (add := add)
    (h := h) (hs := hs) (k := k) (f := f) (Q := Q)) $$ H
  iintro H
  ihave H := (Entails.of_eq (pts_acc (F := F) d L _)) $$ H
  iapply Hk
  iexists _; iexact H

/-- The same with the contents named: the accumulator goes on at `storeIdx` of what it held. -/
theorem wp_vsiV {α : Type} {idxs : Fin S8x2048.rank → IVec S16 32} {v : Vec F S16 .f32} {mask : IVec S16 1} {add : Bool}
    {h : ∀ a x, (idxs a x).toNat < S8x2048.size a} {hs : ((cS).access (.whole S8x2048)).Stores Finset.univ}
    {k : PUnit → Prog (TpuEff nD τ sig (Elt F) Λ₀ (thr d L).2) α} {Q : α → sProp 𝕄} (f : Buf (Elt F) ((thr d L).loc cc0_scratch4)) :
    ((cS).view.loc (thr d L) ↦{fullShare} f : sProp 𝕄)
      ⊢ iprop((((cS).view.loc (thr d L) ↦{fullShare} (storeIdx (F := F) f idxs v mask add h : Buf (Elt F) ((thr d L).loc cc0_scratch4)))
          -∗ wp frame (wpE (defs₀ (F := F)) 𝒱₀ (thr d L) none) Set.univ (k ⟨⟩) Q)
        -∗ wp frame (wpE (defs₀ (F := F)) 𝒱₀ (thr d L) none) Set.univ (SparseCore.vectorStoreIdx (cS) idxs v mask add h hs >>= k) Q) := by
  iintro H Hk
  ihave H := (Entails.of_eq (pts_acc (F := F) d L f).symm) $$ H
  iapply (SparseCore.wp_vectorStoreIdx (defs := defs₀ (F := F)) 𝒱₀ (thr d L) none Set.univ (base := cS) (idxs := idxs) (v := v) (mask := mask) (add := add)
    (h := h) (hs := hs) (k := k) (f := f) (Q := Q)) $$ H
  iintro H
  ihave H := (Entails.of_eq (pts_acc (F := F) d L _)) $$ H
  iapply Hk
  have e : (((cS).access (.whole S8x2048)).write (Elt F) f (storeIdx (((cS).access (.whole S8x2048)).read (Elt F) f) idxs v mask add h) Finset.univ)
      = (storeIdx (F := F) f idxs v mask add h : Buf (Elt F) ((thr d L).loc cc0_scratch4)) :=
    (Memref.write_access_whole_univ (Elt F) cc0_scratch4 f _).trans
      (congrArg (fun g => storeIdx (F := F) g idxs v mask add h) (Memref.read_access_whole (Elt F) cc0_scratch4 f))
  ihave H := (Entails.of_eq (congrArg (fun g : Buf (Elt F) ((thr d L).loc cc0_scratch4) => ((cS).view.loc (thr d L) ↦{fullShare} g : sProp 𝕄)) e)) $$ H
  iexact H

/-- The same at the store's two steps spelt out: a load of the whole accumulator, then a store of the whole of it. -/
theorem wp_vsiU {α : Type} {idxs : Fin S8x2048.rank → IVec S16 32} {v : Vec F S16 .f32} {mask : IVec S16 1} {add : Bool}
    {h : ∀ a x, (idxs a x).toNat < S8x2048.size a} {hs : ((cS).access (.whole S8x2048)).Stores Finset.univ}
    {k : PUnit → Prog (TpuEff nD τ sig (Elt F) Λ₀ (thr d L).2) α} {Q : α → sProp 𝕄} (f : Buf (Elt F) ((thr d L).loc cc0_scratch4)) :
    ((cS).view.loc (thr d L) ↦{fullShare} f : sProp 𝕄)
      ⊢ iprop((((cS).view.loc (thr d L) ↦{fullShare} (storeIdx (F := F) f idxs v mask add h : Buf (Elt F) ((thr d L).loc cc0_scratch4)))
          -∗ wp frame (wpE (defs₀ (F := F)) 𝒱₀ (thr d L) none) Set.univ (k ⟨⟩) Q)
        -∗ wp frame (wpE (defs₀ (F := F)) 𝒱₀ (thr d L) none) Set.univ
          (Prog.op (TpuEff.load (cS) (.whole S8x2048) (View.loadsAt_rect hs.loads)) fun f' =>
            Prog.op (TpuEff.store (cS) (.whole S8x2048) (storeIdx (F := F) f' idxs v mask add h) Finset.univ hs (.inl rfl)) k) Q) := by
  exact wp_vsiV (F := F) d L (idxs := idxs) (v := v) (mask := mask) (add := add) (h := h) (hs := hs) (k := k) (Q := Q) f

end Cert.Proof.KernelIdeal

end
-- ==== Proof.Body.lean ====
/-
  One vector subcore's task.
-/
import proofs.«204905_g71433896067310_cont_9to1c4b_220_29_alg».proof.Proof.Common
import proofs.«204905_g71433896067310_cont_9to1c4b_220_29_alg».proof.Proof.TileRes
import proofs.«204905_g71433896067310_cont_9to1c4b_220_29_alg».proof.Proof.TileDefs
import proofs.«204905_g71433896067310_cont_9to1c4b_220_29_alg».proof.Proof.Vsi

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S4096x4096 EltTy.f32)
local notation "hW" => (Memref.whole Cert.KernelIdeal.main_arg1_scv : Memref Cert.KernelIdeal.sig Kind.scVector Space.hbm Cert.KernelIdeal.S4096 EltTy.i32)
local notation "sW" => (Memref.whole Cert.KernelIdeal.main_arg2_scv : Memref Cert.KernelIdeal.sig Kind.scVector Space.hbm Cert.KernelIdeal.S4096 EltTy.f32)
local notation "oW" => (Memref.whole Cert.KernelIdeal.main_v0_scv : Memref Cert.KernelIdeal.sig Kind.scVector Space.hbm Cert.KernelIdeal.S1024x2048 EltTy.f32)
local notation "hS" => (Memref.whole Cert.KernelIdeal.cc0_scratch0 : Memref Cert.KernelIdeal.sig Kind.scVector Space.vmem Cert.KernelIdeal.S4096 EltTy.i32)
local notation "sS" => (Memref.whole Cert.KernelIdeal.cc0_scratch1 : Memref Cert.KernelIdeal.sig Kind.scVector Space.vmem Cert.KernelIdeal.S4096 EltTy.f32)
local notation "aS" => (Memref.whole Cert.KernelIdeal.cc0_scratch2 : Memref Cert.KernelIdeal.sig Kind.scVector Space.vmem Cert.KernelIdeal.S8x4096 EltTy.f32)
local notation "bS" => (Memref.whole Cert.KernelIdeal.cc0_scratch3 : Memref Cert.KernelIdeal.sig Kind.scVector Space.vmem Cert.KernelIdeal.S8x4096 EltTy.f32)
local notation "cS" => (Memref.whole Cert.KernelIdeal.cc0_scratch4 : Memref Cert.KernelIdeal.sig Kind.scVector Space.vmem Cert.KernelIdeal.S8x2048 EltTy.f32)

variable [FloatOps F]

section Tile

variable (d : Dev nD) (L : grid0.Coords)

omit [FloatOps F] in
theorem pts_x (q : PosShare TreeShare) (f : Buf (Elt F) (xLoc d)) :
    ((xW).view.loc (thr d L) ↦{q} f : sProp 𝕄) = xLoc d ↦{q} f := by
  simp only [Memref.view_whole, View.set_whole]
omit [FloatOps F] in
theorem pts_h (q : PosShare TreeShare) (f : Buf (Elt F) (hLoc d)) :
    ((hW).view.loc (thr d L) ↦{q} f : sProp 𝕄) = hLoc d ↦{q} f := by
  simp only [Memref.view_whole, View.set_whole]
omit [FloatOps F] in
theorem pts_s (q : PosShare TreeShare) (f : Buf (Elt F) (sLoc d)) :
    ((sW).view.loc (thr d L) ↦{q} f : sProp 𝕄) = sLoc d ↦{q} f := by
  simp only [Memref.view_whole, View.set_whole]
omit [FloatOps F] in
theorem pts_o (t : Fin 4) (f : Buf (Elt F) (oLoc d)) :
    ((oSl L t).view.loc (thr d L) ↦[(oSl L t).view.set]{fullShare} f : sProp 𝕄) = oLoc d ↦[oSet d L t]{fullShare} f := rfl
omit [FloatOps F] in
theorem pts_b0 (f : Buf (Elt F) ((thr d L).loc cc0_scratch0)) : ((hS).view.loc (thr d L) ↦{fullShare} f : sProp 𝕄) = (thr d L).loc cc0_scratch0 ↦{fullShare} f := rfl
omit [FloatOps F] in
theorem pts_b1 (f : Buf (Elt F) ((thr d L).loc cc0_scratch1)) : ((sS).view.loc (thr d L) ↦{fullShare} f : sProp 𝕄) = (thr d L).loc cc0_scratch1 ↦{fullShare} f := rfl
omit [FloatOps F] in
theorem pts_b2 (f : Buf (Elt F) ((thr d L).loc cc0_scratch2)) : ((aS).view.loc (thr d L) ↦{fullShare} f : sProp 𝕄) = (thr d L).loc cc0_scratch2 ↦{fullShare} f := rfl
omit [FloatOps F] in
theorem pts_b3 (f : Buf (Elt F) ((thr d L).loc cc0_scratch3)) : ((bS).view.loc (thr d L) ↦{fullShare} f : sProp 𝕄) = (thr d L).loc cc0_scratch3 ↦{fullShare} f := rfl
omit [FloatOps F] in
theorem pts_b4 (f : Buf (Elt F) ((thr d L).loc cc0_scratch4)) : ((cS).view.loc (thr d L) ↦{fullShare} f : sProp 𝕄) = (thr d L).loc cc0_scratch4 ↦{fullShare} f := rfl

omit [FloatOps F] in
/-- A buffer's contents named. -/
theorem pts_name {ℓ : Loc nD τ sig} {q : PosShare TreeShare} (f : Buf (Elt F) ℓ) :
    (ℓ ↦{q} f : sProp 𝕄) ⊢ iprop(∃ g, ⌜g = f⌝ ∗ ℓ ↦{q} g) := by
  iintro H; iexists f; isplitr
  · ipureintro; rfl
  · iexact H

/-- The accumulator while it is being cleared. -/
def invZ (_ : Nat) (_ : PUnit) : sProp 𝕄 := iprop(∃ f, (cS).view.loc (thr d L) ↦{fullShare} f)

/-- The accumulator while the columns are folded in, sixteen at a time: the task's copies of `h` and `sign` and the
    eight fetched rows are read, the accumulator rewritten. `A` is the slot the rows were fetched into. -/
def invG (A : Memref sig .scVector .vmem S8x4096 .f32) (gh : Buf (Elt F) ((thr d L).loc cc0_scratch0)) (gs : Buf (Elt F) ((thr d L).loc cc0_scratch1))
    (ga : Buf (Elt F) (A.view.loc (thr d L))) (_ : Nat) (_ : PUnit) : sProp 𝕄 :=
  iprop(((hS).view.loc (thr d L) ↦{fullShare} gh) ∗ ((sS).view.loc (thr d L) ↦{fullShare} gs) ∗ (A.view.loc (thr d L) ↦{fullShare} ga)
    ∗ ∃ f, (cS).view.loc (thr d L) ↦{fullShare} f)

theorem tile_body (hF : (K (F := F)).Facts) (hpre : ∀ j : S4096.Idx, (m (hLoc d) j).toNat < 2048) (O : CellTallies nD τ sig (HIx 1)) (W : Waits sig (HIx 1)) (hO : ∀ g, O g none = 0)
    (qx qh qs : PosShare TreeShare) (fo : Buf (Elt F) (oLoc d)) :
    (iprop(levAts (K (F := F)).L (K (F := F)).lev ∗ emp ∗ tileIn m d L qx qh qs fo
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) hW (Memref.isWhole_whole _) sW (Memref.isWhole_whole _) oW (Memref.isWhole_whole _)
            hS (Memref.isWhole_whole _) sS (Memref.isWhole_whole _) aS (Memref.isWhole_whole _) bS (Memref.isWhole_whole _) cS (Memref.isWhole_whole _)
            cc0_scratch5 cc0_scratch6 cc0_scoped0 cc0_scoped1 cc0_scoped2 cc0_scoped3 cc0_scoped4 cc0_scoped5)
          fun _ => iprop(tileOut m d L (fun _ _ => True) qx qh qs ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileIn
  iintro ⟨#Hlv, -, ⟨Hx, Hh, Hs, Ho0, Ho1, Ho2, Ho3⟩,
    ⟨⟨%f0, Hb0⟩, ⟨%f1, Hb1⟩, ⟨%f2, Hb2⟩, ⟨%f3, Hb3⟩, ⟨%f4, Hb4⟩, Hbufs⟩, ⟨HsA, HsB, Hs0, Hs1, Hs2, Hs3, Hs4, Hs5, Hsems⟩, HO⟩
  ihave Hmw := ((K (F := F)).mayWaits_none (thr := thr d L) hO) $$ Hlv
  ihave Hx := (Entails.of_eq (pts_x (F := F) d L _ _).symm) $$ Hx
  ihave Hh := (Entails.of_eq (pts_h (F := F) d L _ _).symm) $$ Hh
  ihave Hs := (Entails.of_eq (pts_s (F := F) d L _ _).symm) $$ Hs
  ihave Ho0 := (Entails.of_eq (pts_o (F := F) d L 0 _).symm) $$ Ho0
  ihave Ho1 := (Entails.of_eq (pts_o (F := F) d L 1 _).symm) $$ Ho1
  ihave Ho2 := (Entails.of_eq (pts_o (F := F) d L 2 _).symm) $$ Ho2
  ihave Ho3 := (Entails.of_eq (pts_o (F := F) d L 3 _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  sl_exec
  ihave Hb0 := (pts_name (F := F) _) $$ Hb0
  icases Hb0 with ⟨%gh, %hgh, Hb0⟩
  ihave Hb1 := (pts_name (F := F) _) $$ Hb1
  icases Hb1 with ⟨%gs, %hgs, Hb1⟩
  have hr : ∀ j, (gh j).toNat < 2048 := by
    intro j
    rw [hgh]
    exact (congrArg BitVec.toNat (congrFun (View.write_whole_univ _ _ _) j)).trans_lt (hpre j)
  -- round 0: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz0, Hb4⟩
  ihave Hb2 := (pts_name (F := F) _) $$ Hb2
  icases Hb2 with ⟨%ga0, %hga0, Hb2⟩
  sl_for (invG (F := F) d L aS gh gs ga0) $$ [Hb0 Hb1 Hb2 Hb4]
  case region =>
    intro k _
    unfold invG
    iintro ⟨Hb0, Hb1, Hb2, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb2]; · iexact Hb2
    iexists _; iexact Hb4
  · unfold invG
    isplitl [Hb0]; · iexact Hb0
    isplitl [Hb1]; · iexact Hb1
    isplitl [Hb2]; · iexact Hb2
    iexists _; iexact Hb4
  iintro %_ HI
  unfold invG
  icases HI with ⟨Hb0, Hb1, Hb2, %fg0, Hb4⟩
  sl_exec
  -- round 1: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz1, Hb4⟩
  ihave Hb3 := (pts_name (F := F) _) $$ Hb3
  icases Hb3 with ⟨%ga1, %hga1, Hb3⟩
  sl_for (invG (F := F) d L bS gh gs ga1) $$ [Hb0 Hb1 Hb3 Hb4]
  case region =>
    intro k _
    unfold invG
    iintro ⟨Hb0, Hb1, Hb3, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb3]; · iexact Hb3
    iexists _; iexact Hb4
  · unfold invG
    isplitl [Hb0]; · iexact Hb0
    isplitl [Hb1]; · iexact Hb1
    isplitl [Hb3]; · iexact Hb3
    iexists _; iexact Hb4
  iintro %_ HI
  unfold invG
  icases HI with ⟨Hb0, Hb1, Hb3, %fg1, Hb4⟩
  sl_exec
  -- round 2: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz2, Hb4⟩
  ihave Hb2 := (pts_name (F := F) _) $$ Hb2
  icases Hb2 with ⟨%ga2, %hga2, Hb2⟩
  sl_for (invG (F := F) d L aS gh gs ga2) $$ [Hb0 Hb1 Hb2 Hb4]
  case region =>
    intro k _
    unfold invG
    iintro ⟨Hb0, Hb1, Hb2, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb2]; · iexact Hb2
    iexists _; iexact Hb4
  · unfold invG
    isplitl [Hb0]; · iexact Hb0
    isplitl [Hb1]; · iexact Hb1
    isplitl [Hb2]; · iexact Hb2
    iexists _; iexact Hb4
  iintro %_ HI
  unfold invG
  icases HI with ⟨Hb0, Hb1, Hb2, %fg2, Hb4⟩
  sl_exec
  -- round 3: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz3, Hb4⟩
  ihave Hb3 := (pts_name (F := F) _) $$ Hb3
  icases Hb3 with ⟨%ga3, %hga3, Hb3⟩
  sl_for (invG (F := F) d L bS gh gs ga3) $$ [Hb0 Hb1 Hb3 Hb4]
  case region =>
    intro k _
    unfold invG
    iintro ⟨Hb0, Hb1, Hb3, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb3]; · iexact Hb3
    iexists _; iexact Hb4
  · unfold invG
    isplitl [Hb0]; · iexact Hb0
    isplitl [Hb1]; · iexact Hb1
    isplitl [Hb3]; · iexact Hb3
    iexists _; iexact Hb4
  iintro %_ HI
  unfold invG
  icases HI with ⟨Hb0, Hb1, Hb3, %fg3, Hb4⟩
  sl_exec
  sl_step
  unfold tileOut
  isplitl [Hx Hh Hs Ho0 Ho1 Ho2 Ho3]
  · isplitl [Hx]; · iapply (Entails.of_eq (pts_x (F := F) d L _ _)); iexact Hx
    isplitl [Hh]; · iapply (Entails.of_eq (pts_h (F := F) d L _ _)); iexact Hh
    isplitl [Hs]; · iapply (Entails.of_eq (pts_s (F := F) d L _ _)); iexact Hs
    isplitl [Ho0]
    · ihave Ho0 := (Entails.of_eq (pts_o (F := F) d L 0 _)) $$ Ho0
      iexists _; isplitr
      rotate_left
      · iexact Ho0
      · ipureintro; trivial
    isplitl [Ho1]
    · ihave Ho1 := (Entails.of_eq (pts_o (F := F) d L 1 _)) $$ Ho1
      iexists _; isplitr
      rotate_left
      · iexact Ho1
      · ipureintro; trivial
    isplitl [Ho2]
    · ihave Ho2 := (Entails.of_eq (pts_o (F := F) d L 2 _)) $$ Ho2
      iexists _; isplitr
      rotate_left
      · iexact Ho2
      · ipureintro; trivial
    ihave Ho3 := (Entails.of_eq (pts_o (F := F) d L 3 _)) $$ Ho3
    iexists _; isplitr
    rotate_left
    · iexact Ho3
    · ipureintro; trivial
  isplitl [Hb0 Hb1 Hb2 Hb3 Hb4 Hbufs]
  · isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    isplitl [Hb3]; · iexists _; iapply (Entails.of_eq (pts_b3 (F := F) d L _)); iexact Hb3
    isplitl [Hb4]; · iexists _; iapply (Entails.of_eq (pts_b4 (F := F) d L _)); iexact Hb4
    iexact Hbufs
  isplitl [HsA HsB Hs0 Hs1 Hs2 Hs3 Hs4 Hs5 Hsems]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Tile

end Cert.Proof.KernelIdeal

end
-- ==== Proof.Split.lean ====
/-
  The SparseCore call's result, cut among the tasks.

  The call's result has 1024 rows. The task on SparseCore `c` and tile `i` writes rows
  `64 i + 32 c + 8 t … + 8` in its `t`-th round, `t < 4`: eight-row block number `8 i + 4 c + t`.
  As `(c, i, t)` ranges over `2 × 16 × 4` the block number takes each value below 128 once, so the
  128 blocks are pairwise disjoint and cover the array: the array held whole is the 128 blocks held
  one by one, and back.
-/
import proofs.«204905_g71433896067310_cont_9to1c4b_220_29_alg».proof.Proof.TileDefs
import Idealize.ShloMosaic.Lib.Transfers

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The eight-row blocks -/

theorem bound_zero : grid0.bound 0 = 2 := rfl
theorem bound_one : grid0.bound 1 = 16 := rfl
/-- A SparseCore's number and a tile's number as the kernel's coordinates. -/
abbrev cC (c : Fin 2) : Fin (grid0.bound 0) := Fin.cast bound_zero.symm c
abbrev cI (i : Fin 16) : Fin (grid0.bound 1) := Fin.cast bound_one.symm i

/-- An element of the call's result lies in the rows task `(c, i)` writes in round `t` exactly when its row,
    divided by eight, is `8 i + 4 c + t`. -/
theorem mem_oSet (d : Dev nD) (c : Fin 2) (i : Fin 16) (t : Fin 4) (x : Idx (oLoc d)) :
    x ∈ oSet d (coordsV (cC c) (cI i)) t ↔ (x 0).val / 8 = 8 * i.val + 4 * c.val + t.val := by
  unfold oSet
  show x ∈ ((View.whole (main_v0_scv : Ref sig .scVector)).slice
      (Rect.unit (s := S1024x2048) (k0_off19 (coordsV (cC c) (cI i)) (BitVec.ofNat 32 (8 * t.val))) S8x2048.size
        (k0_off19_inb (coordsV (cC c) (cI i)) t))).set ↔ _
  rw [View.set_slice_whole, Rect.mem_set_unit, k0_off19_eq]
  have hx1 : (x 1).val < 2048 := (x 1).isLt
  constructor
  · intro h
    have h0 := h 0
    have e0 : (![64 * (coordsV (cC c) (cI i) 1).val + 32 * (coordsV (cC c) (cI i) 0).val + 8 * t.val, 0] : Fin 2 → Nat) 0
        = 64 * i.val + 32 * c.val + 8 * t.val := rfl
    have s0 : S8x2048.size 0 = 8 := rfl
    rw [e0, s0] at h0
    omega
  · intro h a
    match a with
    | ⟨0, _⟩ =>
      show 64 * i.val + 32 * c.val + 8 * t.val ≤ (x 0).val ∧ (x 0).val < 64 * i.val + 32 * c.val + 8 * t.val + 8
      omega
    | ⟨1, _⟩ =>
      show 0 ≤ (x 1).val ∧ (x 1).val < 0 + 2048
      omega

/-- The rows of block `(c, i, t)`. -/
def oBlk (d : Dev nD) (p : Fin 2 × Fin 16 × Fin 4) : Finset (Idx (oLoc d)) :=
  oSet d (coordsV (cC p.1) (cI p.2.1)) p.2.2

/-- Different blocks share no element: the block number `8 i + 4 c + t` determines `(c, i, t)`. -/
theorem oBlk_disjoint (d : Dev nD) :
    ∀ p ∈ (Finset.univ : Finset (Fin 2 × Fin 16 × Fin 4)), ∀ p' ∈ (Finset.univ : Finset (Fin 2 × Fin 16 × Fin 4)),
      p ≠ p' → Disjoint (oBlk d p) (oBlk d p') := by
  rintro ⟨c, i, t⟩ - ⟨c', i', t'⟩ - hne
  rw [Finset.disjoint_left]
  intro x hx hx'
  have hx : (x 0).val / 8 = 8 * i.val + 4 * c.val + t.val := (mem_oSet d c i t x).1 hx
  have hx' : (x 0).val / 8 = 8 * i'.val + 4 * c'.val + t'.val := (mem_oSet d c' i' t' x).1 hx'
  apply hne
  have hc : c = c' := Fin.ext (by have := c.isLt; have := c'.isLt; have := t.isLt; have := t'.isLt; omega)
  have hi : i = i' := Fin.ext (by have := c.isLt; have := c'.isLt; have := t.isLt; have := t'.isLt; omega)
  have ht : t = t' := Fin.ext (by have := c.isLt; have := c'.isLt; have := t.isLt; have := t'.isLt; omega)
  rw [hc, hi, ht]

/-- Every element lies in a block: the one its row divided by eight names. -/
theorem oBlk_cover (d : Dev nD) :
    (Finset.univ : Finset (Fin 2 × Fin 16 × Fin 4)).biUnion (oBlk d) = Finset.univ := by
  ext x
  simp only [Finset.mem_biUnion, Finset.mem_univ, true_and, iff_true]
  have hx0 : (x 0).val < 1024 := (x 0).isLt
  refine ⟨(⟨(x 0).val / 8 / 4 % 2, by omega⟩, ⟨(x 0).val / 64, by omega⟩, ⟨(x 0).val / 8 % 4, by omega⟩), ?_⟩
  unfold oBlk
  rw [mem_oSet]
  show (x 0).val / 8 = 8 * ((x 0).val / 64) + 4 * ((x 0).val / 8 / 4 % 2) + (x 0).val / 8 % 4
  omega

/-- One sum over the blocks is the three nested sums over SparseCores, tiles and rounds. -/
theorem bigSep_blocks (Φ : Fin 2 → Fin 16 → Fin 4 → sProp 𝕄) :
    (bigSep Finset.univ fun p : Fin 2 × Fin 16 × Fin 4 => Φ p.1 p.2.1 p.2.2)
      = bigSep Finset.univ fun c : Fin 2 => bigSep Finset.univ fun i : Fin 16 => bigSep Finset.univ fun t : Fin 4 => Φ c i t :=
  (bigSep_univ_prod _).trans (bigSep_congr fun c _ => bigSep_univ_prod _)

/-- The call's result held whole is its 128 eight-row blocks held one by one. -/
theorem o_split (d : Dev nD) (f : Buf (Elt F) (oLoc d)) :
    (oLoc d ↦{fullShare} f : sProp 𝕄)
      = bigSep Finset.univ fun c : Fin 2 => bigSep Finset.univ fun i : Fin 16 => bigSep Finset.univ fun t : Fin 4 =>
          oLoc d ↦[oSet d (coordsV (cC c) (cI i)) t]{fullShare} f := by
  rw [← bigSep_blocks (F := F) (fun c i t => oLoc d ↦[oSet d (coordsV (cC c) (cI i)) t]{fullShare} f)]
  show _ = bigSep Finset.univ fun p : Fin 2 × Fin 16 × Fin 4 => (oLoc d ↦[oBlk d p]{fullShare} f : sProp 𝕄)
  rw [← pointsTo_biUnion Finset.univ (ℓ := oLoc d) (oBlk d) (oBlk_disjoint d), oBlk_cover]; try rfl

variable [FloatOps F]

/-- The 128 blocks, each at contents satisfying its own predicate, join into the whole array at contents that agree
    with each block's on that block's rows. -/
theorem o_join_of (d : Dev nD) (Θ : Fin 2 → Fin 16 → Fin 4 → Buf (Elt F) (oLoc d) → Prop) :
    (bigSep Finset.univ fun c : Fin 2 => bigSep Finset.univ fun i : Fin 16 => bigSep Finset.univ fun t : Fin 4 =>
        iprop(∃ f, ⌜Θ c i t f⌝ ∗ oLoc d ↦[oSet d (coordsV (cC c) (cI i)) t]{fullShare} f))
      ⊢ (iprop(∃ g, ⌜∀ c i t, ∃ f, Θ c i t f ∧ ∀ x ∈ oSet d (coordsV (cC c) (cI i)) t, g x = f x⌝ ∗ oLoc d ↦{fullShare} g) : sProp 𝕄) := by
  rw [← bigSep_blocks (F := F) (fun c i t => iprop(∃ f, ⌜Θ c i t f⌝ ∗ oLoc d ↦[oSet d (coordsV (cC c) (cI i)) t]{fullShare} f))]
  show (bigSep Finset.univ fun p : Fin 2 × Fin 16 × Fin 4 =>
      (iprop(∃ f, ⌜Θ p.1 p.2.1 p.2.2 f⌝ ∗ oLoc d ↦[oBlk d p]{fullShare} f) : sProp 𝕄)) ⊢ _
  refine (bigSep_exists_pi Finset.univ (fun p (f : Buf (Elt F) (oLoc d)) =>
    (iprop(⌜Θ p.1 p.2.1 p.2.2 f⌝ ∗ oLoc d ↦[oBlk d p]{fullShare} f) : sProp 𝕄))).trans ?_
  iintro ⟨%fs, H⟩
  ihave H1 := (bigSep_pure_sep Finset.univ (fun p : Fin 2 × Fin 16 × Fin 4 => Θ p.1 p.2.1 p.2.2 (fs p))
    (fun p => (oLoc d ↦[oBlk d p]{fullShare} fs p : sProp 𝕄))) $$ H
  icases H1 with ⟨%hΘ, H⟩
  ihave H' := (pointsTo_biUnion_join Finset.univ (oBlk d) fs (fs (0, 0, 0)) (oBlk_disjoint d)) $$ H
  icases H' with ⟨%g, %hg, Hg⟩
  rw [oBlk_cover]
  iexists g
  isplitr
  · ipureintro
    exact fun c i t => ⟨fs (c, i, t), hΘ (c, i, t) (Finset.mem_univ _), fun x hx => hg (c, i, t) (Finset.mem_univ _) x hx⟩
  · iexact Hg

/-- The 128 blocks, each at some contents, join into the whole array at some contents. -/
theorem o_join (d : Dev nD) :
    (bigSep Finset.univ fun c : Fin 2 => bigSep Finset.univ fun i : Fin 16 => bigSep Finset.univ fun t : Fin 4 =>
        iprop(∃ f, oLoc d ↦[oSet d (coordsV (cC c) (cI i)) t]{fullShare} f))
      ⊢ (iprop(∃ f, oLoc d ↦{fullShare} f) : sProp 𝕄) := by
  have e : ∀ (c : Fin 2) (i : Fin 16) (t : Fin 4),
      (iprop(∃ f, oLoc d ↦[oSet d (coordsV (cC c) (cI i)) t]{fullShare} f) : sProp 𝕄)
        ⊢ iprop(∃ f, ⌜True⌝ ∗ oLoc d ↦[oSet d (coordsV (cC c) (cI i)) t]{fullShare} f) := fun c i t => by
    iintro ⟨%f, H⟩; iexists f; isplitr
    · ipureintro; trivial
    · iexact H
  refine (bigSep_mono fun c _ => bigSep_mono fun i _ => bigSep_mono fun t _ => e c i t).trans ?_
  refine (o_join_of (F := F) d (fun _ _ _ _ => True)).trans ?_
  iintro ⟨%g, -, Hg⟩
  iexists g; iexact Hg

/-! ## Read shares of the three arguments

The call reads its three arguments on every tile at once. The whole share of an argument is cut into a token per
SparseCore and a remainder; a SparseCore's token again into a token per tile and a remainder. -/

open Idealize.ShloMosaic.Transfers (shareTok shareDrop pointsTo_toks)

/-- SparseCore `c`'s read share of an argument. -/
abbrev qxc (c : Fin 2) : PosShare TreeShare := shareTok fullShare 2 c
/-- Tile `i` of SparseCore `c`'s read share of an argument. -/
abbrev qxt (c : Fin 2) (i : Fin 16) : PosShare TreeShare := shareTok (qxc c) 16 i

omit [FloatOps F] in
/-- An array at share `q` is a remainder and one token per SparseCore. -/
theorem toks_cores (ℓ : Loc nD τ sig) (q : PosShare TreeShare) (f : Buf (Elt F) ℓ) :
    (ℓ ↦{q} f : sProp 𝕄) ⊣⊢ iprop((ℓ ↦{shareDrop q 2} f) ∗ bigSep Finset.univ fun c : Fin 2 => ℓ ↦{shareTok q 2 c} f) :=
  pointsTo_toks (ℓ := ℓ) (S := Finset.univ) (f := f) q 2

omit [FloatOps F] in
/-- An array at share `q` is a remainder and one token per tile. -/
theorem toks_tiles (ℓ : Loc nD τ sig) (q : PosShare TreeShare) (f : Buf (Elt F) ℓ) :
    (ℓ ↦{q} f : sProp 𝕄) ⊣⊢ iprop((ℓ ↦{shareDrop q 16} f) ∗ bigSep Finset.univ fun i : Fin 16 => ℓ ↦{shareTok q 16 i} f) :=
  pointsTo_toks (ℓ := ℓ) (S := Finset.univ) (f := f) q 16

/-! ## The launch record

What the call's handshakes carry: SparseCore `c` is handed the three arguments at its read share and the
sixty-four rows of the result its tiles write, in sixteen times four pieces; tile `i` is handed the three
arguments at its own read share and its four pieces. A SparseCore's read share is a token per tile and a
remainder, which stays with the SparseCore until the tiles hand their tokens back. What comes back of the result
is, piece by piece, some contents of which the piece's predicate `Ψ` holds. -/

/-- A SparseCore's and a tile's number in the call, as numbers below 2 and below 16. -/
abbrev kC (c : Fin ((K (F := F)).nCore 0)) : Fin 2 := Fin.cast nCore_zero c
abbrev kI (i : Fin ((K (F := F)).nSub 0)) : Fin 16 := Fin.cast nSub_zero i

/-- The three arguments whole, each at read share `q`. -/
abbrev argsAt (d : Dev nD) (q : PosShare TreeShare) : sProp 𝕄 :=
  iprop((xLoc d ↦{q} m (xLoc d)) ∗ (hLoc d ↦{q} m (hLoc d)) ∗ (sLoc d ↦{q} m (sLoc d)))

/-- The rows of the result that tile `i` of SparseCore `c` writes in round `t`, at contents `f`. -/
abbrev oPc (d : Dev nD) (c : Fin 2) (i : Fin 16) (t : Fin 4) (f : Buf (Elt F) (oLoc d)) : sProp 𝕄 :=
  oLoc d ↦[oSet d (coordsV (cC c) (cI i)) t]{fullShare} f

variable (Ψ : (d : Dev nD) → grid0.Coords → Fin 4 → Buf (Elt F) (oLoc d) → Prop)

/-- The same rows at some contents of which the piece's predicate holds. -/
abbrev oPcΨ (d : Dev nD) (c : Fin 2) (i : Fin 16) (t : Fin 4) : sProp 𝕄 :=
  iprop(∃ f, ⌜Ψ d (coordsV (cC c) (cI i)) t f⌝ ∗ oLoc d ↦[oSet d (coordsV (cC c) (cI i)) t]{fullShare} f)

def P : (K (F := F)).Pay (nD := nD) (Val := Elt F) (Name := ℕ) (U := UU) where
  st := fun q d c => match q with
    | 0 => iprop(argsAt m d (qxc (kC c))
        ∗ bigSep Finset.univ fun i : Fin 16 => bigSep Finset.univ fun t : Fin 4 => oPc d (kC c) i t (m (oLoc d)))
  dn := fun q d c => match q with
    | 0 => iprop(argsAt m d (qxc (kC c))
        ∗ bigSep Finset.univ fun i : Fin 16 => bigSep Finset.univ fun t : Fin 4 => oPcΨ Ψ d (kC c) i t)
  go := fun q d c i => match q with
    | 0 => tileIn m d (coordsV (cC (kC c)) (cI (kI i))) (qxt (kC c) (kI i)) (qxt (kC c) (kI i)) (qxt (kC c) (kI i)) (m (oLoc d))
  td := fun q d c i => match q with
    | 0 => tileOut m d (coordsV (cC (kC c)) (cI (kI i))) (Ψ d (coordsV (cC (kC c)) (cI (kI i))))
        (qxt (kC c) (kI i)) (qxt (kC c) (kI i)) (qxt (kC c) (kI i))
  x := fun _ _ => iprop(emp)

instance P_storable : (P (F := F) m Ψ).IsStorable where
  st q d c := match q with
    | 0 => (inferInstance : BI.Storable (upEmb : UEmb _ 𝕄) iprop(argsAt m d (qxc (kC c))
        ∗ bigSep Finset.univ fun i : Fin 16 => bigSep Finset.univ fun t : Fin 4 => oPc d (kC c) i t (m (oLoc d))))
  dn q d c := match q with
    | 0 => (inferInstance : BI.Storable (upEmb : UEmb _ 𝕄) iprop(argsAt m d (qxc (kC c))
        ∗ bigSep Finset.univ fun i : Fin 16 => bigSep Finset.univ fun t : Fin 4 => oPcΨ Ψ d (kC c) i t))
  go q d c i := match q with
    | 0 => by
      show BI.Storable (upEmb : UEmb _ 𝕄) (tileIn m d (coordsV (cC (kC c)) (cI (kI i))) (qxt (kC c) (kI i)) (qxt (kC c) (kI i)) (qxt (kC c) (kI i)) (m (oLoc d)))
      unfold tileIn; infer_instance
  td q d c i := match q with
    | 0 => by
      show BI.Storable (upEmb : UEmb _ 𝕄) (tileOut m d (coordsV (cC (kC c)) (cI (kI i))) (Ψ d (coordsV (cC (kC c)) (cI (kI i))))
        (qxt (kC c) (kI i)) (qxt (kC c) (kI i)) (qxt (kC c) (kI i)))
      unfold tileOut; infer_instance

omit [FloatOps F] in
/-- A sum over four rounds is its four summands. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

omit [FloatOps F] in
/-- A sum over the call's tiles is a sum over sixteen. -/
theorem bigSep_tasks (Φ : Fin 16 → sProp 𝕄) :
    (bigSep Finset.univ fun i : Fin ((K (F := F)).nSub 0) => Φ (kI i)) = bigSep Finset.univ Φ :=
  bigSep_congr fun _ _ => congrArg Φ (Fin.ext rfl)

omit [FloatOps F] in
/-- What the sixteen tiles of SparseCore `c` are handed, regrouped: the tokens of each argument, and the pieces. -/
theorem tiles_in (d : Dev nD) (c : Fin 2) (fo : Buf (Elt F) (oLoc d)) :
    (bigSep Finset.univ fun i : Fin 16 => tileIn m d (coordsV (cC c) (cI i)) (qxt c i) (qxt c i) (qxt c i) fo)
      = iprop((bigSep Finset.univ fun i : Fin 16 => xLoc d ↦{qxt c i} m (xLoc d))
          ∗ (bigSep Finset.univ fun i : Fin 16 => hLoc d ↦{qxt c i} m (hLoc d))
          ∗ (bigSep Finset.univ fun i : Fin 16 => sLoc d ↦{qxt c i} m (sLoc d))
          ∗ bigSep Finset.univ fun i : Fin 16 => bigSep Finset.univ fun t : Fin 4 => oPc d c i t fo) := by
  rw [bigSep_congr (s := Finset.univ) fun (i : Fin 16) _ => bigSep_fin4 (F := F) (fun t => oPc d c i t fo)]
  unfold tileIn
  rw [bigSep_sep', bigSep_sep', bigSep_sep']

omit [FloatOps F] in
/-- What they hand back, regrouped the same way. -/
theorem tiles_out (d : Dev nD) (c : Fin 2) :
    (bigSep Finset.univ fun i : Fin 16 => tileOut m d (coordsV (cC c) (cI i)) (Ψ d (coordsV (cC c) (cI i))) (qxt c i) (qxt c i) (qxt c i))
      = iprop((bigSep Finset.univ fun i : Fin 16 => xLoc d ↦{qxt c i} m (xLoc d))
          ∗ (bigSep Finset.univ fun i : Fin 16 => hLoc d ↦{qxt c i} m (hLoc d))
          ∗ (bigSep Finset.univ fun i : Fin 16 => sLoc d ↦{qxt c i} m (sLoc d))
          ∗ bigSep Finset.univ fun i : Fin 16 => bigSep Finset.univ fun t : Fin 4 => oPcΨ Ψ d c i t) := by
  rw [bigSep_congr (s := Finset.univ) fun (i : Fin 16) _ => bigSep_fin4 (F := F) (fun t => oPcΨ Ψ d c i t)]
  unfold tileOut
  rw [bigSep_sep', bigSep_sep', bigSep_sep']

/-- A SparseCore's operands split into its sixteen tiles' and its results gather from theirs: each argument's read
    share gives every tile a token and keeps a remainder until the tokens come back; the pieces of the result go
    out and come back as they are. -/
theorem vecSplit : (K (F := F)).VecSplit' (P m Ψ) 0 := by
  intro d c
  show iprop(argsAt m d (qxc (kC c))
        ∗ bigSep Finset.univ fun i : Fin 16 => bigSep Finset.univ fun t : Fin 4 => oPc d (kC c) i t (m (oLoc d)))
      ⊢ |={Set.univ}=> iprop(
      (bigSep Finset.univ fun i : Fin ((K (F := F)).nSub 0) =>
        tileIn m d (coordsV (cC (kC c)) (cI (kI i))) (qxt (kC c) (kI i)) (qxt (kC c) (kI i)) (qxt (kC c) (kI i)) (m (oLoc d)))
      ∗ ((bigSep Finset.univ fun i : Fin ((K (F := F)).nSub 0) =>
          tileOut m d (coordsV (cC (kC c)) (cI (kI i))) (Ψ d (coordsV (cC (kC c)) (cI (kI i)))) (qxt (kC c) (kI i)) (qxt (kC c) (kI i)) (qxt (kC c) (kI i)))
          -∗ iprop(argsAt m d (qxc (kC c))
            ∗ bigSep Finset.univ fun i : Fin 16 => bigSep Finset.univ fun t : Fin 4 => oPcΨ Ψ d (kC c) i t)))
  rw [bigSep_tasks (F := F) (fun i => tileIn m d (coordsV (cC (kC c)) (cI i)) (qxt (kC c) i) (qxt (kC c) i) (qxt (kC c) i) (m (oLoc d))),
    bigSep_tasks (F := F) (fun i => tileOut m d (coordsV (cC (kC c)) (cI i)) (Ψ d (coordsV (cC (kC c)) (cI i))) (qxt (kC c) i) (qxt (kC c) i) (qxt (kC c) i)),
    tiles_in, tiles_out]
  have eX := toks_tiles (F := F) (xLoc d) (qxc (kC c)) (m (xLoc d))
  have eH := toks_tiles (F := F) (hLoc d) (qxc (kC c)) (m (hLoc d))
  have eS := toks_tiles (F := F) (sLoc d) (qxc (kC c)) (m (sLoc d))
  unfold argsAt
  rw [BI.equiv_iff.mp ⟨eX.1, eX.2⟩, BI.equiv_iff.mp ⟨eH.1, eH.2⟩, BI.equiv_iff.mp ⟨eS.1, eS.2⟩]
  iintro ⟨⟨⟨Xd, Xt⟩, ⟨Hd, Ht⟩, ⟨Sd, St⟩⟩, O⟩
  imodintro
  isplitl [Xt Ht St O]
  · isplitl [Xt]; · iexact Xt
    isplitl [Ht]; · iexact Ht
    isplitl [St]; · iexact St
    iexact O
  iintro ⟨Xt, Ht, St, O⟩
  isplitr [O]
  · isplitl [Xd Xt]; · isplitl [Xd]; · iexact Xd
                       iexact Xt
    isplitl [Hd Ht]; · isplitl [Hd]; · iexact Hd
                       iexact Ht
    isplitl [Sd]; · iexact Sd
    iexact St
  iexact O

end Cert.Proof.KernelIdeal

end
-- ==== Proof.Launch.lean ====
/-
  The launch: the vector subcores' obligation, the ghost state at the start, the TensorCore's program around
  the SparseCore call, and the run of the whole device.
-/
import proofs.«204905_g71433896067310_cont_9to1c4b_220_29_alg».proof.Proof.Split
import Idealize.ShloMosaic.Lib.Pipeline.Frame

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.KernelIdeal.main_arg0_scv : Memref Cert.KernelIdeal.sig Kind.scVector Space.hbm Cert.KernelIdeal.S4096x4096 EltTy.f32)
local notation "hW" => (Memref.whole Cert.KernelIdeal.main_arg1_scv : Memref Cert.KernelIdeal.sig Kind.scVector Space.hbm Cert.KernelIdeal.S4096 EltTy.i32)
local notation "sW" => (Memref.whole Cert.KernelIdeal.main_arg2_scv : Memref Cert.KernelIdeal.sig Kind.scVector Space.hbm Cert.KernelIdeal.S4096 EltTy.f32)
local notation "oW" => (Memref.whole Cert.KernelIdeal.main_v0_scv : Memref Cert.KernelIdeal.sig Kind.scVector Space.hbm Cert.KernelIdeal.S1024x2048 EltTy.f32)
local notation "hS" => (Memref.whole Cert.KernelIdeal.cc0_scratch0 : Memref Cert.KernelIdeal.sig Kind.scVector Space.vmem Cert.KernelIdeal.S4096 EltTy.i32)
local notation "sS" => (Memref.whole Cert.KernelIdeal.cc0_scratch1 : Memref Cert.KernelIdeal.sig Kind.scVector Space.vmem Cert.KernelIdeal.S4096 EltTy.f32)
local notation "aS" => (Memref.whole Cert.KernelIdeal.cc0_scratch2 : Memref Cert.KernelIdeal.sig Kind.scVector Space.vmem Cert.KernelIdeal.S8x4096 EltTy.f32)
local notation "bS" => (Memref.whole Cert.KernelIdeal.cc0_scratch3 : Memref Cert.KernelIdeal.sig Kind.scVector Space.vmem Cert.KernelIdeal.S8x4096 EltTy.f32)
local notation "cS" => (Memref.whole Cert.KernelIdeal.cc0_scratch4 : Memref Cert.KernelIdeal.sig Kind.scVector Space.vmem Cert.KernelIdeal.S8x2048 EltTy.f32)

variable [FloatOps F]

variable (Ψ : (d : Dev nD) → grid0.Coords → Fin 4 → Buf (Elt F) (oLoc d) → Prop)

/-! ## The vector subcores' obligation -/

/-- The body table's entry for a vector subcore: the kernel's function at the subcore's coordinates, over the four
    arrays and the task's scratch, when the subcore is in the call's grid. -/
theorem defs₀_vector (c : Fin τ.nSC) (s : Fin τ.nSub) :
    defs₀ (F := F) (.scVector c s) 0 ()
      = SparseCore.onTile hcore0 hsub0 (fun c s => cc0__sc_body (coordsV c s)
          xW (Memref.isWhole_whole _) hW (Memref.isWhole_whole _) sW (Memref.isWhole_whole _) oW (Memref.isWhole_whole _)
          hS (Memref.isWhole_whole _) sS (Memref.isWhole_whole _) aS (Memref.isWhole_whole _) bS (Memref.isWhole_whole _) cS (Memref.isWhole_whole _)
          cc0_scratch5 cc0_scratch6 cc0_scoped0 cc0_scoped1 cc0_scoped2 cc0_scoped3 cc0_scoped4 cc0_scoped5) ⟨⟩ c s := rfl

omit [FloatOps F] in
/-- A task that leaves no wait of the call's own behind leaves none but the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What is asked of one task's run: from what the task is handed, its scratch and its semaphores, the kernel's
    function at the task's coordinates ends with what the task hands back — each piece of the result at contents
    of which the piece's predicate holds — and leaves no wait behind. -/
def TileBody : Prop :=
  ∀ (d : Dev nD) (L : grid0.Coords) (O : CellTallies nD τ sig (HIx 1)) (W : Waits sig (HIx 1)), (∀ g, O g none = 0) →
    ∀ (qx qh qs : PosShare TreeShare) (fo : Buf (Elt F) (oLoc d)),
    (iprop(levAts (K (F := F)).L (K (F := F)).lev ∗ emp ∗ tileIn m d L qx qh qs fo
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) hW (Memref.isWhole_whole _) sW (Memref.isWhole_whole _) oW (Memref.isWhole_whole _)
            hS (Memref.isWhole_whole _) sS (Memref.isWhole_whole _) aS (Memref.isWhole_whole _) bS (Memref.isWhole_whole _) cS (Memref.isWhole_whole _)
            cc0_scratch5 cc0_scratch6 cc0_scoped0 cc0_scoped1 cc0_scoped2 cc0_scoped3 cc0_scoped4 cc0_scoped5)
          fun _ => iprop(tileOut m d L (Ψ d L) qx qh qs ∗ scopedBufs (thr d L) ∗ scopedSems0 (thr d L)
            ∗ ∃ W', ⌜∀ p ∈ W', p ∈ W ∨ p.2 = none⌝ ∗ owes (thr d L) O W')

/-- Every vector subcore of the call runs its task from what it is handed to what it hands back. -/
theorem tileObl (hbody : TileBody m Ψ) : (K (F := F)).TileObl (D (F := F)) 𝒱 (P m Ψ) v₀ 0 := by
  intro d c i O W hO _ _
  simp only [show (P m Ψ).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO _ _ _ _).trans (wp_mono frame _ _ fun _ => obl_post)

/-! ## The ghost state at the start -/

omit [FloatOps F] in
theorem bigSep_emp' {I : Type} (s : Finset I) : (bigSep s fun _ => iprop(emp)) = (iprop(emp) : sProp 𝕄) := bigSep_emp_const s

omit [FloatOps F] in
/-- The launch element splits into the handshakes' part and the TensorCore region's part; the local transfers'
    counters start at the unit and are dropped. -/
theorem ownU_split (a : UH) (b : UP) (c : Counters) :
    (ownU ((a, (b, c)) : UU) : sProp 𝕄) ⊢ iprop(BI.own ((EH (F := F)) a) ∗ BI.own ((EP (F := F)) b)) := by
  iintro Hu
  ihave H := (ownU_pair a (b, c)) $$ Hu
  icases H with ⟨HH, HR⟩
  ihave HR' := (own_pair_emb (embR (nD := nD) (τ := τ) (sig := sig) (Ix := HIx 1) (Val := Elt F) (Name := ℕ) (Lvl := ℕ) (A := UH) (B := UP × Counters)) b c) $$ HR
  icases HR' with ⟨HP, -⟩
  isplitl [HH]; · iexact HH
  iexact HP

/-- The launch element: the handshakes' rounds, the TensorCore region's cells' rounds `u₀P`, no transfer counted. -/
def u₀ (u₀P : UP) : UU := (initOf (K (F := F)).hsCells (K (F := F)).hsToks, (u₀P, 1))

/-- From the launch element: the handshakes' rounds, what the TensorCore region's part funds, and nothing of the
    call's own. -/
theorem hu₀ (u₀P : UP) (G_tc : Dev nD → sProp 𝕄)
    (fund_tc : (BI.own ((EP (F := F)) u₀P) : sProp 𝕄) ⊢ iprop(|==> bigSep Finset.univ G_tc)) :
    (ownU (u₀ (F := F) u₀P) : sProp 𝕄)
    ⊢ |={Set.univ}=> iprop(BI.own (EH (initOf (K (F := F)).hsCells (K (F := F)).hsToks)) ∗ (bigSep Finset.univ G_tc)
        ∗ bigSep Finset.univ fun thr : Thread nD τ => bigSep Finset.univ fun q : Fin 1 => (P m Ψ).x q thr) := by
  unfold u₀
  iintro Hu
  ihave H := (ownU_split (F := F) _ _ _) $$ Hu
  icases H with ⟨HH, HP⟩
  imod fund_tc $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore call on the TensorCore -/

omit [FloatOps F] in
/-- A sum over the call's SparseCores is a sum over two. -/
theorem bigSep_cores (Φ : Fin 2 → sProp 𝕄) :
    (bigSep Finset.univ fun c : Fin ((K (F := F)).nCore 0) => Φ (kC c)) = bigSep Finset.univ Φ :=
  bigSep_congr fun _ _ => congrArg Φ (Fin.ext rfl)

/-- What the call takes for its two SparseCores, regrouped: each argument's two tokens, and the 128 pieces. -/
theorem st0_eq (d : Dev nD) :
    (bigSep Finset.univ fun c : Fin ((K (F := F)).nCore 0) => (P m Ψ).st 0 d c)
      = iprop(((bigSep Finset.univ fun c : Fin 2 => xLoc d ↦{qxc c} m (xLoc d))
            ∗ (bigSep Finset.univ fun c : Fin 2 => hLoc d ↦{qxc c} m (hLoc d))
            ∗ (bigSep Finset.univ fun c : Fin 2 => sLoc d ↦{qxc c} m (sLoc d)))
          ∗ bigSep Finset.univ fun c : Fin 2 => bigSep Finset.univ fun i : Fin 16 => bigSep Finset.univ fun t : Fin 4 =>
              oPc d c i t (m (oLoc d))) := by
  show (bigSep Finset.univ fun c : Fin ((K (F := F)).nCore 0) => iprop(argsAt m d (qxc (kC c))
      ∗ bigSep Finset.univ fun i : Fin 16 => bigSep Finset.univ fun t : Fin 4 => oPc d (kC c) i t (m (oLoc d)))) = _
  rw [bigSep_cores (F := F) (fun c => iprop(argsAt m d (qxc c)
      ∗ bigSep Finset.univ fun i : Fin 16 => bigSep Finset.univ fun t : Fin 4 => oPc d c i t (m (oLoc d))))]
  unfold argsAt
  rw [bigSep_sep', bigSep_sep', bigSep_sep']

/-- What it hands back, regrouped the same way. -/
theorem dn0_eq (d : Dev nD) :
    (bigSep Finset.univ fun c : Fin ((K (F := F)).nCore 0) => (P m Ψ).dn 0 d c)
      = iprop(((bigSep Finset.univ fun c : Fin 2 => xLoc d ↦{qxc c} m (xLoc d))
            ∗ (bigSep Finset.univ fun c : Fin 2 => hLoc d ↦{qxc c} m (hLoc d))
            ∗ (bigSep Finset.univ fun c : Fin 2 => sLoc d ↦{qxc c} m (sLoc d)))
          ∗ bigSep Finset.univ fun c : Fin 2 => bigSep Finset.univ fun i : Fin 16 => bigSep Finset.univ fun t : Fin 4 =>
              oPcΨ Ψ d c i t) := by
  show (bigSep Finset.univ fun c : Fin ((K (F := F)).nCore 0) => iprop(argsAt m d (qxc (kC c))
      ∗ bigSep Finset.univ fun i : Fin 16 => bigSep Finset.univ fun t : Fin 4 => oPcΨ Ψ d (kC c) i t)) = _
  rw [bigSep_cores (F := F) (fun c => iprop(argsAt m d (qxc c)
      ∗ bigSep Finset.univ fun i : Fin 16 => bigSep Finset.univ fun t : Fin 4 => oPcΨ Ψ d c i t))]
  unfold argsAt
  rw [bigSep_sep', bigSep_sep', bigSep_sep']

/-- Contents `g` of the call's result agree, on every piece, with some contents of which the piece's predicate holds. -/
def Pieces (d : Dev nD) (g : Buf (Elt F) (oLoc d)) : Prop :=
  ∀ (c : Fin 2) (i : Fin 16) (t : Fin 4), ∃ f, Ψ d (coordsV (cC c) (cI i)) t f ∧ ∀ x ∈ oSet d (coordsV (cC c) (cI i)) t, g x = f x

/-- The call, as the TensorCore sees it: from the three arguments and the call's result whole, each SparseCore is
    handed a read token of every argument and its sixty-four rows of the result; when both have answered, the
    arguments are whole again at their contents, and the result is whole at contents that agree piece by piece with
    what the tasks left. -/
theorem sc_call (κ : GSem nD τ sig → ℕ) (d : Dev nD) {Φ : PUnit → sProp 𝕄} :
    iprop((K (F := F)).ctx EH (P m Ψ) κ ∗ (K (F := F)).tcSt EH d 0
        ∗ (xLoc d ↦{fullShare} m (xLoc d)) ∗ (hLoc d ↦{fullShare} m (hLoc d)) ∗ (sLoc d ↦{fullShare} m (sLoc d))
        ∗ (oLoc d ↦{fullShare} m (oLoc d))
        ∗ (iprop((K (F := F)).tcSt EH d 1 ∗ (xLoc d ↦{fullShare} m (xLoc d)) ∗ (hLoc d ↦{fullShare} m (hLoc d))
              ∗ (sLoc d ↦{fullShare} m (sLoc d)) ∗ ∃ fo, ⌜Pieces Ψ d fo⌝ ∗ oLoc d ↦{fullShare} fo) -∗ Φ ⟨⟩))
      ⊢ wp frame (wpE ((K (F := F)).defs (D (F := F))) 𝒱 (SparseCore.T d) none) Set.univ ((K (F := F)).run d 0) Φ := by
  have eX := toks_cores (F := F) (xLoc d) fullShare (m (xLoc d))
  have eH := toks_cores (F := F) (hLoc d) fullShare (m (hLoc d))
  have eS := toks_cores (F := F) (sLoc d) fullShare (m (sLoc d))
  rw [BI.equiv_iff.mp ⟨eX.1, eX.2⟩, BI.equiv_iff.mp ⟨eH.1, eH.2⟩, BI.equiv_iff.mp ⟨eS.1, eS.2⟩, o_split (F := F) d (m (oLoc d))]
  iintro ⟨#Hctx, Hst, ⟨Xd, Xt⟩, ⟨Hd, Ht⟩, ⟨Sd, St⟩, O, Hk⟩
  iapply ((K (F := F)).wp_run (D (F := F)) 𝒱 (EH := EH) (P := P m Ψ) κ d 0) $$ [Hst Xt Ht St O Xd Hd Sd Hk]
  isplitr; · iexact Hctx
  isplitl [Hst]; · iexact Hst
  isplitl [Xt Ht St O]
  · rw [st0_eq]
    isplitl [Xt Ht St]
    · isplitl [Xt]; · iexact Xt
      isplitl [Ht]; · iexact Ht
      iexact St
    · iexact O
  iintro ⟨Hst, Hdn⟩
  ihave Hdn' := (Entails.of_eq (dn0_eq m Ψ d)) $$ Hdn
  icases Hdn' with ⟨⟨Xt, Ht, St⟩, O⟩
  ihave Ho := (o_join_of (F := F) d (fun c i t => Ψ d (coordsV (cC c) (cI i)) t)) $$ O
  iapply Hk
  isplitl [Hst]; · iexact Hst
  isplitl [Xd Xt]
  · isplitl [Xd]; · iexact Xd
    iexact Xt
  isplitl [Hd Ht]
  · isplitl [Hd]; · iexact Hd
    iexact Ht
  isplitl [Sd St]
  · isplitl [Sd]; · iexact Sd
    iexact St
  iexact Ho

/-! ## @main on the TensorCore -/

/-- The three arguments and the call's result, as buffers of the device. -/
abbrev rX : DevRef τ sig := Proc.devRef .tc (main_arg0 : Ref sig .tc)
abbrev rH : DevRef τ sig := Proc.devRef .tc (main_arg1 : Ref sig .tc)
abbrev rS : DevRef τ sig := Proc.devRef .tc (main_arg2 : Ref sig .tc)
abbrev rO : DevRef τ sig := Proc.devRef .tc (main_v0 : Ref sig .tc)
abbrev four : Finset (DevRef τ sig) := {rX, rH, rS, rO}
/-- The program's result, as a location of device `d`. -/
abbrev vLoc (d : Dev nD) : Loc nD τ sig := (SparseCore.T d).loc main_v4

/-- The launch contents of the device's buffers; and the same with the call's result at `fo`. -/
def V0L (d : Dev nD) : Valuation τ sig (Elt F) := fun b => m (d, b)
def VmL (d : Dev nD) (fo : Buf (Elt F) (oLoc d)) : Valuation τ sig (Elt F) := Function.update (V0L m d) rO fo

omit [FloatOps F] in
theorem held_four (d : Dev nD) (W : Valuation τ sig (Elt F)) :
    (StableHlo.held (T d) four W : sProp 𝕄)
      = iprop((xLoc d ↦{fullShare} W rX) ∗ (hLoc d ↦{fullShare} W rH) ∗ (sLoc d ↦{fullShare} W rS) ∗ oLoc d ↦{fullShare} W rO) := by
  unfold StableHlo.held four
  rw [SparseCore.bigSep_insert' (by decide), SparseCore.bigSep_insert' (by decide), SparseCore.bigSep_insert' (by decide), bigSep_singleton]

omit [FloatOps F] in
theorem four_sub : four ⊆ Pipeline.ucRefs τ sig := by decide

omit [FloatOps F] in
/-- The unscoped buffers, with the four arrays of the call set apart. -/
theorem held_split (d : Dev nD) (W : Valuation τ sig (Elt F)) :
    (StableHlo.held (T d) (Pipeline.ucRefs τ sig) W : sProp 𝕄)
      = iprop(((xLoc d ↦{fullShare} W rX) ∗ (hLoc d ↦{fullShare} W rH) ∗ (sLoc d ↦{fullShare} W rS) ∗ oLoc d ↦{fullShare} W rO)
          ∗ StableHlo.held (T d) (Pipeline.ucRefs τ sig \ four) W) := by
  rw [StableHlo.held_sub_split (T d) four_sub W, held_four]

omit [FloatOps F] in
theorem unscoped_held (d : Dev nD) :
    (unscopedBufs d (fun b => m ((SparseCore.T d).loc b)) : sProp 𝕄) = StableHlo.held (T d) (Pipeline.ucRefs τ sig) (V0L m d) :=
  Pipeline.unscopedBufs_held d (V0L m d)

omit [FloatOps F] in
/-- Away from the call's result the two valuations agree. -/
theorem held_rest (d : Dev nD) (fo : Buf (Elt F) (oLoc d)) :
    (StableHlo.held (T d) (Pipeline.ucRefs τ sig \ four) (VmL m d fo) : sProp 𝕄)
      = StableHlo.held (T d) (Pipeline.ucRefs τ sig \ four) (V0L m d) := by
  unfold StableHlo.held
  refine bigSep_congr fun b hb => ?_
  have hne : b ≠ rO := fun e => (Finset.mem_sdiff.mp hb).2 (e ▸ by decide)
  rw [VmL, Function.update_of_ne hne]

omit [FloatOps F] in
theorem VmL_x (d : Dev nD) (fo : Buf (Elt F) (oLoc d)) : VmL m d fo rX = m (xLoc d) := Function.update_of_ne (show rX ≠ rO by decide) _ _
omit [FloatOps F] in
theorem VmL_h (d : Dev nD) (fo : Buf (Elt F) (oLoc d)) : VmL m d fo rH = m (hLoc d) := Function.update_of_ne (show rH ≠ rO by decide) _ _
omit [FloatOps F] in
theorem VmL_s (d : Dev nD) (fo : Buf (Elt F) (oLoc d)) : VmL m d fo rS = m (sLoc d) := Function.update_of_ne (show rS ≠ rO by decide) _ _
omit [FloatOps F] in
theorem VmL_o (d : Dev nD) (fo : Buf (Elt F) (oLoc d)) : VmL m d fo rO = fo := Function.update_self _ _ _

variable (Ξ : (d : Dev nD) → Buf (Elt F) (vLoc d) → Prop)

/-- What @main leaves the claim: the three arguments at their launch contents, the result at contents of which `Ξ` holds. -/
def FIN (d : Dev nD) : sProp 𝕄 :=
  iprop((xLoc d ↦{fullShare} m (xLoc d)) ∗ (hLoc d ↦{fullShare} m (hLoc d)) ∗ (sLoc d ↦{fullShare} m (sLoc d))
    ∗ ∃ f4, ⌜Ξ d f4⌝ ∗ vLoc d ↦{fullShare} f4)

omit [FloatOps F] in
theorem fin_intro (d : Dev nD) (A : sProp 𝕄) (f4 : Buf (Elt F) (vLoc d)) (h4 : Ξ d f4) :
    iprop(A ∗ (xLoc d ↦{fullShare} m (xLoc d)) ∗ (hLoc d ↦{fullShare} m (hLoc d)) ∗ (sLoc d ↦{fullShare} m (sLoc d)) ∗ (vLoc d ↦{fullShare} f4))
      ⊢ iprop(A ∗ FIN m Ξ d) := by
  unfold FIN
  iintro ⟨HA, Hx, Hh, Hs, Hv⟩
  isplitl [HA]; · iexact HA
  isplitl [Hx]; · iexact Hx
  isplitl [Hh]; · iexact Hh
  isplitl [Hs]; · iexact Hs
  iexists f4; isplitr
  · ipureintro; exact h4
  · iexact Hv

/-- @main on device `d`'s TensorCore: the SparseCore call, then the rest of the program `mainTail` from the buffers
    as the call left them; `out4 d fo` is what the rest leaves in the result when the call left `fo`. -/
theorem hmain (mainTail : Dev nD → Prog (TpuEff nD τ sig (Elt F) (SparseCore.Sig (Pipeline.Sig Λ₀ (Fin 1) fun p => (pcfgs (F := F) p).Adm) 1) .tc) PUnit)
    (main_eq : ∀ d, main (F := F) d = ((K (F := F)).run d 0 >>= fun _ => mainTail d))
    (G_tc : Dev nD → sProp 𝕄) (out4 : (d : Dev nD) → Buf (Elt F) (oLoc d) → Buf (Elt F) (vLoc d))
    (main_tail : ∀ (κ : GSem nD τ sig → ℕ) (d : Dev nD) (fo : Buf (Elt F) (oLoc d)),
      iprop((K (F := F)).ctx EH (P m Ψ) κ ∗ (K (F := F)).tcSt EH d 1 ∗ boundary (T d)
          ∗ StableHlo.held (T d) (Pipeline.ucRefs τ sig) (VmL m d fo) ∗ G_tc d)
        ⊢ wp frame (wpE ((K (F := F)).defs (D (F := F))) 𝒱 (SparseCore.T d) none) Set.univ (mainTail d)
            fun _ => iprop((K (F := F)).tcSt EH d 1 ∗ (xLoc d ↦{fullShare} m (xLoc d)) ∗ (hLoc d ↦{fullShare} m (hLoc d))
              ∗ (sLoc d ↦{fullShare} m (sLoc d)) ∗ (vLoc d ↦{fullShare} out4 d fo)))
    (hΞ : ∀ d g, Pieces Ψ d g → Ξ d (out4 d g))
    (κ : GSem nD τ sig → ℕ) (d : Dev nD) :
    iprop((K (F := F)).ctx EH (P m Ψ) κ ∗ (K (F := F)).tcSt EH d 0 ∗ (K (F := F)).tcRes m ρ d ∗ G_tc d)
      ⊢ wp frame (wpE ((K (F := F)).defs (D (F := F))) 𝒱 (SparseCore.T d) none) Set.univ (main d)
          fun _ => iprop((K (F := F)).tcSt EH d 1 ∗ FIN m Ξ d) := by
  unfold SparseCore.Cfg.tcRes
  rw [unscoped_held, held_split, main_eq]
  simp only [wp_bind]
  iintro ⟨#Hctx, Hst, ⟨Hb, ⟨⟨Hx, Hh, Hs, Ho⟩, Hrest⟩, -, -⟩, HG⟩
  iapply (sc_call m Ψ κ d) $$ [Hst Hx Hh Hs Ho Hb Hrest HG]
  isplitr; · iexact Hctx
  isplitl [Hst]; · iexact Hst
  isplitl [Hx]; · iexact Hx
  isplitl [Hh]; · iexact Hh
  isplitl [Hs]; · iexact Hs
  isplitl [Ho]; · iexact Ho
  iintro ⟨Hst, Hx, Hh, Hs, %fo, %hfo, Ho⟩
  iapply ((main_tail κ d fo).trans (wp_mono frame _ Set.univ fun _ => fin_intro m Ξ d _ (out4 d fo) (hΞ d fo hfo))) $$ [Hst Hx Hh Hs Ho Hb Hrest HG]
  isplitr; · iexact Hctx
  isplitl [Hst]; · iexact Hst
  isplitl [Hb]; · iexact Hb
  isplitr [HG]
  · rw [held_split, held_rest, VmL_x, VmL_h, VmL_s, VmL_o]
    isplitr [Hrest]
    · isplitl [Hx]; · iexact Hx
      isplitl [Hh]; · iexact Hh
      isplitl [Hs]; · iexact Hs
      iexact Ho
    · iexact Hrest
  iexact HG

/-! ## The end of the run -/

/-- What the final memory satisfies on device `d`: the arguments as launched, the result as `Ξ` asks. -/
def fq (d : Dev nD) (s' : Phys nD τ sig (Elt F)) : Prop :=
  s'.mem.mem (xLoc d) = m (xLoc d) ∧ s'.mem.mem (hLoc d) = m (hLoc d) ∧ s'.mem.mem (sLoc d) = m (sLoc d) ∧ Ξ d (s'.mem.mem (vLoc d))

theorem hfin (d : Dev nD) (s' : Phys nD τ sig (Elt F)) : iprop(FIN m Ξ d ∗ SI s') ⊢ (⌜fq m Ξ d s'⌝ : sProp 𝕄) := by
  unfold FIN
  iintro ⟨⟨Hx, Hh, Hs, %f4, %h4, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h2, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h3, HSI, -⟩
  ihave H := (SI_pointsTo_agree (st := s') (ℓ := vLoc d) (I := Finset.univ) (q := fullShare) (f := f4)) $$ [HSI Hv]
  · isplitl [HSI] <;> iassumption
  icases H with %h5
  ipureintro
  refine ⟨funext fun i => h1 i (Finset.mem_univ i), funext fun i => h2 i (Finset.mem_univ i), funext fun i => h3 i (Finset.mem_univ i), ?_⟩
  have e : s'.mem.mem (vLoc d) = f4 := funext fun i => h5 i (Finset.mem_univ i)
  rw [e]; exact h4

/-! ## The program's run -/

/-- On every device the arguments end as launched and the result as `Ξ` asks. -/
def QC : PUnit × MemSt nD τ sig (Elt F) → Prop := fun r => ∀ c : Dev nD,
  r.2.mem (xLoc c) = m (xLoc c) ∧ r.2.mem (hLoc c) = m (hLoc c) ∧ r.2.mem (sLoc c) = m (sLoc c) ∧ Ξ c (r.2.mem (vLoc c))

/-- The run of the whole device: every weakly fair execution of the TensorCore's program and of the SparseCores'
    threads ends, faulting nowhere, with the arguments as launched and the result as `Ξ` asks — given the tasks'
    runs (`hbody`), the rest of @main after the call (`mainTail`, `main_tail`), what its region's ghost state funds
    (`fund_tc`), and that contents agreeing piece by piece with the tasks' give a result of which `Ξ` holds (`hΞ`). -/
theorem run_main [∀ e, Nonempty (Elt F e)] (hbody : TileBody m Ψ)
    (u₀P : UP) (G_tc : Dev nD → sProp 𝕄)
    (fund_tc : (BI.own ((EP (F := F)) u₀P) : sProp 𝕄) ⊢ iprop(|==> bigSep Finset.univ G_tc))
    (mainTail : Dev nD → Prog (TpuEff nD τ sig (Elt F) (SparseCore.Sig (Pipeline.Sig Λ₀ (Fin 1) fun p => (pcfgs (F := F) p).Adm) 1) .tc) PUnit)
    (main_eq : ∀ d, main (F := F) d = ((K (F := F)).run d 0 >>= fun _ => mainTail d))
    (out4 : (d : Dev nD) → Buf (Elt F) (oLoc d) → Buf (Elt F) (vLoc d))
    (main_tail : ∀ (κ : GSem nD τ sig → ℕ) (d : Dev nD) (fo : Buf (Elt F) (oLoc d)),
      iprop((K (F := F)).ctx EH (P m Ψ) κ ∗ (K (F := F)).tcSt EH d 1 ∗ boundary (T d)
          ∗ StableHlo.held (T d) (Pipeline.ucRefs τ sig) (VmL m d fo) ∗ G_tc d)
        ⊢ wp frame (wpE ((K (F := F)).defs (D (F := F))) 𝒱 (SparseCore.T d) none) Set.univ (mainTail d)
            fun _ => iprop((K (F := F)).tcSt EH d 1 ∗ (xLoc d ↦{fullShare} m (xLoc d)) ∗ (hLoc d ↦{fullShare} m (hLoc d))
              ∗ (sLoc d ↦{fullShare} m (sLoc d)) ∗ (vLoc d ↦{fullShare} out4 d fo)))
    (hΞ : ∀ d g, Pieces Ψ d g → Ξ d (out4 d g)) :
    θ_run (Cert.KernelIdeal.defs (F := F)) (Cert.KernelIdeal.threads (F := F)) ⟨m, fun _ => 0, ρ⟩ (QC m Ξ) :=
  SparseCore.Cfg.θ_run_sc (K := K (F := F)) (D := D (F := F)) (𝒱 := 𝒱) (EH := EH) (P := P m Ψ) facts v₀
    (fun q hq => match q with | 0 => nomatch hq)
    (fun q _ => match q with | 0 => tileObl m Ψ hbody)
    (fun q _ => match q with | 0 => SparseCore.Cfg.VecSplit.of_plain (vecSplit m Ψ))
    m ρ main G_tc (FIN m Ξ) (u₀ (F := F) u₀P) (sep_elim_left.trans (hu₀ m Ψ u₀P G_tc fund_tc))
    (hmain m ρ Ψ Ξ mainTail main_eq G_tc out4 main_tail hΞ) (fq m Ξ) (hfin m Ξ) (QC m Ξ) (fun _ h => h)

/-- The same run, keeping only that the arguments end as launched. -/
theorem run_frame [∀ e, Nonempty (Elt F e)] (hbody : TileBody m Ψ)
    (u₀P : UP) (G_tc : Dev nD → sProp 𝕄)
    (fund_tc : (BI.own ((EP (F := F)) u₀P) : sProp 𝕄) ⊢ iprop(|==> bigSep Finset.univ G_tc))
    (mainTail : Dev nD → Prog (TpuEff nD τ sig (Elt F) (SparseCore.Sig (Pipeline.Sig Λ₀ (Fin 1) fun p => (pcfgs (F := F) p).Adm) 1) .tc) PUnit)
    (main_eq : ∀ d, main (F := F) d = ((K (F := F)).run d 0 >>= fun _ => mainTail d))
    (out4 : (d : Dev nD) → Buf (Elt F) (oLoc d) → Buf (Elt F) (vLoc d))
    (main_tail : ∀ (κ : GSem nD τ sig → ℕ) (d : Dev nD) (fo : Buf (Elt F) (oLoc d)),
      iprop((K (F := F)).ctx EH (P m Ψ) κ ∗ (K (F := F)).tcSt EH d 1 ∗ boundary (T d)
          ∗ StableHlo.held (T d) (Pipeline.ucRefs τ sig) (VmL m d fo) ∗ G_tc d)
        ⊢ wp frame (wpE ((K (F := F)).defs (D (F := F))) 𝒱 (SparseCore.T d) none) Set.univ (mainTail d)
            fun _ => iprop((K (F := F)).tcSt EH d 1 ∗ (xLoc d ↦{fullShare} m (xLoc d)) ∗ (hLoc d ↦{fullShare} m (hLoc d))
              ∗ (sLoc d ↦{fullShare} m (sLoc d)) ∗ (vLoc d ↦{fullShare} out4 d fo))) :
    θ_run (Cert.KernelIdeal.defs (F := F)) (Cert.KernelIdeal.threads (F := F)) ⟨m, fun _ => 0, ρ⟩ (fun r => ∀ c : Dev nD,
      r.2.mem (xLoc c) = m (xLoc c) ∧ r.2.mem (hLoc c) = m (hLoc c) ∧ r.2.mem (sLoc c) = m (sLoc c)) :=
  (θ_run Cert.KernelIdeal.defs _ _).mono (fun _ h c => ⟨(h c).1, (h c).2.1, (h c).2.2.1⟩)
    (run_main m ρ Ψ (fun _ _ => True) hbody u₀P G_tc fund_tc mainTail main_eq out4 main_tail (fun _ _ _ => trivial))

/-! ## The run, from the rest of @main as one record -/

/-- What the rest of @main after the call supplies: its region's ghost state and what that funds, the program
    text after the call, what it leaves in the result as a function of what the call left, and its run. -/
structure TcPart where
  u₀P : UP
  G_tc : Dev nD → sProp 𝕄
  fund_tc : (BI.own ((EP (F := F)) u₀P) : sProp 𝕄) ⊢ iprop(|==> bigSep Finset.univ G_tc)
  mainTail : Dev nD → Prog (TpuEff nD τ sig (Elt F) (SparseCore.Sig (Pipeline.Sig Λ₀ (Fin 1) fun p => (pcfgs (F := F) p).Adm) 1) .tc) PUnit
  main_eq : ∀ d, main (F := F) d = ((K (F := F)).run d 0 >>= fun _ => mainTail d)
  out4 : (d : Dev nD) → Buf (Elt F) (oLoc d) → Buf (Elt F) (vLoc d)
  main_tail : ∀ (κ : GSem nD τ sig → ℕ) (d : Dev nD) (fo : Buf (Elt F) (oLoc d)),
    iprop((K (F := F)).ctx EH (P m Ψ) κ ∗ (K (F := F)).tcSt EH d 1 ∗ boundary (T d)
        ∗ StableHlo.held (T d) (Pipeline.ucRefs τ sig) (VmL m d fo) ∗ G_tc d)
      ⊢ wp frame (wpE ((K (F := F)).defs (D (F := F))) 𝒱 (SparseCore.T d) none) Set.univ (mainTail d)
          fun _ => iprop((K (F := F)).tcSt EH d 1 ∗ (xLoc d ↦{fullShare} m (xLoc d)) ∗ (hLoc d ↦{fullShare} m (hLoc d))
            ∗ (sLoc d ↦{fullShare} m (sLoc d)) ∗ (vLoc d ↦{fullShare} out4 d fo))

theorem run_main_of [∀ e, Nonempty (Elt F e)] (tp : TcPart m Ψ) (hbody : TileBody m Ψ)
    (hΞ : ∀ d g, Pieces Ψ d g → Ξ d (tp.out4 d g)) :
    θ_run (Cert.KernelIdeal.defs (F := F)) (Cert.KernelIdeal.threads (F := F)) ⟨m, fun _ => 0, ρ⟩ (QC m Ξ) :=
  run_main m ρ Ψ Ξ hbody tp.u₀P tp.G_tc tp.fund_tc tp.mainTail tp.main_eq tp.out4 tp.main_tail hΞ

theorem run_frame_of [∀ e, Nonempty (Elt F e)] (tp : TcPart m Ψ) (hbody : TileBody m Ψ) :
    θ_run (Cert.KernelIdeal.defs (F := F)) (Cert.KernelIdeal.threads (F := F)) ⟨m, fun _ => 0, ρ⟩ (fun r => ∀ c : Dev nD,
      r.2.mem (xLoc c) = m (xLoc c) ∧ r.2.mem (hLoc c) = m (hLoc c) ∧ r.2.mem (sLoc c) = m (sLoc c)) :=
  run_frame m ρ Ψ hbody tp.u₀P tp.G_tc tp.fund_tc tp.mainTail tp.main_eq tp.out4 tp.main_tail

omit [FloatOps F] in
/-- If every piece's predicate says that the piece's contents are those of one array `sc d` on the piece's rows,
    contents that agree with the pieces on their rows are that array: the pieces cover it. -/
theorem pieces_eq (sc : (d : Dev nD) → Buf (Elt F) (oLoc d))
    (hΨ : ∀ (d : Dev nD) (L : grid0.Coords) (t : Fin 4) (f : Buf (Elt F) (oLoc d)), Ψ d L t f → ∀ x ∈ oSet d L t, f x = sc d x)
    (d : Dev nD) (g : Buf (Elt F) (oLoc d)) (hg : Pieces Ψ d g) : g = sc d := by
  funext x
  have hx : x ∈ (Finset.univ : Finset (Fin 2 × Fin 16 × Fin 4)).biUnion (oBlk d) := by rw [oBlk_cover]; exact Finset.mem_univ x
  obtain ⟨⟨c, i, t⟩, -, hm⟩ := Finset.mem_biUnion.mp hx
  obtain ⟨f, hf, hgf⟩ := hg c i t
  exact (hgf x hm).trans (hΨ d _ t f hf x hm)

end Cert.Proof.KernelIdeal

end
-- ==== Proof.Bits.Common.lean ====
/-
  The program as the launch theorem sees it: the labels, the SparseCore configuration, the body table, the ghost
  state (the handshakes' rounds, the pipeline cells' rounds, the local transfers' counters), and the names of the
  arrays as each processor addresses them.
-/
import proofs.«204905_g71433896067310_cont_9to1c4b_220_29_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«204905_g71433896067310_cont_9to1c4b_220_29_alg».proof.Proof.Gen.Kernel
import proofs.«204905_g71433896067310_cont_9to1c4b_220_29_alg».proof.Proof.Gen.Kernel.Skeleton

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline cells' rounds, the local transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays -/

/-- The three arguments and the SparseCore call's result, as locations of device `d`. -/
abbrev xLoc (d : Dev nD) : Loc nD τ sig := (SparseCore.T d).loc main_arg0
abbrev hLoc (d : Dev nD) : Loc nD τ sig := (SparseCore.T d).loc main_arg1
abbrev sLoc (d : Dev nD) : Loc nD τ sig := (SparseCore.T d).loc main_arg2
abbrev oLoc (d : Dev nD) : Loc nD τ sig := (SparseCore.T d).loc main_v0

end Cert.Proof.Kernel

end
-- ==== Proof.Bits.TileRes.lean ====
/-
  A vector subcore's own storage, opened: its five scratch buffers and its eight DMA semaphores, each by name,
  and the rest.
-/
import proofs.«204905_g71433896067310_cont_9to1c4b_220_29_alg».proof.Proof.Bits.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (c : Fin τ.nSC) (i : Fin τ.nSub)

/-- The DMA semaphore cells of the tile: the two slots' and the six copies'. -/
abbrev cellA : GSem nD τ sig := (V d c i, .dma cc0_scratch5.sem)
abbrev cellB : GSem nD τ sig := (V d c i, .dma cc0_scratch6.sem)
abbrev cell0 : GSem nD τ sig := (V d c i, .dma cc0_scoped0.sem)
abbrev cell1 : GSem nD τ sig := (V d c i, .dma cc0_scoped1.sem)
abbrev cell2 : GSem nD τ sig := (V d c i, .dma cc0_scoped2.sem)
abbrev cell3 : GSem nD τ sig := (V d c i, .dma cc0_scoped3.sem)
abbrev cell4 : GSem nD τ sig := (V d c i, .dma cc0_scoped4.sem)
abbrev cell5 : GSem nD τ sig := (V d c i, .dma cc0_scoped5.sem)

theorem mem_own (sm : DmaSem sig) (h : (SemLoc.dma sm : SemLoc sig).isScoped .scVector = true) :
    ((V d c i, .dma sm) : GSem nD τ sig) ∈ ownCells (V d c i) := (mem_ownCells (g := (V d c i, .dma sm))).mpr ⟨rfl, h⟩

theorem ne_cell {a b : DmaSem sig} (h : a ≠ b) : ((V d c i, .dma a) : GSem nD τ sig) ≠ (V d c i, .dma b) :=
  fun e => h (SemLoc.dma.inj (Prod.mk.inj e).2)

theorem ownSems0_V :
    (ownSems0 (V d c i) : sProp 𝕄)
      = iprop(semVal (cellA d c i) 0 ∗ semVal (cellB d c i) 0 ∗ semVal (cell0 d c i) 0 ∗ semVal (cell1 d c i) 0 ∗ semVal (cell2 d c i) 0
          ∗ semVal (cell3 d c i) 0 ∗ semVal (cell4 d c i) 0 ∗ semVal (cell5 d c i) 0
          ∗ bigSep (((((((((ownCells (V d c i)).erase (cellA d c i)).erase (cellB d c i)).erase (cell0 d c i)).erase (cell1 d c i)).erase (cell2 d c i)).erase
              (cell3 d c i)).erase (cell4 d c i)).erase (cell5 d c i)) fun g => semVal g 0) := by
  unfold SparseCore.Cfg.ownSems0
  rw [SparseCore.bigSep_erase' (mem_own d c i cc0_scratch5.sem (by decide)),
    SparseCore.bigSep_erase' (Finset.mem_erase.mpr ⟨ne_cell d c i (a := cc0_scratch6.sem) (b := cc0_scratch5.sem) (by decide), mem_own d c i cc0_scratch6.sem (by decide)⟩),
    SparseCore.bigSep_erase' (Finset.mem_erase.mpr ⟨ne_cell d c i (a := cc0_scoped0.sem) (b := cc0_scratch6.sem) (by decide), Finset.mem_erase.mpr ⟨ne_cell d c i (a := cc0_scoped0.sem) (b := cc0_scratch5.sem) (by decide), mem_own d c i cc0_scoped0.sem (by decide)⟩⟩),
    SparseCore.bigSep_erase' (Finset.mem_erase.mpr ⟨ne_cell d c i (a := cc0_scoped1.sem) (b := cc0_scoped0.sem) (by decide), Finset.mem_erase.mpr ⟨ne_cell d c i (a := cc0_scoped1.sem) (b := cc0_scratch6.sem) (by decide), Finset.mem_erase.mpr ⟨ne_cell d c i (a := cc0_scoped1.sem) (b := cc0_scratch5.sem) (by decide), mem_own d c i cc0_scoped1.sem (by decide)⟩⟩⟩),
    SparseCore.bigSep_erase' (Finset.mem_erase.mpr ⟨ne_cell d c i (a := cc0_scoped2.sem) (b := cc0_scoped1.sem) (by decide), Finset.mem_erase.mpr ⟨ne_cell d c i (a := cc0_scoped2.sem) (b := cc0_scoped0.sem) (by decide), Finset.mem_erase.mpr ⟨ne_cell d c i (a := cc0_scoped2.sem) (b := cc0_scratch6.sem) (by decide), Finset.mem_erase.mpr ⟨ne_cell d c i (a := cc0_scoped2.sem) (b := cc0_scratch5.sem) (by decide), mem_own d c i cc0_scoped2.sem (by decide)⟩⟩⟩⟩),
    SparseCore.bigSep_erase' (Finset.mem_erase.mpr ⟨ne_cell d c i (a := cc0_scoped3.sem) (b := cc0_scoped2.sem) (by decide), Finset.mem_erase.mpr ⟨ne_cell d c i (a := cc0_scoped3.sem) (b := cc0_scoped1.sem) (by decide), Finset.mem_erase.mpr ⟨ne_cell d c i (a := cc0_scoped3.sem) (b := cc0_scoped0.sem) (by decide), Finset.mem_erase.mpr ⟨ne_cell d c i (a := cc0_scoped3.sem) (b := cc0_scratch6.sem) (by decide), Finset.mem_erase.mpr ⟨ne_cell d c i (a := cc0_scoped3.sem) (b := cc0_scratch5.sem) (by decide), mem_own d c i cc0_scoped3.sem (by decide)⟩⟩⟩⟩⟩),
    SparseCore.bigSep_erase' (Finset.mem_erase.mpr ⟨ne_cell d c i (a := cc0_scoped4.sem) (b := cc0_scoped3.sem) (by decide), Finset.mem_erase.mpr ⟨ne_cell d c i (a := cc0_scoped4.sem) (b := cc0_scoped2.sem) (by decide), Finset.mem_erase.mpr ⟨ne_cell d c i (a := cc0_scoped4.sem) (b := cc0_scoped1.sem) (by decide), Finset.mem_erase.mpr ⟨ne_cell d c i (a := cc0_scoped4.sem) (b := cc0_scoped0.sem) (by decide), Finset.mem_erase.mpr ⟨ne_cell d c i (a := cc0_scoped4.sem) (b := cc0_scratch6.sem) (by decide), Finset.mem_erase.mpr ⟨ne_cell d c i (a := cc0_scoped4.sem) (b := cc0_scratch5.sem) (by decide), mem_own d c i cc0_scoped4.sem (by decide)⟩⟩⟩⟩⟩⟩),
    SparseCore.bigSep_erase' (Finset.mem_erase.mpr ⟨ne_cell d c i (a := cc0_scoped5.sem) (b := cc0_scoped4.sem) (by decide), Finset.mem_erase.mpr ⟨ne_cell d c i (a := cc0_scoped5.sem) (b := cc0_scoped3.sem) (by decide), Finset.mem_erase.mpr ⟨ne_cell d c i (a := cc0_scoped5.sem) (b := cc0_scoped2.sem) (by decide), Finset.mem_erase.mpr ⟨ne_cell d c i (a := cc0_scoped5.sem) (b := cc0_scoped1.sem) (by decide), Finset.mem_erase.mpr ⟨ne_cell d c i (a := cc0_scoped5.sem) (b := cc0_scoped0.sem) (by decide), Finset.mem_erase.mpr ⟨ne_cell d c i (a := cc0_scoped5.sem) (b := cc0_scratch6.sem) (by decide), Finset.mem_erase.mpr ⟨ne_cell d c i (a := cc0_scoped5.sem) (b := cc0_scratch5.sem) (by decide), mem_own d c i cc0_scoped5.sem (by decide)⟩⟩⟩⟩⟩⟩⟩)]

abbrev bufRef (b : Ref sig .scVector) : DevRef τ sig := (Proc.scVector c i).devRef b

theorem mem_ownRef (b : Ref sig .scVector) (h : (bufRef c i b).owner = Owner.proc (Proc.scVector c i)) : bufRef c i b ∈ ownRefs (τ := τ) (.scVector c i) :=
  SparseCore.Cfg.mem_ownRefs_of_owner (p := Proc.scVector c i) (b := bufRef c i b) h
theorem ne_ref {a b : Ref sig .scVector} (h : a ≠ b) : bufRef c i a ≠ bufRef c i b :=
  fun e => h (Proc.devRef_injective _ e)

/-- The five scratch buffers are among the subcore's own: they are them, at some contents, and the rest. -/
theorem ownBufs_V :
    (ownBufs (V d c i) : sProp 𝕄)
      = iprop((∃ f, (V d c i).loc cc0_scratch0 ↦{fullShare} f) ∗ (∃ f, (V d c i).loc cc0_scratch1 ↦{fullShare} f)
          ∗ (∃ f, (V d c i).loc cc0_scratch2 ↦{fullShare} f) ∗ (∃ f, (V d c i).loc cc0_scratch3 ↦{fullShare} f)
          ∗ (∃ f, (V d c i).loc cc0_scratch4 ↦{fullShare} f)
          ∗ bigSep ((((((ownRefs (τ := τ) (.scVector c i)).erase (bufRef c i cc0_scratch0)).erase (bufRef c i cc0_scratch1)).erase
              (bufRef c i cc0_scratch2)).erase (bufRef c i cc0_scratch3)).erase (bufRef c i cc0_scratch4))
              fun b => iprop(∃ f, ((d, b) : Loc nD τ sig) ↦{fullShare} f)) := by
  unfold SparseCore.Cfg.ownBufs
  refine (SparseCore.bigSep_erase' (mem_ownRef c i cc0_scratch0 rfl)).trans ?_
  rw [SparseCore.bigSep_erase' (Finset.mem_erase.mpr ⟨ne_ref c i (a := cc0_scratch1) (b := cc0_scratch0) (by decide), mem_ownRef c i cc0_scratch1 rfl⟩),
    SparseCore.bigSep_erase' (Finset.mem_erase.mpr ⟨ne_ref c i (a := cc0_scratch2) (b := cc0_scratch1) (by decide), Finset.mem_erase.mpr ⟨ne_ref c i (a := cc0_scratch2) (b := cc0_scratch0) (by decide), mem_ownRef c i cc0_scratch2 rfl⟩⟩),
    SparseCore.bigSep_erase' (Finset.mem_erase.mpr ⟨ne_ref c i (a := cc0_scratch3) (b := cc0_scratch2) (by decide), Finset.mem_erase.mpr ⟨ne_ref c i (a := cc0_scratch3) (b := cc0_scratch1) (by decide), Finset.mem_erase.mpr ⟨ne_ref c i (a := cc0_scratch3) (b := cc0_scratch0) (by decide), mem_ownRef c i cc0_scratch3 rfl⟩⟩⟩),
    SparseCore.bigSep_erase' (Finset.mem_erase.mpr ⟨ne_ref c i (a := cc0_scratch4) (b := cc0_scratch3) (by decide), Finset.mem_erase.mpr ⟨ne_ref c i (a := cc0_scratch4) (b := cc0_scratch2) (by decide), Finset.mem_erase.mpr ⟨ne_ref c i (a := cc0_scratch4) (b := cc0_scratch1) (by decide), Finset.mem_erase.mpr ⟨ne_ref c i (a := cc0_scratch4) (b := cc0_scratch0) (by decide), mem_ownRef c i cc0_scratch4 rfl⟩⟩⟩⟩)]

end Cert.Proof.Kernel

end
-- ==== Proof.Bits.TileDefs.lean ====
/-
  A vector subcore's task: its thread, the rows of the call's result it writes, what it is handed and hands back.
-/
import proofs.«204905_g71433896067310_cont_9to1c4b_220_29_alg».proof.Proof.Bits.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The processor coordinates `(c, s)` as the kernel's function takes them. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- The eight rows of the call's result that the task writes in its `t`-th round, as the task slices them:
    rows `64 s + 32 c + 8 t … + 8` of the `[1024, 2048]` array. -/
abbrev oSl (L : grid0.Coords) (t : Fin 4) : Memref sig .scVector .hbm S8x2048 .f32 :=
  (Memref.whole main_v0_scv : Memref sig .scVector .hbm S1024x2048 .f32).slice
    (Rect.unit (s := S1024x2048) (k0_off19 L (BitVec.ofNat 32 (8 * t.val))) S8x2048.size (k0_off19_inb L t)) (fun _ => rfl)

variable (d : Dev nD) (L : grid0.Coords)

/-- The elements of the call's result under those rows. -/
def oSet (t : Fin 4) : Finset (Idx (oLoc d)) := (oSl L t).view.set

/-- What the task is handed: the three arguments whole at read shares, its thirty-two rows of the result in four pieces. -/
def tileIn (qx qh qs : PosShare TreeShare) (fo : Buf (Elt F) (oLoc d)) : sProp 𝕄 :=
  iprop((xLoc d ↦{qx} m (xLoc d)) ∗ (hLoc d ↦{qh} m (hLoc d)) ∗ (sLoc d ↦{qs} m (sLoc d))
    ∗ (oLoc d ↦[oSet d L 0]{fullShare} fo) ∗ (oLoc d ↦[oSet d L 1]{fullShare} fo) ∗ (oLoc d ↦[oSet d L 2]{fullShare} fo) ∗ (oLoc d ↦[oSet d L 3]{fullShare} fo))
/-- What it hands back: the arguments, and each piece of the result at contents of which `Ψ` holds. -/
def tileOut (Ψ : Fin 4 → Buf (Elt F) (oLoc d) → Prop) (qx qh qs : PosShare TreeShare) : sProp 𝕄 :=
  iprop((xLoc d ↦{qx} m (xLoc d)) ∗ (hLoc d ↦{qh} m (hLoc d)) ∗ (sLoc d ↦{qs} m (sLoc d))
    ∗ (∃ f, ⌜Ψ 0 f⌝ ∗ oLoc d ↦[oSet d L 0]{fullShare} f) ∗ (∃ f, ⌜Ψ 1 f⌝ ∗ oLoc d ↦[oSet d L 1]{fullShare} f)
    ∗ (∃ f, ⌜Ψ 2 f⌝ ∗ oLoc d ↦[oSet d L 2]{fullShare} f) ∗ (∃ f, ⌜Ψ 3 f⌝ ∗ oLoc d ↦[oSet d L 3]{fullShare} f))

end Cert.Proof.Kernel

end
-- ==== Proof.Bits.Vsi.lean ====
/-
  The indexed add-store into the task's accumulator, as one step.
-/
import proofs.«204905_g71433896067310_cont_9to1c4b_220_29_alg».proof.Proof.Bits.Common
import proofs.«204905_g71433896067310_cont_9to1c4b_220_29_alg».proof.Proof.Bits.TileDefs

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "cS" => (Memref.whole Cert.Kernel.cc0_scratch4 : Memref Cert.Kernel.sig Kind.scVector Space.vmem Cert.Kernel.S8x2048 EltTy.f32)

variable [FloatOps F] (d : Dev nD) (L : grid0.Coords)

omit [FloatOps F] in
theorem pts_acc (f : Buf (Elt F) ((thr d L).loc cc0_scratch4)) :
    ((((cS).access (.whole S8x2048)).loc (thr d L) ↦[((cS).access (.whole S8x2048)).set]{fullShare} f : sProp 𝕄))
      = ((cS).view.loc (thr d L) ↦{fullShare} f) := by
  rw [show ((cS).access (.whole S8x2048)).set = Finset.univ from Memref.set_access_whole cc0_scratch4]

omit [FloatOps F] in
/-- The side condition an indexed store assumes of its index vectors: the row word below 8, the bucket words below 2048. -/
theorem chk_ok (v40 v : IVec S16 32) (c : BitVec 32) (hc : c.toNat < 8) (hv : v = broadcast S16 c) (h40 : ∀ x, (v40 x).toNat < 2048) :
    ∀ a x, ((![v, v40] : Fin 2 → IVec S16 32) a x).toNat < S8x2048.size a := by
  intro a x
  match a with
  | 0 => subst hv; exact hc
  | 1 => exact h40 x

/-- The indexed add-store into the accumulator held whole: it goes on with the accumulator at some contents. -/
theorem wp_vsi {α : Type} {idxs : Fin S8x2048.rank → IVec S16 32} {v : Vec F S16 .f32} {mask : IVec S16 1} {add : Bool}
    {h : ∀ a x, (idxs a x).toNat < S8x2048.size a} {hs : ((cS).access (.whole S8x2048)).Stores Finset.univ}
    {k : PUnit → Prog (TpuEff nD τ sig (Elt F) Λ₀ (thr d L).2) α} {Q : α → sProp 𝕄} (f : Buf (Elt F) ((thr d L).loc cc0_scratch4)) :
    ((cS).view.loc (thr d L) ↦{fullShare} f : sProp 𝕄)
      ⊢ iprop(((∃ f', (cS).view.loc (thr d L) ↦{fullShare} f') -∗ wp frame (wpE (defs₀ (F := F)) 𝒱₀ (thr d L) none) Set.univ (k ⟨⟩) Q)
        -∗ wp frame (wpE (defs₀ (F := F)) 𝒱₀ (thr d L) none) Set.univ (SparseCore.vectorStoreIdx (cS) idxs v mask add h hs >>= k) Q) := by
  iintro H Hk
  ihave H := (Entails.of_eq (pts_acc (F := F) d L f).symm) $$ H
  iapply (SparseCore.wp_vectorStoreIdx (defs := defs₀ (F := F)) 𝒱₀ (thr d L) none Set.univ (base := cS) (idxs := idxs) (v := v) (mask := mask) (add := add)
    (h := h) (hs := hs) (k := k) (f := f) (Q := Q)) $$ H
  iintro H
  ihave H := (Entails.of_eq (pts_acc (F := F) d L _)) $$ H
  iapply Hk
  iexists _; iexact H

/-- The same with the contents named: the accumulator goes on at `storeIdx` of what it held. -/
theorem wp_vsiV {α : Type} {idxs : Fin S8x2048.rank → IVec S16 32} {v : Vec F S16 .f32} {mask : IVec S16 1} {add : Bool}
    {h : ∀ a x, (idxs a x).toNat < S8x2048.size a} {hs : ((cS).access (.whole S8x2048)).Stores Finset.univ}
    {k : PUnit → Prog (TpuEff nD τ sig (Elt F) Λ₀ (thr d L).2) α} {Q : α → sProp 𝕄} (f : Buf (Elt F) ((thr d L).loc cc0_scratch4)) :
    ((cS).view.loc (thr d L) ↦{fullShare} f : sProp 𝕄)
      ⊢ iprop((((cS).view.loc (thr d L) ↦{fullShare} (storeIdx (F := F) f idxs v mask add h : Buf (Elt F) ((thr d L).loc cc0_scratch4)))
          -∗ wp frame (wpE (defs₀ (F := F)) 𝒱₀ (thr d L) none) Set.univ (k ⟨⟩) Q)
        -∗ wp frame (wpE (defs₀ (F := F)) 𝒱₀ (thr d L) none) Set.univ (SparseCore.vectorStoreIdx (cS) idxs v mask add h hs >>= k) Q) := by
  iintro H Hk
  ihave H := (Entails.of_eq (pts_acc (F := F) d L f).symm) $$ H
  iapply (SparseCore.wp_vectorStoreIdx (defs := defs₀ (F := F)) 𝒱₀ (thr d L) none Set.univ (base := cS) (idxs := idxs) (v := v) (mask := mask) (add := add)
    (h := h) (hs := hs) (k := k) (f := f) (Q := Q)) $$ H
  iintro H
  ihave H := (Entails.of_eq (pts_acc (F := F) d L _)) $$ H
  iapply Hk
  have e : (((cS).access (.whole S8x2048)).write (Elt F) f (storeIdx (((cS).access (.whole S8x2048)).read (Elt F) f) idxs v mask add h) Finset.univ)
      = (storeIdx (F := F) f idxs v mask add h : Buf (Elt F) ((thr d L).loc cc0_scratch4)) :=
    (Memref.write_access_whole_univ (Elt F) cc0_scratch4 f _).trans
      (congrArg (fun g => storeIdx (F := F) g idxs v mask add h) (Memref.read_access_whole (Elt F) cc0_scratch4 f))
  ihave H := (Entails.of_eq (congrArg (fun g : Buf (Elt F) ((thr d L).loc cc0_scratch4) => ((cS).view.loc (thr d L) ↦{fullShare} g : sProp 𝕄)) e)) $$ H
  iexact H

/-- The same at the store's two steps spelt out: a load of the whole accumulator, then a store of the whole of it. -/
theorem wp_vsiU {α : Type} {idxs : Fin S8x2048.rank → IVec S16 32} {v : Vec F S16 .f32} {mask : IVec S16 1} {add : Bool}
    {h : ∀ a x, (idxs a x).toNat < S8x2048.size a} {hs : ((cS).access (.whole S8x2048)).Stores Finset.univ}
    {k : PUnit → Prog (TpuEff nD τ sig (Elt F) Λ₀ (thr d L).2) α} {Q : α → sProp 𝕄} (f : Buf (Elt F) ((thr d L).loc cc0_scratch4)) :
    ((cS).view.loc (thr d L) ↦{fullShare} f : sProp 𝕄)
      ⊢ iprop((((cS).view.loc (thr d L) ↦{fullShare} (storeIdx (F := F) f idxs v mask add h : Buf (Elt F) ((thr d L).loc cc0_scratch4)))
          -∗ wp frame (wpE (defs₀ (F := F)) 𝒱₀ (thr d L) none) Set.univ (k ⟨⟩) Q)
        -∗ wp frame (wpE (defs₀ (F := F)) 𝒱₀ (thr d L) none) Set.univ
          (Prog.op (TpuEff.load (cS) (.whole S8x2048) (View.loadsAt_rect hs.loads)) fun f' =>
            Prog.op (TpuEff.store (cS) (.whole S8x2048) (storeIdx (F := F) f' idxs v mask add h) Finset.univ hs (.inl rfl)) k) Q) := by
  exact wp_vsiV (F := F) d L (idxs := idxs) (v := v) (mask := mask) (add := add) (h := h) (hs := hs) (k := k) (Q := Q) f

end Cert.Proof.Kernel

end
-- ==== Proof.Bits.Body.lean ====
/-
  One vector subcore's task.
-/
import proofs.«204905_g71433896067310_cont_9to1c4b_220_29_alg».proof.Proof.Bits.Common
import proofs.«204905_g71433896067310_cont_9to1c4b_220_29_alg».proof.Proof.Bits.TileRes
import proofs.«204905_g71433896067310_cont_9to1c4b_220_29_alg».proof.Proof.Bits.TileDefs
import proofs.«204905_g71433896067310_cont_9to1c4b_220_29_alg».proof.Proof.Bits.Vsi

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S4096x4096 EltTy.f32)
local notation "hW" => (Memref.whole Cert.Kernel.main_arg1_scv : Memref Cert.Kernel.sig Kind.scVector Space.hbm Cert.Kernel.S4096 EltTy.i32)
local notation "sW" => (Memref.whole Cert.Kernel.main_arg2_scv : Memref Cert.Kernel.sig Kind.scVector Space.hbm Cert.Kernel.S4096 EltTy.f32)
local notation "oW" => (Memref.whole Cert.Kernel.main_v0_scv : Memref Cert.Kernel.sig Kind.scVector Space.hbm Cert.Kernel.S1024x2048 EltTy.f32)
local notation "hS" => (Memref.whole Cert.Kernel.cc0_scratch0 : Memref Cert.Kernel.sig Kind.scVector Space.vmem Cert.Kernel.S4096 EltTy.i32)
local notation "sS" => (Memref.whole Cert.Kernel.cc0_scratch1 : Memref Cert.Kernel.sig Kind.scVector Space.vmem Cert.Kernel.S4096 EltTy.f32)
local notation "aS" => (Memref.whole Cert.Kernel.cc0_scratch2 : Memref Cert.Kernel.sig Kind.scVector Space.vmem Cert.Kernel.S8x4096 EltTy.f32)
local notation "bS" => (Memref.whole Cert.Kernel.cc0_scratch3 : Memref Cert.Kernel.sig Kind.scVector Space.vmem Cert.Kernel.S8x4096 EltTy.f32)
local notation "cS" => (Memref.whole Cert.Kernel.cc0_scratch4 : Memref Cert.Kernel.sig Kind.scVector Space.vmem Cert.Kernel.S8x2048 EltTy.f32)

variable [FloatOps F]

section Tile

variable (d : Dev nD) (L : grid0.Coords)

omit [FloatOps F] in
theorem pts_x (q : PosShare TreeShare) (f : Buf (Elt F) (xLoc d)) :
    ((xW).view.loc (thr d L) ↦{q} f : sProp 𝕄) = xLoc d ↦{q} f := by
  simp only [Memref.view_whole, View.set_whole]
omit [FloatOps F] in
theorem pts_h (q : PosShare TreeShare) (f : Buf (Elt F) (hLoc d)) :
    ((hW).view.loc (thr d L) ↦{q} f : sProp 𝕄) = hLoc d ↦{q} f := by
  simp only [Memref.view_whole, View.set_whole]
omit [FloatOps F] in
theorem pts_s (q : PosShare TreeShare) (f : Buf (Elt F) (sLoc d)) :
    ((sW).view.loc (thr d L) ↦{q} f : sProp 𝕄) = sLoc d ↦{q} f := by
  simp only [Memref.view_whole, View.set_whole]
omit [FloatOps F] in
theorem pts_o (t : Fin 4) (f : Buf (Elt F) (oLoc d)) :
    ((oSl L t).view.loc (thr d L) ↦[(oSl L t).view.set]{fullShare} f : sProp 𝕄) = oLoc d ↦[oSet d L t]{fullShare} f := rfl
omit [FloatOps F] in
theorem pts_b0 (f : Buf (Elt F) ((thr d L).loc cc0_scratch0)) : ((hS).view.loc (thr d L) ↦{fullShare} f : sProp 𝕄) = (thr d L).loc cc0_scratch0 ↦{fullShare} f := rfl
omit [FloatOps F] in
theorem pts_b1 (f : Buf (Elt F) ((thr d L).loc cc0_scratch1)) : ((sS).view.loc (thr d L) ↦{fullShare} f : sProp 𝕄) = (thr d L).loc cc0_scratch1 ↦{fullShare} f := rfl
omit [FloatOps F] in
theorem pts_b2 (f : Buf (Elt F) ((thr d L).loc cc0_scratch2)) : ((aS).view.loc (thr d L) ↦{fullShare} f : sProp 𝕄) = (thr d L).loc cc0_scratch2 ↦{fullShare} f := rfl
omit [FloatOps F] in
theorem pts_b3 (f : Buf (Elt F) ((thr d L).loc cc0_scratch3)) : ((bS).view.loc (thr d L) ↦{fullShare} f : sProp 𝕄) = (thr d L).loc cc0_scratch3 ↦{fullShare} f := rfl
omit [FloatOps F] in
theorem pts_b4 (f : Buf (Elt F) ((thr d L).loc cc0_scratch4)) : ((cS).view.loc (thr d L) ↦{fullShare} f : sProp 𝕄) = (thr d L).loc cc0_scratch4 ↦{fullShare} f := rfl

omit [FloatOps F] in
/-- A buffer's contents named. -/
theorem pts_name {ℓ : Loc nD τ sig} {q : PosShare TreeShare} (f : Buf (Elt F) ℓ) :
    (ℓ ↦{q} f : sProp 𝕄) ⊢ iprop(∃ g, ⌜g = f⌝ ∗ ℓ ↦{q} g) := by
  iintro H; iexists f; isplitr
  · ipureintro; rfl
  · iexact H

/-- The accumulator while it is being cleared. -/
def invZ (_ : Nat) (_ : PUnit) : sProp 𝕄 := iprop(∃ f, (cS).view.loc (thr d L) ↦{fullShare} f)

/-- The accumulator while the columns are folded in, sixteen at a time: the task's copies of `h` and `sign` and the
    eight fetched rows are read, the accumulator rewritten. `A` is the slot the rows were fetched into. -/
def invG (A : Memref sig .scVector .vmem S8x4096 .f32) (gh : Buf (Elt F) ((thr d L).loc cc0_scratch0)) (gs : Buf (Elt F) ((thr d L).loc cc0_scratch1))
    (ga : Buf (Elt F) (A.view.loc (thr d L))) (_ : Nat) (_ : PUnit) : sProp 𝕄 :=
  iprop(((hS).view.loc (thr d L) ↦{fullShare} gh) ∗ ((sS).view.loc (thr d L) ↦{fullShare} gs) ∗ (A.view.loc (thr d L) ↦{fullShare} ga)
    ∗ ∃ f, (cS).view.loc (thr d L) ↦{fullShare} f)

theorem tile_body (hF : (K (F := F)).Facts) (hpre : ∀ j : S4096.Idx, (m (hLoc d) j).toNat < 2048) (O : CellTallies nD τ sig (HIx 1)) (W : Waits sig (HIx 1)) (hO : ∀ g, O g none = 0)
    (qx qh qs : PosShare TreeShare) (fo : Buf (Elt F) (oLoc d)) :
    (iprop(levAts (K (F := F)).L (K (F := F)).lev ∗ emp ∗ tileIn m d L qx qh qs fo
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) hW (Memref.isWhole_whole _) sW (Memref.isWhole_whole _) oW (Memref.isWhole_whole _)
            hS (Memref.isWhole_whole _) sS (Memref.isWhole_whole _) aS (Memref.isWhole_whole _) bS (Memref.isWhole_whole _) cS (Memref.isWhole_whole _)
            cc0_scratch5 cc0_scratch6 cc0_scoped0 cc0_scoped1 cc0_scoped2 cc0_scoped3 cc0_scoped4 cc0_scoped5)
          fun _ => iprop(tileOut m d L (fun _ _ => True) qx qh qs ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold tileIn
  iintro ⟨#Hlv, -, ⟨Hx, Hh, Hs, Ho0, Ho1, Ho2, Ho3⟩,
    ⟨⟨%f0, Hb0⟩, ⟨%f1, Hb1⟩, ⟨%f2, Hb2⟩, ⟨%f3, Hb3⟩, ⟨%f4, Hb4⟩, Hbufs⟩, ⟨HsA, HsB, Hs0, Hs1, Hs2, Hs3, Hs4, Hs5, Hsems⟩, HO⟩
  ihave Hmw := ((K (F := F)).mayWaits_none (thr := thr d L) hO) $$ Hlv
  ihave Hx := (Entails.of_eq (pts_x (F := F) d L _ _).symm) $$ Hx
  ihave Hh := (Entails.of_eq (pts_h (F := F) d L _ _).symm) $$ Hh
  ihave Hs := (Entails.of_eq (pts_s (F := F) d L _ _).symm) $$ Hs
  ihave Ho0 := (Entails.of_eq (pts_o (F := F) d L 0 _).symm) $$ Ho0
  ihave Ho1 := (Entails.of_eq (pts_o (F := F) d L 1 _).symm) $$ Ho1
  ihave Ho2 := (Entails.of_eq (pts_o (F := F) d L 2 _).symm) $$ Ho2
  ihave Ho3 := (Entails.of_eq (pts_o (F := F) d L 3 _).symm) $$ Ho3
  ihave Hb0 := (Entails.of_eq (pts_b0 (F := F) d L _).symm) $$ Hb0
  ihave Hb1 := (Entails.of_eq (pts_b1 (F := F) d L _).symm) $$ Hb1
  ihave Hb2 := (Entails.of_eq (pts_b2 (F := F) d L _).symm) $$ Hb2
  ihave Hb3 := (Entails.of_eq (pts_b3 (F := F) d L _).symm) $$ Hb3
  ihave Hb4 := (Entails.of_eq (pts_b4 (F := F) d L _).symm) $$ Hb4
  sl_exec
  ihave Hb0 := (pts_name (F := F) _) $$ Hb0
  icases Hb0 with ⟨%gh, %hgh, Hb0⟩
  ihave Hb1 := (pts_name (F := F) _) $$ Hb1
  icases Hb1 with ⟨%gs, %hgs, Hb1⟩
  have hr : ∀ j, (gh j).toNat < 2048 := by
    intro j
    rw [hgh]
    exact (congrArg BitVec.toNat (congrFun (View.write_whole_univ _ _ _) j)).trans_lt (hpre j)
  -- round 0: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz0, Hb4⟩
  ihave Hb2 := (pts_name (F := F) _) $$ Hb2
  icases Hb2 with ⟨%ga0, %hga0, Hb2⟩
  sl_for (invG (F := F) d L aS gh gs ga0) $$ [Hb0 Hb1 Hb2 Hb4]
  case region =>
    intro k _
    unfold invG
    iintro ⟨Hb0, Hb1, Hb2, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb2]; · iexact Hb2
    iexists _; iexact Hb4
  · unfold invG
    isplitl [Hb0]; · iexact Hb0
    isplitl [Hb1]; · iexact Hb1
    isplitl [Hb2]; · iexact Hb2
    iexists _; iexact Hb4
  iintro %_ HI
  unfold invG
  icases HI with ⟨Hb0, Hb1, Hb2, %fg0, Hb4⟩
  sl_exec
  -- round 1: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz1, Hb4⟩
  ihave Hb3 := (pts_name (F := F) _) $$ Hb3
  icases Hb3 with ⟨%ga1, %hga1, Hb3⟩
  sl_for (invG (F := F) d L bS gh gs ga1) $$ [Hb0 Hb1 Hb3 Hb4]
  case region =>
    intro k _
    unfold invG
    iintro ⟨Hb0, Hb1, Hb3, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb3]; · iexact Hb3
    iexists _; iexact Hb4
  · unfold invG
    isplitl [Hb0]; · iexact Hb0
    isplitl [Hb1]; · iexact Hb1
    isplitl [Hb3]; · iexact Hb3
    iexists _; iexact Hb4
  iintro %_ HI
  unfold invG
  icases HI with ⟨Hb0, Hb1, Hb3, %fg1, Hb4⟩
  sl_exec
  -- round 2: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz2, Hb4⟩
  ihave Hb2 := (pts_name (F := F) _) $$ Hb2
  icases Hb2 with ⟨%ga2, %hga2, Hb2⟩
  sl_for (invG (F := F) d L aS gh gs ga2) $$ [Hb0 Hb1 Hb2 Hb4]
  case region =>
    intro k _
    unfold invG
    iintro ⟨Hb0, Hb1, Hb2, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb2]; · iexact Hb2
    iexists _; iexact Hb4
  · unfold invG
    isplitl [Hb0]; · iexact Hb0
    isplitl [Hb1]; · iexact Hb1
    isplitl [Hb2]; · iexact Hb2
    iexists _; iexact Hb4
  iintro %_ HI
  unfold invG
  icases HI with ⟨Hb0, Hb1, Hb2, %fg2, Hb4⟩
  sl_exec
  -- round 3: the accumulator cleared, the sixteen-column groups folded in
  sl_for (invZ (F := F) d L) $$ [Hb4]
  case region =>
    intro k _
    unfold invZ
    iintro ⟨%f, Hb4⟩
    sl_exec
    sl_step
    iexists _; iexact Hb4
  · unfold invZ; iexists _; iexact Hb4
  iintro %_ HI
  unfold invZ
  icases HI with ⟨%fz3, Hb4⟩
  ihave Hb3 := (pts_name (F := F) _) $$ Hb3
  icases Hb3 with ⟨%ga3, %hga3, Hb3⟩
  sl_for (invG (F := F) d L bS gh gs ga3) $$ [Hb0 Hb1 Hb3 Hb4]
  case region =>
    intro k _
    unfold invG
    iintro ⟨Hb0, Hb1, Hb3, %f, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb3]; · iexact Hb3
    iexists _; iexact Hb4
  · unfold invG
    isplitl [Hb0]; · iexact Hb0
    isplitl [Hb1]; · iexact Hb1
    isplitl [Hb3]; · iexact Hb3
    iexists _; iexact Hb4
  iintro %_ HI
  unfold invG
  icases HI with ⟨Hb0, Hb1, Hb3, %fg3, Hb4⟩
  sl_exec
  sl_step
  unfold tileOut
  isplitl [Hx Hh Hs Ho0 Ho1 Ho2 Ho3]
  · isplitl [Hx]; · iapply (Entails.of_eq (pts_x (F := F) d L _ _)); iexact Hx
    isplitl [Hh]; · iapply (Entails.of_eq (pts_h (F := F) d L _ _)); iexact Hh
    isplitl [Hs]; · iapply (Entails.of_eq (pts_s (F := F) d L _ _)); iexact Hs
    isplitl [Ho0]
    · ihave Ho0 := (Entails.of_eq (pts_o (F := F) d L 0 _)) $$ Ho0
      iexists _; isplitr
      rotate_left
      · iexact Ho0
      · ipureintro; trivial
    isplitl [Ho1]
    · ihave Ho1 := (Entails.of_eq (pts_o (F := F) d L 1 _)) $$ Ho1
      iexists _; isplitr
      rotate_left
      · iexact Ho1
      · ipureintro; trivial
    isplitl [Ho2]
    · ihave Ho2 := (Entails.of_eq (pts_o (F := F) d L 2 _)) $$ Ho2
      iexists _; isplitr
      rotate_left
      · iexact Ho2
      · ipureintro; trivial
    ihave Ho3 := (Entails.of_eq (pts_o (F := F) d L 3 _)) $$ Ho3
    iexists _; isplitr
    rotate_left
    · iexact Ho3
    · ipureintro; trivial
  isplitl [Hb0 Hb1 Hb2 Hb3 Hb4 Hbufs]
  · isplitl [Hb0]; · iexists _; iapply (Entails.of_eq (pts_b0 (F := F) d L _)); iexact Hb0
    isplitl [Hb1]; · iexists _; iapply (Entails.of_eq (pts_b1 (F := F) d L _)); iexact Hb1
    isplitl [Hb2]; · iexists _; iapply (Entails.of_eq (pts_b2 (F := F) d L _)); iexact Hb2
    isplitl [Hb3]; · iexists _; iapply (Entails.of_eq (pts_b3 (F := F) d L _)); iexact Hb3
    isplitl [Hb4]; · iexists _; iapply (Entails.of_eq (pts_b4 (F := F) d L _)); iexact Hb4
    iexact Hbufs
  isplitl [HsA HsB Hs0 Hs1 Hs2 Hs3 Hs4 Hs5 Hsems]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Tile

end Cert.Proof.Kernel

end
-- ==== Proof.Bits.Split.lean ====
/-
  The SparseCore call's result, cut among the tasks.

  The call's result has 1024 rows. The task on SparseCore `c` and tile `i` writes rows
  `64 i + 32 c + 8 t … + 8` in its `t`-th round, `t < 4`: eight-row block number `8 i + 4 c + t`.
  As `(c, i, t)` ranges over `2 × 16 × 4` the block number takes each value below 128 once, so the
  128 blocks are pairwise disjoint and cover the array: the array held whole is the 128 blocks held
  one by one, and back.
-/
import proofs.«204905_g71433896067310_cont_9to1c4b_220_29_alg».proof.Proof.Bits.TileDefs
import Idealize.ShloMosaic.Lib.Transfers

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The eight-row blocks -/

theorem bound_zero : grid0.bound 0 = 2 := rfl
theorem bound_one : grid0.bound 1 = 16 := rfl
/-- A SparseCore's number and a tile's number as the kernel's coordinates. -/
abbrev cC (c : Fin 2) : Fin (grid0.bound 0) := Fin.cast bound_zero.symm c
abbrev cI (i : Fin 16) : Fin (grid0.bound 1) := Fin.cast bound_one.symm i

/-- An element of the call's result lies in the rows task `(c, i)` writes in round `t` exactly when its row,
    divided by eight, is `8 i + 4 c + t`. -/
theorem mem_oSet (d : Dev nD) (c : Fin 2) (i : Fin 16) (t : Fin 4) (x : Idx (oLoc d)) :
    x ∈ oSet d (coordsV (cC c) (cI i)) t ↔ (x 0).val / 8 = 8 * i.val + 4 * c.val + t.val := by
  unfold oSet
  show x ∈ ((View.whole (main_v0_scv : Ref sig .scVector)).slice
      (Rect.unit (s := S1024x2048) (k0_off19 (coordsV (cC c) (cI i)) (BitVec.ofNat 32 (8 * t.val))) S8x2048.size
        (k0_off19_inb (coordsV (cC c) (cI i)) t))).set ↔ _
  rw [View.set_slice_whole, Rect.mem_set_unit, k0_off19_eq]
  have hx1 : (x 1).val < 2048 := (x 1).isLt
  constructor
  · intro h
    have h0 := h 0
    have e0 : (![64 * (coordsV (cC c) (cI i) 1).val + 32 * (coordsV (cC c) (cI i) 0).val + 8 * t.val, 0] : Fin 2 → Nat) 0
        = 64 * i.val + 32 * c.val + 8 * t.val := rfl
    have s0 : S8x2048.size 0 = 8 := rfl
    rw [e0, s0] at h0
    omega
  · intro h a
    match a with
    | ⟨0, _⟩ =>
      show 64 * i.val + 32 * c.val + 8 * t.val ≤ (x 0).val ∧ (x 0).val < 64 * i.val + 32 * c.val + 8 * t.val + 8
      omega
    | ⟨1, _⟩ =>
      show 0 ≤ (x 1).val ∧ (x 1).val < 0 + 2048
      omega

/-- The rows of block `(c, i, t)`. -/
def oBlk (d : Dev nD) (p : Fin 2 × Fin 16 × Fin 4) : Finset (Idx (oLoc d)) :=
  oSet d (coordsV (cC p.1) (cI p.2.1)) p.2.2

/-- Different blocks share no element: the block number `8 i + 4 c + t` determines `(c, i, t)`. -/
theorem oBlk_disjoint (d : Dev nD) :
    ∀ p ∈ (Finset.univ : Finset (Fin 2 × Fin 16 × Fin 4)), ∀ p' ∈ (Finset.univ : Finset (Fin 2 × Fin 16 × Fin 4)),
      p ≠ p' → Disjoint (oBlk d p) (oBlk d p') := by
  rintro ⟨c, i, t⟩ - ⟨c', i', t'⟩ - hne
  rw [Finset.disjoint_left]
  intro x hx hx'
  have hx : (x 0).val / 8 = 8 * i.val + 4 * c.val + t.val := (mem_oSet d c i t x).1 hx
  have hx' : (x 0).val / 8 = 8 * i'.val + 4 * c'.val + t'.val := (mem_oSet d c' i' t' x).1 hx'
  apply hne
  have hc : c = c' := Fin.ext (by have := c.isLt; have := c'.isLt; have := t.isLt; have := t'.isLt; omega)
  have hi : i = i' := Fin.ext (by have := c.isLt; have := c'.isLt; have := t.isLt; have := t'.isLt; omega)
  have ht : t = t' := Fin.ext (by have := c.isLt; have := c'.isLt; have := t.isLt; have := t'.isLt; omega)
  rw [hc, hi, ht]

/-- Every element lies in a block: the one its row divided by eight names. -/
theorem oBlk_cover (d : Dev nD) :
    (Finset.univ : Finset (Fin 2 × Fin 16 × Fin 4)).biUnion (oBlk d) = Finset.univ := by
  ext x
  simp only [Finset.mem_biUnion, Finset.mem_univ, true_and, iff_true]
  have hx0 : (x 0).val < 1024 := (x 0).isLt
  refine ⟨(⟨(x 0).val / 8 / 4 % 2, by omega⟩, ⟨(x 0).val / 64, by omega⟩, ⟨(x 0).val / 8 % 4, by omega⟩), ?_⟩
  unfold oBlk
  rw [mem_oSet]
  show (x 0).val / 8 = 8 * ((x 0).val / 64) + 4 * ((x 0).val / 8 / 4 % 2) + (x 0).val / 8 % 4
  omega

/-- One sum over the blocks is the three nested sums over SparseCores, tiles and rounds. -/
theorem bigSep_blocks (Φ : Fin 2 → Fin 16 → Fin 4 → sProp 𝕄) :
    (bigSep Finset.univ fun p : Fin 2 × Fin 16 × Fin 4 => Φ p.1 p.2.1 p.2.2)
      = bigSep Finset.univ fun c : Fin 2 => bigSep Finset.univ fun i : Fin 16 => bigSep Finset.univ fun t : Fin 4 => Φ c i t :=
  (bigSep_univ_prod _).trans (bigSep_congr fun c _ => bigSep_univ_prod _)

/-- The call's result held whole is its 128 eight-row blocks held one by one. -/
theorem o_split (d : Dev nD) (f : Buf (Elt F) (oLoc d)) :
    (oLoc d ↦{fullShare} f : sProp 𝕄)
      = bigSep Finset.univ fun c : Fin 2 => bigSep Finset.univ fun i : Fin 16 => bigSep Finset.univ fun t : Fin 4 =>
          oLoc d ↦[oSet d (coordsV (cC c) (cI i)) t]{fullShare} f := by
  rw [← bigSep_blocks (F := F) (fun c i t => oLoc d ↦[oSet d (coordsV (cC c) (cI i)) t]{fullShare} f)]
  show _ = bigSep Finset.univ fun p : Fin 2 × Fin 16 × Fin 4 => (oLoc d ↦[oBlk d p]{fullShare} f : sProp 𝕄)
  rw [← pointsTo_biUnion Finset.univ (ℓ := oLoc d) (oBlk d) (oBlk_disjoint d), oBlk_cover]; try rfl

variable [FloatOps F]

/-- The 128 blocks, each at contents satisfying its own predicate, join into the whole array at contents that agree
    with each block's on that block's rows. -/
theorem o_join_of (d : Dev nD) (Θ : Fin 2 → Fin 16 → Fin 4 → Buf (Elt F) (oLoc d) → Prop) :
    (bigSep Finset.univ fun c : Fin 2 => bigSep Finset.univ fun i : Fin 16 => bigSep Finset.univ fun t : Fin 4 =>
        iprop(∃ f, ⌜Θ c i t f⌝ ∗ oLoc d ↦[oSet d (coordsV (cC c) (cI i)) t]{fullShare} f))
      ⊢ (iprop(∃ g, ⌜∀ c i t, ∃ f, Θ c i t f ∧ ∀ x ∈ oSet d (coordsV (cC c) (cI i)) t, g x = f x⌝ ∗ oLoc d ↦{fullShare} g) : sProp 𝕄) := by
  rw [← bigSep_blocks (F := F) (fun c i t => iprop(∃ f, ⌜Θ c i t f⌝ ∗ oLoc d ↦[oSet d (coordsV (cC c) (cI i)) t]{fullShare} f))]
  show (bigSep Finset.univ fun p : Fin 2 × Fin 16 × Fin 4 =>
      (iprop(∃ f, ⌜Θ p.1 p.2.1 p.2.2 f⌝ ∗ oLoc d ↦[oBlk d p]{fullShare} f) : sProp 𝕄)) ⊢ _
  refine (bigSep_exists_pi Finset.univ (fun p (f : Buf (Elt F) (oLoc d)) =>
    (iprop(⌜Θ p.1 p.2.1 p.2.2 f⌝ ∗ oLoc d ↦[oBlk d p]{fullShare} f) : sProp 𝕄))).trans ?_
  iintro ⟨%fs, H⟩
  ihave H1 := (bigSep_pure_sep Finset.univ (fun p : Fin 2 × Fin 16 × Fin 4 => Θ p.1 p.2.1 p.2.2 (fs p))
    (fun p => (oLoc d ↦[oBlk d p]{fullShare} fs p : sProp 𝕄))) $$ H
  icases H1 with ⟨%hΘ, H⟩
  ihave H' := (pointsTo_biUnion_join Finset.univ (oBlk d) fs (fs (0, 0, 0)) (oBlk_disjoint d)) $$ H
  icases H' with ⟨%g, %hg, Hg⟩
  rw [oBlk_cover]
  iexists g
  isplitr
  · ipureintro
    exact fun c i t => ⟨fs (c, i, t), hΘ (c, i, t) (Finset.mem_univ _), fun x hx => hg (c, i, t) (Finset.mem_univ _) x hx⟩
  · iexact Hg

/-- The 128 blocks, each at some contents, join into the whole array at some contents. -/
theorem o_join (d : Dev nD) :
    (bigSep Finset.univ fun c : Fin 2 => bigSep Finset.univ fun i : Fin 16 => bigSep Finset.univ fun t : Fin 4 =>
        iprop(∃ f, oLoc d ↦[oSet d (coordsV (cC c) (cI i)) t]{fullShare} f))
      ⊢ (iprop(∃ f, oLoc d ↦{fullShare} f) : sProp 𝕄) := by
  have e : ∀ (c : Fin 2) (i : Fin 16) (t : Fin 4),
      (iprop(∃ f, oLoc d ↦[oSet d (coordsV (cC c) (cI i)) t]{fullShare} f) : sProp 𝕄)
        ⊢ iprop(∃ f, ⌜True⌝ ∗ oLoc d ↦[oSet d (coordsV (cC c) (cI i)) t]{fullShare} f) := fun c i t => by
    iintro ⟨%f, H⟩; iexists f; isplitr
    · ipureintro; trivial
    · iexact H
  refine (bigSep_mono fun c _ => bigSep_mono fun i _ => bigSep_mono fun t _ => e c i t).trans ?_
  refine (o_join_of (F := F) d (fun _ _ _ _ => True)).trans ?_
  iintro ⟨%g, -, Hg⟩
  iexists g; iexact Hg

/-! ## Read shares of the three arguments

The call reads its three arguments on every tile at once. The whole share of an argument is cut into a token per
SparseCore and a remainder; a SparseCore's token again into a token per tile and a remainder. -/

open Idealize.ShloMosaic.Transfers (shareTok shareDrop pointsTo_toks)

/-- SparseCore `c`'s read share of an argument. -/
abbrev qxc (c : Fin 2) : PosShare TreeShare := shareTok fullShare 2 c
/-- Tile `i` of SparseCore `c`'s read share of an argument. -/
abbrev qxt (c : Fin 2) (i : Fin 16) : PosShare TreeShare := shareTok (qxc c) 16 i

omit [FloatOps F] in
/-- An array at share `q` is a remainder and one token per SparseCore. -/
theorem toks_cores (ℓ : Loc nD τ sig) (q : PosShare TreeShare) (f : Buf (Elt F) ℓ) :
    (ℓ ↦{q} f : sProp 𝕄) ⊣⊢ iprop((ℓ ↦{shareDrop q 2} f) ∗ bigSep Finset.univ fun c : Fin 2 => ℓ ↦{shareTok q 2 c} f) :=
  pointsTo_toks (ℓ := ℓ) (S := Finset.univ) (f := f) q 2

omit [FloatOps F] in
/-- An array at share `q` is a remainder and one token per tile. -/
theorem toks_tiles (ℓ : Loc nD τ sig) (q : PosShare TreeShare) (f : Buf (Elt F) ℓ) :
    (ℓ ↦{q} f : sProp 𝕄) ⊣⊢ iprop((ℓ ↦{shareDrop q 16} f) ∗ bigSep Finset.univ fun i : Fin 16 => ℓ ↦{shareTok q 16 i} f) :=
  pointsTo_toks (ℓ := ℓ) (S := Finset.univ) (f := f) q 16

/-! ## The launch record

What the call's handshakes carry: SparseCore `c` is handed the three arguments at its read share and the
sixty-four rows of the result its tiles write, in sixteen times four pieces; tile `i` is handed the three
arguments at its own read share and its four pieces. A SparseCore's read share is a token per tile and a
remainder, which stays with the SparseCore until the tiles hand their tokens back. What comes back of the result
is, piece by piece, some contents of which the piece's predicate `Ψ` holds. -/

/-- A SparseCore's and a tile's number in the call, as numbers below 2 and below 16. -/
abbrev kC (c : Fin ((K (F := F)).nCore 0)) : Fin 2 := Fin.cast nCore_zero c
abbrev kI (i : Fin ((K (F := F)).nSub 0)) : Fin 16 := Fin.cast nSub_zero i

/-- The three arguments whole, each at read share `q`. -/
abbrev argsAt (d : Dev nD) (q : PosShare TreeShare) : sProp 𝕄 :=
  iprop((xLoc d ↦{q} m (xLoc d)) ∗ (hLoc d ↦{q} m (hLoc d)) ∗ (sLoc d ↦{q} m (sLoc d)))

/-- The rows of the result that tile `i` of SparseCore `c` writes in round `t`, at contents `f`. -/
abbrev oPc (d : Dev nD) (c : Fin 2) (i : Fin 16) (t : Fin 4) (f : Buf (Elt F) (oLoc d)) : sProp 𝕄 :=
  oLoc d ↦[oSet d (coordsV (cC c) (cI i)) t]{fullShare} f

variable (Ψ : (d : Dev nD) → grid0.Coords → Fin 4 → Buf (Elt F) (oLoc d) → Prop)

/-- The same rows at some contents of which the piece's predicate holds. -/
abbrev oPcΨ (d : Dev nD) (c : Fin 2) (i : Fin 16) (t : Fin 4) : sProp 𝕄 :=
  iprop(∃ f, ⌜Ψ d (coordsV (cC c) (cI i)) t f⌝ ∗ oLoc d ↦[oSet d (coordsV (cC c) (cI i)) t]{fullShare} f)

def P : (K (F := F)).Pay (nD := nD) (Val := Elt F) (Name := ℕ) (U := UU) where
  st := fun q d c => match q with
    | 0 => iprop(argsAt m d (qxc (kC c))
        ∗ bigSep Finset.univ fun i : Fin 16 => bigSep Finset.univ fun t : Fin 4 => oPc d (kC c) i t (m (oLoc d)))
  dn := fun q d c => match q with
    | 0 => iprop(argsAt m d (qxc (kC c))
        ∗ bigSep Finset.univ fun i : Fin 16 => bigSep Finset.univ fun t : Fin 4 => oPcΨ Ψ d (kC c) i t)
  go := fun q d c i => match q with
    | 0 => tileIn m d (coordsV (cC (kC c)) (cI (kI i))) (qxt (kC c) (kI i)) (qxt (kC c) (kI i)) (qxt (kC c) (kI i)) (m (oLoc d))
  td := fun q d c i => match q with
    | 0 => tileOut m d (coordsV (cC (kC c)) (cI (kI i))) (Ψ d (coordsV (cC (kC c)) (cI (kI i))))
        (qxt (kC c) (kI i)) (qxt (kC c) (kI i)) (qxt (kC c) (kI i))
  x := fun _ _ => iprop(emp)

instance P_storable : (P (F := F) m Ψ).IsStorable where
  st q d c := match q with
    | 0 => (inferInstance : BI.Storable (upEmb : UEmb _ 𝕄) iprop(argsAt m d (qxc (kC c))
        ∗ bigSep Finset.univ fun i : Fin 16 => bigSep Finset.univ fun t : Fin 4 => oPc d (kC c) i t (m (oLoc d))))
  dn q d c := match q with
    | 0 => (inferInstance : BI.Storable (upEmb : UEmb _ 𝕄) iprop(argsAt m d (qxc (kC c))
        ∗ bigSep Finset.univ fun i : Fin 16 => bigSep Finset.univ fun t : Fin 4 => oPcΨ Ψ d (kC c) i t))
  go q d c i := match q with
    | 0 => by
      show BI.Storable (upEmb : UEmb _ 𝕄) (tileIn m d (coordsV (cC (kC c)) (cI (kI i))) (qxt (kC c) (kI i)) (qxt (kC c) (kI i)) (qxt (kC c) (kI i)) (m (oLoc d)))
      unfold tileIn; infer_instance
  td q d c i := match q with
    | 0 => by
      show BI.Storable (upEmb : UEmb _ 𝕄) (tileOut m d (coordsV (cC (kC c)) (cI (kI i))) (Ψ d (coordsV (cC (kC c)) (cI (kI i))))
        (qxt (kC c) (kI i)) (qxt (kC c) (kI i)) (qxt (kC c) (kI i)))
      unfold tileOut; infer_instance

omit [FloatOps F] in
/-- A sum over four rounds is its four summands. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

omit [FloatOps F] in
/-- A sum over the call's tiles is a sum over sixteen. -/
theorem bigSep_tasks (Φ : Fin 16 → sProp 𝕄) :
    (bigSep Finset.univ fun i : Fin ((K (F := F)).nSub 0) => Φ (kI i)) = bigSep Finset.univ Φ :=
  bigSep_congr fun _ _ => congrArg Φ (Fin.ext rfl)

omit [FloatOps F] in
/-- What the sixteen tiles of SparseCore `c` are handed, regrouped: the tokens of each argument, and the pieces. -/
theorem tiles_in (d : Dev nD) (c : Fin 2) (fo : Buf (Elt F) (oLoc d)) :
    (bigSep Finset.univ fun i : Fin 16 => tileIn m d (coordsV (cC c) (cI i)) (qxt c i) (qxt c i) (qxt c i) fo)
      = iprop((bigSep Finset.univ fun i : Fin 16 => xLoc d ↦{qxt c i} m (xLoc d))
          ∗ (bigSep Finset.univ fun i : Fin 16 => hLoc d ↦{qxt c i} m (hLoc d))
          ∗ (bigSep Finset.univ fun i : Fin 16 => sLoc d ↦{qxt c i} m (sLoc d))
          ∗ bigSep Finset.univ fun i : Fin 16 => bigSep Finset.univ fun t : Fin 4 => oPc d c i t fo) := by
  rw [bigSep_congr (s := Finset.univ) fun (i : Fin 16) _ => bigSep_fin4 (F := F) (fun t => oPc d c i t fo)]
  unfold tileIn
  rw [bigSep_sep', bigSep_sep', bigSep_sep']

omit [FloatOps F] in
/-- What they hand back, regrouped the same way. -/
theorem tiles_out (d : Dev nD) (c : Fin 2) :
    (bigSep Finset.univ fun i : Fin 16 => tileOut m d (coordsV (cC c) (cI i)) (Ψ d (coordsV (cC c) (cI i))) (qxt c i) (qxt c i) (qxt c i))
      = iprop((bigSep Finset.univ fun i : Fin 16 => xLoc d ↦{qxt c i} m (xLoc d))
          ∗ (bigSep Finset.univ fun i : Fin 16 => hLoc d ↦{qxt c i} m (hLoc d))
          ∗ (bigSep Finset.univ fun i : Fin 16 => sLoc d ↦{qxt c i} m (sLoc d))
          ∗ bigSep Finset.univ fun i : Fin 16 => bigSep Finset.univ fun t : Fin 4 => oPcΨ Ψ d c i t) := by
  rw [bigSep_congr (s := Finset.univ) fun (i : Fin 16) _ => bigSep_fin4 (F := F) (fun t => oPcΨ Ψ d c i t)]
  unfold tileOut
  rw [bigSep_sep', bigSep_sep', bigSep_sep']

/-- A SparseCore's operands split into its sixteen tiles' and its results gather from theirs: each argument's read
    share gives every tile a token and keeps a remainder until the tokens come back; the pieces of the result go
    out and come back as they are. -/
theorem vecSplit : (K (F := F)).VecSplit' (P m Ψ) 0 := by
  intro d c
  show iprop(argsAt m d (qxc (kC c))
        ∗ bigSep Finset.univ fun i : Fin 16 => bigSep Finset.univ fun t : Fin 4 => oPc d (kC c) i t (m (oLoc d)))
      ⊢ |={Set.univ}=> iprop(
      (bigSep Finset.univ fun i : Fin ((K (F := F)).nSub 0) =>
        tileIn m d (coordsV (cC (kC c)) (cI (kI i))) (qxt (kC c) (kI i)) (qxt (kC c) (kI i)) (qxt (kC c) (kI i)) (m (oLoc d)))
      ∗ ((bigSep Finset.univ fun i : Fin ((K (F := F)).nSub 0) =>
          tileOut m d (coordsV (cC (kC c)) (cI (kI i))) (Ψ d (coordsV (cC (kC c)) (cI (kI i)))) (qxt (kC c) (kI i)) (qxt (kC c) (kI i)) (qxt (kC c) (kI i)))
          -∗ iprop(argsAt m d (qxc (kC c))
            ∗ bigSep Finset.univ fun i : Fin 16 => bigSep Finset.univ fun t : Fin 4 => oPcΨ Ψ d (kC c) i t)))
  rw [bigSep_tasks (F := F) (fun i => tileIn m d (coordsV (cC (kC c)) (cI i)) (qxt (kC c) i) (qxt (kC c) i) (qxt (kC c) i) (m (oLoc d))),
    bigSep_tasks (F := F) (fun i => tileOut m d (coordsV (cC (kC c)) (cI i)) (Ψ d (coordsV (cC (kC c)) (cI i))) (qxt (kC c) i) (qxt (kC c) i) (qxt (kC c) i)),
    tiles_in, tiles_out]
  have eX := toks_tiles (F := F) (xLoc d) (qxc (kC c)) (m (xLoc d))
  have eH := toks_tiles (F := F) (hLoc d) (qxc (kC c)) (m (hLoc d))
  have eS := toks_tiles (F := F) (sLoc d) (qxc (kC c)) (m (sLoc d))
  unfold argsAt
  rw [BI.equiv_iff.mp ⟨eX.1, eX.2⟩, BI.equiv_iff.mp ⟨eH.1, eH.2⟩, BI.equiv_iff.mp ⟨eS.1, eS.2⟩]
  iintro ⟨⟨⟨Xd, Xt⟩, ⟨Hd, Ht⟩, ⟨Sd, St⟩⟩, O⟩
  imodintro
  isplitl [Xt Ht St O]
  · isplitl [Xt]; · iexact Xt
    isplitl [Ht]; · iexact Ht
    isplitl [St]; · iexact St
    iexact O
  iintro ⟨Xt, Ht, St, O⟩
  isplitr [O]
  · isplitl [Xd Xt]; · isplitl [Xd]; · iexact Xd
                       iexact Xt
    isplitl [Hd Ht]; · isplitl [Hd]; · iexact Hd
                       iexact Ht
    isplitl [Sd]; · iexact Sd
    iexact St
  iexact O

end Cert.Proof.Kernel

end
-- ==== Proof.Bits.Launch.lean ====
/-
  The launch: the vector subcores' obligation, the ghost state at the start, the TensorCore's program around
  the SparseCore call, and the run of the whole device.
-/
import proofs.«204905_g71433896067310_cont_9to1c4b_220_29_alg».proof.Proof.Bits.Split
import Idealize.ShloMosaic.Lib.Pipeline.Frame

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "xW" => (Memref.whole Cert.Kernel.main_arg0_scv : Memref Cert.Kernel.sig Kind.scVector Space.hbm Cert.Kernel.S4096x4096 EltTy.f32)
local notation "hW" => (Memref.whole Cert.Kernel.main_arg1_scv : Memref Cert.Kernel.sig Kind.scVector Space.hbm Cert.Kernel.S4096 EltTy.i32)
local notation "sW" => (Memref.whole Cert.Kernel.main_arg2_scv : Memref Cert.Kernel.sig Kind.scVector Space.hbm Cert.Kernel.S4096 EltTy.f32)
local notation "oW" => (Memref.whole Cert.Kernel.main_v0_scv : Memref Cert.Kernel.sig Kind.scVector Space.hbm Cert.Kernel.S1024x2048 EltTy.f32)
local notation "hS" => (Memref.whole Cert.Kernel.cc0_scratch0 : Memref Cert.Kernel.sig Kind.scVector Space.vmem Cert.Kernel.S4096 EltTy.i32)
local notation "sS" => (Memref.whole Cert.Kernel.cc0_scratch1 : Memref Cert.Kernel.sig Kind.scVector Space.vmem Cert.Kernel.S4096 EltTy.f32)
local notation "aS" => (Memref.whole Cert.Kernel.cc0_scratch2 : Memref Cert.Kernel.sig Kind.scVector Space.vmem Cert.Kernel.S8x4096 EltTy.f32)
local notation "bS" => (Memref.whole Cert.Kernel.cc0_scratch3 : Memref Cert.Kernel.sig Kind.scVector Space.vmem Cert.Kernel.S8x4096 EltTy.f32)
local notation "cS" => (Memref.whole Cert.Kernel.cc0_scratch4 : Memref Cert.Kernel.sig Kind.scVector Space.vmem Cert.Kernel.S8x2048 EltTy.f32)

variable [FloatOps F]

variable (Ψ : (d : Dev nD) → grid0.Coords → Fin 4 → Buf (Elt F) (oLoc d) → Prop)

/-! ## The vector subcores' obligation -/

/-- The body table's entry for a vector subcore: the kernel's function at the subcore's coordinates, over the four
    arrays and the task's scratch, when the subcore is in the call's grid. -/
theorem defs₀_vector (c : Fin τ.nSC) (s : Fin τ.nSub) :
    defs₀ (F := F) (.scVector c s) 0 ()
      = SparseCore.onTile hcore0 hsub0 (fun c s => cc0__sc_body (coordsV c s)
          xW (Memref.isWhole_whole _) hW (Memref.isWhole_whole _) sW (Memref.isWhole_whole _) oW (Memref.isWhole_whole _)
          hS (Memref.isWhole_whole _) sS (Memref.isWhole_whole _) aS (Memref.isWhole_whole _) bS (Memref.isWhole_whole _) cS (Memref.isWhole_whole _)
          cc0_scratch5 cc0_scratch6 cc0_scoped0 cc0_scoped1 cc0_scoped2 cc0_scoped3 cc0_scoped4 cc0_scoped5) ⟨⟩ c s := rfl

omit [FloatOps F] in
/-- A task that leaves no wait of the call's own behind leaves none but the call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What is asked of one task's run: from what the task is handed, its scratch and its semaphores, the kernel's
    function at the task's coordinates ends with what the task hands back — each piece of the result at contents
    of which the piece's predicate holds — and leaves no wait behind. -/
def TileBody : Prop :=
  ∀ (d : Dev nD) (L : grid0.Coords) (O : CellTallies nD τ sig (HIx 1)) (W : Waits sig (HIx 1)), (∀ g, O g none = 0) →
    ∀ (qx qh qs : PosShare TreeShare) (fo : Buf (Elt F) (oLoc d)),
    (iprop(levAts (K (F := F)).L (K (F := F)).lev ∗ emp ∗ tileIn m d L qx qh qs fo
        ∗ scopedBufs (thr d L) ∗ scopedSems0 (thr d L) ∗ owes (thr d L) O W) : sProp 𝕄)
      ⊢ wp frame (wpE (defs₀ (F := F)) 𝒱₀ (thr d L) none) Set.univ
          (cc0__sc_body L xW (Memref.isWhole_whole _) hW (Memref.isWhole_whole _) sW (Memref.isWhole_whole _) oW (Memref.isWhole_whole _)
            hS (Memref.isWhole_whole _) sS (Memref.isWhole_whole _) aS (Memref.isWhole_whole _) bS (Memref.isWhole_whole _) cS (Memref.isWhole_whole _)
            cc0_scratch5 cc0_scratch6 cc0_scoped0 cc0_scoped1 cc0_scoped2 cc0_scoped3 cc0_scoped4 cc0_scoped5)
          fun _ => iprop(tileOut m d L (Ψ d L) qx qh qs ∗ scopedBufs (thr d L) ∗ scopedSems0 (thr d L)
            ∗ ∃ W', ⌜∀ p ∈ W', p ∈ W ∨ p.2 = none⌝ ∗ owes (thr d L) O W')

/-- Every vector subcore of the call runs its task from what it is handed to what it hands back. -/
theorem tileObl (hbody : TileBody m Ψ) : (K (F := F)).TileObl (D (F := F)) 𝒱 (P m Ψ) v₀ 0 := by
  intro d c i O W hO _ _
  simp only [show (P m Ψ).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO _ _ _ _).trans (wp_mono frame _ _ fun _ => obl_post)

/-! ## The ghost state at the start -/

omit [FloatOps F] in
theorem bigSep_emp' {I : Type} (s : Finset I) : (bigSep s fun _ => iprop(emp)) = (iprop(emp) : sProp 𝕄) := bigSep_emp_const s

omit [FloatOps F] in
/-- The launch element splits into the handshakes' part and the TensorCore region's part; the local transfers'
    counters start at the unit and are dropped. -/
theorem ownU_split (a : UH) (b : UP) (c : Counters) :
    (ownU ((a, (b, c)) : UU) : sProp 𝕄) ⊢ iprop(BI.own ((EH (F := F)) a) ∗ BI.own ((EP (F := F)) b)) := by
  iintro Hu
  ihave H := (ownU_pair a (b, c)) $$ Hu
  icases H with ⟨HH, HR⟩
  ihave HR' := (own_pair_emb (embR (nD := nD) (τ := τ) (sig := sig) (Ix := HIx 1) (Val := Elt F) (Name := ℕ) (Lvl := ℕ) (A := UH) (B := UP × Counters)) b c) $$ HR
  icases HR' with ⟨HP, -⟩
  isplitl [HH]; · iexact HH
  iexact HP

/-- The launch element: the handshakes' rounds, the TensorCore region's cells' rounds `u₀P`, no transfer counted. -/
def u₀ (u₀P : UP) : UU := (initOf (K (F := F)).hsCells (K (F := F)).hsToks, (u₀P, 1))

/-- From the launch element: the handshakes' rounds, what the TensorCore region's part funds, and nothing of the
    call's own. -/
theorem hu₀ (u₀P : UP) (G_tc : Dev nD → sProp 𝕄)
    (fund_tc : (BI.own ((EP (F := F)) u₀P) : sProp 𝕄) ⊢ iprop(|==> bigSep Finset.univ G_tc)) :
    (ownU (u₀ (F := F) u₀P) : sProp 𝕄)
    ⊢ |={Set.univ}=> iprop(BI.own (EH (initOf (K (F := F)).hsCells (K (F := F)).hsToks)) ∗ (bigSep Finset.univ G_tc)
        ∗ bigSep Finset.univ fun thr : Thread nD τ => bigSep Finset.univ fun q : Fin 1 => (P m Ψ).x q thr) := by
  unfold u₀
  iintro Hu
  ihave H := (ownU_split (F := F) _ _ _) $$ Hu
  icases H with ⟨HH, HP⟩
  imod fund_tc $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore call on the TensorCore -/

omit [FloatOps F] in
/-- A sum over the call's SparseCores is a sum over two. -/
theorem bigSep_cores (Φ : Fin 2 → sProp 𝕄) :
    (bigSep Finset.univ fun c : Fin ((K (F := F)).nCore 0) => Φ (kC c)) = bigSep Finset.univ Φ :=
  bigSep_congr fun _ _ => congrArg Φ (Fin.ext rfl)

/-- What the call takes for its two SparseCores, regrouped: each argument's two tokens, and the 128 pieces. -/
theorem st0_eq (d : Dev nD) :
    (bigSep Finset.univ fun c : Fin ((K (F := F)).nCore 0) => (P m Ψ).st 0 d c)
      = iprop(((bigSep Finset.univ fun c : Fin 2 => xLoc d ↦{qxc c} m (xLoc d))
            ∗ (bigSep Finset.univ fun c : Fin 2 => hLoc d ↦{qxc c} m (hLoc d))
            ∗ (bigSep Finset.univ fun c : Fin 2 => sLoc d ↦{qxc c} m (sLoc d)))
          ∗ bigSep Finset.univ fun c : Fin 2 => bigSep Finset.univ fun i : Fin 16 => bigSep Finset.univ fun t : Fin 4 =>
              oPc d c i t (m (oLoc d))) := by
  show (bigSep Finset.univ fun c : Fin ((K (F := F)).nCore 0) => iprop(argsAt m d (qxc (kC c))
      ∗ bigSep Finset.univ fun i : Fin 16 => bigSep Finset.univ fun t : Fin 4 => oPc d (kC c) i t (m (oLoc d)))) = _
  rw [bigSep_cores (F := F) (fun c => iprop(argsAt m d (qxc c)
      ∗ bigSep Finset.univ fun i : Fin 16 => bigSep Finset.univ fun t : Fin 4 => oPc d c i t (m (oLoc d))))]
  unfold argsAt
  rw [bigSep_sep', bigSep_sep', bigSep_sep']

/-- What it hands back, regrouped the same way. -/
theorem dn0_eq (d : Dev nD) :
    (bigSep Finset.univ fun c : Fin ((K (F := F)).nCore 0) => (P m Ψ).dn 0 d c)
      = iprop(((bigSep Finset.univ fun c : Fin 2 => xLoc d ↦{qxc c} m (xLoc d))
            ∗ (bigSep Finset.univ fun c : Fin 2 => hLoc d ↦{qxc c} m (hLoc d))
            ∗ (bigSep Finset.univ fun c : Fin 2 => sLoc d ↦{qxc c} m (sLoc d)))
          ∗ bigSep Finset.univ fun c : Fin 2 => bigSep Finset.univ fun i : Fin 16 => bigSep Finset.univ fun t : Fin 4 =>
              oPcΨ Ψ d c i t) := by
  show (bigSep Finset.univ fun c : Fin ((K (F := F)).nCore 0) => iprop(argsAt m d (qxc (kC c))
      ∗ bigSep Finset.univ fun i : Fin 16 => bigSep Finset.univ fun t : Fin 4 => oPcΨ Ψ d (kC c) i t)) = _
  rw [bigSep_cores (F := F) (fun c => iprop(argsAt m d (qxc c)
      ∗ bigSep Finset.univ fun i : Fin 16 => bigSep Finset.univ fun t : Fin 4 => oPcΨ Ψ d c i t))]
  unfold argsAt
  rw [bigSep_sep', bigSep_sep', bigSep_sep']

/-- Contents `g` of the call's result agree, on every piece, with some contents of which the piece's predicate holds. -/
def Pieces (d : Dev nD) (g : Buf (Elt F) (oLoc d)) : Prop :=
  ∀ (c : Fin 2) (i : Fin 16) (t : Fin 4), ∃ f, Ψ d (coordsV (cC c) (cI i)) t f ∧ ∀ x ∈ oSet d (coordsV (cC c) (cI i)) t, g x = f x

/-- The call, as the TensorCore sees it: from the three arguments and the call's result whole, each SparseCore is
    handed a read token of every argument and its sixty-four rows of the result; when both have answered, the
    arguments are whole again at their contents, and the result is whole at contents that agree piece by piece with
    what the tasks left. -/
theorem sc_call (κ : GSem nD τ sig → ℕ) (d : Dev nD) {Φ : PUnit → sProp 𝕄} :
    iprop((K (F := F)).ctx EH (P m Ψ) κ ∗ (K (F := F)).tcSt EH d 0
        ∗ (xLoc d ↦{fullShare} m (xLoc d)) ∗ (hLoc d ↦{fullShare} m (hLoc d)) ∗ (sLoc d ↦{fullShare} m (sLoc d))
        ∗ (oLoc d ↦{fullShare} m (oLoc d))
        ∗ (iprop((K (F := F)).tcSt EH d 1 ∗ (xLoc d ↦{fullShare} m (xLoc d)) ∗ (hLoc d ↦{fullShare} m (hLoc d))
              ∗ (sLoc d ↦{fullShare} m (sLoc d)) ∗ ∃ fo, ⌜Pieces Ψ d fo⌝ ∗ oLoc d ↦{fullShare} fo) -∗ Φ ⟨⟩))
      ⊢ wp frame (wpE ((K (F := F)).defs (D (F := F))) 𝒱 (SparseCore.T d) none) Set.univ ((K (F := F)).run d 0) Φ := by
  have eX := toks_cores (F := F) (xLoc d) fullShare (m (xLoc d))
  have eH := toks_cores (F := F) (hLoc d) fullShare (m (hLoc d))
  have eS := toks_cores (F := F) (sLoc d) fullShare (m (sLoc d))
  rw [BI.equiv_iff.mp ⟨eX.1, eX.2⟩, BI.equiv_iff.mp ⟨eH.1, eH.2⟩, BI.equiv_iff.mp ⟨eS.1, eS.2⟩, o_split (F := F) d (m (oLoc d))]
  iintro ⟨#Hctx, Hst, ⟨Xd, Xt⟩, ⟨Hd, Ht⟩, ⟨Sd, St⟩, O, Hk⟩
  iapply ((K (F := F)).wp_run (D (F := F)) 𝒱 (EH := EH) (P := P m Ψ) κ d 0) $$ [Hst Xt Ht St O Xd Hd Sd Hk]
  isplitr; · iexact Hctx
  isplitl [Hst]; · iexact Hst
  isplitl [Xt Ht St O]
  · rw [st0_eq]
    isplitl [Xt Ht St]
    · isplitl [Xt]; · iexact Xt
      isplitl [Ht]; · iexact Ht
      iexact St
    · iexact O
  iintro ⟨Hst, Hdn⟩
  ihave Hdn' := (Entails.of_eq (dn0_eq m Ψ d)) $$ Hdn
  icases Hdn' with ⟨⟨Xt, Ht, St⟩, O⟩
  ihave Ho := (o_join_of (F := F) d (fun c i t => Ψ d (coordsV (cC c) (cI i)) t)) $$ O
  iapply Hk
  isplitl [Hst]; · iexact Hst
  isplitl [Xd Xt]
  · isplitl [Xd]; · iexact Xd
    iexact Xt
  isplitl [Hd Ht]
  · isplitl [Hd]; · iexact Hd
    iexact Ht
  isplitl [Sd St]
  · isplitl [Sd]; · iexact Sd
    iexact St
  iexact Ho

/-! ## @main on the TensorCore -/

/-- The three arguments and the call's result, as buffers of the device. -/
abbrev rX : DevRef τ sig := Proc.devRef .tc (main_arg0 : Ref sig .tc)
abbrev rH : DevRef τ sig := Proc.devRef .tc (main_arg1 : Ref sig .tc)
abbrev rS : DevRef τ sig := Proc.devRef .tc (main_arg2 : Ref sig .tc)
abbrev rO : DevRef τ sig := Proc.devRef .tc (main_v0 : Ref sig .tc)
abbrev four : Finset (DevRef τ sig) := {rX, rH, rS, rO}
/-- The program's result, as a location of device `d`. -/
abbrev vLoc (d : Dev nD) : Loc nD τ sig := (SparseCore.T d).loc main_v4

/-- The launch contents of the device's buffers; and the same with the call's result at `fo`. -/
def V0L (d : Dev nD) : Valuation τ sig (Elt F) := fun b => m (d, b)
def VmL (d : Dev nD) (fo : Buf (Elt F) (oLoc d)) : Valuation τ sig (Elt F) := Function.update (V0L m d) rO fo

omit [FloatOps F] in
theorem held_four (d : Dev nD) (W : Valuation τ sig (Elt F)) :
    (StableHlo.held (T d) four W : sProp 𝕄)
      = iprop((xLoc d ↦{fullShare} W rX) ∗ (hLoc d ↦{fullShare} W rH) ∗ (sLoc d ↦{fullShare} W rS) ∗ oLoc d ↦{fullShare} W rO) := by
  unfold StableHlo.held four
  rw [SparseCore.bigSep_insert' (by decide), SparseCore.bigSep_insert' (by decide), SparseCore.bigSep_insert' (by decide), bigSep_singleton]

omit [FloatOps F] in
theorem four_sub : four ⊆ Pipeline.ucRefs τ sig := by decide

omit [FloatOps F] in
/-- The unscoped buffers, with the four arrays of the call set apart. -/
theorem held_split (d : Dev nD) (W : Valuation τ sig (Elt F)) :
    (StableHlo.held (T d) (Pipeline.ucRefs τ sig) W : sProp 𝕄)
      = iprop(((xLoc d ↦{fullShare} W rX) ∗ (hLoc d ↦{fullShare} W rH) ∗ (sLoc d ↦{fullShare} W rS) ∗ oLoc d ↦{fullShare} W rO)
          ∗ StableHlo.held (T d) (Pipeline.ucRefs τ sig \ four) W) := by
  rw [StableHlo.held_sub_split (T d) four_sub W, held_four]

omit [FloatOps F] in
theorem unscoped_held (d : Dev nD) :
    (unscopedBufs d (fun b => m ((SparseCore.T d).loc b)) : sProp 𝕄) = StableHlo.held (T d) (Pipeline.ucRefs τ sig) (V0L m d) :=
  Pipeline.unscopedBufs_held d (V0L m d)

omit [FloatOps F] in
/-- Away from the call's result the two valuations agree. -/
theorem held_rest (d : Dev nD) (fo : Buf (Elt F) (oLoc d)) :
    (StableHlo.held (T d) (Pipeline.ucRefs τ sig \ four) (VmL m d fo) : sProp 𝕄)
      = StableHlo.held (T d) (Pipeline.ucRefs τ sig \ four) (V0L m d) := by
  unfold StableHlo.held
  refine bigSep_congr fun b hb => ?_
  have hne : b ≠ rO := fun e => (Finset.mem_sdiff.mp hb).2 (e ▸ by decide)
  rw [VmL, Function.update_of_ne hne]

omit [FloatOps F] in
theorem VmL_x (d : Dev nD) (fo : Buf (Elt F) (oLoc d)) : VmL m d fo rX = m (xLoc d) := Function.update_of_ne (show rX ≠ rO by decide) _ _
omit [FloatOps F] in
theorem VmL_h (d : Dev nD) (fo : Buf (Elt F) (oLoc d)) : VmL m d fo rH = m (hLoc d) := Function.update_of_ne (show rH ≠ rO by decide) _ _
omit [FloatOps F] in
theorem VmL_s (d : Dev nD) (fo : Buf (Elt F) (oLoc d)) : VmL m d fo rS = m (sLoc d) := Function.update_of_ne (show rS ≠ rO by decide) _ _
omit [FloatOps F] in
theorem VmL_o (d : Dev nD) (fo : Buf (Elt F) (oLoc d)) : VmL m d fo rO = fo := Function.update_self _ _ _

variable (Ξ : (d : Dev nD) → Buf (Elt F) (vLoc d) → Prop)

/-- What @main leaves the claim: the three arguments at their launch contents, the result at contents of which `Ξ` holds. -/
def FIN (d : Dev nD) : sProp 𝕄 :=
  iprop((xLoc d ↦{fullShare} m (xLoc d)) ∗ (hLoc d ↦{fullShare} m (hLoc d)) ∗ (sLoc d ↦{fullShare} m (sLoc d))
    ∗ ∃ f4, ⌜Ξ d f4⌝ ∗ vLoc d ↦{fullShare} f4)

omit [FloatOps F] in
theorem fin_intro (d : Dev nD) (A : sProp 𝕄) (f4 : Buf (Elt F) (vLoc d)) (h4 : Ξ d f4) :
    iprop(A ∗ (xLoc d ↦{fullShare} m (xLoc d)) ∗ (hLoc d ↦{fullShare} m (hLoc d)) ∗ (sLoc d ↦{fullShare} m (sLoc d)) ∗ (vLoc d ↦{fullShare} f4))
      ⊢ iprop(A ∗ FIN m Ξ d) := by
  unfold FIN
  iintro ⟨HA, Hx, Hh, Hs, Hv⟩
  isplitl [HA]; · iexact HA
  isplitl [Hx]; · iexact Hx
  isplitl [Hh]; · iexact Hh
  isplitl [Hs]; · iexact Hs
  iexists f4; isplitr
  · ipureintro; exact h4
  · iexact Hv

/-- @main on device `d`'s TensorCore: the SparseCore call, then the rest of the program `mainTail` from the buffers
    as the call left them; `out4 d fo` is what the rest leaves in the result when the call left `fo`. -/
theorem hmain (mainTail : Dev nD → Prog (TpuEff nD τ sig (Elt F) (SparseCore.Sig (Pipeline.Sig Λ₀ (Fin 1) fun p => (pcfgs (F := F) p).Adm) 1) .tc) PUnit)
    (main_eq : ∀ d, main (F := F) d = ((K (F := F)).run d 0 >>= fun _ => mainTail d))
    (G_tc : Dev nD → sProp 𝕄) (out4 : (d : Dev nD) → Buf (Elt F) (oLoc d) → Buf (Elt F) (vLoc d))
    (main_tail : ∀ (κ : GSem nD τ sig → ℕ) (d : Dev nD) (fo : Buf (Elt F) (oLoc d)),
      iprop((K (F := F)).ctx EH (P m Ψ) κ ∗ (K (F := F)).tcSt EH d 1 ∗ boundary (T d)
          ∗ StableHlo.held (T d) (Pipeline.ucRefs τ sig) (VmL m d fo) ∗ G_tc d)
        ⊢ wp frame (wpE ((K (F := F)).defs (D (F := F))) 𝒱 (SparseCore.T d) none) Set.univ (mainTail d)
            fun _ => iprop((K (F := F)).tcSt EH d 1 ∗ (xLoc d ↦{fullShare} m (xLoc d)) ∗ (hLoc d ↦{fullShare} m (hLoc d))
              ∗ (sLoc d ↦{fullShare} m (sLoc d)) ∗ (vLoc d ↦{fullShare} out4 d fo)))
    (hΞ : ∀ d g, Pieces Ψ d g → Ξ d (out4 d g))
    (κ : GSem nD τ sig → ℕ) (d : Dev nD) :
    iprop((K (F := F)).ctx EH (P m Ψ) κ ∗ (K (F := F)).tcSt EH d 0 ∗ (K (F := F)).tcRes m ρ d ∗ G_tc d)
      ⊢ wp frame (wpE ((K (F := F)).defs (D (F := F))) 𝒱 (SparseCore.T d) none) Set.univ (main d)
          fun _ => iprop((K (F := F)).tcSt EH d 1 ∗ FIN m Ξ d) := by
  unfold SparseCore.Cfg.tcRes
  rw [unscoped_held, held_split, main_eq]
  simp only [wp_bind]
  iintro ⟨#Hctx, Hst, ⟨Hb, ⟨⟨Hx, Hh, Hs, Ho⟩, Hrest⟩, -, -⟩, HG⟩
  iapply (sc_call m Ψ κ d) $$ [Hst Hx Hh Hs Ho Hb Hrest HG]
  isplitr; · iexact Hctx
  isplitl [Hst]; · iexact Hst
  isplitl [Hx]; · iexact Hx
  isplitl [Hh]; · iexact Hh
  isplitl [Hs]; · iexact Hs
  isplitl [Ho]; · iexact Ho
  iintro ⟨Hst, Hx, Hh, Hs, %fo, %hfo, Ho⟩
  iapply ((main_tail κ d fo).trans (wp_mono frame _ Set.univ fun _ => fin_intro m Ξ d _ (out4 d fo) (hΞ d fo hfo))) $$ [Hst Hx Hh Hs Ho Hb Hrest HG]
  isplitr; · iexact Hctx
  isplitl [Hst]; · iexact Hst
  isplitl [Hb]; · iexact Hb
  isplitr [HG]
  · rw [held_split, held_rest, VmL_x, VmL_h, VmL_s, VmL_o]
    isplitr [Hrest]
    · isplitl [Hx]; · iexact Hx
      isplitl [Hh]; · iexact Hh
      isplitl [Hs]; · iexact Hs
      iexact Ho
    · iexact Hrest
  iexact HG

/-! ## The end of the run -/

/-- What the final memory satisfies on device `d`: the arguments as launched, the result as `Ξ` asks. -/
def fq (d : Dev nD) (s' : Phys nD τ sig (Elt F)) : Prop :=
  s'.mem.mem (xLoc d) = m (xLoc d) ∧ s'.mem.mem (hLoc d) = m (hLoc d) ∧ s'.mem.mem (sLoc d) = m (sLoc d) ∧ Ξ d (s'.mem.mem (vLoc d))

theorem hfin (d : Dev nD) (s' : Phys nD τ sig (Elt F)) : iprop(FIN m Ξ d ∗ SI s') ⊢ (⌜fq m Ξ d s'⌝ : sProp 𝕄) := by
  unfold FIN
  iintro ⟨⟨Hx, Hh, Hs, %f4, %h4, Hv⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := hLoc d) (I := Finset.univ) (q := fullShare) (f := m (hLoc d)))) $$ [HSI Hh]
  · isplitl [HSI] <;> iassumption
  icases H with ⟨%h2, HSI, -⟩
  ihave H := (persistent_entails_right (SI_pointsTo_agree (st := s') (ℓ := sLoc d) (I := Finset.univ) (q := fullShare) (f := m (sLoc d)))) $$ [HSI Hs]
  · isplitl [HSI] <;> iassumption
  icases H with ⟨%h3, HSI, -⟩
  ihave H := (SI_pointsTo_agree (st := s') (ℓ := vLoc d) (I := Finset.univ) (q := fullShare) (f := f4)) $$ [HSI Hv]
  · isplitl [HSI] <;> iassumption
  icases H with %h5
  ipureintro
  refine ⟨funext fun i => h1 i (Finset.mem_univ i), funext fun i => h2 i (Finset.mem_univ i), funext fun i => h3 i (Finset.mem_univ i), ?_⟩
  have e : s'.mem.mem (vLoc d) = f4 := funext fun i => h5 i (Finset.mem_univ i)
  rw [e]; exact h4

/-! ## The program's run -/

/-- On every device the arguments end as launched and the result as `Ξ` asks. -/
def QC : PUnit × MemSt nD τ sig (Elt F) → Prop := fun r => ∀ c : Dev nD,
  r.2.mem (xLoc c) = m (xLoc c) ∧ r.2.mem (hLoc c) = m (hLoc c) ∧ r.2.mem (sLoc c) = m (sLoc c) ∧ Ξ c (r.2.mem (vLoc c))

/-- The run of the whole device: every weakly fair execution of the TensorCore's program and of the SparseCores'
    threads ends, faulting nowhere, with the arguments as launched and the result as `Ξ` asks — given the tasks'
    runs (`hbody`), the rest of @main after the call (`mainTail`, `main_tail`), what its region's ghost state funds
    (`fund_tc`), and that contents agreeing piece by piece with the tasks' give a result of which `Ξ` holds (`hΞ`). -/
theorem run_main [∀ e, Nonempty (Elt F e)] (hbody : TileBody m Ψ)
    (u₀P : UP) (G_tc : Dev nD → sProp 𝕄)
    (fund_tc : (BI.own ((EP (F := F)) u₀P) : sProp 𝕄) ⊢ iprop(|==> bigSep Finset.univ G_tc))
    (mainTail : Dev nD → Prog (TpuEff nD τ sig (Elt F) (SparseCore.Sig (Pipeline.Sig Λ₀ (Fin 1) fun p => (pcfgs (F := F) p).Adm) 1) .tc) PUnit)
    (main_eq : ∀ d, main (F := F) d = ((K (F := F)).run d 0 >>= fun _ => mainTail d))
    (out4 : (d : Dev nD) → Buf (Elt F) (oLoc d) → Buf (Elt F) (vLoc d))
    (main_tail : ∀ (κ : GSem nD τ sig → ℕ) (d : Dev nD) (fo : Buf (Elt F) (oLoc d)),
      iprop((K (F := F)).ctx EH (P m Ψ) κ ∗ (K (F := F)).tcSt EH d 1 ∗ boundary (T d)
          ∗ StableHlo.held (T d) (Pipeline.ucRefs τ sig) (VmL m d fo) ∗ G_tc d)
        ⊢ wp frame (wpE ((K (F := F)).defs (D (F := F))) 𝒱 (SparseCore.T d) none) Set.univ (mainTail d)
            fun _ => iprop((K (F := F)).tcSt EH d 1 ∗ (xLoc d ↦{fullShare} m (xLoc d)) ∗ (hLoc d ↦{fullShare} m (hLoc d))
              ∗ (sLoc d ↦{fullShare} m (sLoc d)) ∗ (vLoc d ↦{fullShare} out4 d fo)))
    (hΞ : ∀ d g, Pieces Ψ d g → Ξ d (out4 d g)) :
    θ_run (Cert.Kernel.defs (F := F)) (Cert.Kernel.threads (F := F)) ⟨m, fun _ => 0, ρ⟩ (QC m Ξ) :=
  SparseCore.Cfg.θ_run_sc (K := K (F := F)) (D := D (F := F)) (𝒱 := 𝒱) (EH := EH) (P := P m Ψ) facts v₀
    (fun q hq => match q with | 0 => nomatch hq)
    (fun q _ => match q with | 0 => tileObl m Ψ hbody)
    (fun q _ => match q with | 0 => SparseCore.Cfg.VecSplit.of_plain (vecSplit m Ψ))
    m ρ main G_tc (FIN m Ξ) (u₀ (F := F) u₀P) (sep_elim_left.trans (hu₀ m Ψ u₀P G_tc fund_tc))
    (hmain m ρ Ψ Ξ mainTail main_eq G_tc out4 main_tail hΞ) (fq m Ξ) (hfin m Ξ) (QC m Ξ) (fun _ h => h)

/-- The same run, keeping only that the arguments end as launched. -/
theorem run_frame [∀ e, Nonempty (Elt F e)] (hbody : TileBody m Ψ)
    (u₀P : UP) (G_tc : Dev nD → sProp 𝕄)
    (fund_tc : (BI.own ((EP (F := F)) u₀P) : sProp 𝕄) ⊢ iprop(|==> bigSep Finset.univ G_tc))
    (mainTail : Dev nD → Prog (TpuEff nD τ sig (Elt F) (SparseCore.Sig (Pipeline.Sig Λ₀ (Fin 1) fun p => (pcfgs (F := F) p).Adm) 1) .tc) PUnit)
    (main_eq : ∀ d, main (F := F) d = ((K (F := F)).run d 0 >>= fun _ => mainTail d))
    (out4 : (d : Dev nD) → Buf (Elt F) (oLoc d) → Buf (Elt F) (vLoc d))
    (main_tail : ∀ (κ : GSem nD τ sig → ℕ) (d : Dev nD) (fo : Buf (Elt F) (oLoc d)),
      iprop((K (F := F)).ctx EH (P m Ψ) κ ∗ (K (F := F)).tcSt EH d 1 ∗ boundary (T d)
          ∗ StableHlo.held (T d) (Pipeline.ucRefs τ sig) (VmL m d fo) ∗ G_tc d)
        ⊢ wp frame (wpE ((K (F := F)).defs (D (F := F))) 𝒱 (SparseCore.T d) none) Set.univ (mainTail d)
            fun _ => iprop((K (F := F)).tcSt EH d 1 ∗ (xLoc d ↦{fullShare} m (xLoc d)) ∗ (hLoc d ↦{fullShare} m (hLoc d))
              ∗ (sLoc d ↦{fullShare} m (sLoc d)) ∗ (vLoc d ↦{fullShare} out4 d fo))) :
    θ_run (Cert.Kernel.defs (F := F)) (Cert.Kernel.threads (F := F)) ⟨m, fun _ => 0, ρ⟩ (fun r => ∀ c : Dev nD,
      r.2.mem (xLoc c) = m (xLoc c) ∧ r.2.mem (hLoc c) = m (hLoc c) ∧ r.2.mem (sLoc c) = m (sLoc c)) :=
  (θ_run Cert.Kernel.defs _ _).mono (fun _ h c => ⟨(h c).1, (h c).2.1, (h c).2.2.1⟩)
    (run_main m ρ Ψ (fun _ _ => True) hbody u₀P G_tc fund_tc mainTail main_eq out4 main_tail (fun _ _ _ => trivial))

/-! ## The run, from the rest of @main as one record -/

/-- What the rest of @main after the call supplies: its region's ghost state and what that funds, the program
    text after the call, what it leaves in the result as a function of what the call left, and its run. -/
structure TcPart where
  u₀P : UP
  G_tc : Dev nD → sProp 𝕄
  fund_tc : (BI.own ((EP (F := F)) u₀P) : sProp 𝕄) ⊢ iprop(|==> bigSep Finset.univ G_tc)
  mainTail : Dev nD → Prog (TpuEff nD τ sig (Elt F) (SparseCore.Sig (Pipeline.Sig Λ₀ (Fin 1) fun p => (pcfgs (F := F) p).Adm) 1) .tc) PUnit
  main_eq : ∀ d, main (F := F) d = ((K (F := F)).run d 0 >>= fun _ => mainTail d)
  out4 : (d : Dev nD) → Buf (Elt F) (oLoc d) → Buf (Elt F) (vLoc d)
  main_tail : ∀ (κ : GSem nD τ sig → ℕ) (d : Dev nD) (fo : Buf (Elt F) (oLoc d)),
    iprop((K (F := F)).ctx EH (P m Ψ) κ ∗ (K (F := F)).tcSt EH d 1 ∗ boundary (T d)
        ∗ StableHlo.held (T d) (Pipeline.ucRefs τ sig) (VmL m d fo) ∗ G_tc d)
      ⊢ wp frame (wpE ((K (F := F)).defs (D (F := F))) 𝒱 (SparseCore.T d) none) Set.univ (mainTail d)
          fun _ => iprop((K (F := F)).tcSt EH d 1 ∗ (xLoc d ↦{fullShare} m (xLoc d)) ∗ (hLoc d ↦{fullShare} m (hLoc d))
            ∗ (sLoc d ↦{fullShare} m (sLoc d)) ∗ (vLoc d ↦{fullShare} out4 d fo))

theorem run_main_of [∀ e, Nonempty (Elt F e)] (tp : TcPart m Ψ) (hbody : TileBody m Ψ)
    (hΞ : ∀ d g, Pieces Ψ d g → Ξ d (tp.out4 d g)) :
    θ_run (Cert.Kernel.defs (F := F)) (Cert.Kernel.threads (F := F)) ⟨m, fun _ => 0, ρ⟩ (QC m Ξ) :=
  run_main m ρ Ψ Ξ hbody tp.u₀P tp.G_tc tp.fund_tc tp.mainTail tp.main_eq tp.out4 tp.main_tail hΞ

theorem run_frame_of [∀ e, Nonempty (Elt F e)] (tp : TcPart m Ψ) (hbody : TileBody m Ψ) :
    θ_run (Cert.Kernel.defs (F := F)) (Cert.Kernel.threads (F := F)) ⟨m, fun _ => 0, ρ⟩ (fun r => ∀ c : Dev nD,
      r.2.mem (xLoc c) = m (xLoc c) ∧ r.2.mem (hLoc c) = m (hLoc c) ∧ r.2.mem (sLoc c) = m (sLoc c)) :=
  run_frame m ρ Ψ hbody tp.u₀P tp.G_tc tp.fund_tc tp.mainTail tp.main_eq tp.out4 tp.main_tail

omit [FloatOps F] in
/-- If every piece's predicate says that the piece's contents are those of one array `sc d` on the piece's rows,
    contents that agree with the pieces on their rows are that array: the pieces cover it. -/
theorem pieces_eq (sc : (d : Dev nD) → Buf (Elt F) (oLoc d))
    (hΨ : ∀ (d : Dev nD) (L : grid0.Coords) (t : Fin 4) (f : Buf (Elt F) (oLoc d)), Ψ d L t f → ∀ x ∈ oSet d L t, f x = sc d x)
    (d : Dev nD) (g : Buf (Elt F) (oLoc d)) (hg : Pieces Ψ d g) : g = sc d := by
  funext x
  have hx : x ∈ (Finset.univ : Finset (Fin 2 × Fin 16 × Fin 4)).biUnion (oBlk d) := by rw [oBlk_cover]; exact Finset.mem_univ x
  obtain ⟨⟨c, i, t⟩, -, hm⟩ := Finset.mem_biUnion.mp hx
  obtain ⟨f, hf, hgf⟩ := hg c i t
  exact (hgf x hm).trans (hΨ d _ t f hf x hm)

end Cert.Proof.Kernel

end
-- ==== Proof.Claims.lean ====
/-
  The claims, assembled.

  Each frame is the run of the whole device with nothing asked of the result: the tasks' runs leave some contents in
  their pieces, the rest of the program leaves some contents in the result, and the three arguments end as
  launched. The bucket words are below 2048 by the precondition, which is what every task's indexed stores need.
  The value: at the extended reals every task leaves the count sketch of its rows in its pieces; the pieces cover
  the SparseCore call's result, so that result is the sketch of rows 3072 to 4095; the rest of the program writes it
  at row 3072 over the TensorCore's product, which is the sketch of rows 0 to 3071; together they are the sketch of
  all rows, which is also what the reference leaves.
-/
import proofs.«204905_g71433896067310_cont_9to1c4b_220_29_alg».proof.Defs
import proofs.«204905_g71433896067310_cont_9to1c4b_220_29_alg».proof.Proof.Gen.Kernel
import proofs.«204905_g71433896067310_cont_9to1c4b_220_29_alg».proof.Proof.Gen.KernelIdeal
import proofs.«204905_g71433896067310_cont_9to1c4b_220_29_alg».proof.Proof.Gen.ReferenceIdeal
import proofs.«204905_g71433896067310_cont_9to1c4b_220_29_alg».proof.Proof.Gen.Pre_input_domain
import proofs.«204905_g71433896067310_cont_9to1c4b_220_29_alg».proof.Proof.PreDecode
import proofs.«204905_g71433896067310_cont_9to1c4b_220_29_alg».proof.Proof.RefValue
import proofs.«204905_g71433896067310_cont_9to1c4b_220_29_alg».proof.Proof.KernelMathPay
import proofs.«204905_g71433896067310_cont_9to1c4b_220_29_alg».proof.Proof.Body
import proofs.«204905_g71433896067310_cont_9to1c4b_220_29_alg».proof.Proof.Launch
import proofs.«204905_g71433896067310_cont_9to1c4b_220_29_alg».proof.Proof.Bits.Body
import proofs.«204905_g71433896067310_cont_9to1c4b_220_29_alg».proof.Proof.Bits.Launch

noncomputable section

namespace Cert.Proof.Claims

open Idealize.ShloMosaic Idealize.SL.Sem
open Idealize.ShloMosaic.ValueIdx (ix1 ix2 eq_ix2)

/-! ## The frames -/

/-- The bucket words of a memory satisfying the precondition are below 2048 (the word-level program's memory). -/
theorem bucketsB (m : (ℓ : Loc Cert.Kernel.nD Cert.Kernel.τ Cert.Kernel.sig) → Buf (Elt Bits) ℓ)
    (hpre : Cert.Pre_Kernel (hPre_input_domain := Cert.Pre_input_domain.Gen.facts) m) (d : Dev Cert.Kernel.nD)
    (j : Cert.Kernel.S4096.Idx) : (m (Cert.Proof.Kernel.hLoc d) j).toNat < 2048 :=
  Cert.PreDecode.bucket_lt _ _ _ (hpre d) j

/-- The same for the idealized program's memory. -/
theorem bucketsI (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (d : Dev Cert.KernelIdeal.nD)
    (j : Cert.KernelIdeal.S4096.Idx) : (m (Cert.Proof.KernelIdeal.hLoc d) j).toNat < 2048 :=
  Cert.PreDecode.bucket_lt _ _ _ (hpre d) j

section Frames

variable (tcB : ∀ (m : (ℓ : Loc Cert.Kernel.nD Cert.Kernel.τ Cert.Kernel.sig) → Buf (Elt Bits) ℓ)
    (Ψ : (d : Dev Cert.Kernel.nD) → Cert.Kernel.grid0.Coords → Fin 4 → Buf (Elt Bits) (Cert.Proof.Kernel.oLoc d) → Prop),
    Cert.Proof.Kernel.TcPart (F := Bits) m Ψ)
variable (tcI : ∀ (m : (ℓ : Loc Cert.KernelIdeal.nD Cert.KernelIdeal.τ Cert.KernelIdeal.sig) → Buf (Elt Ideal) ℓ)
    (Ψ : (d : Dev Cert.KernelIdeal.nD) → Cert.KernelIdeal.grid0.Coords → Fin 4 → Buf (Elt Ideal) (Cert.Proof.KernelIdeal.oLoc d) → Prop),
    Cert.Proof.KernelIdeal.TcPart (F := Ideal) m Ψ)

include tcB in
/-- The word-level program runs to the end and leaves its arguments as they were. -/
theorem frame_k : Cert.frame_Kernel (hKernel := Cert.Kernel.Gen.facts) (hPre_input_domain := Cert.Pre_input_domain.Gen.facts) :=
  fun m g hpre => (θ_run Cert.Kernel.defs _ _).mono (fun _ h c => h c)
    (Cert.Proof.Kernel.run_frame_of (F := Bits) m g (fun _ _ _ _ => True) (tcB m _)
      (fun d L O W hO qx qh qs fo => Cert.Proof.Kernel.tile_body m d L Cert.Proof.Kernel.facts (bucketsB m hpre d) O W hO qx qh qs fo))

include tcI in
/-- The idealized program runs to the end and leaves its arguments as they were. -/
theorem frame_ki : Cert.frame_KernelIdeal (hKernelIdeal := Cert.KernelIdeal.Gen.facts) (hPre_input_domain := Cert.Pre_input_domain.Gen.facts) :=
  fun m g hpre => (θ_run Cert.KernelIdeal.defs _ _).mono (fun _ h c => h c)
    (Cert.Proof.KernelIdeal.run_frame_of (F := Ideal) m g (fun _ _ _ _ => True) (tcI m _)
      (fun d L O W hO qx qh qs fo => Cert.Proof.KernelIdeal.tile_body m d L Cert.Proof.KernelIdeal.facts (bucketsI m hpre d) O W hO qx qh qs fo))

end Frames

/-! ## The value -/

section Value

open Cert.Proof.KernelIdeal (xLoc hLoc sLoc oLoc vLoc oSet)
open Cert.KernelIdeal (nD τ sig grid0)

variable (tcI : ∀ (m : (ℓ : Loc nD τ sig) → Buf (Elt Ideal) ℓ)
    (Ψ : (d : Dev nD) → grid0.Coords → Fin 4 → Buf (Elt Ideal) (oLoc d) → Prop),
    Cert.Proof.KernelIdeal.TcPart (F := Ideal) m Ψ)
  -- what each piece of the SparseCore call's result holds, and the array the pieces are pieces of
  (PsiV : ∀ (m : (ℓ : Loc nD τ sig) → Buf (Elt Ideal) ℓ) (d : Dev nD), grid0.Coords → Fin 4 → Buf (Elt Ideal) (oLoc d) → Prop)
  (scOut : ∀ (m : (ℓ : Loc nD τ sig) → Buf (Elt Ideal) ℓ) (d : Dev nD), Buf (Elt Ideal) (oLoc d))
  (hPsiV : ∀ m d L t f, PsiV m d L t f → ∀ x ∈ oSet d L t, f x = scOut m d x)
  (scOut_apply : ∀ m d (p : Fin 1024) (q : Fin 2048), scOut m d (ix2 p q)
      = Cert.Sketch.G (m (xLoc d)) (m (hLoc d)) (m (sLoc d)) (ix2 ⟨3072 + p.val, by have := p.isLt; omega⟩ q))
  (tile_val : ∀ m, (∀ d j, (m (hLoc d) j).toNat < 2048) → Cert.Proof.KernelIdeal.TileBody (F := Ideal) m (PsiV m))
  -- what the rest of the program leaves in the result: the call's result from row 3072 on, the sketch above it
  (out4_hi : ∀ m Ψ d (fo : Buf (Elt Ideal) (oLoc d)) (b : Fin 4096) (c : Fin 2048) (hb : 3072 ≤ b.val),
      (tcI m Ψ).out4 d fo (ix2 b c) = fo (ix2 ⟨b.val - 3072, by have := b.isLt; omega⟩ c))
  (out4_lo : ∀ m Ψ d (fo : Buf (Elt Ideal) (oLoc d)) (b : Fin 4096) (c : Fin 2048), b.val < 3072 →
      (tcI m Ψ).out4 d fo (ix2 b c) = Cert.Sketch.G (m (xLoc d)) (m (hLoc d)) (m (sLoc d)) (ix2 b c))

include hPsiV scOut_apply out4_hi out4_lo in
/-- When every piece holds the sketch of its rows, the program's result is the sketch of all rows. -/
theorem out4_eq_GK (m : (ℓ : Loc nD τ sig) → Buf (Elt Ideal) ℓ) (d : Dev nD) (g : Buf (Elt Ideal) (oLoc d))
    (hg : Cert.Proof.KernelIdeal.Pieces (PsiV m) d g) :
    (tcI m (PsiV m)).out4 d g = Cert.ReferenceIdeal.RefValue.GK m d := by
  have e : g = scOut m d := Cert.Proof.KernelIdeal.pieces_eq (PsiV m) (scOut m) (hPsiV m) d g hg
  funext idx
  obtain ⟨b, c, rfl⟩ : ∃ (b : Fin 4096) (c : Fin 2048), idx = ix2 b c := ⟨idx 0, idx 1, eq_ix2 idx⟩
  by_cases hb : 3072 ≤ b.val
  · rw [out4_hi m _ d g b c hb, e, scOut_apply]
    exact congrArg (fun z : Fin 4096 => Cert.Sketch.G (m (xLoc d)) (m (hLoc d)) (m (sLoc d)) (ix2 z c))
      (Fin.ext (show 3072 + (b.val - 3072) = b.val by omega))
  · exact out4_lo m _ d g b c (by omega)

include hPsiV scOut_apply tile_val out4_hi out4_lo in
/-- The idealized program runs to the end with the sketch of its arguments in its result and its arguments as they
    were. -/
theorem kernel_val (m : (ℓ : Loc nD τ sig) → Buf (Elt Ideal) ℓ) (g : Dev nD → PrngReg)
    (hpre : Cert.Pre_KernelIdeal (hPre_input_domain := Cert.Pre_input_domain.Gen.facts) m) :
    θ_run (Cert.KernelIdeal.defs (F := Ideal)) (Cert.KernelIdeal.threads (F := Ideal)) ⟨m, fun _ => 0, g⟩ (fun r => ∀ c : Dev nD,
      r.2.mem ((c.tc : Thread nD τ).loc Cert.KernelIdeal.main_v4) = Cert.ReferenceIdeal.RefValue.GK m c
      ∧ r.2.mem ((c.tc : Thread nD τ).loc Cert.KernelIdeal.main_arg0) = m ((c.tc : Thread nD τ).loc Cert.KernelIdeal.main_arg0)
      ∧ r.2.mem ((c.tc : Thread nD τ).loc Cert.KernelIdeal.main_arg1) = m ((c.tc : Thread nD τ).loc Cert.KernelIdeal.main_arg1)
      ∧ r.2.mem ((c.tc : Thread nD τ).loc Cert.KernelIdeal.main_arg2) = m ((c.tc : Thread nD τ).loc Cert.KernelIdeal.main_arg2)) :=
  (θ_run Cert.KernelIdeal.defs _ _).mono (fun _ h c => ⟨(h c).2.2.2, (h c).1, (h c).2.1, (h c).2.2.1⟩)
    (Cert.Proof.KernelIdeal.run_main_of (F := Ideal) m g (PsiV m) (fun d f => f = Cert.ReferenceIdeal.RefValue.GK m d) (tcI m _)
      (tile_val m (bucketsI m hpre)) (out4_eq_GK tcI PsiV scOut hPsiV scOut_apply out4_hi out4_lo m))

include hPsiV scOut_apply tile_val out4_hi out4_lo in
/-- From memories agreeing on the arguments, the idealized program and the reference end with equal results. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) :=
  fun m g m' g' hpre hagree => ⟨Cert.ReferenceIdeal.RefValue.GK m,
    kernel_val tcI PsiV scOut hPsiV scOut_apply tile_val out4_hi out4_lo m g hpre,
    Cert.ReferenceIdeal.RefValue.ref_side m m' g' hpre hagree⟩

end Value

/-- The TensorCore's rows: where the left operand holds the 256-row block of `x` that contains row `b`, the bucket
    words and the signs stand as columns, the product with the one-hot matrix at row `b mod 256` is the sketch at
    row `b`. -/
theorem lo_of_tc (x : Cert.Sketch.SX.Idx → EReal) (hw : Cert.Sketch.SH.Idx → BitVec 32) (sgn : Cert.Sketch.SH.Idx → EReal)
    (b : Fin 4096) (c : Fin 2048)
    (v6 : Vec Ideal Cert.KernelIdeal.S256x4096 .f32) (v7 : Vec Ideal Cert.KernelIdeal.S4096x1 .i32) (v11 : Vec Ideal Cert.KernelIdeal.S4096x1 .f32)
    (h6 : ∀ (r : Fin 256) (j : Fin 4096), v6 (ix2 r j) = x (ix2 ⟨256 * (b.val / 256) + r.val, by have := b.isLt; have := r.isLt; omega⟩ j))
    (h7 : ∀ j : Fin 4096, v7 (ix2 j (0 : Fin 1)) = hw (ix1 j))
    (h11 : ∀ j : Fin 4096, v11 (ix2 j (0 : Fin 1)) = sgn (ix1 j)) :
    Cert.KernelIdeal.Gen.k1_pay2 (F := Ideal) v6 (Cert.KernelIdeal.Gen.k1_pay1 (F := Ideal) v7 v11) (ix2 ⟨b.val % 256, Nat.mod_lt _ (by norm_num)⟩ c)
      = Cert.Sketch.G x hw sgn (ix2 b c) := by
  have e := Cert.Sketch.Math.tc_eq_G x hw sgn
    (fun r => ⟨256 * (b.val / 256) + r.val, by have := b.isLt; have := r.isLt; omega⟩) v6 v7 v11 h6 h7 h11
    ⟨b.val % 256, Nat.mod_lt _ (by norm_num)⟩ c
  refine e.trans ?_
  exact congrArg (fun z : Fin 4096 => Cert.Sketch.G x hw sgn (ix2 z c))
    (Fin.ext (show 256 * (b.val / 256) + b.val % 256 = b.val from Nat.div_add_mod b.val 256))

section Claim

open Cert.Proof.KernelIdeal (xLoc hLoc sLoc oLoc oSet)

/-- Everything the certificate claims, from the rest of the program's record for the two programs, the tasks' runs
    at the extended reals and what the rest of the program leaves in the result. -/
theorem claim_of
    (tcB : ∀ (m : (ℓ : Loc Cert.Kernel.nD Cert.Kernel.τ Cert.Kernel.sig) → Buf (Elt Bits) ℓ)
      (Ψ : (d : Dev Cert.Kernel.nD) → Cert.Kernel.grid0.Coords → Fin 4 → Buf (Elt Bits) (Cert.Proof.Kernel.oLoc d) → Prop),
      Cert.Proof.Kernel.TcPart (F := Bits) m Ψ)
    (tcI : ∀ (m : (ℓ : Loc Cert.KernelIdeal.nD Cert.KernelIdeal.τ Cert.KernelIdeal.sig) → Buf (Elt Ideal) ℓ)
      (Ψ : (d : Dev Cert.KernelIdeal.nD) → Cert.KernelIdeal.grid0.Coords → Fin 4 → Buf (Elt Ideal) (oLoc d) → Prop),
      Cert.Proof.KernelIdeal.TcPart (F := Ideal) m Ψ)
    (PsiV : ∀ (m : (ℓ : Loc Cert.KernelIdeal.nD Cert.KernelIdeal.τ Cert.KernelIdeal.sig) → Buf (Elt Ideal) ℓ) (d : Dev Cert.KernelIdeal.nD),
      Cert.KernelIdeal.grid0.Coords → Fin 4 → Buf (Elt Ideal) (oLoc d) → Prop)
    (scOut : ∀ (m : (ℓ : Loc Cert.KernelIdeal.nD Cert.KernelIdeal.τ Cert.KernelIdeal.sig) → Buf (Elt Ideal) ℓ) (d : Dev Cert.KernelIdeal.nD), Buf (Elt Ideal) (oLoc d))
    (hPsiV : ∀ m d L t f, PsiV m d L t f → ∀ x ∈ oSet d L t, f x = scOut m d x)
    (scOut_apply : ∀ m d (p : Fin 1024) (q : Fin 2048), scOut m d (ix2 p q)
        = Cert.Sketch.G (m (xLoc d)) (m (hLoc d)) (m (sLoc d)) (ix2 ⟨3072 + p.val, by have := p.isLt; omega⟩ q))
    (tile_val : ∀ m, (∀ d j, (m (hLoc d) j).toNat < 2048) → Cert.Proof.KernelIdeal.TileBody (F := Ideal) m (PsiV m))
    (out4_hi : ∀ m Ψ d (fo : Buf (Elt Ideal) (oLoc d)) (b : Fin 4096) (c : Fin 2048) (hb : 3072 ≤ b.val),
        (tcI m Ψ).out4 d fo (ix2 b c) = fo (ix2 ⟨b.val - 3072, by have := b.isLt; omega⟩ c))
    (out4_lo : ∀ m Ψ d (fo : Buf (Elt Ideal) (oLoc d)) (b : Fin 4096) (c : Fin 2048), b.val < 3072 →
        (tcI m Ψ).out4 d fo (ix2 b c) = Cert.Sketch.G (m (xLoc d)) (m (hLoc d)) (m (sLoc d)) (ix2 b c)) :
    Cert.Claim :=
  ⟨Cert.Kernel.Gen.facts, Cert.KernelIdeal.Gen.facts, Cert.ReferenceIdeal.Gen.facts, Cert.Pre_input_domain.Gen.facts,
    frame_k tcB, frame_ki tcI, Cert.ReferenceIdeal.RefValue.frame_ri, trivial,
    algebraic tcI PsiV scOut hPsiV scOut_apply tile_val out4_hi out4_lo⟩

end Claim

end Cert.Proof.Claims

end
-- ==== Proof.TcBody.lean ====
/-
  The matrix product on the TensorCore, point by point.

  The grid has thirteen points. At the first the body reads the bucket words and the signs (each
  staged whole as a column of 4096 entries) and stores, into a scratch matrix of 4096 rows and
  2048 columns that outlives the point, the matrix whose entry (j, m) is the sign of column j when
  the bucket word of column j is m and zero otherwise. At every later point it reads a block of
  256 rows of x, reads the scratch matrix, and stores their product into the result's block of 256
  rows. This module runs the body once in each of the two cases, names what each case leaves in the
  scratch and in the result's block, and states the pipeline's proof data and body obligation over
  those names.
-/
import proofs.«204905_g71433896067310_cont_9to1c4b_220_29_alg».proof.Proof.Common
import proofs.«204905_g71433896067310_cont_9to1c4b_220_29_alg».proof.Proof.Gen.KernelIdeal.Launch
import proofs.«204905_g71433896067310_cont_9to1c4b_220_29_alg».proof.Proof.Gen.KernelIdeal.Points
import Idealize.ShloMosaic.Lib.Pipeline.Regions
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The two cases -/

/-- The condition of the body's first conditional: the grid coordinate is zero. -/
abbrev cond1 (i : grid1.Coords) : Prop := (Scalar.cmpi .ne (Scalar.extui (Scalar.cmpi .eq (BitVec.ofNat 32 (i 0).val) 0#32)) 0#32) = 1#1
/-- The condition of the second: the grid coordinate is positive. -/
abbrev cond2 (i : grid1.Coords) : Prop := k1_cond2 i = 1#1

/-- The first holds at the first point only, -/
theorem hcond1 : ∀ t : Fin cfg1.N, cond1 (grid1.coords t) ↔ t.val = 0 :=
  (by decide +kernel : ∀ t : Fin grid1.N, cond1 (grid1.coords t) ↔ t.val = 0)
/-- the second at every other point. -/
theorem hcond2 : ∀ t : Fin cfg1.N, cond2 (grid1.coords t) ↔ t.val ≠ 0 :=
  (by decide +kernel : ∀ t : Fin grid1.N, cond2 (grid1.coords t) ↔ t.val ≠ 0)

/-- The input windows are never idle. -/
theorem live0 : ∀ i : grid1.Coords, cfg1.idle 0 i = false := fun _ => rfl
theorem live1 : ∀ i : grid1.Coords, cfg1.idle 1 i = false := fun _ => rfl
theorem live2 : ∀ i : grid1.Coords, cfg1.idle 2 i = false := fun _ => rfl
/-- The result's window is idle at the first point, where nothing is stored into it and nothing written back, -/
theorem idle3 : ∀ t : Fin cfg1.N, ¬cond2 (grid1.coords t) → cfg1.idle 3 (grid1.coords t) = true := by decide +kernel
theorem noFlush3 : ∀ t : Fin cfg1.N, ¬cond2 (grid1.coords t) → (cfg1.win 3).flush t = false := by decide +kernel
/-- and live at the others. -/
theorem live3 : ∀ t : Fin cfg1.N, cond2 (grid1.coords t) → cfg1.idle 3 (grid1.coords t) = false := by decide +kernel

/-- The scratch matrix, as a memref and as a view. -/
abbrev scM : Memref sig .tc .vmem S4096x2048 .bf16 := Memref.whole cc1_scratch0
abbrev VS : View sig .tc .vmem S4096x2048 .bf16 := scM.view
/-- One staging buffer of the result's window: the view through which a block's contents are stated. -/
abbrev VO : View sig .tc .vmem S256x2048 .f32 := (Memref.whole cc1_stg3_0 : Memref sig .tc .vmem S256x2048 .f32).view

set_option maxHeartbeats 1000000 in
/-- THE FIRST POINT, on any whole staging memrefs: from the bucket words `x0`, the signs `x1`, a block of x and the
    result's buffer at any contents and the scratch at any contents, the body runs to its end handing all of them back
    untouched but the scratch, which holds the pieces it stored (the list is this definition's first component). -/
noncomputable def runBuild (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) :
    { LS : List (View.Piece (Elt F) S4096x2048 .bf16) //
      ∀ (x2 : Vec F S256x4096 .f32) (xi3 : Vec F S256x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS)) -∗ K ⟨⟩))
          ⊢ wp frame (wpE (defs₀ (F := F)) Variants.none c none) E (cc1__tc_body i arg1 harg1 arg2 harg2 arg3 harg3 arg4 harg4 arg5 harg5) K } := by
  refine ⟨?_, fun x2 xi3 E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- A LATER POINT, on any whole staging memrefs: from a block `x2` of x and the scratch at `xs` (the bucket words', the
    signs' and the result's buffers at any contents), the body runs to its end handing all of them back untouched but the
    result's buffer, which holds the pieces it stored (the list is this definition's first component). -/
noncomputable def runMul (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) :
    { L3 : List (View.Piece (Elt F) S256x2048 .f32) //
      ∀ (x0 : Vec F S4096x1 .i32) (x1 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs) -∗ K ⟨⟩))
          ⊢ wp frame (wpE (defs₀ (F := F)) Variants.none c none) E (cc1__tc_body i arg1 harg1 arg2 harg2 arg3 harg3 arg4 harg4 arg5 harg5) K } := by
  refine ⟨?_, fun x0 x1 E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%d3, %f3, -, H3⟩, ⟨%fs, %hfs, HS0⟩, Hk⟩
    obtain rfl := harg1.eq_unread hf0; obtain rfl := harg2.eq_unread hf1; obtain rfl := harg3.eq_unread hf2; obtain rfl := harg5.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; isplitr; · ipureintro; exact harg5.read_unread _
    iexact HS0

/-- The first point's pieces cover the scratch matrix; -/
theorem coverS (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) (y : S4096x2048.Idx) :
    ∃ pc ∈ (runBuild (F := F) c i arg1 harg1 arg2 harg2 arg3 harg3 arg4 harg4 arg5 harg5 hc1 hc2 x0 x1).1, y ∈ pc.1.set :=
  View.cover_of_tiledL (runBuild (F := F) c i arg1 harg1 arg2 harg2 arg3 harg3 arg4 harg4 arg5 harg5 hc1 hc2 x0 x1).1 S4096x2048.size (by sl_kernel_rfl) y

/-- what it leaves there: its pieces read back. -/
def sBuild (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) : Vec F S4096x2048 .bf16 :=
  VS.read (Elt F) (VS.writes (Elt F) VS.junk (runBuild (F := F) c i arg1 harg1 arg2 harg2 arg3 harg3 arg4 harg4 arg5 harg5 hc1 hc2 x0 x1).1)

/-- A later point's pieces cover the result's block; -/
theorem coverO (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) (y : S256x2048.Idx) :
    ∃ pc ∈ (runMul (F := F) c i arg1 harg1 arg2 harg2 arg3 harg3 arg4 harg4 arg5 harg5 hc1 hc2 x2 xs).1, y ∈ pc.1.set :=
  View.cover_of_tiledL (runMul (F := F) c i arg1 harg1 arg2 harg2 arg3 harg3 arg4 harg4 arg5 harg5 hc1 hc2 x2 xs).1 S256x2048.size (by sl_kernel_rfl) y

/-- what it leaves there: its pieces read back. -/
def oMul (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) : Vec F S256x2048 .f32 :=
  VO.read (Elt F) (VO.writes (Elt F) VO.junk (runMul (F := F) c i arg1 harg1 arg2 harg2 arg3 harg3 arg4 harg4 arg5 harg5 hc1 hc2 x2 xs).1)

/-! ## The arrays when the region is entered -/

variable (m : (ℓ : Loc nD τ sig) → Buf (Elt F) ℓ)

/-- The two reshapes @main runs before the region: the bucket words and the signs as columns. -/
abbrev opH : HloOp τ sig (Elt F) := StableHlo.reshape main_arg1 main_v1 rfl shapeCasts_S4096_S4096x1
abbrev opS : HloOp τ sig (Elt F) := StableHlo.reshape main_arg2 main_v2 rfl shapeCasts_S4096_S4096x1

/-- The buffer the SparseCore call wrote, as a device buffer. -/
abbrev o' : DevRef τ sig := Proc.devRef .tc (main_v0 : Ref sig .tc)

/-- The TensorCore's buffers after the SparseCore call: the launch memory, the call's result at `fo`; -/
def Vm (d : Dev nD) (fo : Buf (Elt F) (oLoc d)) : Valuation τ sig (Elt F) := Function.update (fun b => m (d, b)) o' fo
/-- and when the region is entered: the two reshapes have run. -/
def VR (d : Dev nD) (fo : Buf (Elt F) (oLoc d)) : Valuation τ sig (Elt F) := (opS (F := F)).result ((opH (F := F)).result (Vm m d fo))
/-- The same read at a TensorCore reference. -/
abbrev VRr (d : Dev nD) (fo : Buf (Elt F) (oLoc d)) (b : Ref sig .tc) : Buf (Elt F) ((d : Thread nD τ).loc b) := VR m d fo (Proc.devRef .tc b)

variable (fo : (d : Dev nD) → Buf (Elt F) (oLoc d))

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (VRr m d (fo d) (Pipeline.arrRef spec1 w))

/-- Each window's current staging memref at point `t`, as the pipeline passes it to the body, and its wholeness. -/
abbrev ms0 (t : Fin cfg1.N) : Memref sig .tc .vmem S4096x1 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x4096 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x2048 .f32 := win1_3.stage (cfg1.slots t 3)
abbrev hs3 (t : Fin cfg1.N) : (ms3 t).IsWhole := hstage1_3 ((cfg1.slots t 3).cast nbuf1_3)

/-- THE SCRATCH MATRIX after the first point, and from then on: what the first case stores, from the bucket words and the
    signs as the region finds them. -/
def scAll (d : Dev nD) : Vec F S4096x2048 .bf16 :=
  sBuild d (grid1.coords t1_0) (ms0 t1_0) (hs0 t1_0) (ms1 t1_0) (hs1 t1_0) (ms2 t1_0) (hs2 t1_0) (ms3 t1_0) (hs3 t1_0) scM (Memref.isWhole_whole _)
    ((hcond1 t1_0).mpr rfl) (fun h => (hcond2 t1_0).mp h rfl) (iblk m fo d 0 t1_0) (iblk m fo d 1 t1_0)

/-- THE RESULT'S BLOCK after a later point `t`: what the second case stores, from x's block at `t` and the scratch matrix. At the
    first point the window is idle and the value is not consulted. -/
def out3 [∀ e, Nonempty (Elt F e)] (d : Dev nD) (t : Fin cfg1.N) : Vec F S256x2048 .f32 :=
  if h : t.val ≠ 0 then
    oMul d (grid1.coords t) (ms0 t) (hs0 t) (ms1 t) (hs1 t) (ms2 t) (hs2 t) (ms3 t) (hs3 t) scM (Memref.isWhole_whole _)
      (fun h' => h ((hcond1 t).mp h')) ((hcond2 t).mpr h) (iblk m fo d 2 t) (scAll m fo d)
  else fun _ => Classical.arbitrary _

theorem out3_pos [∀ e, Nonempty (Elt F e)] (d : Dev nD) (t : Fin cfg1.N) (h : t.val ≠ 0) :
    out3 m fo d t = oMul d (grid1.coords t) (ms0 t) (hs0 t) (ms1 t) (hs1 t) (ms2 t) (hs2 t) (ms3 t) (hs3 t) scM (Memref.isWhole_whole _)
      (fun h' => h ((hcond1 t).mp h')) ((hcond2 t).mpr h) (iblk m fo d 2 t) (scAll m fo d) := dif_pos h

/-- The region's invariant before position `n`: before the first point the scratch at anything (what the launch hands the
    region); afterwards the scratch at the matrix the first point stored. -/
def PhiS (d : Dev nD) : ℕ → sProp 𝕄
  | 0 => Pipeline.scopedRest spec1 d
  | _ + 1 => owns (d : Thread nD τ) scM fullShare (scAll m fo d)

theorem PhiS_pos (d : Dev nD) (n : ℕ) (hn : n ≠ 0) : PhiS m fo d n = owns (d : Thread nD τ) scM fullShare (scAll m fo d) := by
  cases n with
  | zero => exact absurd rfl hn
  | succ n => rfl

/-- The scoped rest is the scratch at anything. -/
theorem scopedRest_owns (d : Dev nD) :
    (Pipeline.scopedRest spec1 d : sProp 𝕄) = iprop(∃ x, owns (d : Thread nD τ) scM fullShare x) := by
  rw [scopedRest1_eq]; simp only [scM, owns_whole]; try rfl

/-! ## The pipeline's proof data -/

/-- The pairs a wait of the TensorCore may have recorded: those at or below the level the handshakes leave it at after the
    one SparseCore call. The pipeline's own waits, at index `none`, are among them. -/
def recB (d : Dev nD) : Set (SemLoc sig × HIx 1) := {p | (K (F := F)).lev ((SparseCore.T d : Thread nD τ), p.1) p.2 ≤ 8 * 1}

/-- The proof data of the one pipeline on core `d`: the arrays as the region finds them; after the body at point `t` each
    input's buffer at its block and the result's at `out3`; the invariant `PhiS`; nothing owed; full shares. -/
def dat [∀ e, Nonempty (Elt F e)] (_ : Fin 1) (d : Dev nD) : Dat τ (Elt F) (HIx 1) ℕ UU ℕ cfg1 d where
  A w := VRr m d (fo d) (Pipeline.arrRef spec1 w)
  after w t := match w with
    | ⟨0, _⟩ => iblk m fo d 0 t
    | ⟨1, _⟩ => iblk m fo d 1 t
    | ⟨2, _⟩ => iblk m fo d 2 t
    | ⟨3, _⟩ => out3 m fo d t
  Φ t := PhiS m fo d t.val
  q _ := fullShare
  owed _ := 0
  recorded _ := recB (F := F) d

section Data
variable [∀ e, Nonempty (Elt F e)]

theorem A_eq (d : Dev nD) (w : Fin cfg1.W) : (dat m fo 0 d).A w = VRr m d (fo d) (Pipeline.arrRef spec1 w) := by dsimp only [dat]
theorem after_0 (d : Dev nD) (t : Fin cfg1.N) : (dat m fo 0 d).after 0 t = iblk m fo d 0 t := by dsimp only [dat]
theorem after_1 (d : Dev nD) (t : Fin cfg1.N) : (dat m fo 0 d).after 1 t = iblk m fo d 1 t := by dsimp only [dat]
theorem after_2 (d : Dev nD) (t : Fin cfg1.N) : (dat m fo 0 d).after 2 t = iblk m fo d 2 t := by dsimp only [dat]
theorem after_3 (d : Dev nD) (t : Fin cfg1.N) : (dat m fo 0 d).after 3 t = out3 m fo d t := by dsimp only [dat]

/-- Each input's current staging buffer holds its block at every point, fetched there or not. -/
theorem before_0 (d : Dev nD) (t : Fin cfg1.N) (dd) : (dat m fo 0 d).before 0 t dd = iblk m fo d 0 t :=
  ((dat m fo 0 d).before_in_eq_fetched 0 rfl (fun _ => rfl) (fun _ _ _ => rfl) (fun t => by rw [after_0]; unfold Dat.blockOf iblk; rw [A_eq]; try rfl) t dd).trans
    (by unfold Dat.fetched Dat.blockOf iblk; rw [A_eq]; try rfl)
theorem before_1 (d : Dev nD) (t : Fin cfg1.N) (dd) : (dat m fo 0 d).before 1 t dd = iblk m fo d 1 t :=
  ((dat m fo 0 d).before_in_eq_fetched 1 rfl (fun _ => rfl) (fun _ _ _ => rfl) (fun t => by rw [after_1]; unfold Dat.blockOf iblk; rw [A_eq]; try rfl) t dd).trans
    (by unfold Dat.fetched Dat.blockOf iblk; rw [A_eq]; try rfl)
theorem before_2 (d : Dev nD) (t : Fin cfg1.N) (dd) : (dat m fo 0 d).before 2 t dd = iblk m fo d 2 t :=
  ((dat m fo 0 d).before_in_eq_fetched 2 rfl (fun _ => rfl) (fun _ _ _ => rfl) (fun t => by rw [after_2]; unfold Dat.blockOf iblk; rw [A_eq]; try rfl) t dd).trans
    (by unfold Dat.fetched Dat.blockOf iblk; rw [A_eq]; try rfl)

end Data

end Cert.Proof.KernelIdeal
end
-- ==== Proof.TcObl.lean ====
/-
  The body obligation of the matrix product's pipeline: at every grid point, from the region's invariant and each
  window's current staging buffer at what it then holds, the body runs to the invariant at the next point and each
  buffer at what the proof data says it leaves. Two cases: the first point, which stores the one-hot matrix into the
  scratch and leaves the result's buffer as it came; every later point, which stores the product of x's block with
  the scratch into the result's buffer and leaves the scratch as it came.
-/
import proofs.«204905_g71433896067310_cont_9to1c4b_220_29_alg».proof.Proof.TcBody

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (fo : (d : Dev nD) → Buf (Elt F) (oLoc d))

section Body
variable [∀ e, Nonempty (Elt F e)]

/-- What the body is called with at point `t`, the windows one by one, -/
def bodyPre (d : Dev nD) (t : Fin cfg1.N) : sProp 𝕄 :=
  iprop((dat m fo 0 d).Φ t.castSucc ∗ (dat m fo 0 d).owesAt none t.castSucc
    ∗ (∃ dd, owns (d : Thread nD τ) (ms0 t) fullShare ((dat m fo 0 d).before 0 t dd))
    ∗ (∃ dd, owns (d : Thread nD τ) (ms1 t) fullShare ((dat m fo 0 d).before 1 t dd))
    ∗ (∃ dd, owns (d : Thread nD τ) (ms2 t) fullShare ((dat m fo 0 d).before 2 t dd))
    ∗ (∃ dd, owns (d : Thread nD τ) (ms3 t) fullShare ((dat m fo 0 d).before 3 t dd)))

/-- and what it returns. -/
def bodyPost (d : Dev nD) (t : Fin cfg1.N) : sProp 𝕄 :=
  iprop((dat m fo 0 d).Φ t.succ ∗ (dat m fo 0 d).owesAt none t.succ
    ∗ (dat m fo 0 d).leavesExact 0 t
    ∗ (dat m fo 0 d).leavesExact 1 t
    ∗ (dat m fo 0 d).leavesExact 2 t
    ∗ (dat m fo 0 d).leavesExact 3 t)

set_option maxHeartbeats 1000000 in
/-- The first point: the scratch is at anything, the first case runs and leaves the matrix in it; the result's buffer goes
    back as it came. -/
theorem build_case (d : Dev nD) (t : Fin cfg1.N) (hz : t.val = 0) :
    bodyPre m fo d t ⊢ wp frame (wpE (defs₀ (F := F)) Variants.none d none) Set.univ (bodyAt1 t) (fun _ => bodyPost m fo d t) := by
  unfold bodyPre bodyPost bodyAt1
  simp only [before_0, before_1, before_2]
  rw [show (dat m fo 0 d).owesAt none t.succ = (dat m fo 0 d).owesAt none t.castSucc from rfl]
  rw [show (dat m fo 0 d).Φ t.succ = owns (d : Thread nD τ) scM fullShare (scAll m fo d) from rfl]
  rw [show (dat m fo 0 d).Φ t.castSucc = PhiS m fo d t.val from rfl]
  rw [show (dat m fo 0 d).leavesExact 0 t = owns (d : Thread nD τ) (ms0 t) fullShare ((dat m fo 0 d).after 0 t) from by
    unfold Dat.leavesExact; rw [live0 (grid1.coords t)], after_0]
  rw [show (dat m fo 0 d).leavesExact 1 t = owns (d : Thread nD τ) (ms1 t) fullShare ((dat m fo 0 d).after 1 t) from by
    unfold Dat.leavesExact; rw [live1 (grid1.coords t)], after_1]
  rw [show (dat m fo 0 d).leavesExact 2 t = owns (d : Thread nD τ) (ms2 t) fullShare ((dat m fo 0 d).after 2 t) from by
    unfold Dat.leavesExact; rw [live2 (grid1.coords t)], after_2]
  have h1 : cond1 (grid1.coords t) := (hcond1 t).mpr hz
  have h2 : ¬cond2 (grid1.coords t) := fun h => (hcond2 t).mp h hz
  rw [Dat.leavesExact_idle (dat m fo 0 d) 3 t (idle3 t h2) (noFlush3 t h2)]
  rw [hz, show PhiS m fo d 0 = Pipeline.scopedRest spec1 d from rfl, scopedRest_owns]
  have hsc : scAll m fo d = sBuild (F := F) d (grid1.coords t) (ms0 t) (hs0 t) (ms1 t) (hs1 t) (ms2 t) (hs2 t) (ms3 t) (hs3 t) scM (Memref.isWhole_whole _) h1 h2 (iblk m fo d 0 t) (iblk m fo d 1 t) := by
    obtain rfl : t = t1_0 := Fin.ext hz
    rfl
  rw [hsc]
  iintro ⟨HS, Ho, ⟨%d0, H0⟩, ⟨%d1, H1⟩, ⟨%d2, H2⟩, ⟨%d3, H3⟩⟩
  iapply ((runBuild (F := F) d (grid1.coords t) (ms0 t) (hs0 t) (ms1 t) (hs1 t) (ms2 t) (hs2 t) (ms3 t) (hs3 t) scM (Memref.isWhole_whole _) h1 h2 (iblk m fo d 0 t) (iblk m fo d 1 t)).2 (iblk m fo d 2 t) ((dat m fo 0 d).before 3 t d3) Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [HS]
  · unfold owns; iexists _; isplitr
    swap; · iexact HS
    ipureintro; exact View.read_writes_of_cover _ _ _ _ _ (coverS (F := F) d (grid1.coords t) (ms0 t) (hs0 t) (ms1 t) (hs1 t) (ms2 t) (hs2 t) (ms3 t) (hs3 t) scM (Memref.isWhole_whole _) h1 h2 (iblk m fo d 0 t) (iblk m fo d 1 t))
  isplitl [Ho]; · iexact Ho
  isplitl [H0]; · iexact H0
  isplitl [H1]; · iexact H1
  isplitl [H2]; · iexact H2
  iexists _; iexact H3

set_option maxHeartbeats 1000000 in
/-- A later point: the scratch holds the matrix, the second case runs and leaves the product in the result's buffer; the
    scratch goes back as it came. -/
theorem mul_case (d : Dev nD) (t : Fin cfg1.N) (hz : t.val ≠ 0) :
    bodyPre m fo d t ⊢ wp frame (wpE (defs₀ (F := F)) Variants.none d none) Set.univ (bodyAt1 t) (fun _ => bodyPost m fo d t) := by
  unfold bodyPre bodyPost bodyAt1
  simp only [before_0, before_1, before_2]
  rw [show (dat m fo 0 d).owesAt none t.succ = (dat m fo 0 d).owesAt none t.castSucc from rfl]
  rw [show (dat m fo 0 d).Φ t.succ = owns (d : Thread nD τ) scM fullShare (scAll m fo d) from rfl]
  rw [show (dat m fo 0 d).Φ t.castSucc = PhiS m fo d t.val from rfl]
  rw [show (dat m fo 0 d).leavesExact 0 t = owns (d : Thread nD τ) (ms0 t) fullShare ((dat m fo 0 d).after 0 t) from by
    unfold Dat.leavesExact; rw [live0 (grid1.coords t)], after_0]
  rw [show (dat m fo 0 d).leavesExact 1 t = owns (d : Thread nD τ) (ms1 t) fullShare ((dat m fo 0 d).after 1 t) from by
    unfold Dat.leavesExact; rw [live1 (grid1.coords t)], after_1]
  rw [show (dat m fo 0 d).leavesExact 2 t = owns (d : Thread nD τ) (ms2 t) fullShare ((dat m fo 0 d).after 2 t) from by
    unfold Dat.leavesExact; rw [live2 (grid1.coords t)], after_2]
  have h1 : ¬cond1 (grid1.coords t) := fun h => hz ((hcond1 t).mp h)
  have h2 : cond2 (grid1.coords t) := (hcond2 t).mpr hz
  rw [show (dat m fo 0 d).leavesExact 3 t = owns (d : Thread nD τ) (ms3 t) fullShare ((dat m fo 0 d).after 3 t) from by
    unfold Dat.leavesExact; rw [live3 t h2], after_3, out3_pos m fo d t hz]
  rw [PhiS_pos m fo d _ hz]
  iintro ⟨HS, Ho, ⟨%d0, H0⟩, ⟨%d1, H1⟩, ⟨%d2, H2⟩, ⟨%d3, H3⟩⟩
  iapply ((runMul (F := F) d (grid1.coords t) (ms0 t) (hs0 t) (ms1 t) (hs1 t) (ms2 t) (hs2 t) (ms3 t) (hs3 t) scM (Memref.isWhole_whole _) h1 h2 (iblk m fo d 2 t) (scAll m fo d)).2 (iblk m fo d 0 t) (iblk m fo d 1 t) Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS]; · iexact HS
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO (F := F) d (grid1.coords t) (ms0 t) (hs0 t) (ms1 t) (hs1 t) (ms2 t) (hs2 t) (ms3 t) (hs3 t) scM (Memref.isWhole_whole _) h1 h2 (iblk m fo d 2 t) (scAll m fo d))

/-- The body at any point. -/
theorem sound_body (d : Dev nD) (t : Fin cfg1.N) :
    bodyPre m fo d t ⊢ wp frame (wpE (defs₀ (F := F)) Variants.none d none) Set.univ (bodyAt1 t) (fun _ => bodyPost m fo d t) := by
  by_cases hz : t.val = 0
  · exact build_case m fo d t hz
  · exact mul_case m fo d t hz

/-- The library's body obligation, at every point. -/
theorem body_obligation (d : Dev nD) : BodyObligation (dat (F := F) m fo 0 d) (defs₀ (F := F)) Variants.none none Set.univ := fun t => by
  rw [bigSep_W1, bigSep_W1]
  exact sound_body m fo d t

end Body

end Cert.Proof.KernelIdeal
end
-- ==== Proof.TcRegion.lean ====
/-
  The region of the matrix product inside the TensorCore's program: the pipeline's launch ghost state, the region's
  record (the kernel's protocol as entry and exit entailments around the thread states) and the region's step under
  the SparseCore program's body table.

  The region is entered after the one SparseCore call, when the TensorCore owes nothing more: the pipeline's waits
  on its staging semaphores sit at the index no handshake uses, so they are admissible and leave the recorded pairs
  below the level the handshakes ended at.
-/
import proofs.«204905_g71433896067310_cont_9to1c4b_220_29_alg».proof.Proof.TcBody
import proofs.«204905_g71433896067310_cont_9to1c4b_220_29_alg».proof.Proof.TcObl
import Idealize.ShloMosaic.Lib.SparseCore.Launch

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (fo : (d : Dev nD) → Buf (Elt F) (oLoc d))

/-! ## The pipeline's launch ghost state -/

omit m fo in
/-- No prefetched table: the one admissible choice. -/
abbrev adm : (p : Fin 1) → (pcfgs (F := F) p).Adm := fun p => (cfgs p).toPCfg_adm

omit [FloatOps F] in
/-- The pipeline library's launch element: the rounds of the staging cells and the duty tokens of the loop's transfers. -/
def u₀P : UP := initOf (Pipeline.cells cfgs cellOf_inj) (Pipeline.launchToks cfgs cellOf_inj)

/-- What the region needs of the launch on core `d`: the staging cells' launch state and the transfers' duty tokens. -/
def G_tc (d : Dev nD) : sProp 𝕄 :=
  iprop(Pipeline.cellsGhost (Pipeline.pin (pcfgs (F := F)) adm) EP 0 d ∗ Pipeline.toksInit (Pipeline.pin (pcfgs (F := F)) adm) EP 0 d)

/-- The launch element funds it on every core. -/
theorem fund_tc : (BI.own ((EP (F := F)) u₀P) : sProp 𝕄) ⊢ iprop(|==> bigSep Finset.univ (G_tc (F := F))) := by
  refine (Pipeline.fund_ghost cfgs (EP (F := F)) cellOf_inj).trans (BI.bupd_mono ?_)
  unfold G_tc
  rw [bigSep_sep']
  refine sep_mono (bigSep_mono fun c _ => ?_) (bigSep_mono fun c _ => ?_)
  · rw [show (Finset.univ : Finset (Fin 1)) = {0} from rfl, bigSep_singleton]; exact BI.Entails.refl _
  · rw [show (Finset.univ : Finset (Fin 1)) = {0} from rfl, bigSep_singleton]; exact BI.Entails.refl _

/-! ## The region's record -/

section Region
variable [∀ e, Nonempty (Elt F e)]

/-- What the TensorCore owes when the region is entered and when it is left: nothing, every recorded pair at or below
    the level the one SparseCore call ended at. -/
def Row (d : Dev nD) : sProp 𝕄 :=
  iprop(∃ W, ⌜(K (F := F)).WBelow (SparseCore.T d) W (8 * 1)⌝ ∗ owes (SparseCore.T d : Thread nD τ) (0 : CellTallies nD τ sig (HIx 1)) W)

/-- The region's array after the last point, as the pipeline library computes it. -/
def finalA (d : Dev nD) (w : Fin cfg1.W) : Buf (Elt F) ((cfg1.win w).arr.view.loc (d : Thread nD τ)) := (dat m fo 0 d).arrAt w cfg1.N

/-- What the region leaves: its arrays at their final contents, the other unscoped buffers as they were, nothing owed. -/
def postR (d : Dev nD) : sProp 𝕄 :=
  iprop((dat m fo 0 d).arrays ((dat m fo 0 d).arrAt · cfg1.N) ∗ Pipeline.unscopedRest spec1 d (VRr m d (fo d)) ∗ Row (F := F) d)

theorem recB_of_WBelow (d : Dev nD) (W : Waits sig (HIx 1)) (hW : (K (F := F)).WBelow (SparseCore.T d) W (8 * 1)) :
    (↑W : Set (SemLoc sig × HIx 1)) ⊆ (dat m fo 0 d).bound none 0 := fun p hp => Or.inl (hW p hp)

theorem WBelow_of_bound (d : Dev nD) (W : Waits sig (HIx 1)) (hW : (↑W : Set (SemLoc sig × HIx 1)) ⊆ (dat m fo 0 d).bound none (Fin.last cfg1.N)) :
    (K (F := F)).WBelow (SparseCore.T d) W (8 * 1) := fun p hp => by
  rcases hW hp with h | ⟨w, s, rfl⟩
  · exact h
  · exact Nat.zero_le _

set_option backward.isDefEq.respectTransparency.types false in
/-- THE REGION: the launch's layout, no semaphore of the kernel's own, the body obligation; entered from the unscoped
    buffers held at the contents the two reshapes left and the TensorCore owing nothing — the four windows' arrays into
    the pipeline, the other six buffers bypassing —, left with the arrays at their final contents. -/
def reg : Pipeline.RegionSeg (pcfgs (F := F)) adm (dat m fo) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m fo c).loose
  hwaits := Pipeline.hwaits_of_owed_zero _ _ _ _ (K (F := F)).L (K (F := F)).lev 0 fun _ _ => rfl
  pre c := iprop(held (c : Thread nD τ) (Pipeline.ucRefs τ sig) (VR m c (fo c)) ∗ Row (F := F) c)
  post c := postR m fo c
  X _ := iprop(emp)
  Y _ := iprop(emp)
  Z c := Pipeline.unscopedRest spec1 c (VRr m c (fo c))
  hentry c := by
    rw [← Pipeline.unscopedBufs_held c (VR m c (fo c))]
    have hsplit := Pipeline.arrays_of_unscopedBufs (pcfgs (F := F)) adm (dat m fo) launch1.win launch1.arr_whole c
      ((dat m fo 0 c).share_full fun _ => rfl) (VRr m c (fo c)) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Row Pipeline.Dat.owesAt Pipeline.owesWithin
      icases HO with ⟨%W, %hW, HO⟩; iexists W; isplitr; · ipureintro; exact recB_of_WBelow m fo c W hW
      iexact HO
    isplitr; · iempintro
    iexact Hz
  hin c := by
    rw [show (dat m fo 0 c).Φ 0 = Pipeline.scopedRest spec1 c from rfl]
    iintro ⟨-, -, Hr⟩; iexact Hr
  hout c := by
    rw [Pipeline.ownSems0_none, show (dat m fo 0 c).Φ (Fin.last cfg1.N) = PhiS m fo c (Fin.last cfg1.N).val from rfl,
      PhiS_pos m fo c _ (by rw [Fin.val_last]; have : cfg1.N = 13 := N_1; omega), scopedRest_owns]
    iintro H
    isplitr; · iempintro
    isplitr; · iempintro
    iexists _; iexact H
  hexit c := by
    iintro ⟨Ha, HO, -, HZ⟩
    imodintro
    unfold postR
    isplitl [Ha]; · iexact Ha
    isplitl [HZ]; · iexact HZ
    unfold Row Pipeline.Dat.owesAt Pipeline.owesWithin
    icases HO with ⟨%W, %hW, HO⟩; iexists W; isplitr; · ipureintro; exact WBelow_of_bound m fo c W hW
    iexact HO

/-! ## The region's step under the SparseCore program's body table -/

set_option backward.isDefEq.respectTransparency.types false in
/-- From the level facts, the boundary, the region's entry state and the pipeline's launch ghost state, the region's custom
    call — as @main spells it under the SparseCore program's labels — runs to the boundary and the region's exit state. -/
theorem region_step (d : Dev nD) (Φ : PUnit → sProp 𝕄) :
    iprop(levAts (K (F := F)).L (K (F := F)).lev ∗ boundary (SparseCore.T d : Thread nD τ) ∗ (held (SparseCore.T d : Thread nD τ) (Pipeline.ucRefs τ sig) (VR m d (fo d)) ∗ Row (F := F) d) ∗ G_tc (F := F) d
        ∗ (iprop(boundary (SparseCore.T d : Thread nD τ) ∗ postR m fo d) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  have e : (Prog.lift (.customCall (SparseCore.inner (Pipeline.entry (0 : Fin 1))) ()) : Prog (TpuEff nD τ sig (Elt F) (SparseCore.Sig (ΛP (F := F)) 1) .tc) PUnit)
      = SparseCore.liftProg (.op (.customCall (Pipeline.entry (0 : Fin 1)) ()) .ret) := rfl
  rw [e]
  unfold G_tc
  refine .trans ?_ ((K (F := F)).wp_liftProg (D (F := F)) 𝒱 (SparseCore.T d) Set.univ none _ Φ)
  iintro ⟨#Hla, Hb, Hpre, ⟨Hg, Ht⟩, Hk⟩
  iapply (Pipeline.RegionSeg.wp (pcfgs (F := F)) adm (dat m fo) none cellOf_inj EP defs₀ 𝒱₀ (K (F := F)).L (K (F := F)).lev (reg m fo) d none
    (fun _ h => nomatch h) .ret Φ)
  isplitl [Hk]
  · iintro H
    rw [wp_ret]; imodintro
    iapply Hk; iexact H
  isplitl [Hb]; · iexact Hb
  isplitl [Hpre]
  · iapply (Entails.of_eq (show iprop(held (SparseCore.T d : Thread nD τ) (Pipeline.ucRefs τ sig) (VR m d (fo d)) ∗ Row (F := F) d) = (reg m fo).pre d from rfl))
    iexact Hpre
  isplitr; · iexact Hla
  isplitl [Hg]; · iexact Hg
  iexact Ht

end Region

end Cert.Proof.KernelIdeal
end
-- ==== Proof.TcTail.lean ====
/-
  @main on the TensorCore after the SparseCore call: the bucket words and the signs reshaped into columns, the region of
  the matrix product (all thirteen points), two scalar constants, and the result of the SparseCore call written over rows
  3072 and up of the region's result. Every line terminates without fault; the three arguments end as they began, and the
  last result is named `out4`.
-/
import proofs.«204905_g71433896067310_cont_9to1c4b_220_29_alg».proof.Proof.TcBody
import proofs.«204905_g71433896067310_cont_9to1c4b_220_29_alg».proof.Proof.TcRegion
import Idealize.ShloMosaic.Lib.Pipeline.FrameSuffix

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The program after the call -/

/-- The lines of @main after the SparseCore call. -/
def mainTail (d : Dev nD) : Prog (TpuEff nD τ sig (Elt F) (SparseCore.Sig (Pipeline.Sig Λ₀ (Fin 1) fun p => (pcfgs (F := F) p).Adm) 1) .tc) PUnit := do
  hlo rfl (StableHlo.reshape main_arg1 main_v1 rfl shapeCasts_S4096_S4096x1) (fun _ => .ret ⟨⟩)
  hlo rfl (StableHlo.reshape main_arg2 main_v2 rfl shapeCasts_S4096_S4096x1) (fun _ => .ret ⟨⟩)
  Prog.lift (.customCall (SparseCore.inner (Pipeline.entry 0)) ())
  hlo rfl (StableHlo.nullary main_c (constantI S_ 32 3072#32)) (fun _ => .ret ⟨⟩)
  hlo rfl (StableHlo.nullary main_c_0 (constantI S_ 32 0#32)) (fun _ => .ret ⟨⟩)
  hlo rfl (StableHlo.binaryIndexed main_v3 main_v0 ![main_c, main_c_0] ⟨S_, .i32⟩ main_v4 ((fun x u i => Host.dynamicUpdateSlice x u (fun k => (i k (Shape.Idx.first h_S_)).toInt) updateFits_S4096x2048_S1024x2048) : (⟨S4096x2048, .f32⟩ : BufTy).Contents (Elt F) → (⟨S1024x2048, .f32⟩ : BufTy).Contents (Elt F) → (Fin 2 → (⟨S_, .i32⟩ : BufTy).Contents (Elt F)) → (⟨S4096x2048, .f32⟩ : BufTy).Contents (Elt F))) (fun _ => .ret ⟨⟩)
  pure ⟨⟩

omit m in
/-- @main is the call followed by them. -/
theorem main_eq (d : Dev nD) : main (F := F) d = (sc.run d 0 >>= fun _ => mainTail d) := rfl

/-- The three host operations after the region. -/
abbrev opC : HloOp τ sig (Elt F) := StableHlo.nullary main_c (constantI S_ 32 3072#32)
abbrev opC0 : HloOp τ sig (Elt F) := StableHlo.nullary main_c_0 (constantI S_ 32 0#32)
abbrev opD : HloOp τ sig (Elt F) := StableHlo.binaryIndexed main_v3 main_v0 ![main_c, main_c_0] ⟨S_, .i32⟩ main_v4 ((fun x u i => Host.dynamicUpdateSlice x u (fun k => (i k (Shape.Idx.first h_S_)).toInt) updateFits_S4096x2048_S1024x2048) : (⟨S4096x2048, .f32⟩ : BufTy).Contents (Elt F) → (⟨S1024x2048, .f32⟩ : BufTy).Contents (Elt F) → (Fin 2 → (⟨S_, .i32⟩ : BufTy).Contents (Elt F)) → (⟨S4096x2048, .f32⟩ : BufTy).Contents (Elt F))

omit m in
theorem hH : (opH (F := F)).bufs ⊆ Pipeline.ucRefs τ sig := Pipeline.sub_ucRefs _ (StableHlo.reshape_bufs_sub ..)
omit m in
theorem hS : (opS (F := F)).bufs ⊆ Pipeline.ucRefs τ sig := Pipeline.sub_ucRefs _ (StableHlo.reshape_bufs_sub ..)
omit m in
theorem hC : (opC (F := F)).bufs ⊆ Pipeline.ucRefs τ sig := Pipeline.sub_ucRefs _ (StableHlo.nullary_bufs_sub ..)
omit m in
theorem hC0 : (opC0 (F := F)).bufs ⊆ Pipeline.ucRefs τ sig := Pipeline.sub_ucRefs _ (StableHlo.nullary_bufs_sub ..)
omit m in
theorem hD : (opD (F := F)).bufs ⊆ Pipeline.ucRefs τ sig := Pipeline.sub_ucRefs _ (StableHlo.binaryIndexed_bufs_sub ..)

section Tail
variable [∀ e, Nonempty (Elt F e)]

/-- The call's result on every device: `fo` on `d`, the launch contents elsewhere (no other device's is consulted). -/
def foAt (d : Dev nD) (fo : Buf (Elt F) (oLoc d)) : (d' : Dev nD) → Buf (Elt F) (oLoc d') := Function.update (fun d' => m (oLoc d')) d fo

theorem foAt_self (d : Dev nD) (fo : Buf (Elt F) (oLoc d)) : foAt m d fo d = fo := Function.update_self _ _ _

/-- The TensorCore's buffers when the region is left: the region's arrays at their final contents, the others as the
    reshapes left them; -/
def Vout (d : Dev nD) (fo : Buf (Elt F) (oLoc d)) : Valuation τ sig (Elt F) :=
  Pipeline.withArrays spec1 d (VR m d fo) (finalA m (foAt m d fo) d)
/-- and at the end of @main. -/
def Vfin (d : Dev nD) (fo : Buf (Elt F) (oLoc d)) : Valuation τ sig (Elt F) :=
  (opD (F := F)).result ((opC0 (F := F)).result ((opC (F := F)).result (Vout m d fo)))

/-- THE RESULT of @main on device `d`: the SparseCore call's result written at row 3072 over the region's result. -/
def out4 (d : Dev nD) (fo : Buf (Elt F) (oLoc d)) : Buf (Elt F) ((SparseCore.T d : Thread nD τ).loc main_v4) :=
  Vfin m d fo (Proc.devRef .tc (main_v4 : Ref sig .tc))

/-- What @main leaves the claim: the three arguments as launched, the result at `out4`. -/
def FIN_tc (d : Dev nD) (fo : Buf (Elt F) (oLoc d)) : sProp 𝕄 :=
  iprop((xLoc d ↦{fullShare} m (xLoc d)) ∗ (hLoc d ↦{fullShare} m (hLoc d)) ∗ (sLoc d ↦{fullShare} m (sLoc d))
    ∗ ((SparseCore.T d : Thread nD τ).loc main_v4 ↦{fullShare} out4 m d fo))

abbrev x' : DevRef τ sig := Proc.devRef .tc (main_arg0 : Ref sig .tc)
abbrev h' : DevRef τ sig := Proc.devRef .tc (main_arg1 : Ref sig .tc)
abbrev s' : DevRef τ sig := Proc.devRef .tc (main_arg2 : Ref sig .tc)
abbrev r' : DevRef τ sig := Proc.devRef .tc (main_v4 : Ref sig .tc)

/-- The buffers each line writes. -/
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev c0' : DevRef τ sig := Proc.devRef .tc (main_c_0 : Ref sig .tc)

/-- The reshapes write only their results. -/
theorem VR_keep (d : Dev nD) (fo : Buf (Elt F) (oLoc d)) (b : DevRef τ sig)
    (h2 : b ∉ ({v2'} : Finset (DevRef τ sig))) (h1 : b ∉ ({v1'} : Finset (DevRef τ sig))) : VR m d fo b = Vm m d fo b := by
  unfold VR
  rw [(opS (F := F)).result_of_not_mem _ h2, (opH (F := F)).result_of_not_mem _ h1]

/-- The three lines after the region write only their results. -/
theorem Vfin_keep (d : Dev nD) (fo : Buf (Elt F) (oLoc d)) (b : DevRef τ sig)
    (hr : b ∉ ({r'} : Finset (DevRef τ sig))) (hc0 : b ∉ ({c0'} : Finset (DevRef τ sig))) (hc : b ∉ ({c'} : Finset (DevRef τ sig))) :
    Vfin m d fo b = Vout m d fo b := by
  unfold Vfin
  rw [(opD (F := F)).result_of_not_mem _ hr, (opC0 (F := F)).result_of_not_mem _ hc0, (opC (F := F)).result_of_not_mem _ hc]

/-- x is an input array of the region: the region leaves it as it found it, and no line writes it. -/
theorem Vfin_x (d : Dev nD) (fo : Buf (Elt F) (oLoc d)) : Vfin m d fo x' = m (xLoc d) := by
  rw [Vfin_keep m d fo x' (by decide) (by decide) (by decide)]
  unfold Vout
  refine (Pipeline.withArrays_arr spec1 launch1.win.arr_inj d _ _ 2).trans ?_
  unfold finalA
  rw [(dat m (foAt m d fo) 0 d).arrAt_in 2 rfl _, A_eq]
  show VR m d (foAt m d fo d) x' = _
  rw [foAt_self, VR_keep m d fo x' (by decide) (by decide)]
  exact Function.update_of_ne (by decide) _ _

/-- The bucket words and the signs are no array of the region and no line writes them. -/
theorem Vfin_h (d : Dev nD) (fo : Buf (Elt F) (oLoc d)) : Vfin m d fo h' = m (hLoc d) := by
  rw [Vfin_keep m d fo h' (by decide) (by decide) (by decide)]
  unfold Vout
  rw [Pipeline.withArrays_of_ne spec1 d _ _ main_arg1 (by decide), VR_keep m d fo h' (by decide) (by decide)]
  exact Function.update_of_ne (by decide) _ _
theorem Vfin_s (d : Dev nD) (fo : Buf (Elt F) (oLoc d)) : Vfin m d fo s' = m (sLoc d) := by
  rw [Vfin_keep m d fo s' (by decide) (by decide) (by decide)]
  unfold Vout
  rw [Pipeline.withArrays_of_ne spec1 d _ _ main_arg2 (by decide), VR_keep m d fo s' (by decide) (by decide)]
  exact Function.update_of_ne (by decide) _ _

/-- The unscoped buffers when the region is left, as one held set. -/
theorem held_out (d : Dev nD) (fo : Buf (Elt F) (oLoc d)) :
    iprop((dat m (foAt m d fo) 0 d).arrays ((dat m (foAt m d fo) 0 d).arrAt · cfg1.N) ∗ Pipeline.unscopedRest spec1 d (VRr m d fo))
      ⊢ (held (SparseCore.T d : Thread nD τ) (Pipeline.ucRefs τ sig) (Vout m d fo) : sProp 𝕄) := by
  rw [← Pipeline.unscopedBufs_held d (Vout m d fo),
    Pipeline.unscopedBufs_split (Pipeline.pin (pcfgs (F := F)) adm) 0 launch1.win.arr_unscoped launch1.win.arr_inj d,
    Pipeline.arrays_eq (Pipeline.pin (pcfgs (F := F)) adm) (dat m (foAt m d fo)) 0 d launch1.arr_whole ((dat m (foAt m d fo) 0 d).share_full fun _ => rfl)]
  refine sep_mono (Entails.of_eq (bigSep_congr fun w _ => ?_)) (Entails.of_eq ?_)
  · unfold Vout; rw [Pipeline.withArrays_arr spec1 launch1.win.arr_inj]; rfl
  · rw [unscopedRest1_eq, unscopedRest1_eq]
    unfold Vout
    rw [Pipeline.withArrays_of_ne spec1 d _ _ main_arg1 (by decide), Pipeline.withArrays_of_ne spec1 d _ _ main_arg2 (by decide),
      Pipeline.withArrays_of_ne spec1 d _ _ main_v0 (by decide), Pipeline.withArrays_of_ne spec1 d _ _ main_c (by decide),
      Pipeline.withArrays_of_ne spec1 d _ _ main_c_0 (by decide), Pipeline.withArrays_of_ne spec1 d _ _ main_v4 (by decide)]

/-- The four buffers the claim reads, out of the held set. -/
theorem held_fin (d : Dev nD) (W : Valuation τ sig (Elt F)) :
    (held (SparseCore.T d : Thread nD τ) (Pipeline.ucRefs τ sig) W : sProp 𝕄)
      ⊢ iprop((xLoc d ↦{fullShare} W x') ∗ (hLoc d ↦{fullShare} W h') ∗ (sLoc d ↦{fullShare} W s') ∗ ((SparseCore.T d : Thread nD τ).loc main_v4 ↦{fullShare} W r')) := by
  have hsub : ({x', h', s', r'} : Finset (DevRef τ sig)) ⊆ Pipeline.ucRefs τ sig := by decide
  rw [StableHlo.held_sub_split (SparseCore.T d) hsub W]
  unfold held
  rw [SparseCore.bigSep_insert' (by decide), SparseCore.bigSep_insert' (by decide), SparseCore.bigSep_insert' (by decide), bigSep_singleton]
  iintro ⟨⟨Hx, Hh, Hs, Hr⟩, -⟩
  isplitl [Hx]; · iexact Hx
  isplitl [Hh]; · iexact Hh
  isplitl [Hs]; · iexact Hs
  iexact Hr

set_option backward.isDefEq.respectTransparency.types false in
set_option maxHeartbeats 1000000 in
/-- @MAIN AFTER THE CALL on device `d`: from the handshakes' records, the TensorCore's state after the one call, the region
    boundary, every unscoped buffer of the TensorCore held whole (the call's result at `fo`, the others as launched) and the
    pipeline's launch ghost state, the remaining lines run to their end — the two reshapes, the region at all its points,
    the two constants, the update —, handing back the TensorCore's state and `FIN_tc`. -/
theorem main_tail (κ : GSem nD τ sig → ℕ) (d : Dev nD) (fo : Buf (Elt F) (oLoc d))
    (P : (K (F := F)).Pay (nD := nD) (Val := Elt F) (Name := ℕ) (U := UU)) :
    iprop((K (F := F)).ctx EH P κ ∗ (K (F := F)).tcSt EH d 1 ∗ boundary (SparseCore.T d : Thread nD τ)
        ∗ held (SparseCore.T d : Thread nD τ) (Pipeline.ucRefs τ sig) (Vm m d fo) ∗ G_tc (F := F) d)
      ⊢ wp frame (wpE ((K (F := F)).defs (D (F := F))) 𝒱 (SparseCore.T d) none) Set.univ (mainTail (F := F) d)
          fun _ => iprop((K (F := F)).tcSt EH d 1 ∗ FIN_tc m d fo) := by
  unfold SparseCore.Cfg.tcSt
  rw [(K (F := F)).Otc_end d (le_refl 1)]
  simp only [mainTail, wp_bind, wp_pure]
  iintro ⟨#Hctx, ⟨⟨%W, %hW, HO⟩, Hrest⟩, Hb, Hheld, HG⟩
  -- the two reshapes
  iapply (wp_hlo_within 𝒱 (SparseCore.T d) none Set.univ (op := opH) (S := Pipeline.ucRefs τ sig) hH (V := Vm m d fo)) $$ [Hb Hheld]
  · isplitl [Hb]; · iexact Hb
    iexact Hheld
  iintro ⟨Hb, Hheld⟩
  rw [wp_ret]; imodintro
  iapply (wp_hlo_within 𝒱 (SparseCore.T d) none Set.univ (op := opS) (S := Pipeline.ucRefs τ sig) hS (V := (opH (F := F)).result (Vm m d fo))) $$ [Hb Hheld]
  · isplitl [Hb]; · iexact Hb
    iexact Hheld
  iintro ⟨Hb, Hheld⟩
  rw [wp_ret]; imodintro
  -- the region
  ihave #Hla := (SparseCore.Cfg.ctx_levAts (K := K (F := F)) (EH := EH) (P := P) κ) $$ Hctx
  iapply (region_step m (foAt m d fo) d _)
  isplitr; · iexact Hla
  isplitl [Hb]; · iexact Hb
  rw [foAt_self]
  isplitl [Hheld HO]
  · isplitl [Hheld]; · iexact Hheld
    unfold Row; iexists W; isplitr; · ipureintro; exact hW
    iexact HO
  isplitl [HG]; · iexact HG
  iintro ⟨Hb, Hpost⟩
  unfold postR
  rw [foAt_self]
  icases Hpost with ⟨Ha, Hz, HO⟩
  ihave Hheld := (held_out m d fo) $$ [Ha Hz]
  · isplitl [Ha]; · iexact Ha
    iexact Hz
  -- the two constants and the update
  iapply (wp_hlo_within 𝒱 (SparseCore.T d) none Set.univ (op := opC) (S := Pipeline.ucRefs τ sig) hC (V := Vout m d fo)) $$ [Hb Hheld]
  · isplitl [Hb]; · iexact Hb
    iexact Hheld
  iintro ⟨Hb, Hheld⟩
  rw [wp_ret]; imodintro
  iapply (wp_hlo_within 𝒱 (SparseCore.T d) none Set.univ (op := opC0) (S := Pipeline.ucRefs τ sig) hC0 (V := (opC (F := F)).result (Vout m d fo))) $$ [Hb Hheld]
  · isplitl [Hb]; · iexact Hb
    iexact Hheld
  iintro ⟨Hb, Hheld⟩
  rw [wp_ret]; imodintro
  iapply (wp_hlo_within 𝒱 (SparseCore.T d) none Set.univ (op := opD) (S := Pipeline.ucRefs τ sig) hD (V := (opC0 (F := F)).result ((opC (F := F)).result (Vout m d fo)))) $$ [Hb Hheld]
  · isplitl [Hb]; · iexact Hb
    iexact Hheld
  iintro ⟨Hb, Hheld⟩
  rw [wp_ret]; imodintro; imodintro
  ihave Hf := (held_fin d ((opD (F := F)).result ((opC0 (F := F)).result ((opC (F := F)).result (Vout m d fo))))) $$ Hheld
  icases Hf with ⟨Hx, Hh, Hs, Hr⟩
  isplitl [HO Hrest]
  · isplitl [HO]
    · unfold Row; iexact HO
    iexact Hrest
  unfold FIN_tc out4
  rw [← Vfin_x m d fo, ← Vfin_h m d fo, ← Vfin_s m d fo]
  unfold Vfin
  isplitl [Hx]; · iexact Hx
  isplitl [Hh]; · iexact Hh
  isplitl [Hs]; · iexact Hs
  iexact Hr

end Tail

end Cert.Proof.KernelIdeal
end
-- ==== Proof.Assemble.lean ====
/-
  The rest of the TensorCore's program after the SparseCore call, as the one record the run of the device takes:
  its region's ghost state and what that funds, the program text after the call, what it leaves in the result as a
  function of what the call left, and its run.
-/
import proofs.«204905_g71433896067310_cont_9to1c4b_220_29_alg».proof.Proof.Launch
import proofs.«204905_g71433896067310_cont_9to1c4b_220_29_alg».proof.Proof.TcTail

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ)
  (Ψ : (d : Dev nD) → grid0.Coords → Fin 4 → Buf (Elt F) (oLoc d) → Prop)

/-- The record, for the launch memory `m` and the pieces' predicates `Ψ`. -/
def tcPart : TcPart m Ψ where
  u₀P := u₀P
  G_tc := G_tc
  fund_tc := fund_tc
  mainTail := mainTail
  main_eq := main_eq
  out4 := out4 m
  main_tail := fun κ d fo => main_tail m κ d fo (P m Ψ)

end Cert.Proof.KernelIdeal

end
-- ==== Proof.Bits.TcBody.lean ====
/-
  The matrix product on the TensorCore, point by point.

  The grid has thirteen points. At the first the body reads the bucket words and the signs (each
  staged whole as a column of 4096 entries) and stores, into a scratch matrix of 4096 rows and
  2048 columns that outlives the point, the matrix whose entry (j, m) is the sign of column j when
  the bucket word of column j is m and zero otherwise. At every later point it reads a block of
  256 rows of x, reads the scratch matrix, and stores their product into the result's block of 256
  rows. This module runs the body once in each of the two cases, names what each case leaves in the
  scratch and in the result's block, and states the pipeline's proof data and body obligation over
  those names.
-/
import proofs.«204905_g71433896067310_cont_9to1c4b_220_29_alg».proof.Proof.Bits.Common
import proofs.«204905_g71433896067310_cont_9to1c4b_220_29_alg».proof.Proof.Gen.Kernel.Launch
import proofs.«204905_g71433896067310_cont_9to1c4b_220_29_alg».proof.Proof.Gen.Kernel.Points
import Idealize.ShloMosaic.Lib.Pipeline.Regions
import Idealize.ShloMosaic.Lib.Pipeline.Frame
import Idealize.ShloMosaic.Lib.Pipeline.FrameBody
import Idealize.ShloMosaic.Lib.Ring
import Idealize.ShloMosaic.Lib.Tactic

set_option maxRecDepth 16384

noncomputable section

namespace Cert.Proof.Kernel

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The two cases -/

/-- The condition of the body's first conditional: the grid coordinate is zero. -/
abbrev cond1 (i : grid1.Coords) : Prop := (Scalar.cmpi .ne (Scalar.extui (Scalar.cmpi .eq (BitVec.ofNat 32 (i 0).val) 0#32)) 0#32) = 1#1
/-- The condition of the second: the grid coordinate is positive. -/
abbrev cond2 (i : grid1.Coords) : Prop := k1_cond2 i = 1#1

/-- The first holds at the first point only, -/
theorem hcond1 : ∀ t : Fin cfg1.N, cond1 (grid1.coords t) ↔ t.val = 0 :=
  (by decide +kernel : ∀ t : Fin grid1.N, cond1 (grid1.coords t) ↔ t.val = 0)
/-- the second at every other point. -/
theorem hcond2 : ∀ t : Fin cfg1.N, cond2 (grid1.coords t) ↔ t.val ≠ 0 :=
  (by decide +kernel : ∀ t : Fin grid1.N, cond2 (grid1.coords t) ↔ t.val ≠ 0)

/-- The input windows are never idle. -/
theorem live0 : ∀ i : grid1.Coords, cfg1.idle 0 i = false := fun _ => rfl
theorem live1 : ∀ i : grid1.Coords, cfg1.idle 1 i = false := fun _ => rfl
theorem live2 : ∀ i : grid1.Coords, cfg1.idle 2 i = false := fun _ => rfl
/-- The result's window is idle at the first point, where nothing is stored into it and nothing written back, -/
theorem idle3 : ∀ t : Fin cfg1.N, ¬cond2 (grid1.coords t) → cfg1.idle 3 (grid1.coords t) = true := by decide +kernel
theorem noFlush3 : ∀ t : Fin cfg1.N, ¬cond2 (grid1.coords t) → (cfg1.win 3).flush t = false := by decide +kernel
/-- and live at the others. -/
theorem live3 : ∀ t : Fin cfg1.N, cond2 (grid1.coords t) → cfg1.idle 3 (grid1.coords t) = false := by decide +kernel

/-- The scratch matrix, as a memref and as a view. -/
abbrev scM : Memref sig .tc .vmem S4096x2048 .bf16 := Memref.whole cc1_scratch0
abbrev VS : View sig .tc .vmem S4096x2048 .bf16 := scM.view
/-- One staging buffer of the result's window: the view through which a block's contents are stated. -/
abbrev VO : View sig .tc .vmem S256x2048 .f32 := (Memref.whole cc1_stg3_0 : Memref sig .tc .vmem S256x2048 .f32).view

set_option maxHeartbeats 1000000 in
/-- THE FIRST POINT, on any whole staging memrefs: from the bucket words `x0`, the signs `x1`, a block of x and the
    result's buffer at any contents and the scratch at any contents, the body runs to its end handing all of them back
    untouched but the scratch, which holds the pieces it stored (the list is this definition's first component). -/
noncomputable def runBuild (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) :
    { LS : List (View.Piece (Elt F) S4096x2048 .bf16) //
      ∀ (x2 : Vec F S256x4096 .f32) (xi3 : Vec F S256x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS)) -∗ K ⟨⟩))
          ⊢ wp frame (wpE (defs₀ (F := F)) Variants.none c none) E (cc1__tc_body i arg1 harg1 arg2 harg2 arg3 harg3 arg4 harg4 arg5 harg5) K } := by
  refine ⟨?_, fun x2 xi3 E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

set_option maxHeartbeats 1000000 in
/-- A LATER POINT, on any whole staging memrefs: from a block `x2` of x and the scratch at `xs` (the bucket words', the
    signs' and the result's buffers at any contents), the body runs to its end handing all of them back untouched but the
    result's buffer, which holds the pieces it stored (the list is this definition's first component). -/
noncomputable def runMul (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) :
    { L3 : List (View.Piece (Elt F) S256x2048 .f32) //
      ∀ (x0 : Vec F S4096x1 .i32) (x1 : Vec F S4096x1 .f32) (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs) -∗ K ⟨⟩))
          ⊢ wp frame (wpE (defs₀ (F := F)) Variants.none c none) E (cc1__tc_body i arg1 harg1 arg2 harg2 arg3 harg3 arg4 harg4 arg5 harg5) K } := by
  refine ⟨?_, fun x0 x1 E K => ?run⟩
  case run =>
    simp only [cc1__tc_body_eq_skeleton]; unfold cc1__tc_body_skel
    unfold owns
    iintro ⟨⟨%f0, %hf0, H0⟩, ⟨%f1, %hf1, H1⟩, ⟨%f2, %hf2, H2⟩, ⟨%d3, %f3, -, H3⟩, ⟨%fs, %hfs, HS0⟩, Hk⟩
    obtain rfl := harg1.eq_unread hf0; obtain rfl := harg2.eq_unread hf1; obtain rfl := harg3.eq_unread hf2; obtain rfl := harg5.eq_unread hfs
    sl_exec (disch := first | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; isplitr; · ipureintro; exact harg5.read_unread _
    iexact HS0

/-- The first point's pieces cover the scratch matrix; -/
theorem coverS (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) (y : S4096x2048.Idx) :
    ∃ pc ∈ (runBuild (F := F) c i arg1 harg1 arg2 harg2 arg3 harg3 arg4 harg4 arg5 harg5 hc1 hc2 x0 x1).1, y ∈ pc.1.set :=
  View.cover_of_tiledL (runBuild (F := F) c i arg1 harg1 arg2 harg2 arg3 harg3 arg4 harg4 arg5 harg5 hc1 hc2 x0 x1).1 S4096x2048.size (by sl_kernel_rfl) y

/-- what it leaves there: its pieces read back. -/
def sBuild (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) : Vec F S4096x2048 .bf16 :=
  VS.read (Elt F) (VS.writes (Elt F) VS.junk (runBuild (F := F) c i arg1 harg1 arg2 harg2 arg3 harg3 arg4 harg4 arg5 harg5 hc1 hc2 x0 x1).1)

/-- A later point's pieces cover the result's block; -/
theorem coverO (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) (y : S256x2048.Idx) :
    ∃ pc ∈ (runMul (F := F) c i arg1 harg1 arg2 harg2 arg3 harg3 arg4 harg4 arg5 harg5 hc1 hc2 x2 xs).1, y ∈ pc.1.set :=
  View.cover_of_tiledL (runMul (F := F) c i arg1 harg1 arg2 harg2 arg3 harg3 arg4 harg4 arg5 harg5 hc1 hc2 x2 xs).1 S256x2048.size (by sl_kernel_rfl) y

/-- what it leaves there: its pieces read back. -/
def oMul (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) : Vec F S256x2048 .f32 :=
  VO.read (Elt F) (VO.writes (Elt F) VO.junk (runMul (F := F) c i arg1 harg1 arg2 harg2 arg3 harg3 arg4 harg4 arg5 harg5 hc1 hc2 x2 xs).1)

/-! ## The arrays when the region is entered -/

variable (m : (ℓ : Loc nD τ sig) → Buf (Elt F) ℓ)

/-- The two reshapes @main runs before the region: the bucket words and the signs as columns. -/
abbrev opH : HloOp τ sig (Elt F) := StableHlo.reshape main_arg1 main_v1 rfl shapeCasts_S4096_S4096x1
abbrev opS : HloOp τ sig (Elt F) := StableHlo.reshape main_arg2 main_v2 rfl shapeCasts_S4096_S4096x1

/-- The buffer the SparseCore call wrote, as a device buffer. -/
abbrev o' : DevRef τ sig := Proc.devRef .tc (main_v0 : Ref sig .tc)

/-- The TensorCore's buffers after the SparseCore call: the launch memory, the call's result at `fo`; -/
def Vm (d : Dev nD) (fo : Buf (Elt F) (oLoc d)) : Valuation τ sig (Elt F) := Function.update (fun b => m (d, b)) o' fo
/-- and when the region is entered: the two reshapes have run. -/
def VR (d : Dev nD) (fo : Buf (Elt F) (oLoc d)) : Valuation τ sig (Elt F) := (opS (F := F)).result ((opH (F := F)).result (Vm m d fo))
/-- The same read at a TensorCore reference. -/
abbrev VRr (d : Dev nD) (fo : Buf (Elt F) (oLoc d)) (b : Ref sig .tc) : Buf (Elt F) ((d : Thread nD τ).loc b) := VR m d fo (Proc.devRef .tc b)

variable (fo : (d : Dev nD) → Buf (Elt F) (oLoc d))

/-- Window `w`'s block at point `t`, read off its array as the region finds it. -/
def iblk (d : Dev nD) (w : Fin cfg1.W) (t : Fin cfg1.N) : ((cfg1.win w).xblock (cfg1.grid.coords t)).Idx → Elt F (cfg1.win w).elt :=
  ((cfg1.win w).blk t).view.read (Elt F) (VRr m d (fo d) (Pipeline.arrRef spec1 w))

/-- Each window's current staging memref at point `t`, as the pipeline passes it to the body, and its wholeness. -/
abbrev ms0 (t : Fin cfg1.N) : Memref sig .tc .vmem S4096x1 .i32 := win1_0.stage (cfg1.slots t 0)
abbrev hs0 (t : Fin cfg1.N) : (ms0 t).IsWhole := hstage1_0 ((cfg1.slots t 0).cast nbuf1_0)
abbrev ms1 (t : Fin cfg1.N) : Memref sig .tc .vmem S4096x1 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x4096 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x2048 .f32 := win1_3.stage (cfg1.slots t 3)
abbrev hs3 (t : Fin cfg1.N) : (ms3 t).IsWhole := hstage1_3 ((cfg1.slots t 3).cast nbuf1_3)

/-- THE SCRATCH MATRIX after the first point, and from then on: what the first case stores, from the bucket words and the
    signs as the region finds them. -/
def scAll (d : Dev nD) : Vec F S4096x2048 .bf16 :=
  sBuild d (grid1.coords t1_0) (ms0 t1_0) (hs0 t1_0) (ms1 t1_0) (hs1 t1_0) (ms2 t1_0) (hs2 t1_0) (ms3 t1_0) (hs3 t1_0) scM (Memref.isWhole_whole _)
    ((hcond1 t1_0).mpr rfl) (fun h => (hcond2 t1_0).mp h rfl) (iblk m fo d 0 t1_0) (iblk m fo d 1 t1_0)

/-- THE RESULT'S BLOCK after a later point `t`: what the second case stores, from x's block at `t` and the scratch matrix. At the
    first point the window is idle and the value is not consulted. -/
def out3 [∀ e, Nonempty (Elt F e)] (d : Dev nD) (t : Fin cfg1.N) : Vec F S256x2048 .f32 :=
  if h : t.val ≠ 0 then
    oMul d (grid1.coords t) (ms0 t) (hs0 t) (ms1 t) (hs1 t) (ms2 t) (hs2 t) (ms3 t) (hs3 t) scM (Memref.isWhole_whole _)
      (fun h' => h ((hcond1 t).mp h')) ((hcond2 t).mpr h) (iblk m fo d 2 t) (scAll m fo d)
  else fun _ => Classical.arbitrary _

theorem out3_pos [∀ e, Nonempty (Elt F e)] (d : Dev nD) (t : Fin cfg1.N) (h : t.val ≠ 0) :
    out3 m fo d t = oMul d (grid1.coords t) (ms0 t) (hs0 t) (ms1 t) (hs1 t) (ms2 t) (hs2 t) (ms3 t) (hs3 t) scM (Memref.isWhole_whole _)
      (fun h' => h ((hcond1 t).mp h')) ((hcond2 t).mpr h) (iblk m fo d 2 t) (scAll m fo d) := dif_pos h

/-- The region's invariant before position `n`: before the first point the scratch at anything (what the launch hands the
    region); afterwards the scratch at the matrix the first point stored. -/
def PhiS (d : Dev nD) : ℕ → sProp 𝕄
  | 0 => Pipeline.scopedRest spec1 d
  | _ + 1 => owns (d : Thread nD τ) scM fullShare (scAll m fo d)

theorem PhiS_pos (d : Dev nD) (n : ℕ) (hn : n ≠ 0) : PhiS m fo d n = owns (d : Thread nD τ) scM fullShare (scAll m fo d) := by
  cases n with
  | zero => exact absurd rfl hn
  | succ n => rfl

/-- The scoped rest is the scratch at anything. -/
theorem scopedRest_owns (d : Dev nD) :
    (Pipeline.scopedRest spec1 d : sProp 𝕄) = iprop(∃ x, owns (d : Thread nD τ) scM fullShare x) := by
  rw [scopedRest1_eq]; simp only [scM, owns_whole]; try rfl

/-! ## The pipeline's proof data -/

/-- The pairs a wait of the TensorCore may have recorded: those at or below the level the handshakes leave it at after the
    one SparseCore call. The pipeline's own waits, at index `none`, are among them. -/
def recB (d : Dev nD) : Set (SemLoc sig × HIx 1) := {p | (K (F := F)).lev ((SparseCore.T d : Thread nD τ), p.1) p.2 ≤ 8 * 1}

/-- The proof data of the one pipeline on core `d`: the arrays as the region finds them; after the body at point `t` each
    input's buffer at its block and the result's at `out3`; the invariant `PhiS`; nothing owed; full shares. -/
def dat [∀ e, Nonempty (Elt F e)] (_ : Fin 1) (d : Dev nD) : Dat τ (Elt F) (HIx 1) ℕ UU ℕ cfg1 d where
  A w := VRr m d (fo d) (Pipeline.arrRef spec1 w)
  after w t := match w with
    | ⟨0, _⟩ => iblk m fo d 0 t
    | ⟨1, _⟩ => iblk m fo d 1 t
    | ⟨2, _⟩ => iblk m fo d 2 t
    | ⟨3, _⟩ => out3 m fo d t
  Φ t := PhiS m fo d t.val
  q _ := fullShare
  owed _ := 0
  recorded _ := recB (F := F) d

section Data
variable [∀ e, Nonempty (Elt F e)]

theorem A_eq (d : Dev nD) (w : Fin cfg1.W) : (dat m fo 0 d).A w = VRr m d (fo d) (Pipeline.arrRef spec1 w) := by dsimp only [dat]
theorem after_0 (d : Dev nD) (t : Fin cfg1.N) : (dat m fo 0 d).after 0 t = iblk m fo d 0 t := by dsimp only [dat]
theorem after_1 (d : Dev nD) (t : Fin cfg1.N) : (dat m fo 0 d).after 1 t = iblk m fo d 1 t := by dsimp only [dat]
theorem after_2 (d : Dev nD) (t : Fin cfg1.N) : (dat m fo 0 d).after 2 t = iblk m fo d 2 t := by dsimp only [dat]
theorem after_3 (d : Dev nD) (t : Fin cfg1.N) : (dat m fo 0 d).after 3 t = out3 m fo d t := by dsimp only [dat]

/-- Each input's current staging buffer holds its block at every point, fetched there or not. -/
theorem before_0 (d : Dev nD) (t : Fin cfg1.N) (dd) : (dat m fo 0 d).before 0 t dd = iblk m fo d 0 t :=
  ((dat m fo 0 d).before_in_eq_fetched 0 rfl (fun _ => rfl) (fun _ _ _ => rfl) (fun t => by rw [after_0]; unfold Dat.blockOf iblk; rw [A_eq]; try rfl) t dd).trans
    (by unfold Dat.fetched Dat.blockOf iblk; rw [A_eq]; try rfl)
theorem before_1 (d : Dev nD) (t : Fin cfg1.N) (dd) : (dat m fo 0 d).before 1 t dd = iblk m fo d 1 t :=
  ((dat m fo 0 d).before_in_eq_fetched 1 rfl (fun _ => rfl) (fun _ _ _ => rfl) (fun t => by rw [after_1]; unfold Dat.blockOf iblk; rw [A_eq]; try rfl) t dd).trans
    (by unfold Dat.fetched Dat.blockOf iblk; rw [A_eq]; try rfl)
theorem before_2 (d : Dev nD) (t : Fin cfg1.N) (dd) : (dat m fo 0 d).before 2 t dd = iblk m fo d 2 t :=
  ((dat m fo 0 d).before_in_eq_fetched 2 rfl (fun _ => rfl) (fun _ _ _ => rfl) (fun t => by rw [after_2]; unfold Dat.blockOf iblk; rw [A_eq]; try rfl) t dd).trans
    (by unfold Dat.fetched Dat.blockOf iblk; rw [A_eq]; try rfl)

end Data

end Cert.Proof.Kernel
end
-- ==== Proof.Bits.TcObl.lean ====
/-
  The body obligation of the matrix product's pipeline: at every grid point, from the region's invariant and each
  window's current staging buffer at what it then holds, the body runs to the invariant at the next point and each
  buffer at what the proof data says it leaves. Two cases: the first point, which stores the one-hot matrix into the
  scratch and leaves the result's buffer as it came; every later point, which stores the product of x's block with
  the scratch into the result's buffer and leaves the scratch as it came.
-/
import proofs.«204905_g71433896067310_cont_9to1c4b_220_29_alg».proof.Proof.Bits.TcBody

set_option maxRecDepth 16384

noncomputable section

namespace Cert.Proof.Kernel

open Cert.Kernel Cert.Kernel.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (fo : (d : Dev nD) → Buf (Elt F) (oLoc d))

section Body
variable [∀ e, Nonempty (Elt F e)]

/-- What the body is called with at point `t`, the windows one by one, -/
def bodyPre (d : Dev nD) (t : Fin cfg1.N) : sProp 𝕄 :=
  iprop((dat m fo 0 d).Φ t.castSucc ∗ (dat m fo 0 d).owesAt none t.castSucc
    ∗ (∃ dd, owns (d : Thread nD τ) (ms0 t) fullShare ((dat m fo 0 d).before 0 t dd))
    ∗ (∃ dd, owns (d : Thread nD τ) (ms1 t) fullShare ((dat m fo 0 d).before 1 t dd))
    ∗ (∃ dd, owns (d : Thread nD τ) (ms2 t) fullShare ((dat m fo 0 d).before 2 t dd))
    ∗ (∃ dd, owns (d : Thread nD τ) (ms3 t) fullShare ((dat m fo 0 d).before 3 t dd)))

/-- and what it returns. -/
def bodyPost (d : Dev nD) (t : Fin cfg1.N) : sProp 𝕄 :=
  iprop((dat m fo 0 d).Φ t.succ ∗ (dat m fo 0 d).owesAt none t.succ
    ∗ (dat m fo 0 d).leavesExact 0 t
    ∗ (dat m fo 0 d).leavesExact 1 t
    ∗ (dat m fo 0 d).leavesExact 2 t
    ∗ (dat m fo 0 d).leavesExact 3 t)

set_option maxHeartbeats 1000000 in
/-- The first point: the scratch is at anything, the first case runs and leaves the matrix in it; the result's buffer goes
    back as it came. -/
theorem build_case (d : Dev nD) (t : Fin cfg1.N) (hz : t.val = 0) :
    bodyPre m fo d t ⊢ wp frame (wpE (defs₀ (F := F)) Variants.none d none) Set.univ (bodyAt1 t) (fun _ => bodyPost m fo d t) := by
  unfold bodyPre bodyPost bodyAt1
  simp only [before_0, before_1, before_2]
  rw [show (dat m fo 0 d).owesAt none t.succ = (dat m fo 0 d).owesAt none t.castSucc from rfl]
  rw [show (dat m fo 0 d).Φ t.succ = owns (d : Thread nD τ) scM fullShare (scAll m fo d) from rfl]
  rw [show (dat m fo 0 d).Φ t.castSucc = PhiS m fo d t.val from rfl]
  rw [show (dat m fo 0 d).leavesExact 0 t = owns (d : Thread nD τ) (ms0 t) fullShare ((dat m fo 0 d).after 0 t) from by
    unfold Dat.leavesExact; rw [live0 (grid1.coords t)], after_0]
  rw [show (dat m fo 0 d).leavesExact 1 t = owns (d : Thread nD τ) (ms1 t) fullShare ((dat m fo 0 d).after 1 t) from by
    unfold Dat.leavesExact; rw [live1 (grid1.coords t)], after_1]
  rw [show (dat m fo 0 d).leavesExact 2 t = owns (d : Thread nD τ) (ms2 t) fullShare ((dat m fo 0 d).after 2 t) from by
    unfold Dat.leavesExact; rw [live2 (grid1.coords t)], after_2]
  have h1 : cond1 (grid1.coords t) := (hcond1 t).mpr hz
  have h2 : ¬cond2 (grid1.coords t) := fun h => (hcond2 t).mp h hz
  rw [Dat.leavesExact_idle (dat m fo 0 d) 3 t (idle3 t h2) (noFlush3 t h2)]
  rw [hz, show PhiS m fo d 0 = Pipeline.scopedRest spec1 d from rfl, scopedRest_owns]
  have hsc : scAll m fo d = sBuild (F := F) d (grid1.coords t) (ms0 t) (hs0 t) (ms1 t) (hs1 t) (ms2 t) (hs2 t) (ms3 t) (hs3 t) scM (Memref.isWhole_whole _) h1 h2 (iblk m fo d 0 t) (iblk m fo d 1 t) := by
    obtain rfl : t = t1_0 := Fin.ext hz
    rfl
  rw [hsc]
  iintro ⟨HS, Ho, ⟨%d0, H0⟩, ⟨%d1, H1⟩, ⟨%d2, H2⟩, ⟨%d3, H3⟩⟩
  iapply ((runBuild (F := F) d (grid1.coords t) (ms0 t) (hs0 t) (ms1 t) (hs1 t) (ms2 t) (hs2 t) (ms3 t) (hs3 t) scM (Memref.isWhole_whole _) h1 h2 (iblk m fo d 0 t) (iblk m fo d 1 t)).2 (iblk m fo d 2 t) ((dat m fo 0 d).before 3 t d3) Set.univ _)
  isplitl [H0]; · iexact H0
  isplitl [H1]; · iexact H1
  isplitl [H2]; · iexact H2
  isplitl [H3]; · iexact H3
  isplitl [HS]; · iexact HS
  iintro ⟨H0, H1, H2, H3, ⟨%es, HS⟩⟩
  isplitl [HS]
  · unfold owns; iexists _; isplitr
    swap; · iexact HS
    ipureintro; exact View.read_writes_of_cover _ _ _ _ _ (coverS (F := F) d (grid1.coords t) (ms0 t) (hs0 t) (ms1 t) (hs1 t) (ms2 t) (hs2 t) (ms3 t) (hs3 t) scM (Memref.isWhole_whole _) h1 h2 (iblk m fo d 0 t) (iblk m fo d 1 t))
  isplitl [Ho]; · iexact Ho
  isplitl [H0]; · iexact H0
  isplitl [H1]; · iexact H1
  isplitl [H2]; · iexact H2
  iexists _; iexact H3

set_option maxHeartbeats 1000000 in
/-- A later point: the scratch holds the matrix, the second case runs and leaves the product in the result's buffer; the
    scratch goes back as it came. -/
theorem mul_case (d : Dev nD) (t : Fin cfg1.N) (hz : t.val ≠ 0) :
    bodyPre m fo d t ⊢ wp frame (wpE (defs₀ (F := F)) Variants.none d none) Set.univ (bodyAt1 t) (fun _ => bodyPost m fo d t) := by
  unfold bodyPre bodyPost bodyAt1
  simp only [before_0, before_1, before_2]
  rw [show (dat m fo 0 d).owesAt none t.succ = (dat m fo 0 d).owesAt none t.castSucc from rfl]
  rw [show (dat m fo 0 d).Φ t.succ = owns (d : Thread nD τ) scM fullShare (scAll m fo d) from rfl]
  rw [show (dat m fo 0 d).Φ t.castSucc = PhiS m fo d t.val from rfl]
  rw [show (dat m fo 0 d).leavesExact 0 t = owns (d : Thread nD τ) (ms0 t) fullShare ((dat m fo 0 d).after 0 t) from by
    unfold Dat.leavesExact; rw [live0 (grid1.coords t)], after_0]
  rw [show (dat m fo 0 d).leavesExact 1 t = owns (d : Thread nD τ) (ms1 t) fullShare ((dat m fo 0 d).after 1 t) from by
    unfold Dat.leavesExact; rw [live1 (grid1.coords t)], after_1]
  rw [show (dat m fo 0 d).leavesExact 2 t = owns (d : Thread nD τ) (ms2 t) fullShare ((dat m fo 0 d).after 2 t) from by
    unfold Dat.leavesExact; rw [live2 (grid1.coords t)], after_2]
  have h1 : ¬cond1 (grid1.coords t) := fun h => hz ((hcond1 t).mp h)
  have h2 : cond2 (grid1.coords t) := (hcond2 t).mpr hz
  rw [show (dat m fo 0 d).leavesExact 3 t = owns (d : Thread nD τ) (ms3 t) fullShare ((dat m fo 0 d).after 3 t) from by
    unfold Dat.leavesExact; rw [live3 t h2], after_3, out3_pos m fo d t hz]
  rw [PhiS_pos m fo d _ hz]
  iintro ⟨HS, Ho, ⟨%d0, H0⟩, ⟨%d1, H1⟩, ⟨%d2, H2⟩, ⟨%d3, H3⟩⟩
  iapply ((runMul (F := F) d (grid1.coords t) (ms0 t) (hs0 t) (ms1 t) (hs1 t) (ms2 t) (hs2 t) (ms3 t) (hs3 t) scM (Memref.isWhole_whole _) h1 h2 (iblk m fo d 2 t) (scAll m fo d)).2 (iblk m fo d 0 t) (iblk m fo d 1 t) Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS]; · iexact HS
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (coverO (F := F) d (grid1.coords t) (ms0 t) (hs0 t) (ms1 t) (hs1 t) (ms2 t) (hs2 t) (ms3 t) (hs3 t) scM (Memref.isWhole_whole _) h1 h2 (iblk m fo d 2 t) (scAll m fo d))

/-- The body at any point. -/
theorem sound_body (d : Dev nD) (t : Fin cfg1.N) :
    bodyPre m fo d t ⊢ wp frame (wpE (defs₀ (F := F)) Variants.none d none) Set.univ (bodyAt1 t) (fun _ => bodyPost m fo d t) := by
  by_cases hz : t.val = 0
  · exact build_case m fo d t hz
  · exact mul_case m fo d t hz

/-- The library's body obligation, at every point. -/
theorem body_obligation (d : Dev nD) : BodyObligation (dat (F := F) m fo 0 d) (defs₀ (F := F)) Variants.none none Set.univ := fun t => by
  rw [bigSep_W1, bigSep_W1]
  exact sound_body m fo d t

end Body

end Cert.Proof.Kernel
end
-- ==== Proof.Bits.TcRegion.lean ====
/-
  The region of the matrix product inside the TensorCore's program: the pipeline's launch ghost state, the region's
  record (the kernel's protocol as entry and exit entailments around the thread states) and the region's step under
  the SparseCore program's body table.

  The region is entered after the one SparseCore call, when the TensorCore owes nothing more: the pipeline's waits
  on its staging semaphores sit at the index no handshake uses, so they are admissible and leave the recorded pairs
  below the level the handshakes ended at.
-/
import proofs.«204905_g71433896067310_cont_9to1c4b_220_29_alg».proof.Proof.Bits.TcBody
import proofs.«204905_g71433896067310_cont_9to1c4b_220_29_alg».proof.Proof.Bits.TcObl
import Idealize.ShloMosaic.Lib.SparseCore.Launch

set_option maxRecDepth 16384

noncomputable section

namespace Cert.Proof.Kernel

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (fo : (d : Dev nD) → Buf (Elt F) (oLoc d))

/-! ## The pipeline's launch ghost state -/

omit m fo in
/-- No prefetched table: the one admissible choice. -/
abbrev adm : (p : Fin 1) → (pcfgs (F := F) p).Adm := fun p => (cfgs p).toPCfg_adm

omit [FloatOps F] in
/-- The pipeline library's launch element: the rounds of the staging cells and the duty tokens of the loop's transfers. -/
def u₀P : UP := initOf (Pipeline.cells cfgs cellOf_inj) (Pipeline.launchToks cfgs cellOf_inj)

/-- What the region needs of the launch on core `d`: the staging cells' launch state and the transfers' duty tokens. -/
def G_tc (d : Dev nD) : sProp 𝕄 :=
  iprop(Pipeline.cellsGhost (Pipeline.pin (pcfgs (F := F)) adm) EP 0 d ∗ Pipeline.toksInit (Pipeline.pin (pcfgs (F := F)) adm) EP 0 d)

/-- The launch element funds it on every core. -/
theorem fund_tc : (BI.own ((EP (F := F)) u₀P) : sProp 𝕄) ⊢ iprop(|==> bigSep Finset.univ (G_tc (F := F))) := by
  refine (Pipeline.fund_ghost cfgs (EP (F := F)) cellOf_inj).trans (BI.bupd_mono ?_)
  unfold G_tc
  rw [bigSep_sep']
  refine sep_mono (bigSep_mono fun c _ => ?_) (bigSep_mono fun c _ => ?_)
  · rw [show (Finset.univ : Finset (Fin 1)) = {0} from rfl, bigSep_singleton]; exact BI.Entails.refl _
  · rw [show (Finset.univ : Finset (Fin 1)) = {0} from rfl, bigSep_singleton]; exact BI.Entails.refl _

/-! ## The region's record -/

section Region
variable [∀ e, Nonempty (Elt F e)]

/-- What the TensorCore owes when the region is entered and when it is left: nothing, every recorded pair at or below
    the level the one SparseCore call ended at. -/
def Row (d : Dev nD) : sProp 𝕄 :=
  iprop(∃ W, ⌜(K (F := F)).WBelow (SparseCore.T d) W (8 * 1)⌝ ∗ owes (SparseCore.T d : Thread nD τ) (0 : CellTallies nD τ sig (HIx 1)) W)

/-- The region's array after the last point, as the pipeline library computes it. -/
def finalA (d : Dev nD) (w : Fin cfg1.W) : Buf (Elt F) ((cfg1.win w).arr.view.loc (d : Thread nD τ)) := (dat m fo 0 d).arrAt w cfg1.N

/-- What the region leaves: its arrays at their final contents, the other unscoped buffers as they were, nothing owed. -/
def postR (d : Dev nD) : sProp 𝕄 :=
  iprop((dat m fo 0 d).arrays ((dat m fo 0 d).arrAt · cfg1.N) ∗ Pipeline.unscopedRest spec1 d (VRr m d (fo d)) ∗ Row (F := F) d)

theorem recB_of_WBelow (d : Dev nD) (W : Waits sig (HIx 1)) (hW : (K (F := F)).WBelow (SparseCore.T d) W (8 * 1)) :
    (↑W : Set (SemLoc sig × HIx 1)) ⊆ (dat m fo 0 d).bound none 0 := fun p hp => Or.inl (hW p hp)

theorem WBelow_of_bound (d : Dev nD) (W : Waits sig (HIx 1)) (hW : (↑W : Set (SemLoc sig × HIx 1)) ⊆ (dat m fo 0 d).bound none (Fin.last cfg1.N)) :
    (K (F := F)).WBelow (SparseCore.T d) W (8 * 1) := fun p hp => by
  rcases hW hp with h | ⟨w, s, rfl⟩
  · exact h
  · exact Nat.zero_le _

set_option backward.isDefEq.respectTransparency.types false in
/-- THE REGION: the launch's layout, no semaphore of the kernel's own, the body obligation; entered from the unscoped
    buffers held at the contents the two reshapes left and the TensorCore owing nothing — the four windows' arrays into
    the pipeline, the other six buffers bypassing —, left with the arrays at their final contents. -/
def reg : Pipeline.RegionSeg (pcfgs (F := F)) adm (dat m fo) none defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m fo c).loose
  hwaits := Pipeline.hwaits_of_owed_zero _ _ _ _ (K (F := F)).L (K (F := F)).lev 0 fun _ _ => rfl
  pre c := iprop(held (c : Thread nD τ) (Pipeline.ucRefs τ sig) (VR m c (fo c)) ∗ Row (F := F) c)
  post c := postR m fo c
  X _ := iprop(emp)
  Y _ := iprop(emp)
  Z c := Pipeline.unscopedRest spec1 c (VRr m c (fo c))
  hentry c := by
    rw [← Pipeline.unscopedBufs_held c (VR m c (fo c))]
    have hsplit := Pipeline.arrays_of_unscopedBufs (pcfgs (F := F)) adm (dat m fo) launch1.win launch1.arr_whole c
      ((dat m fo 0 c).share_full fun _ => rfl) (VRr m c (fo c)) fun _ => rfl
    iintro ⟨⟨Hub, HO⟩, -, -⟩
    ihave H := hsplit $$ Hub
    icases H with ⟨Ha, Hz⟩
    imodintro
    isplitl [Ha]; · iexact Ha
    isplitr; · unfold Pipeline.prefHeld; rw [show (Finset.univ : Finset (Fin 0)) = ∅ from rfl, BI.bigSep_empty]; iempintro
    isplitl [HO]
    · unfold Row Pipeline.Dat.owesAt Pipeline.owesWithin
      icases HO with ⟨%W, %hW, HO⟩; iexists W; isplitr; · ipureintro; exact recB_of_WBelow m fo c W hW
      iexact HO
    isplitr; · iempintro
    iexact Hz
  hin c := by
    rw [show (dat m fo 0 c).Φ 0 = Pipeline.scopedRest spec1 c from rfl]
    iintro ⟨-, -, Hr⟩; iexact Hr
  hout c := by
    rw [Pipeline.ownSems0_none, show (dat m fo 0 c).Φ (Fin.last cfg1.N) = PhiS m fo c (Fin.last cfg1.N).val from rfl,
      PhiS_pos m fo c _ (by rw [Fin.val_last]; have : cfg1.N = 13 := N_1; omega), scopedRest_owns]
    iintro H
    isplitr; · iempintro
    isplitr; · iempintro
    iexists _; iexact H
  hexit c := by
    iintro ⟨Ha, HO, -, HZ⟩
    imodintro
    unfold postR
    isplitl [Ha]; · iexact Ha
    isplitl [HZ]; · iexact HZ
    unfold Row Pipeline.Dat.owesAt Pipeline.owesWithin
    icases HO with ⟨%W, %hW, HO⟩; iexists W; isplitr; · ipureintro; exact WBelow_of_bound m fo c W hW
    iexact HO

/-! ## The region's step under the SparseCore program's body table -/

set_option backward.isDefEq.respectTransparency.types false in
/-- From the level facts, the boundary, the region's entry state and the pipeline's launch ghost state, the region's custom
    call — as @main spells it under the SparseCore program's labels — runs to the boundary and the region's exit state. -/
theorem region_step (d : Dev nD) (Φ : PUnit → sProp 𝕄) :
    iprop(levAts (K (F := F)).L (K (F := F)).lev ∗ boundary (SparseCore.T d : Thread nD τ) ∗ (held (SparseCore.T d : Thread nD τ) (Pipeline.ucRefs τ sig) (VR m d (fo d)) ∗ Row (F := F) d) ∗ G_tc (F := F) d
        ∗ (iprop(boundary (SparseCore.T d : Thread nD τ) ∗ postR m fo d) -∗ Φ ⟨⟩))
      ⊢ wp frame (wpE ((K (F := F)).defs (D (F := F))) 𝒱 (SparseCore.T d) none) Set.univ
          (Prog.lift (.customCall (SparseCore.inner (Pipeline.entry (0 : Fin 1))) ())) Φ := by
  have e : (Prog.lift (.customCall (SparseCore.inner (Pipeline.entry (0 : Fin 1))) ()) : Prog (TpuEff nD τ sig (Elt F) (SparseCore.Sig (ΛP (F := F)) 1) .tc) PUnit)
      = SparseCore.liftProg (.op (.customCall (Pipeline.entry (0 : Fin 1)) ()) .ret) := rfl
  rw [e]
  unfold G_tc
  refine .trans ?_ ((K (F := F)).wp_liftProg (D (F := F)) 𝒱 (SparseCore.T d) Set.univ none _ Φ)
  iintro ⟨#Hla, Hb, Hpre, ⟨Hg, Ht⟩, Hk⟩
  iapply (Pipeline.RegionSeg.wp (pcfgs (F := F)) adm (dat m fo) none cellOf_inj EP defs₀ 𝒱₀ (K (F := F)).L (K (F := F)).lev (reg m fo) d none
    (fun _ h => nomatch h) .ret Φ)
  isplitl [Hk]
  · iintro H
    rw [wp_ret]; imodintro
    iapply Hk; iexact H
  isplitl [Hb]; · iexact Hb
  isplitl [Hpre]
  · iapply (Entails.of_eq (show iprop(held (SparseCore.T d : Thread nD τ) (Pipeline.ucRefs τ sig) (VR m d (fo d)) ∗ Row (F := F) d) = (reg m fo).pre d from rfl))
    iexact Hpre
  isplitr; · iexact Hla
  isplitl [Hg]; · iexact Hg
  iexact Ht

end Region

end Cert.Proof.Kernel
end
-- ==== Proof.Bits.TcTail.lean ====
/-
  @main on the TensorCore after the SparseCore call: the bucket words and the signs reshaped into columns, the region of
  the matrix product (all thirteen points), two scalar constants, and the result of the SparseCore call written over rows
  3072 and up of the region's result. Every line terminates without fault; the three arguments end as they began, and the
  last result is named `out4`.
-/
import proofs.«204905_g71433896067310_cont_9to1c4b_220_29_alg».proof.Proof.Bits.TcBody
import proofs.«204905_g71433896067310_cont_9to1c4b_220_29_alg».proof.Proof.Bits.TcRegion
import Idealize.ShloMosaic.Lib.Pipeline.FrameSuffix

set_option maxRecDepth 16384

noncomputable section

namespace Cert.Proof.Kernel

open Cert.Kernel Cert.Kernel.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The program after the call -/

/-- The lines of @main after the SparseCore call. -/
def mainTail (d : Dev nD) : Prog (TpuEff nD τ sig (Elt F) (SparseCore.Sig (Pipeline.Sig Λ₀ (Fin 1) fun p => (pcfgs (F := F) p).Adm) 1) .tc) PUnit := do
  hlo rfl (StableHlo.reshape main_arg1 main_v1 rfl shapeCasts_S4096_S4096x1) (fun _ => .ret ⟨⟩)
  hlo rfl (StableHlo.reshape main_arg2 main_v2 rfl shapeCasts_S4096_S4096x1) (fun _ => .ret ⟨⟩)
  Prog.lift (.customCall (SparseCore.inner (Pipeline.entry 0)) ())
  hlo rfl (StableHlo.nullary main_c (constantI S_ 32 3072#32)) (fun _ => .ret ⟨⟩)
  hlo rfl (StableHlo.nullary main_c_0 (constantI S_ 32 0#32)) (fun _ => .ret ⟨⟩)
  hlo rfl (StableHlo.binaryIndexed main_v3 main_v0 ![main_c, main_c_0] ⟨S_, .i32⟩ main_v4 ((fun x u i => Host.dynamicUpdateSlice x u (fun k => (i k (Shape.Idx.first h_S_)).toInt) updateFits_S4096x2048_S1024x2048) : (⟨S4096x2048, .f32⟩ : BufTy).Contents (Elt F) → (⟨S1024x2048, .f32⟩ : BufTy).Contents (Elt F) → (Fin 2 → (⟨S_, .i32⟩ : BufTy).Contents (Elt F)) → (⟨S4096x2048, .f32⟩ : BufTy).Contents (Elt F))) (fun _ => .ret ⟨⟩)
  pure ⟨⟩

omit m in
/-- @main is the call followed by them. -/
theorem main_eq (d : Dev nD) : main (F := F) d = (sc.run d 0 >>= fun _ => mainTail d) := rfl

/-- The three host operations after the region. -/
abbrev opC : HloOp τ sig (Elt F) := StableHlo.nullary main_c (constantI S_ 32 3072#32)
abbrev opC0 : HloOp τ sig (Elt F) := StableHlo.nullary main_c_0 (constantI S_ 32 0#32)
abbrev opD : HloOp τ sig (Elt F) := StableHlo.binaryIndexed main_v3 main_v0 ![main_c, main_c_0] ⟨S_, .i32⟩ main_v4 ((fun x u i => Host.dynamicUpdateSlice x u (fun k => (i k (Shape.Idx.first h_S_)).toInt) updateFits_S4096x2048_S1024x2048) : (⟨S4096x2048, .f32⟩ : BufTy).Contents (Elt F) → (⟨S1024x2048, .f32⟩ : BufTy).Contents (Elt F) → (Fin 2 → (⟨S_, .i32⟩ : BufTy).Contents (Elt F)) → (⟨S4096x2048, .f32⟩ : BufTy).Contents (Elt F))

omit m in
theorem hH : (opH (F := F)).bufs ⊆ Pipeline.ucRefs τ sig := Pipeline.sub_ucRefs _ (StableHlo.reshape_bufs_sub ..)
omit m in
theorem hS : (opS (F := F)).bufs ⊆ Pipeline.ucRefs τ sig := Pipeline.sub_ucRefs _ (StableHlo.reshape_bufs_sub ..)
omit m in
theorem hC : (opC (F := F)).bufs ⊆ Pipeline.ucRefs τ sig := Pipeline.sub_ucRefs _ (StableHlo.nullary_bufs_sub ..)
omit m in
theorem hC0 : (opC0 (F := F)).bufs ⊆ Pipeline.ucRefs τ sig := Pipeline.sub_ucRefs _ (StableHlo.nullary_bufs_sub ..)
omit m in
theorem hD : (opD (F := F)).bufs ⊆ Pipeline.ucRefs τ sig := Pipeline.sub_ucRefs _ (StableHlo.binaryIndexed_bufs_sub ..)

section Tail
variable [∀ e, Nonempty (Elt F e)]

/-- The call's result on every device: `fo` on `d`, the launch contents elsewhere (no other device's is consulted). -/
def foAt (d : Dev nD) (fo : Buf (Elt F) (oLoc d)) : (d' : Dev nD) → Buf (Elt F) (oLoc d') := Function.update (fun d' => m (oLoc d')) d fo

theorem foAt_self (d : Dev nD) (fo : Buf (Elt F) (oLoc d)) : foAt m d fo d = fo := Function.update_self _ _ _

/-- The TensorCore's buffers when the region is left: the region's arrays at their final contents, the others as the
    reshapes left them; -/
def Vout (d : Dev nD) (fo : Buf (Elt F) (oLoc d)) : Valuation τ sig (Elt F) :=
  Pipeline.withArrays spec1 d (VR m d fo) (finalA m (foAt m d fo) d)
/-- and at the end of @main. -/
def Vfin (d : Dev nD) (fo : Buf (Elt F) (oLoc d)) : Valuation τ sig (Elt F) :=
  (opD (F := F)).result ((opC0 (F := F)).result ((opC (F := F)).result (Vout m d fo)))

/-- THE RESULT of @main on device `d`: the SparseCore call's result written at row 3072 over the region's result. -/
def out4 (d : Dev nD) (fo : Buf (Elt F) (oLoc d)) : Buf (Elt F) ((SparseCore.T d : Thread nD τ).loc main_v4) :=
  Vfin m d fo (Proc.devRef .tc (main_v4 : Ref sig .tc))

/-- What @main leaves the claim: the three arguments as launched, the result at `out4`. -/
def FIN_tc (d : Dev nD) (fo : Buf (Elt F) (oLoc d)) : sProp 𝕄 :=
  iprop((xLoc d ↦{fullShare} m (xLoc d)) ∗ (hLoc d ↦{fullShare} m (hLoc d)) ∗ (sLoc d ↦{fullShare} m (sLoc d))
    ∗ ((SparseCore.T d : Thread nD τ).loc main_v4 ↦{fullShare} out4 m d fo))

abbrev x' : DevRef τ sig := Proc.devRef .tc (main_arg0 : Ref sig .tc)
abbrev h' : DevRef τ sig := Proc.devRef .tc (main_arg1 : Ref sig .tc)
abbrev s' : DevRef τ sig := Proc.devRef .tc (main_arg2 : Ref sig .tc)
abbrev r' : DevRef τ sig := Proc.devRef .tc (main_v4 : Ref sig .tc)

/-- The buffers each line writes. -/
abbrev v1' : DevRef τ sig := Proc.devRef .tc (main_v1 : Ref sig .tc)
abbrev v2' : DevRef τ sig := Proc.devRef .tc (main_v2 : Ref sig .tc)
abbrev c' : DevRef τ sig := Proc.devRef .tc (main_c : Ref sig .tc)
abbrev c0' : DevRef τ sig := Proc.devRef .tc (main_c_0 : Ref sig .tc)

/-- The reshapes write only their results. -/
theorem VR_keep (d : Dev nD) (fo : Buf (Elt F) (oLoc d)) (b : DevRef τ sig)
    (h2 : b ∉ ({v2'} : Finset (DevRef τ sig))) (h1 : b ∉ ({v1'} : Finset (DevRef τ sig))) : VR m d fo b = Vm m d fo b := by
  unfold VR
  rw [(opS (F := F)).result_of_not_mem _ h2, (opH (F := F)).result_of_not_mem _ h1]

/-- The three lines after the region write only their results. -/
theorem Vfin_keep (d : Dev nD) (fo : Buf (Elt F) (oLoc d)) (b : DevRef τ sig)
    (hr : b ∉ ({r'} : Finset (DevRef τ sig))) (hc0 : b ∉ ({c0'} : Finset (DevRef τ sig))) (hc : b ∉ ({c'} : Finset (DevRef τ sig))) :
    Vfin m d fo b = Vout m d fo b := by
  unfold Vfin
  rw [(opD (F := F)).result_of_not_mem _ hr, (opC0 (F := F)).result_of_not_mem _ hc0, (opC (F := F)).result_of_not_mem _ hc]

/-- x is an input array of the region: the region leaves it as it found it, and no line writes it. -/
theorem Vfin_x (d : Dev nD) (fo : Buf (Elt F) (oLoc d)) : Vfin m d fo x' = m (xLoc d) := by
  rw [Vfin_keep m d fo x' (by decide) (by decide) (by decide)]
  unfold Vout
  refine (Pipeline.withArrays_arr spec1 launch1.win.arr_inj d _ _ 2).trans ?_
  unfold finalA
  rw [(dat m (foAt m d fo) 0 d).arrAt_in 2 rfl _, A_eq]
  show VR m d (foAt m d fo d) x' = _
  rw [foAt_self, VR_keep m d fo x' (by decide) (by decide)]
  exact Function.update_of_ne (by decide) _ _

/-- The bucket words and the signs are no array of the region and no line writes them. -/
theorem Vfin_h (d : Dev nD) (fo : Buf (Elt F) (oLoc d)) : Vfin m d fo h' = m (hLoc d) := by
  rw [Vfin_keep m d fo h' (by decide) (by decide) (by decide)]
  unfold Vout
  rw [Pipeline.withArrays_of_ne spec1 d _ _ main_arg1 (by decide), VR_keep m d fo h' (by decide) (by decide)]
  exact Function.update_of_ne (by decide) _ _
theorem Vfin_s (d : Dev nD) (fo : Buf (Elt F) (oLoc d)) : Vfin m d fo s' = m (sLoc d) := by
  rw [Vfin_keep m d fo s' (by decide) (by decide) (by decide)]
  unfold Vout
  rw [Pipeline.withArrays_of_ne spec1 d _ _ main_arg2 (by decide), VR_keep m d fo s' (by decide) (by decide)]
  exact Function.update_of_ne (by decide) _ _

/-- The unscoped buffers when the region is left, as one held set. -/
theorem held_out (d : Dev nD) (fo : Buf (Elt F) (oLoc d)) :
    iprop((dat m (foAt m d fo) 0 d).arrays ((dat m (foAt m d fo) 0 d).arrAt · cfg1.N) ∗ Pipeline.unscopedRest spec1 d (VRr m d fo))
      ⊢ (held (SparseCore.T d : Thread nD τ) (Pipeline.ucRefs τ sig) (Vout m d fo) : sProp 𝕄) := by
  rw [← Pipeline.unscopedBufs_held d (Vout m d fo),
    Pipeline.unscopedBufs_split (Pipeline.pin (pcfgs (F := F)) adm) 0 launch1.win.arr_unscoped launch1.win.arr_inj d,
    Pipeline.arrays_eq (Pipeline.pin (pcfgs (F := F)) adm) (dat m (foAt m d fo)) 0 d launch1.arr_whole ((dat m (foAt m d fo) 0 d).share_full fun _ => rfl)]
  refine sep_mono (Entails.of_eq (bigSep_congr fun w _ => ?_)) (Entails.of_eq ?_)
  · unfold Vout; rw [Pipeline.withArrays_arr spec1 launch1.win.arr_inj]; rfl
  · rw [unscopedRest1_eq, unscopedRest1_eq]
    unfold Vout
    rw [Pipeline.withArrays_of_ne spec1 d _ _ main_arg1 (by decide), Pipeline.withArrays_of_ne spec1 d _ _ main_arg2 (by decide),
      Pipeline.withArrays_of_ne spec1 d _ _ main_v0 (by decide), Pipeline.withArrays_of_ne spec1 d _ _ main_c (by decide),
      Pipeline.withArrays_of_ne spec1 d _ _ main_c_0 (by decide), Pipeline.withArrays_of_ne spec1 d _ _ main_v4 (by decide)]

/-- The four buffers the claim reads, out of the held set. -/
theorem held_fin (d : Dev nD) (W : Valuation τ sig (Elt F)) :
    (held (SparseCore.T d : Thread nD τ) (Pipeline.ucRefs τ sig) W : sProp 𝕄)
      ⊢ iprop((xLoc d ↦{fullShare} W x') ∗ (hLoc d ↦{fullShare} W h') ∗ (sLoc d ↦{fullShare} W s') ∗ ((SparseCore.T d : Thread nD τ).loc main_v4 ↦{fullShare} W r')) := by
  have hsub : ({x', h', s', r'} : Finset (DevRef τ sig)) ⊆ Pipeline.ucRefs τ sig := by decide
  rw [StableHlo.held_sub_split (SparseCore.T d) hsub W]
  unfold held
  rw [SparseCore.bigSep_insert' (by decide), SparseCore.bigSep_insert' (by decide), SparseCore.bigSep_insert' (by decide), bigSep_singleton]
  iintro ⟨⟨Hx, Hh, Hs, Hr⟩, -⟩
  isplitl [Hx]; · iexact Hx
  isplitl [Hh]; · iexact Hh
  isplitl [Hs]; · iexact Hs
  iexact Hr

set_option backward.isDefEq.respectTransparency.types false in
set_option maxHeartbeats 1000000 in
/-- @MAIN AFTER THE CALL on device `d`: from the handshakes' records, the TensorCore's state after the one call, the region
    boundary, every unscoped buffer of the TensorCore held whole (the call's result at `fo`, the others as launched) and the
    pipeline's launch ghost state, the remaining lines run to their end — the two reshapes, the region at all its points,
    the two constants, the update —, handing back the TensorCore's state and `FIN_tc`. -/
theorem main_tail (κ : GSem nD τ sig → ℕ) (d : Dev nD) (fo : Buf (Elt F) (oLoc d))
    (P : (K (F := F)).Pay (nD := nD) (Val := Elt F) (Name := ℕ) (U := UU)) :
    iprop((K (F := F)).ctx EH P κ ∗ (K (F := F)).tcSt EH d 1 ∗ boundary (SparseCore.T d : Thread nD τ)
        ∗ held (SparseCore.T d : Thread nD τ) (Pipeline.ucRefs τ sig) (Vm m d fo) ∗ G_tc (F := F) d)
      ⊢ wp frame (wpE ((K (F := F)).defs (D (F := F))) 𝒱 (SparseCore.T d) none) Set.univ (mainTail (F := F) d)
          fun _ => iprop((K (F := F)).tcSt EH d 1 ∗ FIN_tc m d fo) := by
  unfold SparseCore.Cfg.tcSt
  rw [(K (F := F)).Otc_end d (le_refl 1)]
  simp only [mainTail, wp_bind, wp_pure]
  iintro ⟨#Hctx, ⟨⟨%W, %hW, HO⟩, Hrest⟩, Hb, Hheld, HG⟩
  -- the two reshapes
  iapply (wp_hlo_within 𝒱 (SparseCore.T d) none Set.univ (op := opH) (S := Pipeline.ucRefs τ sig) hH (V := Vm m d fo)) $$ [Hb Hheld]
  · isplitl [Hb]; · iexact Hb
    iexact Hheld
  iintro ⟨Hb, Hheld⟩
  rw [wp_ret]; imodintro
  iapply (wp_hlo_within 𝒱 (SparseCore.T d) none Set.univ (op := opS) (S := Pipeline.ucRefs τ sig) hS (V := (opH (F := F)).result (Vm m d fo))) $$ [Hb Hheld]
  · isplitl [Hb]; · iexact Hb
    iexact Hheld
  iintro ⟨Hb, Hheld⟩
  rw [wp_ret]; imodintro
  -- the region
  ihave #Hla := (SparseCore.Cfg.ctx_levAts (K := K (F := F)) (EH := EH) (P := P) κ) $$ Hctx
  iapply (region_step m (foAt m d fo) d _)
  isplitr; · iexact Hla
  isplitl [Hb]; · iexact Hb
  rw [foAt_self]
  isplitl [Hheld HO]
  · isplitl [Hheld]; · iexact Hheld
    unfold Row; iexists W; isplitr; · ipureintro; exact hW
    iexact HO
  isplitl [HG]; · iexact HG
  iintro ⟨Hb, Hpost⟩
  unfold postR
  rw [foAt_self]
  icases Hpost with ⟨Ha, Hz, HO⟩
  ihave Hheld := (held_out m d fo) $$ [Ha Hz]
  · isplitl [Ha]; · iexact Ha
    iexact Hz
  -- the two constants and the update
  iapply (wp_hlo_within 𝒱 (SparseCore.T d) none Set.univ (op := opC) (S := Pipeline.ucRefs τ sig) hC (V := Vout m d fo)) $$ [Hb Hheld]
  · isplitl [Hb]; · iexact Hb
    iexact Hheld
  iintro ⟨Hb, Hheld⟩
  rw [wp_ret]; imodintro
  iapply (wp_hlo_within 𝒱 (SparseCore.T d) none Set.univ (op := opC0) (S := Pipeline.ucRefs τ sig) hC0 (V := (opC (F := F)).result (Vout m d fo))) $$ [Hb Hheld]
  · isplitl [Hb]; · iexact Hb
    iexact Hheld
  iintro ⟨Hb, Hheld⟩
  rw [wp_ret]; imodintro
  iapply (wp_hlo_within 𝒱 (SparseCore.T d) none Set.univ (op := opD) (S := Pipeline.ucRefs τ sig) hD (V := (opC0 (F := F)).result ((opC (F := F)).result (Vout m d fo)))) $$ [Hb Hheld]
  · isplitl [Hb]; · iexact Hb
    iexact Hheld
  iintro ⟨Hb, Hheld⟩
  rw [wp_ret]; imodintro; imodintro
  ihave Hf := (held_fin d ((opD (F := F)).result ((opC0 (F := F)).result ((opC (F := F)).result (Vout m d fo))))) $$ Hheld
  icases Hf with ⟨Hx, Hh, Hs, Hr⟩
  isplitl [HO Hrest]
  · isplitl [HO]
    · unfold Row; iexact HO
    iexact Hrest
  unfold FIN_tc out4
  rw [← Vfin_x m d fo, ← Vfin_h m d fo, ← Vfin_s m d fo]
  unfold Vfin
  isplitl [Hx]; · iexact Hx
  isplitl [Hh]; · iexact Hh
  isplitl [Hs]; · iexact Hs
  iexact Hr

end Tail

end Cert.Proof.Kernel
end
-- ==== Proof.Bits.Assemble.lean ====
/-
  The rest of the TensorCore's program after the SparseCore call, as the one record the run of the device takes:
  its region's ghost state and what that funds, the program text after the call, what it leaves in the result as a
  function of what the call left, and its run.
-/
import proofs.«204905_g71433896067310_cont_9to1c4b_220_29_alg».proof.Proof.Bits.Launch
import proofs.«204905_g71433896067310_cont_9to1c4b_220_29_alg».proof.Proof.Bits.TcTail

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (m : (ℓ : Loc nD τ sig) → Buf (Elt F) ℓ)
  (Ψ : (d : Dev nD) → grid0.Coords → Fin 4 → Buf (Elt F) (oLoc d) → Prop)

/-- The record, for the launch memory `m` and the pieces' predicates `Ψ`. -/
def tcPart : TcPart m Ψ where
  u₀P := u₀P
  G_tc := G_tc
  fund_tc := fund_tc
  mainTail := mainTail
  main_eq := main_eq
  out4 := out4 m
  main_tail := fun κ d fo => main_tail m κ d fo (P m Ψ)

end Cert.Proof.Kernel

end
-- ==== Proof.ScSpec.lean ====
/-
  What the SparseCore call's result holds at the ideal values: row `b` of the `[1024, 2048]` array is the sketch of row
  `3072 + b` of `x`; and the predicate a task's written piece satisfies.
-/
import proofs.«204905_g71433896067310_cont_9to1c4b_220_29_alg».proof.Proof.Common
import proofs.«204905_g71433896067310_cont_9to1c4b_220_29_alg».proof.Proof.TileDefs
import proofs.«204905_g71433896067310_cont_9to1c4b_220_29_alg».proof.Proof.Spec

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

open Idealize.ShloMosaic.ValueIdx (ix1 ix2)

variable (m : (ℓ : Loc nD τ sig) → Buf (Elt Ideal) ℓ) (d : Dev nD) (L : grid0.Coords)

/-- What the SparseCore call's result holds at the end: row `b` is the sketch of row `3072 + b` of `x`. -/
def scOut : Buf (Elt Ideal) (oLoc d) := fun i =>
  Cert.Sketch.G (m (xLoc d)) (m (hLoc d)) (m (sLoc d))
    (ix2 ⟨3072 + (i 0).val, by have h : (i 0).val < 1024 := (i 0).isLt; omega⟩ ⟨(i 1).val, (i 1).isLt⟩)

/-- A piece of the result holds the sketch on its own elements. -/
def PsiV (t : Fin 4) (f : Buf (Elt Ideal) (oLoc d)) : Prop := ∀ x ∈ oSet d L t, f x = scOut m d x

end Cert.Proof.KernelIdeal

end
-- ==== Proof.ScGlue.lean ====
/-
  Small facts that join the SparseCore task's run to its mathematics: what a buffer reads after a store of its
  whole shape, and what a load of sixteen consecutive entries reads from a buffer whose contents are known.
-/
import Idealize.ShloMosaic.Lib.Pipeline.FrameBody
import Idealize.ShloMosaic.Lib.WritesUnit
import proofs.«204905_g71433896067310_cont_9to1c4b_220_29_alg».proof.Proof.KernelMath
import proofs.«204905_g71433896067310_cont_9to1c4b_220_29_alg».proof.Proof.KernelMathPay

noncomputable section

open scoped BigOperators

namespace Cert.Sketch.Math

open Idealize.ShloMosaic Idealize.ShloMosaic.ValueIdx
open Cert.KernelIdeal (S16 S1x16 S8x2048 S8x4096 S4096)

section Whole

variable {sig : RefSig} {κ : Kind} {sp : Space} {s : Shape} {e : EltTy} {Val : EltTy → Type}

/-- After a store of the whole shape every entry reads the stored value, whatever was stored before. -/
theorem read_writes_whole (v : View sig κ sp s e) (f : v.ty.Contents Val) (w : (Rect.whole s).shape.Idx → Val e)
    (L : List (View.Piece Val s e)) (y : s.Idx) :
    v.read Val (v.writes Val f ((⟨Rect.whole s, w⟩ : View.Piece Val s e) :: L)) y = w y := by
  have h := View.read_writes_cons_emb v f (Rect.whole s) w L y
  rwa [Rect.emb_whole_apply] at h

/-- A load of the whole shape after a store of the whole shape reads the stored value. -/
theorem readCov_whole [∀ e, Nonempty (Val e)] (v : View sig κ sp s e) (w : (Rect.whole s).shape.Idx → Val e)
    (L : List (View.Piece Val s e)) :
    v.readCov ((⟨Rect.whole s, w⟩ : View.Piece Val s e) :: L) (LoadRect.whole s) = w :=
  View.readCov_cons_toLoadRect v (Rect.whole s) w L

end Whole

section Loads

variable {sig : RefSig} {κ : Kind} {sp : Space} {e : EltTy} {Val : EltTy → Type}

/-- Sixteen consecutive entries of a vector of 4096, from entry `16 k`: lane `l` is entry `16 k + l`. -/
theorem readAt_block16 (v : View sig κ sp S4096 e) (g : v.ty.Contents Val) {off : Fin 1 → ℕ}
    (p : ∀ a, off a + S16.size a ≤ S4096.size a) (k : ℕ) (hk : k < 256) (eo : off = ![16 * k]) (l : Fin 16) :
    v.readAt Val (Rect.unit (s := S4096) off S16.size p).toLoadRect g (ix1 l) = v.read Val g (ix1 (col k l)) := by
  subst eo
  show v.read Val g _ = v.read Val g _
  refine congrArg (v.read Val g) (funext fun a => Fin.ext ?_)
  match a with
  | ⟨0, _⟩ =>
    show 16 * k + 1 * l.val = (k * 16 + l.val) % 4096
    have := l.isLt
    omega

/-- Sixteen consecutive entries of row `r` of an array of 8 rows and 4096 columns, from column `16 k`. -/
theorem readAt_row16 (v : View sig κ sp S8x4096 e) (g : v.ty.Contents Val) {off : Fin 2 → ℕ}
    (p : ∀ a, off a + S1x16.size a ≤ S8x4096.size a) (k : ℕ) (hk : k < 256) (r : Fin 8) (eo : off = ![r.val, 16 * k])
    (l : Fin 16) :
    v.readAt Val (Rect.unit (s := S8x4096) off S1x16.size p).toLoadRect g (ix2 (0 : Fin 1) l)
      = v.read Val g (ix2 r (col k l)) := by
  subst eo
  show v.read Val g _ = v.read Val g _
  refine congrArg (v.read Val g) (funext fun a => Fin.ext ?_)
  match a with
  | ⟨0, _⟩ => show r.val + 1 * 0 = r.val; omega
  | ⟨1, _⟩ =>
    show 16 * k + 1 * l.val = (k * 16 + l.val) % 4096
    have := l.isLt
    omega

end Loads

/-! ## The accumulator's own buffer

The same two facts spelt for the accumulator itself — the whole buffer of 8 rows and 2048 buckets —, as equations
between contents, so that they rewrite a run's term where it stands. -/

section Acc

open Cert.KernelIdeal (cc0_scratch4)

local notation "accM" => (Memref.whole Cert.KernelIdeal.cc0_scratch4 :
  Memref Cert.KernelIdeal.sig Kind.scVector Space.vmem Cert.KernelIdeal.S8x2048 EltTy.f32)

/-- Through its own whole view the accumulator reads as its contents. -/
theorem acc_read (g : (accM).view.ty.Contents (Elt Ideal)) (y : S8x2048.Idx) :
    (accM).view.read (Elt Ideal) g y = g y := rfl

/-- After a store of the whole accumulator its contents are the stored value. -/
theorem acc_writes_head (f : (accM).view.ty.Contents (Elt Ideal))
    (w : (Rect.whole S8x2048).shape.Idx → Elt Ideal .f32) (L : List (View.Piece (Elt Ideal) S8x2048 .f32)) :
    (accM).view.writes (Elt Ideal) f ((⟨Rect.whole S8x2048, w⟩ : View.Piece (Elt Ideal) S8x2048 .f32) :: L) = w :=
  funext fun y => (acc_read _ y).symm.trans (read_writes_whole (accM).view f w L y)

/-- A load of the whole accumulator after a store of the whole accumulator reads the stored value. -/
theorem acc_readCov_head (w : (Rect.whole S8x2048).shape.Idx → Elt Ideal .f32)
    (L : List (View.Piece (Elt Ideal) S8x2048 .f32)) :
    (accM).view.readCov ((⟨Rect.whole S8x2048, w⟩ : View.Piece (Elt Ideal) S8x2048 .f32) :: L) (LoadRect.whole S8x2048) = w :=
  readCov_whole (accM).view w L

/-- A load of the whole accumulator reads its contents. -/
theorem acc_readAt_whole (f : (accM).view.ty.Contents (Elt Ideal)) :
    (accM).view.readAt (Elt Ideal) (LoadRect.whole S8x2048) f = f :=
  Memref.readAt_whole (Elt Ideal) Cert.KernelIdeal.cc0_scratch4 f

end Acc

end Cert.Sketch.Math

end
-- ==== Proof.ScPiece.lean ====
/-
  A task's written piece holds the sketch. The task stores its accumulator, eight rows by 2048 buckets, over eight rows of
  the call's result; entry (r, c) of the accumulator is the sum over the 256 trips of the terms of bucket c for the buffered
  row r, and the buffered rows are rows 3072 + 64·s + 32·c + 8·t + r of x: so the element of the result under (r, c) holds
  the sketch of that row of x at bucket c.
-/
import proofs.«204905_g71433896067310_cont_9to1c4b_220_29_alg».proof.Proof.ScSpec
import proofs.«204905_g71433896067310_cont_9to1c4b_220_29_alg».proof.Proof.TileDefs
import proofs.«204905_g71433896067310_cont_9to1c4b_220_29_alg».proof.Proof.KernelMath
import Idealize.ShloMosaic.Lib.Writes
import Idealize.ShloMosaic.Lib.Pipeline.Value
import Idealize.ShloMosaic.Lib.ValueIdx

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Cert.Sketch.Math (accAfter)
open Idealize.ShloMosaic.ValueIdx

variable (m : (ℓ : Loc nD τ sig) → Buf (Elt Ideal) ℓ) (d : Dev nD) (L : grid0.Coords)

/-- The first row of the task's `t`-th piece, and that the eight rows fit. -/
theorem piece_row_lt (t : Fin 4) (r : Fin 8) : 64 * (L 1).val + 32 * (L 0).val + 8 * t.val + 3072 + r.val < 4096 := by
  have h1 : (L 1).val < 16 := (L 1).isLt
  have h0 : (L 0).val < 2 := (L 0).isLt
  have := t.isLt; have := r.isLt
  omega

/-- An element of the call's result under the task's `t`-th piece is the piece's element at its coordinates less the
    piece's first row. -/
theorem mem_oSet_emb (t : Fin 4) (x : Idx (oLoc d)) (hx : x ∈ oSet d L t) :
    ∃ y : S8x2048.Idx, x = (oSl L t).view.emb y ∧ (x 0).val = 64 * (L 1).val + 32 * (L 0).val + 8 * t.val + (y 0).val ∧ (x 1).val = (y 1).val := by
  unfold oSet at hx
  change x ∈ ((View.whole main_v0_scv).slice (Rect.unit (s := S1024x2048) (k0_off19 L (BitVec.ofNat 32 (8 * t.val))) S8x2048.size (k0_off19_inb L t))).set at hx
  rw [View.set_slice_whole, Rect.mem_set_unit] at hx
  have e := k0_off19_eq L t
  have b0 : k0_off19 L (BitVec.ofNat 32 (8 * t.val)) (0 : Fin 2) ≤ (x 0).val ∧ (x 0).val < k0_off19 L (BitVec.ofNat 32 (8 * t.val)) (0 : Fin 2) + 8 := hx 0
  have b1 : k0_off19 L (BitVec.ofNat 32 (8 * t.val)) (1 : Fin 2) ≤ (x 1).val ∧ (x 1).val < k0_off19 L (BitVec.ofNat 32 (8 * t.val)) (1 : Fin 2) + 2048 := hx 1
  have e0 : k0_off19 L (BitVec.ofNat 32 (8 * t.val)) (0 : Fin 2) = 64 * (L 1).val + 32 * (L 0).val + 8 * t.val := congrFun e 0
  have e1 : k0_off19 L (BitVec.ofNat 32 (8 * t.val)) (1 : Fin 2) = 0 := congrFun e 1
  refine ⟨ix2 (n0 := 8) (n1 := 2048) ⟨(x 0).val - (64 * (L 1).val + 32 * (L 0).val + 8 * t.val), by omega⟩ ⟨(x 1).val, by omega⟩, ?_, ?_, ?_⟩
  · funext a; apply Fin.ext
    match a with
    | ⟨0, _⟩ =>
      show (x 0).val = k0_off19 L (BitVec.ofNat 32 (8 * t.val)) (0 : Fin 2) + 1 * ((x 0).val - (64 * (L 1).val + 32 * (L 0).val + 8 * t.val))
      omega
    | ⟨1, _⟩ =>
      show (x 1).val = k0_off19 L (BitVec.ofNat 32 (8 * t.val)) (1 : Fin 2) + 1 * (x 1).val
      omega
  · show (x 0).val = 64 * (L 1).val + 32 * (L 0).val + 8 * t.val + ((x 0).val - (64 * (L 1).val + 32 * (L 0).val + 8 * t.val)); omega
  · rfl

/-- THE PIECE HOLDS THE SKETCH. If the accumulator `fg` holds the sums after all 256 trips over the buffered rows `ga`, the
    buffered rows are the eight rows of x the task fetched in round `t`, and the bucket words and signs are the arguments',
    then the call's result with the accumulator written over the task's `t`-th piece holds, on that piece, the sketch. -/
theorem piece_holds (t : Fin 4) (f0 : Buf (Elt Ideal) (oLoc d)) (fg : Buf (Elt Ideal) ((thr d L).loc cc0_scratch4))
    (ga : S8x4096.Idx → EReal) (gh : S4096.Idx → BitVec 32) (gs : S4096.Idx → EReal)
    (hfg : ∀ (r : Fin 8) (c : Fin 2048), fg (ix2 r c) = accAfter ga gh gs 256 r c)
    (hga : ∀ (r : Fin 8) (j : Fin 4096), ga (ix2 r j) = m (xLoc d) (ix2 ⟨64 * (L 1).val + 32 * (L 0).val + 8 * t.val + 3072 + r.val, piece_row_lt L t r⟩ j))
    (hgh : ∀ j, gh j = m (hLoc d) j) (hgs : ∀ j, gs j = m (sLoc d) j) :
    PsiV m d L t ((oSl L t).view.writes (Elt Ideal) f0
      [⟨Rect.whole S8x2048, ReadAs.same.apply (View.read (Elt Ideal) (Memref.whole cc0_scratch4 : Memref sig .scVector .vmem S8x2048 .f32).view fg)⟩]) := by
  obtain rfl : gh = m (hLoc d) := funext hgh
  obtain rfl : gs = m (sLoc d) := funext hgs
  intro x hx
  obtain ⟨y, rfl, hx0, hx1⟩ := mem_oSet_emb d L t x hx
  obtain ⟨r, c, rfl⟩ : ∃ (r : Fin 8) (c : Fin 2048), y = ix2 r c := ⟨y 0, y 1, eq_ix2 y⟩
  have hx0' : (((oSl L t).view.emb (ix2 r c)) 0).val = 64 * (L 1).val + 32 * (L 0).val + 8 * t.val + r.val := hx0
  have hx1' : (((oSl L t).view.emb (ix2 r c)) 1).val = c.val := hx1
  have hw : (oSl L t).view.writes (Elt Ideal) f0
      [⟨Rect.whole S8x2048, ReadAs.same.apply (View.read (Elt Ideal) (Memref.whole cc0_scratch4 : Memref sig .scVector .vmem S8x2048 .f32).view fg)⟩]
        ((oSl L t).view.emb (ix2 r c)) = fg (ix2 r c) := by
    rw [View.writes_singleton]
    have e : (oSl L t).view.emb (ix2 r c) = ((oSl L t).view.slice (Rect.whole S8x2048)).emb (ix2 r c) := by
      show _ = (oSl L t).view.emb ((Rect.whole S8x2048).emb (ix2 r c))
      rw [Rect.emb_whole_apply]
    rw [e, View.write_emb_of_mem _ _ (Finset.mem_univ (ix2 r c))]
    refine (eq_of_heq (cast_heq _ _)).trans ?_
    rfl
  rw [hw, hfg,
    Cert.Sketch.Math.sc_eq_G (m (xLoc d)) (m (hLoc d)) (m (sLoc d)) (fun r' => ⟨64 * (L 1).val + 32 * (L 0).val + 8 * t.val + 3072 + r'.val, piece_row_lt L t r'⟩) ga hga]
  unfold scOut
  refine congrArg (Cert.Sketch.G (m (xLoc d)) (m (hLoc d)) (m (sLoc d))) (funext fun a => Fin.ext ?_)
  match a with
  | ⟨0, _⟩ => show 64 * (L 1).val + 32 * (L 0).val + 8 * t.val + 3072 + r.val = 3072 + (((oSl L t).view.emb (ix2 r c)) 0).val; rw [hx0']; omega
  | ⟨1, _⟩ => show c.val = (((oSl L t).view.emb (ix2 r c)) 1).val; rw [hx1']

/-! ## From the copies' payloads to the hypotheses above -/

/-- The eight rows of x the task fetches in round `t`, as the task slices them. -/
abbrev xSl (t : Fin 4) : Memref sig .scVector .hbm S8x4096 .f32 :=
  (Memref.whole main_arg0_scv : Memref sig .scVector .hbm S4096x4096 .f32).slice
    (Rect.unit (s := S4096x4096) (k0_off1 L (BitVec.ofNat 32 (8 * t.val))) S8x4096.size (k0_off1_inb L t)) (fun _ => rfl)

/-- Those rows read off x: row `r` of the slice is row 3072 + 64·s + 32·c + 8·t + r of x. -/
theorem rows_read (t : Fin 4) (r : Fin 8) (j : Fin 4096) :
    ReadAs.same.apply (View.read (Elt Ideal) (xSl L t).view (m (xLoc d))) (ix2 r j)
      = m (xLoc d) (ix2 ⟨64 * (L 1).val + 32 * (L 0).val + 8 * t.val + 3072 + r.val, piece_row_lt L t r⟩ j) := by
  rw [ReadAs.apply_same, View.read_apply]
  refine (eq_of_heq (cast_heq _ _)).trans ?_
  have e := k0_off1_eq L t
  have e0 : k0_off1 L (BitVec.ofNat 32 (8 * t.val)) (0 : Fin 2) = 64 * (L 1).val + 32 * (L 0).val + 8 * t.val + 3072 := congrFun e 0
  have e1 : k0_off1 L (BitVec.ofNat 32 (8 * t.val)) (1 : Fin 2) = 0 := congrFun e 1
  refine congrArg (m (xLoc d)) (funext fun a => Fin.ext ?_)
  match a with
  | ⟨0, _⟩ => show k0_off1 L (BitVec.ofNat 32 (8 * t.val)) (0 : Fin 2) + 1 * r.val = 64 * (L 1).val + 32 * (L 0).val + 8 * t.val + 3072 + r.val; omega
  | ⟨1, _⟩ => show k0_off1 L (BitVec.ofNat 32 (8 * t.val)) (1 : Fin 2) + 1 * j.val = j.val; omega

/-- A buffer the copy filled whole holds the copy's payload: the fetched rows, in either row buffer; -/
theorem rows_buf2 (t : Fin 4) (fa : Buf (Elt Ideal) ((thr d L).loc cc0_scratch2)) (r : Fin 8) (j : Fin 4096) :
    View.write (Elt Ideal) (Memref.whole cc0_scratch2 : Memref sig .scVector .vmem S8x4096 .f32).view fa
        (ReadAs.same.apply (View.read (Elt Ideal) (xSl L t).view (m (xLoc d)))) Finset.univ (ix2 r j)
      = m (xLoc d) (ix2 ⟨64 * (L 1).val + 32 * (L 0).val + 8 * t.val + 3072 + r.val, piece_row_lt L t r⟩ j) :=
  (congrFun (View.write_whole_univ cc0_scratch2 fa _) (ix2 r j)).trans (rows_read m d L t r j)
theorem rows_buf3 (t : Fin 4) (fa : Buf (Elt Ideal) ((thr d L).loc cc0_scratch3)) (r : Fin 8) (j : Fin 4096) :
    View.write (Elt Ideal) (Memref.whole cc0_scratch3 : Memref sig .scVector .vmem S8x4096 .f32).view fa
        (ReadAs.same.apply (View.read (Elt Ideal) (xSl L t).view (m (xLoc d)))) Finset.univ (ix2 r j)
      = m (xLoc d) (ix2 ⟨64 * (L 1).val + 32 * (L 0).val + 8 * t.val + 3072 + r.val, piece_row_lt L t r⟩ j) :=
  (congrFun (View.write_whole_univ cc0_scratch3 fa _) (ix2 r j)).trans (rows_read m d L t r j)

/-- the bucket words' buffer holds the bucket words, the signs' the signs. -/
theorem words_buf (fh : Buf (Elt Ideal) ((thr d L).loc cc0_scratch0)) (j : S4096.Idx) :
    View.write (Elt Ideal) (Memref.whole cc0_scratch0 : Memref sig .scVector .vmem S4096 .i32).view fh
        (ReadAs.same.apply (View.read (Elt Ideal) (Memref.whole main_arg1_scv : Memref sig .scVector .hbm S4096 .i32).view (m (hLoc d)))) Finset.univ j
      = m (hLoc d) j :=
  congrFun (View.write_whole_univ cc0_scratch0 fh _) j
theorem signs_buf (fs : Buf (Elt Ideal) ((thr d L).loc cc0_scratch1)) (j : S4096.Idx) :
    View.write (Elt Ideal) (Memref.whole cc0_scratch1 : Memref sig .scVector .vmem S4096 .f32).view fs
        (ReadAs.same.apply (View.read (Elt Ideal) (Memref.whole main_arg2_scv : Memref sig .scVector .hbm S4096 .f32).view (m (sLoc d)))) Finset.univ j
      = m (sLoc d) j :=
  congrFun (View.write_whole_univ cc0_scratch1 fs _) j

end Cert.Proof.KernelIdeal
end
-- ==== Proof.BodyVal.lean ====
/-
  One vector subcore's task at the ideal values, with what it writes named: each eight-row piece of the call's result
  ends at the sketch of the matching rows of `x`.
-/
import proofs.«204905_g71433896067310_cont_9to1c4b_220_29_alg».proof.Proof.Common
import proofs.«204905_g71433896067310_cont_9to1c4b_220_29_alg».proof.Proof.Body
import proofs.«204905_g71433896067310_cont_9to1c4b_220_29_alg».proof.Proof.KernelMath
import proofs.«204905_g71433896067310_cont_9to1c4b_220_29_alg».proof.Proof.KernelMathPay
import proofs.«204905_g71433896067310_cont_9to1c4b_220_29_alg».proof.Proof.ScSpec
import proofs.«204905_g71433896067310_cont_9to1c4b_220_29_alg».proof.Proof.ScGlue
import proofs.«204905_g71433896067310_cont_9to1c4b_220_29_alg».proof.Proof.ScPiece

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Ideal) ℕ UU ℕ

open Cert.Sketch.Math (accAfter)
open Idealize.ShloMosaic.ValueIdx (ix1 ix2)

variable (m : (ℓ : Loc nD τ sig) → Buf (Elt Ideal) ℓ)

local notation "xW" => (Memref.whole Cert.KernelIdeal.main_arg0_scv : Memref Cert.KernelIdeal.sig Kind.scVector Space.hbm Cert.KernelIdeal.S4096x4096 EltTy.f32)
local notation "hW" => (Memref.whole Cert.KernelIdeal.main_arg1_scv : Memref Cert.KernelIdeal.sig Kind.scVector Space.hbm Cert.KernelIdeal.S4096 EltTy.i32)
local notation "sW" => (Memref.whole Cert.KernelIdeal.main_arg2_scv : Memref Cert.KernelIdeal.sig Kind.scVector Space.hbm Cert.KernelIdeal.S4096 EltTy.f32)
local notation "oW" => (Memref.whole Cert.KernelIdeal.main_v0_scv : Memref Cert.KernelIdeal.sig Kind.scVector Space.hbm Cert.KernelIdeal.S1024x2048 EltTy.f32)
local notation "hS" => (Memref.whole Cert.KernelIdeal.cc0_scratch0 : Memref Cert.KernelIdeal.sig Kind.scVector Space.vmem Cert.KernelIdeal.S4096 EltTy.i32)
local notation "sS" => (Memref.whole Cert.KernelIdeal.cc0_scratch1 : Memref Cert.KernelIdeal.sig Kind.scVector Space.vmem Cert.KernelIdeal.S4096 EltTy.f32)
local notation "aS" => (Memref.whole Cert.KernelIdeal.cc0_scratch2 : Memref Cert.KernelIdeal.sig Kind.scVector Space.vmem Cert.KernelIdeal.S8x4096 EltTy.f32)
local notation "bS" => (Memref.whole Cert.KernelIdeal.cc0_scratch3 : Memref Cert.KernelIdeal.sig Kind.scVector Space.vmem Cert.KernelIdeal.S8x4096 EltTy.f32)
local notation "cS" => (Memref.whole Cert.KernelIdeal.cc0_scratch4 : Memref Cert.KernelIdeal.sig Kind.scVector Space.vmem Cert.KernelIdeal.S8x2048 EltTy.f32)

section Tile

variable (d : Dev nD) (L : grid0.Coords)

/-- A program that returns at once and goes on is what it goes on with. -/
theorem ret_bind_eq {E : Type → Type} {α β : Type} (a : α) (k : α → Prog E β) : (Prog.ret a).bind k = k a := rfl

/-- The accumulator while it is being cleared: the columns below `16 k` already hold zero. -/
def invZv (k : Nat) (_ : PUnit) : sProp 𝕄 :=
  iprop(∃ f : Buf (Elt Ideal) ((thr d L).loc cc0_scratch4), ⌜∀ (r : Fin 8) (c : Fin 2048), c.val < 16 * k → f (ix2 r c) = (Scalar.ofBits (F := Ideal) .f32 0x00000000#32)⌝
    ∗ (cS).view.loc (thr d L) ↦{fullShare} f)

/-- The accumulator while the columns are folded in: after `k` groups of sixteen columns it holds the partial sketch. -/
def invGv (A : Memref sig .scVector .vmem S8x4096 .f32) (gh : Buf (Elt Ideal) ((thr d L).loc cc0_scratch0)) (gs : Buf (Elt Ideal) ((thr d L).loc cc0_scratch1))
    (ga : Buf (Elt Ideal) (A.view.loc (thr d L))) (xb : S8x4096.Idx → EReal) (k : Nat) (_ : PUnit) : sProp 𝕄 :=
  iprop(((hS).view.loc (thr d L) ↦{fullShare} gh) ∗ ((sS).view.loc (thr d L) ↦{fullShare} gs) ∗ (A.view.loc (thr d L) ↦{fullShare} ga)
    ∗ ∃ f : Buf (Elt Ideal) ((thr d L).loc cc0_scratch4), ⌜∀ (r : Fin 8) (c : Fin 2048), f (ix2 r c) = accAfter xb gh gs k r c⌝ ∗ (cS).view.loc (thr d L) ↦{fullShare} f)

set_option maxHeartbeats 4000000 in
theorem tile_body_val (hF : (K (F := Ideal)).Facts) (hpre : ∀ j : S4096.Idx, (m (hLoc d) j).toNat < 2048) (O : CellTallies nD τ sig (HIx 1)) (W : Waits sig (HIx 1)) (hO : ∀ g, O g none = 0)
    (qx qh qs : PosShare TreeShare) (fo : Buf (Elt Ideal) (oLoc d)) :
    (iprop(levAts (K (F := Ideal)).L (K (F := Ideal)).lev ∗ emp ∗ tileIn m d L qx qh qs fo
        ∗ scopedBufs (thr d L) ∗ scopedSems0 (thr d L) ∗ owes (thr d L) O W) : sProp 𝕄)
      ⊢ wp frame (wpE (defs₀ (F := Ideal)) 𝒱₀ (thr d L) none) Set.univ
          (cc0__sc_body L xW (Memref.isWhole_whole _) hW (Memref.isWhole_whole _) sW (Memref.isWhole_whole _) oW (Memref.isWhole_whole _)
            hS (Memref.isWhole_whole _) sS (Memref.isWhole_whole _) aS (Memref.isWhole_whole _) bS (Memref.isWhole_whole _) cS (Memref.isWhole_whole _)
            cc0_scratch5 cc0_scratch6 cc0_scoped0 cc0_scoped1 cc0_scoped2 cc0_scoped3 cc0_scoped4 cc0_scoped5)
          fun _ => iprop(tileOut m d L (PsiV m d L) qx qh qs ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  rw [(K (F := Ideal)).scopedBufs_V hF d (cV L) (jV L), SparseCore.Cfg.scopedSems0_V (Val := Elt Ideal) d (cV L) (jV L), ownSems0_V, ownBufs_V]
  unfold tileIn
  iintro ⟨#Hlv, -, ⟨Hx, Hh, Hs, Ho0, Ho1, Ho2, Ho3⟩,
    ⟨⟨%f0, Hb0⟩, ⟨%f1, Hb1⟩, ⟨%f2, Hb2⟩, ⟨%f3, Hb3⟩, ⟨%f4, Hb4⟩, Hbufs⟩, ⟨HsA, HsB, Hs0, Hs1, Hs2, Hs3, Hs4, Hs5, Hsems⟩, HO⟩
  ihave Hmw := ((K (F := Ideal)).mayWaits_none (thr := thr d L) hO) $$ Hlv
  ihave Hx := (Entails.of_eq (pts_x (F := Ideal) d L _ _).symm) $$ Hx
  ihave Hh := (Entails.of_eq (pts_h (F := Ideal) d L _ _).symm) $$ Hh
  ihave Hs := (Entails.of_eq (pts_s (F := Ideal) d L _ _).symm) $$ Hs
  ihave Ho0 := (Entails.of_eq (pts_o (F := Ideal) d L 0 _).symm) $$ Ho0
  ihave Ho1 := (Entails.of_eq (pts_o (F := Ideal) d L 1 _).symm) $$ Ho1
  ihave Ho2 := (Entails.of_eq (pts_o (F := Ideal) d L 2 _).symm) $$ Ho2
  ihave Ho3 := (Entails.of_eq (pts_o (F := Ideal) d L 3 _).symm) $$ Ho3
  ihave Hb0 := (Entails.of_eq (pts_b0 (F := Ideal) d L _).symm) $$ Hb0
  ihave Hb1 := (Entails.of_eq (pts_b1 (F := Ideal) d L _).symm) $$ Hb1
  ihave Hb2 := (Entails.of_eq (pts_b2 (F := Ideal) d L _).symm) $$ Hb2
  ihave Hb3 := (Entails.of_eq (pts_b3 (F := Ideal) d L _).symm) $$ Hb3
  ihave Hb4 := (Entails.of_eq (pts_b4 (F := Ideal) d L _).symm) $$ Hb4
  sl_exec
  ihave Hb0 := (pts_name (F := Ideal) _) $$ Hb0
  icases Hb0 with ⟨%gh, %hgh, Hb0⟩
  ihave Hb1 := (pts_name (F := Ideal) _) $$ Hb1
  icases Hb1 with ⟨%gs, %hgs, Hb1⟩
  have hr : ∀ j, (gh j).toNat < 2048 := by
    intro j
    rw [hgh]
    exact (congrArg BitVec.toNat (congrFun (View.write_whole_univ _ _ _) j)).trans_lt (hpre j)
  -- round 0
  sl_for (invZv d L) $$ [Hb4]
  case region =>
    intro k _
    unfold invZv
    iintro ⟨%f, %hf, Hb4⟩
    sl_exec
    sl_step
    iexists _; isplitr
    rotate_left
    · iexact Hb4
    · ipureintro
      intro r c hc
      exact Cert.Sketch.Math.clear_trip_invariant (Val := Elt Ideal) (cS).view f (Scalar.ofBits (F := Ideal) .f32 0x00000000#32) k.val
        (k0_off2_inb k) (shapeCast S1x16 (k0_pay25 (F := Ideal)) Cert.KernelIdeal.Gen.shapeCasts_S16_S1x16)
        (k0_off3_inb k) (shapeCast S1x16 (k0_pay25 (F := Ideal)) Cert.KernelIdeal.Gen.shapeCasts_S16_S1x16)
        (k0_off4_inb k) (shapeCast S1x16 (k0_pay25 (F := Ideal)) Cert.KernelIdeal.Gen.shapeCasts_S16_S1x16)
        (k0_off5_inb k) (shapeCast S1x16 (k0_pay25 (F := Ideal)) Cert.KernelIdeal.Gen.shapeCasts_S16_S1x16)
        (k0_off6_inb k) (shapeCast S1x16 (k0_pay25 (F := Ideal)) Cert.KernelIdeal.Gen.shapeCasts_S16_S1x16)
        (k0_off7_inb k) (shapeCast S1x16 (k0_pay25 (F := Ideal)) Cert.KernelIdeal.Gen.shapeCasts_S16_S1x16)
        (k0_off8_inb k) (shapeCast S1x16 (k0_pay25 (F := Ideal)) Cert.KernelIdeal.Gen.shapeCasts_S16_S1x16)
        (k0_off9_inb k) (shapeCast S1x16 (k0_pay25 (F := Ideal)) Cert.KernelIdeal.Gen.shapeCasts_S16_S1x16)
        (k0_off2_eq k) (Cert.Sketch.Math.zeroRow25_word _)
        (k0_off3_eq k) (Cert.Sketch.Math.zeroRow25_word _)
        (k0_off4_eq k) (Cert.Sketch.Math.zeroRow25_word _)
        (k0_off5_eq k) (Cert.Sketch.Math.zeroRow25_word _)
        (k0_off6_eq k) (Cert.Sketch.Math.zeroRow25_word _)
        (k0_off7_eq k) (Cert.Sketch.Math.zeroRow25_word _)
        (k0_off8_eq k) (Cert.Sketch.Math.zeroRow25_word _)
        (k0_off9_eq k) (Cert.Sketch.Math.zeroRow25_word _)
        hf r c hc
  · unfold invZv; iexists _; isplitr
    rotate_left
    · iexact Hb4
    · ipureintro; intro r c hc; exact absurd hc (by omega)
  iintro %_ HI
  unfold invZv
  icases HI with ⟨%fz0, %hfz0, Hb4⟩
  ihave Hb2 := (pts_name (F := Ideal) _) $$ Hb2
  icases Hb2 with ⟨%ga0, %hga0, Hb2⟩
  sl_for (invGv d L aS gh gs ga0 ga0) $$ [Hb0 Hb1 Hb2 Hb4]
  case region =>
    intro k _
    unfold invGv
    iintro ⟨Hb0, Hb1, Hb2, %f, %hf, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb2]; · iexact Hb2
    iexists _; isplitr
    rotate_left
    · iexact Hb4
    · ipureintro
      intro r c
      have hk : k.val < 256 := k.isLt
      refine Eq.trans (congrFun (Cert.Sketch.Math.acc_writes_head f _ _) (ix2 r c)) ?_
      sl_unfold_run_names
      rw (config := { transparency := .default }) [Memref.readAt_whole]
      repeat rw (config := { transparency := .default }) [Cert.Sketch.Math.readCov_whole]
      exact Cert.Sketch.Math.trip_accAfter ga0 gh gs k.val f hf _ _ _ _ _ _ _ _ _ _ _ _ _ _ _ _ _ _ _
        (fun l => Cert.Sketch.Math.readAt_block16 (hS).view gh (k0_off10_inb k) k.val hk (k0_off10_eq k) l)
        (fun l => Cert.Sketch.Math.readAt_block16 (sS).view gs (k0_off10_inb k) k.val hk (k0_off10_eq k) l)
        (fun r l => by
          fin_cases r
          · exact Cert.Sketch.Math.readAt_row16 (aS).view ga0 (k0_off11_inb k) k.val hk 0 (k0_off11_eq k) l
          · exact Cert.Sketch.Math.readAt_row16 (aS).view ga0 (k0_off12_inb k) k.val hk 1 (k0_off12_eq k) l
          · exact Cert.Sketch.Math.readAt_row16 (aS).view ga0 (k0_off13_inb k) k.val hk 2 (k0_off13_eq k) l
          · exact Cert.Sketch.Math.readAt_row16 (aS).view ga0 (k0_off14_inb k) k.val hk 3 (k0_off14_eq k) l
          · exact Cert.Sketch.Math.readAt_row16 (aS).view ga0 (k0_off15_inb k) k.val hk 4 (k0_off15_eq k) l
          · exact Cert.Sketch.Math.readAt_row16 (aS).view ga0 (k0_off16_inb k) k.val hk 5 (k0_off16_eq k) l
          · exact Cert.Sketch.Math.readAt_row16 (aS).view ga0 (k0_off17_inb k) k.val hk 6 (k0_off17_eq k) l
          · exact Cert.Sketch.Math.readAt_row16 (aS).view ga0 (k0_off18_inb k) k.val hk 7 (k0_off18_eq k) l)
        r c
  · unfold invGv
    isplitl [Hb0]; · iexact Hb0
    isplitl [Hb1]; · iexact Hb1
    isplitl [Hb2]; · iexact Hb2
    iexists _; isplitr
    rotate_left
    · iexact Hb4
    · ipureintro
      intro r c
      have ht : Scf.trips k0_t1_loop.lb k0_t1_loop.ub k0_t1_loop.st = 128 := by decide
      rw [hfz0 r c (by rw [ht]; have := c.isLt; omega)]
      exact Ideal.ofBits_zero_f32
  iintro %_ HI
  unfold invGv
  icases HI with ⟨Hb0, Hb1, Hb2, %fg0, %hfg0, Hb4⟩
  sl_exec
  -- round 1
  sl_for (invZv d L) $$ [Hb4]
  case region =>
    intro k _
    unfold invZv
    iintro ⟨%f, %hf, Hb4⟩
    sl_exec
    sl_step
    iexists _; isplitr
    rotate_left
    · iexact Hb4
    · ipureintro
      intro r c hc
      exact Cert.Sketch.Math.clear_trip_invariant (Val := Elt Ideal) (cS).view f (Scalar.ofBits (F := Ideal) .f32 0x00000000#32) k.val
        (k0_off20_inb k) (shapeCast S1x16 (k0_pay29 (F := Ideal)) Cert.KernelIdeal.Gen.shapeCasts_S16_S1x16)
        (k0_off21_inb k) (shapeCast S1x16 (k0_pay29 (F := Ideal)) Cert.KernelIdeal.Gen.shapeCasts_S16_S1x16)
        (k0_off22_inb k) (shapeCast S1x16 (k0_pay29 (F := Ideal)) Cert.KernelIdeal.Gen.shapeCasts_S16_S1x16)
        (k0_off23_inb k) (shapeCast S1x16 (k0_pay29 (F := Ideal)) Cert.KernelIdeal.Gen.shapeCasts_S16_S1x16)
        (k0_off24_inb k) (shapeCast S1x16 (k0_pay29 (F := Ideal)) Cert.KernelIdeal.Gen.shapeCasts_S16_S1x16)
        (k0_off25_inb k) (shapeCast S1x16 (k0_pay29 (F := Ideal)) Cert.KernelIdeal.Gen.shapeCasts_S16_S1x16)
        (k0_off26_inb k) (shapeCast S1x16 (k0_pay29 (F := Ideal)) Cert.KernelIdeal.Gen.shapeCasts_S16_S1x16)
        (k0_off27_inb k) (shapeCast S1x16 (k0_pay29 (F := Ideal)) Cert.KernelIdeal.Gen.shapeCasts_S16_S1x16)
        (k0_off20_eq k) (Cert.Sketch.Math.zeroRow29_word _)
        (k0_off21_eq k) (Cert.Sketch.Math.zeroRow29_word _)
        (k0_off22_eq k) (Cert.Sketch.Math.zeroRow29_word _)
        (k0_off23_eq k) (Cert.Sketch.Math.zeroRow29_word _)
        (k0_off24_eq k) (Cert.Sketch.Math.zeroRow29_word _)
        (k0_off25_eq k) (Cert.Sketch.Math.zeroRow29_word _)
        (k0_off26_eq k) (Cert.Sketch.Math.zeroRow29_word _)
        (k0_off27_eq k) (Cert.Sketch.Math.zeroRow29_word _)
        hf r c hc
  · unfold invZv; iexists _; isplitr
    rotate_left
    · iexact Hb4
    · ipureintro; intro r c hc; exact absurd hc (by omega)
  iintro %_ HI
  unfold invZv
  icases HI with ⟨%fz1, %hfz1, Hb4⟩
  ihave Hb3 := (pts_name (F := Ideal) _) $$ Hb3
  icases Hb3 with ⟨%ga1, %hga1, Hb3⟩
  sl_for (invGv d L bS gh gs ga1 ga1) $$ [Hb0 Hb1 Hb3 Hb4]
  case region =>
    intro k _
    unfold invGv
    iintro ⟨Hb0, Hb1, Hb3, %f, %hf, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb3]; · iexact Hb3
    iexists _; isplitr
    rotate_left
    · iexact Hb4
    · ipureintro
      intro r c
      have hk : k.val < 256 := k.isLt
      refine Eq.trans (congrFun (Cert.Sketch.Math.acc_writes_head f _ _) (ix2 r c)) ?_
      sl_unfold_run_names
      rw (config := { transparency := .default }) [Memref.readAt_whole]
      repeat rw (config := { transparency := .default }) [Cert.Sketch.Math.readCov_whole]
      exact Cert.Sketch.Math.trip_accAfter ga1 gh gs k.val f hf _ _ _ _ _ _ _ _ _ _ _ _ _ _ _ _ _ _ _
        (fun l => Cert.Sketch.Math.readAt_block16 (hS).view gh (k0_off28_inb k) k.val hk (k0_off28_eq k) l)
        (fun l => Cert.Sketch.Math.readAt_block16 (sS).view gs (k0_off28_inb k) k.val hk (k0_off28_eq k) l)
        (fun r l => by
          fin_cases r
          · exact Cert.Sketch.Math.readAt_row16 (bS).view ga1 (k0_off29_inb k) k.val hk 0 (k0_off29_eq k) l
          · exact Cert.Sketch.Math.readAt_row16 (bS).view ga1 (k0_off30_inb k) k.val hk 1 (k0_off30_eq k) l
          · exact Cert.Sketch.Math.readAt_row16 (bS).view ga1 (k0_off31_inb k) k.val hk 2 (k0_off31_eq k) l
          · exact Cert.Sketch.Math.readAt_row16 (bS).view ga1 (k0_off32_inb k) k.val hk 3 (k0_off32_eq k) l
          · exact Cert.Sketch.Math.readAt_row16 (bS).view ga1 (k0_off33_inb k) k.val hk 4 (k0_off33_eq k) l
          · exact Cert.Sketch.Math.readAt_row16 (bS).view ga1 (k0_off34_inb k) k.val hk 5 (k0_off34_eq k) l
          · exact Cert.Sketch.Math.readAt_row16 (bS).view ga1 (k0_off35_inb k) k.val hk 6 (k0_off35_eq k) l
          · exact Cert.Sketch.Math.readAt_row16 (bS).view ga1 (k0_off36_inb k) k.val hk 7 (k0_off36_eq k) l)
        r c
  · unfold invGv
    isplitl [Hb0]; · iexact Hb0
    isplitl [Hb1]; · iexact Hb1
    isplitl [Hb3]; · iexact Hb3
    iexists _; isplitr
    rotate_left
    · iexact Hb4
    · ipureintro
      intro r c
      have ht : Scf.trips k0_t3_loop.lb k0_t3_loop.ub k0_t3_loop.st = 128 := by decide
      rw [hfz1 r c (by rw [ht]; have := c.isLt; omega)]
      exact Ideal.ofBits_zero_f32
  iintro %_ HI
  unfold invGv
  icases HI with ⟨Hb0, Hb1, Hb3, %fg1, %hfg1, Hb4⟩
  sl_exec
  -- round 2
  sl_for (invZv d L) $$ [Hb4]
  case region =>
    intro k _
    unfold invZv
    iintro ⟨%f, %hf, Hb4⟩
    sl_exec
    sl_step
    iexists _; isplitr
    rotate_left
    · iexact Hb4
    · ipureintro
      intro r c hc
      exact Cert.Sketch.Math.clear_trip_invariant (Val := Elt Ideal) (cS).view f (Scalar.ofBits (F := Ideal) .f32 0x00000000#32) k.val
        (k0_off37_inb k) (shapeCast S1x16 (k0_pay33 (F := Ideal)) Cert.KernelIdeal.Gen.shapeCasts_S16_S1x16)
        (k0_off38_inb k) (shapeCast S1x16 (k0_pay33 (F := Ideal)) Cert.KernelIdeal.Gen.shapeCasts_S16_S1x16)
        (k0_off39_inb k) (shapeCast S1x16 (k0_pay33 (F := Ideal)) Cert.KernelIdeal.Gen.shapeCasts_S16_S1x16)
        (k0_off40_inb k) (shapeCast S1x16 (k0_pay33 (F := Ideal)) Cert.KernelIdeal.Gen.shapeCasts_S16_S1x16)
        (k0_off41_inb k) (shapeCast S1x16 (k0_pay33 (F := Ideal)) Cert.KernelIdeal.Gen.shapeCasts_S16_S1x16)
        (k0_off42_inb k) (shapeCast S1x16 (k0_pay33 (F := Ideal)) Cert.KernelIdeal.Gen.shapeCasts_S16_S1x16)
        (k0_off43_inb k) (shapeCast S1x16 (k0_pay33 (F := Ideal)) Cert.KernelIdeal.Gen.shapeCasts_S16_S1x16)
        (k0_off44_inb k) (shapeCast S1x16 (k0_pay33 (F := Ideal)) Cert.KernelIdeal.Gen.shapeCasts_S16_S1x16)
        (k0_off37_eq k) (Cert.Sketch.Math.zeroRow33_word _)
        (k0_off38_eq k) (Cert.Sketch.Math.zeroRow33_word _)
        (k0_off39_eq k) (Cert.Sketch.Math.zeroRow33_word _)
        (k0_off40_eq k) (Cert.Sketch.Math.zeroRow33_word _)
        (k0_off41_eq k) (Cert.Sketch.Math.zeroRow33_word _)
        (k0_off42_eq k) (Cert.Sketch.Math.zeroRow33_word _)
        (k0_off43_eq k) (Cert.Sketch.Math.zeroRow33_word _)
        (k0_off44_eq k) (Cert.Sketch.Math.zeroRow33_word _)
        hf r c hc
  · unfold invZv; iexists _; isplitr
    rotate_left
    · iexact Hb4
    · ipureintro; intro r c hc; exact absurd hc (by omega)
  iintro %_ HI
  unfold invZv
  icases HI with ⟨%fz2, %hfz2, Hb4⟩
  ihave Hb2 := (pts_name (F := Ideal) _) $$ Hb2
  icases Hb2 with ⟨%ga2, %hga2, Hb2⟩
  sl_for (invGv d L aS gh gs ga2 ga2) $$ [Hb0 Hb1 Hb2 Hb4]
  case region =>
    intro k _
    unfold invGv
    iintro ⟨Hb0, Hb1, Hb2, %f, %hf, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb2]; · iexact Hb2
    iexists _; isplitr
    rotate_left
    · iexact Hb4
    · ipureintro
      intro r c
      have hk : k.val < 256 := k.isLt
      refine Eq.trans (congrFun (Cert.Sketch.Math.acc_writes_head f _ _) (ix2 r c)) ?_
      sl_unfold_run_names
      rw (config := { transparency := .default }) [Memref.readAt_whole]
      repeat rw (config := { transparency := .default }) [Cert.Sketch.Math.readCov_whole]
      exact Cert.Sketch.Math.trip_accAfter ga2 gh gs k.val f hf _ _ _ _ _ _ _ _ _ _ _ _ _ _ _ _ _ _ _
        (fun l => Cert.Sketch.Math.readAt_block16 (hS).view gh (k0_off45_inb k) k.val hk (k0_off45_eq k) l)
        (fun l => Cert.Sketch.Math.readAt_block16 (sS).view gs (k0_off45_inb k) k.val hk (k0_off45_eq k) l)
        (fun r l => by
          fin_cases r
          · exact Cert.Sketch.Math.readAt_row16 (aS).view ga2 (k0_off46_inb k) k.val hk 0 (k0_off46_eq k) l
          · exact Cert.Sketch.Math.readAt_row16 (aS).view ga2 (k0_off47_inb k) k.val hk 1 (k0_off47_eq k) l
          · exact Cert.Sketch.Math.readAt_row16 (aS).view ga2 (k0_off48_inb k) k.val hk 2 (k0_off48_eq k) l
          · exact Cert.Sketch.Math.readAt_row16 (aS).view ga2 (k0_off49_inb k) k.val hk 3 (k0_off49_eq k) l
          · exact Cert.Sketch.Math.readAt_row16 (aS).view ga2 (k0_off50_inb k) k.val hk 4 (k0_off50_eq k) l
          · exact Cert.Sketch.Math.readAt_row16 (aS).view ga2 (k0_off51_inb k) k.val hk 5 (k0_off51_eq k) l
          · exact Cert.Sketch.Math.readAt_row16 (aS).view ga2 (k0_off52_inb k) k.val hk 6 (k0_off52_eq k) l
          · exact Cert.Sketch.Math.readAt_row16 (aS).view ga2 (k0_off53_inb k) k.val hk 7 (k0_off53_eq k) l)
        r c
  · unfold invGv
    isplitl [Hb0]; · iexact Hb0
    isplitl [Hb1]; · iexact Hb1
    isplitl [Hb2]; · iexact Hb2
    iexists _; isplitr
    rotate_left
    · iexact Hb4
    · ipureintro
      intro r c
      have ht : Scf.trips k0_t5_loop.lb k0_t5_loop.ub k0_t5_loop.st = 128 := by decide
      rw [hfz2 r c (by rw [ht]; have := c.isLt; omega)]
      exact Ideal.ofBits_zero_f32
  iintro %_ HI
  unfold invGv
  icases HI with ⟨Hb0, Hb1, Hb2, %fg2, %hfg2, Hb4⟩
  sl_exec
  -- round 3
  sl_for (invZv d L) $$ [Hb4]
  case region =>
    intro k _
    unfold invZv
    iintro ⟨%f, %hf, Hb4⟩
    sl_exec
    sl_step
    iexists _; isplitr
    rotate_left
    · iexact Hb4
    · ipureintro
      intro r c hc
      exact Cert.Sketch.Math.clear_trip_invariant (Val := Elt Ideal) (cS).view f (Scalar.ofBits (F := Ideal) .f32 0x00000000#32) k.val
        (k0_off54_inb k) (shapeCast S1x16 (k0_pay1 (F := Ideal)) Cert.KernelIdeal.Gen.shapeCasts_S16_S1x16)
        (k0_off55_inb k) (shapeCast S1x16 (k0_pay1 (F := Ideal)) Cert.KernelIdeal.Gen.shapeCasts_S16_S1x16)
        (k0_off56_inb k) (shapeCast S1x16 (k0_pay1 (F := Ideal)) Cert.KernelIdeal.Gen.shapeCasts_S16_S1x16)
        (k0_off57_inb k) (shapeCast S1x16 (k0_pay1 (F := Ideal)) Cert.KernelIdeal.Gen.shapeCasts_S16_S1x16)
        (k0_off58_inb k) (shapeCast S1x16 (k0_pay1 (F := Ideal)) Cert.KernelIdeal.Gen.shapeCasts_S16_S1x16)
        (k0_off59_inb k) (shapeCast S1x16 (k0_pay1 (F := Ideal)) Cert.KernelIdeal.Gen.shapeCasts_S16_S1x16)
        (k0_off60_inb k) (shapeCast S1x16 (k0_pay1 (F := Ideal)) Cert.KernelIdeal.Gen.shapeCasts_S16_S1x16)
        (k0_off61_inb k) (shapeCast S1x16 (k0_pay1 (F := Ideal)) Cert.KernelIdeal.Gen.shapeCasts_S16_S1x16)
        (k0_off54_eq k) (Cert.Sketch.Math.zeroRow1_word _)
        (k0_off55_eq k) (Cert.Sketch.Math.zeroRow1_word _)
        (k0_off56_eq k) (Cert.Sketch.Math.zeroRow1_word _)
        (k0_off57_eq k) (Cert.Sketch.Math.zeroRow1_word _)
        (k0_off58_eq k) (Cert.Sketch.Math.zeroRow1_word _)
        (k0_off59_eq k) (Cert.Sketch.Math.zeroRow1_word _)
        (k0_off60_eq k) (Cert.Sketch.Math.zeroRow1_word _)
        (k0_off61_eq k) (Cert.Sketch.Math.zeroRow1_word _)
        hf r c hc
  · unfold invZv; iexists _; isplitr
    rotate_left
    · iexact Hb4
    · ipureintro; intro r c hc; exact absurd hc (by omega)
  iintro %_ HI
  unfold invZv
  icases HI with ⟨%fz3, %hfz3, Hb4⟩
  ihave Hb3 := (pts_name (F := Ideal) _) $$ Hb3
  icases Hb3 with ⟨%ga3, %hga3, Hb3⟩
  sl_for (invGv d L bS gh gs ga3 ga3) $$ [Hb0 Hb1 Hb3 Hb4]
  case region =>
    intro k _
    unfold invGv
    iintro ⟨Hb0, Hb1, Hb3, %f, %hf, Hb4⟩
    sl_exec (disch := exact chk_ok _ _ _ (by decide) rfl (fun x => hr _))
    sl_respell [SparseCore.vectorStoreIdx]
    sl_exec (disch := exact chk_ok _ _ _ (by decide) rfl (fun x => hr _))
    sl_respell [SparseCore.vectorStoreIdx]
    sl_exec (disch := exact chk_ok _ _ _ (by decide) rfl (fun x => hr _))
    sl_step
    isplitl [Hb0]; · iexact Hb0
    isplitl [Hb1]; · iexact Hb1
    isplitl [Hb3]; · iexact Hb3
    iexists _; isplitr
    rotate_left
    · iexact Hb4
    · ipureintro
      intro r c
      have hk : k.val < 256 := k.isLt
      refine Eq.trans (congrFun (Cert.Sketch.Math.acc_writes_head f _ _) (ix2 r c)) ?_
      sl_unfold_run_names
      rw (config := { transparency := .default }) [Memref.readAt_whole]
      repeat rw (config := { transparency := .default }) [Cert.Sketch.Math.readCov_whole]
      exact Cert.Sketch.Math.trip_accAfter ga3 gh gs k.val f hf _ _ _ _ _ _ _ _ _ _ _ _ _ _ _ _ _ _ _
        (fun l => Cert.Sketch.Math.readAt_block16 (hS).view gh (k0_off62_inb k) k.val hk (k0_off62_eq k) l)
        (fun l => Cert.Sketch.Math.readAt_block16 (sS).view gs (k0_off62_inb k) k.val hk (k0_off62_eq k) l)
        (fun r l => by
          fin_cases r
          · exact Cert.Sketch.Math.readAt_row16 (bS).view ga3 (k0_off63_inb k) k.val hk 0 (k0_off63_eq k) l
          · exact Cert.Sketch.Math.readAt_row16 (bS).view ga3 (k0_off64_inb k) k.val hk 1 (k0_off64_eq k) l
          · exact Cert.Sketch.Math.readAt_row16 (bS).view ga3 (k0_off65_inb k) k.val hk 2 (k0_off65_eq k) l
          · exact Cert.Sketch.Math.readAt_row16 (bS).view ga3 (k0_off66_inb k) k.val hk 3 (k0_off66_eq k) l
          · exact Cert.Sketch.Math.readAt_row16 (bS).view ga3 (k0_off67_inb k) k.val hk 4 (k0_off67_eq k) l
          · exact Cert.Sketch.Math.readAt_row16 (bS).view ga3 (k0_off68_inb k) k.val hk 5 (k0_off68_eq k) l
          · exact Cert.Sketch.Math.readAt_row16 (bS).view ga3 (k0_off69_inb k) k.val hk 6 (k0_off69_eq k) l
          · exact Cert.Sketch.Math.readAt_row16 (bS).view ga3 (k0_off70_inb k) k.val hk 7 (k0_off70_eq k) l)
        r c
  · unfold invGv
    isplitl [Hb0]; · iexact Hb0
    isplitl [Hb1]; · iexact Hb1
    isplitl [Hb3]; · iexact Hb3
    iexists _; isplitr
    rotate_left
    · iexact Hb4
    · ipureintro
      intro r c
      have ht : Scf.trips k0_t7_loop.lb k0_t7_loop.ub k0_t7_loop.st = 128 := by decide
      rw [hfz3 r c (by rw [ht]; have := c.isLt; omega)]
      exact Ideal.ofBits_zero_f32
  iintro %_ HI
  unfold invGv
  icases HI with ⟨Hb0, Hb1, Hb3, %fg3, %hfg3, Hb4⟩
  sl_exec
  sl_step
  unfold tileOut
  isplitl [Hx Hh Hs Ho0 Ho1 Ho2 Ho3]
  · isplitl [Hx]; · iapply (Entails.of_eq (pts_x (F := Ideal) d L _ _)); iexact Hx
    isplitl [Hh]; · iapply (Entails.of_eq (pts_h (F := Ideal) d L _ _)); iexact Hh
    isplitl [Hs]; · iapply (Entails.of_eq (pts_s (F := Ideal) d L _ _)); iexact Hs
    isplitl [Ho0]
    · ihave Ho0 := (Entails.of_eq (pts_o (F := Ideal) d L 0 _)) $$ Ho0
      iexists _; isplitr
      rotate_left
      · iexact Ho0
      · ipureintro
        sl_unfold_run_names
        have ht : Scf.trips k0_t2_loop.lb k0_t2_loop.ub k0_t2_loop.st = 256 := by decide
        rw [ht] at hfg0
        exact piece_holds m d L 0 _ fg0 ga0 gh gs hfg0
          (fun r j => by rw [hga0]; exact rows_buf2 m d L 0 f2 r j)
          (fun j => by rw [hgh]; exact words_buf m d L f0 j)
          (fun j => by rw [hgs]; exact signs_buf m d L f1 j)
    isplitl [Ho1]
    · ihave Ho1 := (Entails.of_eq (pts_o (F := Ideal) d L 1 _)) $$ Ho1
      iexists _; isplitr
      rotate_left
      · iexact Ho1
      · ipureintro
        sl_unfold_run_names
        have ht : Scf.trips k0_t4_loop.lb k0_t4_loop.ub k0_t4_loop.st = 256 := by decide
        rw [ht] at hfg1
        exact piece_holds m d L 1 _ fg1 ga1 gh gs hfg1
          (fun r j => by rw [hga1]; exact rows_buf3 m d L 1 f3 r j)
          (fun j => by rw [hgh]; exact words_buf m d L f0 j)
          (fun j => by rw [hgs]; exact signs_buf m d L f1 j)
    isplitl [Ho2]
    · ihave Ho2 := (Entails.of_eq (pts_o (F := Ideal) d L 2 _)) $$ Ho2
      iexists _; isplitr
      rotate_left
      · iexact Ho2
      · ipureintro
        sl_unfold_run_names
        have ht : Scf.trips k0_t6_loop.lb k0_t6_loop.ub k0_t6_loop.st = 256 := by decide
        rw [ht] at hfg2
        exact piece_holds m d L 2 _ fg2 ga2 gh gs hfg2
          (fun r j => by rw [hga2]; exact rows_buf2 m d L 2 ga0 r j)
          (fun j => by rw [hgh]; exact words_buf m d L f0 j)
          (fun j => by rw [hgs]; exact signs_buf m d L f1 j)
    ihave Ho3 := (Entails.of_eq (pts_o (F := Ideal) d L 3 _)) $$ Ho3
    iexists _; isplitr
    rotate_left
    · iexact Ho3
    · ipureintro
      sl_unfold_run_names
      have ht : Scf.trips k0_t8_loop.lb k0_t8_loop.ub k0_t8_loop.st = 256 := by decide
      rw [ht] at hfg3
      exact piece_holds m d L 3 _ fg3 ga3 gh gs hfg3
        (fun r j => by rw [hga3]; exact rows_buf3 m d L 3 ga1 r j)
        (fun j => by rw [hgh]; exact words_buf m d L f0 j)
        (fun j => by rw [hgs]; exact signs_buf m d L f1 j)
  isplitl [Hb0 Hb1 Hb2 Hb3 Hb4 Hbufs]
  · isplitl [Hb0]; · iexists _; iapply (Entails.of_eq (pts_b0 (F := Ideal) d L _)); iexact Hb0
    isplitl [Hb1]; · iexists _; iapply (Entails.of_eq (pts_b1 (F := Ideal) d L _)); iexact Hb1
    isplitl [Hb2]; · iexists _; iapply (Entails.of_eq (pts_b2 (F := Ideal) d L _)); iexact Hb2
    isplitl [Hb3]; · iexists _; iapply (Entails.of_eq (pts_b3 (F := Ideal) d L _)); iexact Hb3
    isplitl [Hb4]; · iexists _; iapply (Entails.of_eq (pts_b4 (F := Ideal) d L _)); iexact Hb4
    iexact Hbufs
  isplitl [HsA HsB Hs0 Hs1 Hs2 Hs3 Hs4 Hs5 Hsems]
  · isplitl [HsA]; · iexact HsA
    isplitl [HsB]; · iexact HsB
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hsems
  iexists _; isplitr
  rotate_left
  · iexact HO
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    rcases Finset.mem_insert.mp hp with rfl | hp
    · exact .inr rfl
    exact .inl hp

end Tile

end Cert.Proof.KernelIdeal

end
-- ==== Proof.TcValue.lean ====
/-
  What the two cases of the body store, as the body's own arithmetic: the first point leaves in the scratch the one-hot
  matrix of the bucket words and the signs it loaded; a later point leaves in the result's buffer the product of the
  block of x it loaded with the scratch it loaded.
-/
import proofs.«204905_g71433896067310_cont_9to1c4b_220_29_alg».proof.Proof.TcBody
import Idealize.ShloMosaic.Lib.Pipeline.Value

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section
variable [∀ e, Nonempty (Elt F e)]

/-- The zero offset of a rank-two rectangle. -/
theorem hz2 : (![0, 0] : Fin 2 → Nat) = fun _ => 0 := by funext a; fin_cases a <;> rfl

/-- What the first point leaves in the scratch is the one-hot matrix of the bucket words and the signs it loaded. -/
theorem sBuild_eq (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : cond1 i) (hc2 : ¬cond2 i) (x0 : Vec F S4096x1 .i32) (x1 : Vec F S4096x1 .f32) :
    sBuild (F := F) c i arg1 harg1 arg2 harg2 arg3 harg3 arg4 harg4 arg5 harg5 hc1 hc2 x0 x1 = k1_pay1 x0 x1 := by
  unfold sBuild
  rw [View.read_writes_junk_eq_canon]
  unfold runBuild
  dsimp only
  sl_unfold_words
  rw [View.canon_unit_zero hz2]
  simp only [View.readAt_eq_ld, harg1.read_unread, harg2.read_unread, View.ld_unit_zero (S := S4096x1) hz2]
  try rfl

/-- What a later point leaves in the result's buffer is the product of the block of x and the scratch it loaded. -/
theorem oMul_eq (c : Dev nD) (i : grid1.Coords) (arg1 : Memref sig .tc .vmem S4096x1 .i32) (harg1 : arg1.IsWhole) (arg2 : Memref sig .tc .vmem S4096x1 .f32) (harg2 : arg2.IsWhole) (arg3 : Memref sig .tc .vmem S256x4096 .f32) (harg3 : arg3.IsWhole) (arg4 : Memref sig .tc .vmem S256x2048 .f32) (harg4 : arg4.IsWhole) (arg5 : Memref sig .tc .vmem S4096x2048 .bf16) (harg5 : arg5.IsWhole)
    (hc1 : ¬cond1 i) (hc2 : cond2 i) (x2 : Vec F S256x4096 .f32) (xs : Vec F S4096x2048 .bf16) :
    oMul (F := F) c i arg1 harg1 arg2 harg2 arg3 harg3 arg4 harg4 arg5 harg5 hc1 hc2 x2 xs = k1_pay2 x2 xs := by
  unfold oMul
  rw [View.read_writes_junk_eq_canon]
  unfold runMul
  dsimp only
  sl_unfold_words
  rw [View.canon_unit_zero hz2]
  simp only [View.readAt_eq_ld, harg3.read_unread, harg5.read_unread, View.ld_unit_zero (S := S256x4096) hz2, View.ld_unit_zero (S := S4096x2048) hz2]
  try rfl
end

end Cert.Proof.KernelIdeal
end
-- ==== Proof.TcOut.lean ====
import proofs.«204905_g71433896067310_cont_9to1c4b_220_29_alg».proof.Proof.TcBody
/-
  @main's result read entry by entry. Rows 3072 and up are the SparseCore call's result (the last line writes it there).
  A row `b` below 3072 is row `b % 256` of the product of block `b / 256` of x with the one-hot matrix of the bucket words
  and the signs: the first point of the region stored that matrix, every later point `t` stored the product for block
  `t - 1` and wrote it back at rows 256·(t - 1) …, and those blocks tile rows 0 … 3071.
-/
import proofs.«204905_g71433896067310_cont_9to1c4b_220_29_alg».proof.Proof.TcTail
import proofs.«204905_g71433896067310_cont_9to1c4b_220_29_alg».proof.Proof.TcValue
import Idealize.ShloMosaic.Lib.Pipeline.Value
import Idealize.ShloMosaic.Lib.ValueIdx

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.ShloMosaic.StableHlo (held)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

section
variable [∀ e, Nonempty (Elt F e)]

/-! ## The last line: rows 3072 and up from the SparseCore call's result -/

abbrev v3' : DevRef τ sig := Proc.devRef .tc (main_v3 : Ref sig .tc)

/-- The update fits at row 3072. -/
theorem fits : S4096x2048.Slices ![3072, 0] S1024x2048 := by decide

/-- The buffers as the last line finds them: the two constants written, nothing else touched. -/
theorem V2_v3 (d : Dev nD) (fo : Buf (Elt F) (oLoc d)) :
    (opC0 (F := F)).result ((opC (F := F)).result (Vout m d fo)) v3' = finalA m (foAt m d fo) d 3 := by
  rw [(opC0 (F := F)).result_of_not_mem _ (show v3' ∉ ({c0'} : Finset (DevRef τ sig)) by decide),
    (opC (F := F)).result_of_not_mem _ (show v3' ∉ ({c'} : Finset (DevRef τ sig)) by decide)]
  unfold Vout
  exact Pipeline.withArrays_arr spec1 launch1.win.arr_inj d _ _ 3

theorem V2_v0 (d : Dev nD) (fo : Buf (Elt F) (oLoc d)) :
    (opC0 (F := F)).result ((opC (F := F)).result (Vout m d fo)) o' = fo := by
  rw [(opC0 (F := F)).result_of_not_mem _ (show o' ∉ ({c0'} : Finset (DevRef τ sig)) by decide),
    (opC (F := F)).result_of_not_mem _ (show o' ∉ ({c'} : Finset (DevRef τ sig)) by decide)]
  unfold Vout
  rw [Pipeline.withArrays_of_ne spec1 d _ _ main_v0 (by decide), VR_keep m d fo o' (by decide) (by decide)]
  exact Function.update_self _ _ _

theorem V2_c (d : Dev nD) (fo : Buf (Elt F) (oLoc d)) :
    (opC0 (F := F)).result ((opC (F := F)).result (Vout m d fo)) c' = constantI S_ 32 3072#32 := by
  rw [(opC0 (F := F)).result_of_not_mem _ (show c' ∉ ({c0'} : Finset (DevRef τ sig)) by decide)]
  exact StableHlo.nullary_result _ _ _ _

theorem V2_c0 (d : Dev nD) (fo : Buf (Elt F) (oLoc d)) :
    (opC0 (F := F)).result ((opC (F := F)).result (Vout m d fo)) c0' = constantI S_ 32 0#32 :=
  StableHlo.nullary_result _ _ _ _

set_option backward.isDefEq.respectTransparency.types false in
/-- @main's result is the region's result with the SparseCore call's result written at row 3072. -/
theorem out4_eq (d : Dev nD) (fo : Buf (Elt F) (oLoc d)) :
    out4 m d fo = updateSlice (s := S4096x2048) (u := S1024x2048) (finalA m (foAt m d fo) d 3) fo ![3072, 0] fits := by
  unfold out4 Vfin
  rw [StableHlo.binaryIndexed_result]
  refine (Host.dynamicUpdateSlice_eq_updateSlice _ _ _ _ ![3072, 0] ?_ fits).trans ?_
  · intro a
    match a with
    | ⟨0, _⟩ =>
      show (min (max (BitVec.toInt ((cast _ ((opC0 (F := F)).result ((opC (F := F)).result (Vout m d fo)) c') : IVec S_ 32) (Shape.Idx.first h_S_))) 0) _).toNat = 3072
      rw [cast_eq, V2_c]
      show (min (max (BitVec.toInt (3072#32 : BitVec 32)) 0) ((4096 - 1024 : Nat) : Int)).toNat = 3072
      decide
    | ⟨1, _⟩ =>
      show (min (max (BitVec.toInt ((cast _ ((opC0 (F := F)).result ((opC (F := F)).result (Vout m d fo)) c0') : IVec S_ 32) (Shape.Idx.first h_S_))) 0) _).toNat = 0
      rw [cast_eq, V2_c0]
      show (min (max (BitVec.toInt (0#32 : BitVec 32)) 0) ((2048 - 2048 : Nat) : Int)).toNat = 0
      decide
  · exact updateSlice_congr _ (V2_v0 m d fo) rfl fits fits |>.trans (by rw [V2_v3])

/-- Rows 3072 and up of @main's result are the SparseCore call's. -/
theorem out4_hi (d : Dev nD) (fo : Buf (Elt F) (oLoc d)) (b : Fin 4096) (c : Fin 2048) (hb : 3072 ≤ b.val) :
    out4 m d fo (ix2 b c) = fo (ix2 ⟨b.val - 3072, by have := b.isLt; omega⟩ c) := by
  rw [out4_eq]
  unfold updateSlice
  rw [dif_pos (by
    intro a
    match a with
    | ⟨0, _⟩ => exact ⟨hb, by show b.val < 3072 + 1024; have := b.isLt; omega⟩
    | ⟨1, _⟩ => exact ⟨Nat.zero_le _, by show c.val < 0 + 2048; have := c.isLt; omega⟩)]
  refine congrArg fo (funext fun a => Fin.ext ?_)
  match a with
  | ⟨0, _⟩ => rfl
  | ⟨1, _⟩ => rfl

/-- Rows below 3072 are the region's. -/
theorem out4_lo_final (d : Dev nD) (fo : Buf (Elt F) (oLoc d)) (b : Fin 4096) (c : Fin 2048) (hb : b.val < 3072) :
    out4 m d fo (ix2 b c) = finalA m (foAt m d fo) d 3 (ix2 b c) := by
  rw [out4_eq]
  unfold updateSlice
  rw [dif_neg (fun h => by have := (h ⟨0, by decide⟩).1; exact absurd (show 3072 ≤ b.val from this) (by omega))]
end

section
variable [∀ e, Nonempty (Elt F e)]

/-! ## The blocks the body reads, as functions of the arguments -/

/-- Block `q` of x: its rows 256·q … 256·q + 255. -/
def tcX (d : Dev nD) (q : Fin 12) : Vec F S256x4096 .f32 := fun y =>
  m (xLoc d) (ix2 (n0 := 4096) (n1 := 4096) ⟨256 * q.val + (y 0).val, by have := q.isLt; have := idx2_lt0 y; omega⟩ ⟨(y 1).val, idx2_lt1 y⟩)

theorem tcX_apply (d : Dev nD) (q : Fin 12) (r : Fin 256) (j : Fin 4096) :
    tcX m d q (ix2 r j) = m (xLoc d) (ix2 ⟨256 * q.val + r.val, by have := q.isLt; have := r.isLt; omega⟩ j) := rfl

/-- The bucket words as a column. -/
def tcH (d : Dev nD) : Vec F S4096x1 .i32 := shapeCast S4096x1 (m (hLoc d)) shapeCasts_S4096_S4096x1
/-- The signs as a column. -/
def tcS (d : Dev nD) : Vec F S4096x1 .f32 := shapeCast S4096x1 (m (sLoc d)) shapeCasts_S4096_S4096x1

theorem tcH_apply (d : Dev nD) (j : Fin 4096) : tcH m d (ix2 j (0 : Fin 1)) = m (hLoc d) (ix1 j) :=
  shapeCast_apply _ _ (ix2 j (0 : Fin 1)) (ix1 j) (by rw [Shape.rowMajor_val_one, Shape.rowMajor_val_two]; show j.val = j.val * 1 + 0; omega)
theorem tcS_apply (d : Dev nD) (j : Fin 4096) : tcS m d (ix2 j (0 : Fin 1)) = m (sLoc d) (ix1 j) :=
  shapeCast_apply _ _ (ix2 j (0 : Fin 1)) (ix1 j) (by rw [Shape.rowMajor_val_one, Shape.rowMajor_val_two]; show j.val = j.val * 1 + 0; omega)

/-- The region finds the two columns in the arrays the reshapes wrote. -/
theorem VR_h (d : Dev nD) (fo : Buf (Elt F) (oLoc d)) : VR m d fo v1' = tcH m d := by
  unfold VR
  rw [(opS (F := F)).result_of_not_mem _ (show v1' ∉ ({v2'} : Finset (DevRef τ sig)) by decide)]
  refine (StableHlo.reshape_result main_arg1 main_v1 rfl _ _ _ (Vm m d fo)).trans ?_
  unfold tcH Vm
  rw [show (Function.update (fun b => m (d, b)) o' fo : Valuation τ sig (Elt F)) h' = m (hLoc d) from Function.update_of_ne (by decide) _ _]
  rfl
theorem VR_s (d : Dev nD) (fo : Buf (Elt F) (oLoc d)) : VR m d fo v2' = tcS m d := by
  unfold VR
  refine (StableHlo.reshape_result main_arg2 main_v2 rfl _ _ _ ((opH (F := F)).result (Vm m d fo))).trans ?_
  unfold tcS
  rw [(opH (F := F)).result_of_not_mem _ (show s' ∉ ({v1'} : Finset (DevRef τ sig)) by decide)]
  unfold Vm
  rw [show (Function.update (fun b => m (d, b)) o' fo : Valuation τ sig (Elt F)) s' = m (sLoc d) from Function.update_of_ne (by decide) _ _]
  rfl
theorem VR_x (d : Dev nD) (fo : Buf (Elt F) (oLoc d)) : VR m d fo x' = m (xLoc d) := by
  rw [VR_keep m d fo x' (by decide) (by decide)]
  exact Function.update_of_ne (by decide) _ _

/-- The index maps, decided over the grid: the bucket words' and the signs' windows stay at block (0, 0); the
    windows of x and of the result sit at block (t - 1, 0). -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = t.val - 1 ∧ win1_2.index t (1 : Fin 2) = 0
    ∧ win1_3.index t (0 : Fin 2) = t.val - 1 ∧ win1_3.index t (1 : Fin 2) = 0 :=
  (by decide +kernel : ∀ t : Fin grid1.N, _)

/-- The result's block is written back at every point but the first. -/
theorem flush3 : ∀ t : Fin cfg1.N, (cfg1.win 3).flush t = true ↔ t.val ≠ 0 :=
  (by decide +kernel : ∀ t : Fin grid1.N, (cfg1.win 3).flush t = true ↔ t.val ≠ 0)

variable (fo : (d : Dev nD) → Buf (Elt F) (oLoc d))

/-- The bucket words' block is the whole column, at every point; -/
theorem iblk0 (d : Dev nD) (t : Fin cfg1.N) : iblk m fo d 0 t = tcH m d := by
  obtain ⟨e0, e1, -⟩ := idx_facts t
  funext j
  show VR m d (fo d) v1' (((cfg1.win 0).blk t).view.emb j) = _
  rw [VR_h]
  refine congrArg (tcH m d) (funext fun a => Fin.ext ?_)
  match a with
  | ⟨0, _⟩ => show win1_0.index t (0 : Fin 2) * 4096 + 1 * (j 0).val = (j 0).val; omega
  | ⟨1, _⟩ => show win1_0.index t (1 : Fin 2) * 1 + 1 * (j 1).val = (j 1).val; omega
/-- so is the signs'; -/
theorem iblk1 (d : Dev nD) (t : Fin cfg1.N) : iblk m fo d 1 t = tcS m d := by
  obtain ⟨-, -, e0, e1, -⟩ := idx_facts t
  funext j
  show VR m d (fo d) v2' (((cfg1.win 1).blk t).view.emb j) = _
  rw [VR_s]
  refine congrArg (tcS m d) (funext fun a => Fin.ext ?_)
  match a with
  | ⟨0, _⟩ => show win1_1.index t (0 : Fin 2) * 4096 + 1 * (j 0).val = (j 0).val; omega
  | ⟨1, _⟩ => show win1_1.index t (1 : Fin 2) * 1 + 1 * (j 1).val = (j 1).val; omega
/-- and x's block at a later point `t` is block `t - 1` of x. -/
theorem iblk2 (d : Dev nD) (t : Fin cfg1.N) (ht : t.val ≠ 0) :
    iblk m fo d 2 t = tcX m d ⟨t.val - 1, by have := lt_of_lt_of_eq t.isLt (show cfg1.N = 13 from N_1); omega⟩ := by
  obtain ⟨-, -, -, -, e0, e1, -⟩ := idx_facts t
  funext j
  show VR m d (fo d) x' (((cfg1.win 2).blk t).view.emb j) = _
  rw [VR_x]
  refine congrArg (m (xLoc d)) (funext fun a => Fin.ext ?_)
  match a with
  | ⟨0, _⟩ => show win1_2.index t (0 : Fin 2) * 256 + 1 * (j 0).val = 256 * (t.val - 1) + (j 0).val; omega
  | ⟨1, _⟩ => show win1_2.index t (1 : Fin 2) * 4096 + 1 * (j 1).val = (j 1).val; omega

/-- THE SCRATCH MATRIX is the one-hot matrix of the bucket words and the signs. -/
theorem scAll_eq (d : Dev nD) : scAll m fo d = k1_pay1 (tcH m d) (tcS m d) := by
  unfold scAll
  rw [sBuild_eq, iblk0, iblk1]

/-- THE RESULT'S BLOCK at a later point `t` is the product of block `t - 1` of x with it. -/
theorem out3_eq (d : Dev nD) (t : Fin cfg1.N) (ht : t.val ≠ 0) :
    out3 m fo d t = k1_pay2 (tcX m d ⟨t.val - 1, by have := lt_of_lt_of_eq t.isLt (show cfg1.N = 13 from N_1); omega⟩) (k1_pay1 (tcH m d) (tcS m d)) := by
  rw [out3_pos m fo d t ht, oMul_eq, iblk2 m fo d t ht, scAll_eq]
end

section
variable [∀ e, Nonempty (Elt F e)]

/-! ## From the blocks to the array -/

/-- The product at block `q` and at an index inside the block, transported along equal block numbers and equal indices. -/
theorem pay_congr (d : Dev nD) {q q' : Fin 12} (hq : q = q') {y y' : S256x2048.Idx} (hy : y = y') :
    k1_pay2 (tcX m d q) (k1_pay1 (tcH m d) (tcS m d)) y = k1_pay2 (tcX m d q') (k1_pay1 (tcH m d) (tcS m d)) y' := by
  subst hq hy; rfl

/-- WHAT THE REGION'S RESULT HOLDS below row 3072, as one function of the index: at row `b` the product of block `b / 256` of
    x with the one-hot matrix, at row `b % 256` of that block. (Rows 3072 and up are not written by the region.) -/
def G3 (d : Dev nD) : S4096x2048.Idx → Elt F .f32 := fun i =>
  if h : (i 0).val < 3072 then
    k1_pay2 (tcX m d ⟨(i 0).val / 256, by omega⟩) (k1_pay1 (tcH m d) (tcS m d))
      (ix2 (n0 := 256) (n1 := 2048) ⟨(i 0).val % 256, Nat.mod_lt _ (by decide)⟩ ⟨(i 1).val, idx2_lt1 i⟩)
  else Classical.arbitrary _

variable (fo : (d : Dev nD) → Buf (Elt F) (oLoc d))

/-- WHAT POINT `t` WRITES BACK is block `t` of `G3`. -/
theorem flushed3_eq (d : Dev nD) (t : Fin cfg1.N) (hf : (cfg1.win 3).flush t = true) :
    (dat m fo 0 d).flushed 3 t = ((cfg1.win 3).blk t).view.read (Elt F) (G3 m d) := by
  have ht : t.val ≠ 0 := (flush3 t).mp hf
  have hN : t.val < 13 := lt_of_lt_of_eq t.isLt (show cfg1.N = 13 from N_1)
  show (cfg1.win 3).cut (grid1.coords t) ((dat m fo 0 d).after 3 t) = _
  rw [after_3, out3_eq m fo d t ht]
  obtain ⟨-, -, -, -, -, -, e0, e1⟩ := idx_facts t
  funext j
  show _ = G3 m d (((cfg1.win 3).blk t).view.emb j)
  have hj0 : (j 0).val < 256 := idx2_lt0 j
  have hj1 : (j 1).val < 2048 := idx2_lt1 j
  have i0 : ((((cfg1.win 3).blk t).view.emb j) 0).val = 256 * (t.val - 1) + (j 0).val := by
    show win1_3.index t (0 : Fin 2) * 256 + 1 * (j 0).val = _; omega
  have i1 : ((((cfg1.win 3).blk t).view.emb j) 1).val = (j 1).val := by
    show win1_3.index t (1 : Fin 2) * 2048 + 1 * (j 1).val = _; omega
  unfold G3
  rw [dif_pos (by rw [i0]; omega)]
  refine pay_congr m d (Fin.ext ?_) (funext fun a => Fin.ext ?_)
  · show t.val - 1 = ((((cfg1.win 3).blk t).view.emb j) 0).val / 256
    rw [i0]; omega
  · match a with
    | ⟨0, _⟩ => show (j 0).val = ((((cfg1.win 3).blk t).view.emb j) 0).val % 256; rw [i0]; omega
    | ⟨1, _⟩ => show (j 1).val = ((((cfg1.win 3).blk t).view.emb j) 1).val; rw [i1]

/-- An index of the result is in point `t`'s block iff each coordinate is in the block's range on its axis. -/
theorem mem_blk3 (t : Fin cfg1.N) (i : S4096x2048.Idx) :
    i ∈ ((cfg1.win 3).blk t).view.set ↔ ∀ a : Fin 2, win1_3.index t a * S256x2048.size a ≤ (i a).val ∧ (i a).val < win1_3.index t a * S256x2048.size a + S256x2048.size a := by
  show i ∈ ((View.whole main_v3).slice (win1_3.rect t)).set ↔ _
  rw [View.set_slice_whole, Rect.mem_set_unit]
  exact Iff.rfl

/-- THE REGION'S RESULT below row 3072. -/
theorem final3_lo (d : Dev nD) (b : Fin 4096) (c : Fin 2048) (hb : b.val < 3072) :
    finalA m fo d 3 (ix2 b c) = G3 m d (ix2 b c) := by
  unfold finalA
  have hN : cfg1.N = 13 := N_1
  let t : Fin cfg1.N := ⟨b.val / 256 + 1, by rw [hN]; omega⟩
  have hf : (cfg1.win 3).flush t = true := (flush3 t).mpr (by show b.val / 256 + 1 ≠ 0; omega)
  refine (dat m fo 0 d).arrAt_apply_of_mem 3 (G3 m d) (fun t hf => flushed3_eq m fo d t hf) cfg1.N t (ix2 b c) t.isLt hf ?_
  rw [mem_blk3]
  obtain ⟨-, -, -, -, -, -, e0, e1⟩ := idx_facts t
  have ht : t.val = b.val / 256 + 1 := rfl
  intro a
  match a with
  | ⟨0, _⟩ => show win1_3.index t (0 : Fin 2) * 256 ≤ b.val ∧ b.val < win1_3.index t (0 : Fin 2) * 256 + 256; omega
  | ⟨1, _⟩ => show win1_3.index t (1 : Fin 2) * 2048 ≤ c.val ∧ c.val < win1_3.index t (1 : Fin 2) * 2048 + 2048; have := c.isLt; omega
end

section
variable [∀ e, Nonempty (Elt F e)]

/-- ROWS BELOW 3072 of @main's result: row `b` is row `b % 256` of the product of block `b / 256` of x with the one-hot matrix
    of the bucket words and the signs. -/
theorem out4_lo (d : Dev nD) (fo : Buf (Elt F) (oLoc d)) (b : Fin 4096) (c : Fin 2048) (hb : b.val < 3072) :
    out4 m d fo (ix2 b c) = k1_pay2 (tcX m d ⟨b.val / 256, by omega⟩) (k1_pay1 (tcH m d) (tcS m d)) (ix2 ⟨b.val % 256, Nat.mod_lt _ (by decide)⟩ c) := by
  rw [out4_lo_final m d fo b c hb, final3_lo m (foAt m d fo) d b c hb]
  unfold G3
  rw [dif_pos (show ((ix2 b c : S4096x2048.Idx) 0).val < 3072 from hb)]
end

end Cert.Proof.KernelIdeal
end
-- ==== Proof.Close.lean ====
/-
  The certificate's claim, closed: the two programs' records for the rest of @main, the tasks' runs at the extended
  reals, and what the rest of @main leaves in the result, handed to the assembly.
-/
import proofs.«204905_g71433896067310_cont_9to1c4b_220_29_alg».proof.Proof.Claims
import proofs.«204905_g71433896067310_cont_9to1c4b_220_29_alg».proof.Proof.Assemble
import proofs.«204905_g71433896067310_cont_9to1c4b_220_29_alg».proof.Proof.Bits.Assemble
import proofs.«204905_g71433896067310_cont_9to1c4b_220_29_alg».proof.Proof.BodyVal
import proofs.«204905_g71433896067310_cont_9to1c4b_220_29_alg».proof.Proof.TcOut

noncomputable section

namespace Cert.Proof.Close

open Idealize.ShloMosaic Idealize.SL.Sem
open Idealize.ShloMosaic.ValueIdx (ix1 ix2)

theorem claim : Cert.Claim :=
  Cert.Proof.Claims.claim_of
    (fun m Ψ => Cert.Proof.Kernel.tcPart (F := Bits) m Ψ)
    (fun m Ψ => Cert.Proof.KernelIdeal.tcPart (F := Ideal) m Ψ)
    (fun m d L t f => Cert.Proof.KernelIdeal.PsiV m d L t f)
    (fun m d => Cert.Proof.KernelIdeal.scOut m d)
    (fun _ _ _ _ _ h => h)
    (fun _ _ _ _ => rfl)
    (fun m hpre d L O W hO qx qh qs fo =>
      Cert.Proof.KernelIdeal.tile_body_val m d L Cert.Proof.KernelIdeal.facts (hpre d) O W hO qx qh qs fo)
    (fun m Ψ d fo b c hb => Cert.Proof.KernelIdeal.out4_hi m d fo b c hb)
    (fun m Ψ d fo b c hb => (Cert.Proof.KernelIdeal.out4_lo m d fo b c hb).trans
      (Cert.Proof.Claims.lo_of_tc (m (Cert.Proof.KernelIdeal.xLoc d)) (m (Cert.Proof.KernelIdeal.hLoc d)) (m (Cert.Proof.KernelIdeal.sLoc d)) b c
        _ _ _ (fun r j => Cert.Proof.KernelIdeal.tcX_apply m d _ r j) (Cert.Proof.KernelIdeal.tcH_apply m d) (Cert.Proof.KernelIdeal.tcS_apply m d)))

end Cert.Proof.Close

end
-- ==== Proof.lean ====
/-
  A count sketch and its reference compute the same array.

  The inputs are a matrix `x` of 4096 rows and 4096 columns, a bucket word below 2048 for each column and a sign
  for each column; entry `(b, m)` of the result is the sum over the columns `j` of bucket `m` of `x (b, j)` times the
  sign of `j`. The reference adds every signed entry into its bucket. The kernel computes rows 0 to 3071 on the
  TensorCore as the product of `x` with the matrix that has the sign of column `j` at `(j, bucket j)` and zero
  elsewhere, and rows 3072 to 4095 on the two SparseCores, whose thirty-two tiles each clear an accumulator of eight
  rows and fold the columns in sixteen at a time with an indexed add; the SparseCores' rows are then written under
  the TensorCore's. Over the extended reals both are the same sum: a product with a zero entry is zero, and the order
  of a sum does not matter. The frames say that each program runs to its end and leaves its three arguments as they
  were; they need of the inputs only that every bucket word names a column of the accumulator.
-/
import proofs.«204905_g71433896067310_cont_9to1c4b_220_29_alg».proof.Proof.Close

namespace Cert.Proof

/-- Everything the certificate claims. -/
theorem claim : Cert.Claim := Cert.Proof.Close.claim

end Cert.Proof
